-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v342) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x400000 : Shape := ⟨2, ![2, 400000]⟩
abbrev S400000x2 : Shape := ⟨2, ![400000, 2]⟩
abbrev S50000x32 : Shape := ⟨2, ![50000, 32]⟩
abbrev S9x64x32 : Shape := ⟨3, ![9, 64, 32]⟩
abbrev S64x32 : Shape := ⟨2, ![64, 32]⟩
abbrev S32 : Shape := ⟨1, ![32]⟩
abbrev S9x32x32 : Shape := ⟨3, ![9, 32, 32]⟩
abbrev S32x32 : Shape := ⟨2, ![32, 32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S400000x2 : S_.BroadcastsInDim S400000x2 (![] : Fin 0 → Fin S400000x2.rank)
  reducesTo_S400000x2_S_d0_1 : S400000x2.ReducesTo [0, 1] S_
  bcast_S_S50000x32 : S_.BroadcastsInDim S50000x32 (![] : Fin 0 → Fin S50000x32.rank)
  reducesTo_S50000x32_S_d0_1 : S50000x32.ReducesTo [0, 1] S_
  bcast_S_S9x64x32 : S_.BroadcastsInDim S9x64x32 (![] : Fin 0 → Fin S9x64x32.rank)
  reducesTo_S9x64x32_S_d0_1_2 : S9x64x32.ReducesTo [0, 1, 2] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S9x32x32 : S_.BroadcastsInDim S9x32x32 (![] : Fin 0 → Fin S9x32x32.rank)
  reducesTo_S9x32x32_S_d0_1_2 : S9x32x32.ReducesTo [0, 1, 2] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg8 : FVec F S32x32 .f32) (main_arg9 : FVec F S32 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S64x32 .f32) (main_arg6 : FVec F S32 .f32) (main_arg7 : FVec F S9x32x32 .f32) (main_arg8 : FVec F S32x32 .f32) (main_arg9 : FVec F S32 .f32) (main_v13 : IVec S_ 1) (main_v16 : IVec S9x64x32 1) : IVec S_ 1 :=
  let main_c_5 : IVec S_ 1 := constantI S_ 1 1#1
  let main_v17 : IVec S_ 1 := (fun x v => Host.reduce IntOp.andi x v reducesTo_S9x64x32_S_d0_1_2 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S9x32x32 .f32 := Host.absf main_arg7
  let main_cst_10 : FVec F S_ .f32 := constant S_ .f32 0x7F800000#32
  let main_v30 : FVec F S9x32x32 .f32 := broadcastInDim S9x32x32 ![] bcast_S_S9x32x32 main_cst_10
  let main_v31 : IVec S9x32x32 1 := cmpf .olt main_v29 main_v30
  let main_c_11 : IVec S_ 1 := constantI S_ 1 1#1
  let main_v32 : IVec S_ 1 := (fun x v => Host.reduce IntOp.andi x v reducesTo_S9x32x32_S_d0_1_2 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x400000 32) (main_arg2 : FVec F S400000x2 .f32) (main_arg3 : FVec F S50000x32 .f32) (main_arg4 : FVec F S9x64x32 .f32) (main_arg5 : FVec F S64x32 .f32) (main_arg6 : FVec F S32 .f32) (main_arg7 : FVec F S9x32x32 .f32) (main_arg8 : FVec F S32x32 .f32) (main_arg9 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S400000x2 .f32 := Host.absf main_arg2
  let main_cst_0 : FVec F S_ .f32 := constant S_ .f32 0x7F800000#32
  let main_v5 : FVec F S400000x2 .f32 := broadcastInDim S400000x2 ![] bcast_S_S400000x2 main_cst_0
  let main_v6 : IVec S400000x2 1 := cmpf .olt main_v4 main_v5
  let main_c_1 : IVec S_ 1 := constantI S_ 1 1#1
  let main_v7 : IVec S_ 1 := (fun x v => Host.reduce IntOp.andi x v reducesTo_S400000x2_S_d0_1 h_S_) main_v6 main_c_1
  let main_v8 : IVec S_ 1 := andi main_v3 main_v7
  let main_v9 : FVec F S50000x32 .f32 := Host.absf main_arg3
  let main_cst_2 : FVec F S_ .f32 := constant S_ .f32 0x7F800000#32
  let main_v10 : FVec F S50000x32 .f32 := broadcastInDim S50000x32 ![] bcast_S_S50000x32 main_cst_2
  let main_v11 : IVec S50000x32 1 := cmpf .olt main_v9 main_v10
  let main_c_3 : IVec S_ 1 := constantI S_ 1 1#1
  let main_v12 : IVec S_ 1 := (fun x v => Host.reduce IntOp.andi x v reducesTo_S50000x32_S_d0_1 h_S_) main_v11 main_c_3
  let main_v13 : IVec S_ 1 := andi main_v8 main_v12
  let main_v14 : FVec F S9x64x32 .f32 := Host.absf main_arg4
  let main_cst_4 : FVec F S_ .f32 := constant S_ .f32 0x7F800000#32
  let main_v15 : FVec F S9x64x32 .f32 := broadcastInDim S9x64x32 ![] bcast_S_S9x64x32 main_cst_4
  let main_v16 : IVec S9x64x32 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x400000 : Shape := ⟨2, ![2, 400000]⟩
abbrev S400000x2 : Shape := ⟨2, ![400000, 2]⟩
abbrev S50000x32 : Shape := ⟨2, ![50000, 32]⟩
abbrev S9x64x32 : Shape := ⟨3, ![9, 64, 32]⟩
abbrev S64x32 : Shape := ⟨2, ![64, 32]⟩
abbrev S32 : Shape := ⟨1, ![32]⟩
abbrev S9x32x32 : Shape := ⟨3, ![9, 32, 32]⟩
abbrev S32x32 : Shape := ⟨2, ![32, 32]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x64 : Shape := ⟨2, ![400000, 64]⟩
abbrev S400000x32 : Shape := ⟨2, ![400000, 32]⟩
abbrev S8000x64 : Shape := ⟨2, ![8000, 64]⟩
abbrev S8000x2 : Shape := ⟨2, ![8000, 2]⟩
abbrev S8000x32 : Shape := ⟨2, ![8000, 32]⟩
abbrev S8000x1 : Shape := ⟨2, ![8000, 1]⟩
abbrev S1x64x32 : Shape := ⟨3, ![1, 64, 32]⟩
abbrev S1x32 : Shape := ⟨2, ![1, 32]⟩
abbrev S10000x32 : Shape := ⟨2, ![10000, 32]⟩
abbrev S10000x64 : Shape := ⟨2, ![10000, 64]⟩
abbrev S1x32x32 : Shape := ⟨3, ![1, 32, 32]⟩

abbrev nBuf : Space → Nat
  | .hbm => 63
  | .vmem => 45
  | .smem => 0
  | _ => 0

abbrev bufTy : (tb : Table) → Fin (tcTables nBuf tb) → BufTy
  | .hbm, ⟨0, _⟩ => ⟨S50000x64, .f32⟩
  | .hbm, ⟨1, _⟩ => ⟨S2x400000, .i32⟩
  | .hbm, ⟨2, _⟩ => ⟨S400000x2, .f32⟩
  | .hbm, ⟨3, _⟩ => ⟨S50000x32, .f32⟩
  | .hbm, ⟨4, _⟩ => ⟨S9x64x32, .f32⟩
  | .hbm, ⟨5, _⟩ => ⟨S64x32, .f32⟩
  | .hbm, ⟨6, _⟩ => ⟨S32, .f32⟩
  | .hbm, ⟨7, _⟩ => ⟨S9x32x32, .f32⟩
  | .hbm, ⟨8, _⟩ => ⟨S32x32, .f32⟩
  | .hbm, ⟨9, _⟩ => ⟨S32, .f32⟩
  | .hbm, ⟨10, _⟩ => ⟨S1x400000, .i32⟩
  | .hbm, ⟨11, _⟩ => ⟨S400000, .i32⟩
  | .hbm, ⟨12, _⟩ => ⟨S1x400000, .i32⟩
  | .hbm, ⟨13, _⟩ => ⟨S400000, .i32⟩
  | .hbm, ⟨14, _⟩ => ⟨S_, .i32⟩
  | .hbm, ⟨15, _⟩ => ⟨S400000, .i32⟩
  | .hbm, ⟨16, _⟩ => ⟨S400000, .i1⟩
  | .hbm, ⟨17, _⟩ => ⟨S_, .i32⟩
  | .hbm, ⟨18, _⟩ => ⟨S400000, .i32⟩
  | .hbm, ⟨19, _⟩ => ⟨S400000, .i32⟩
  | .hbm, ⟨20, _⟩ => ⟨S400000, .i32⟩
  | .hbm, ⟨21, _⟩ => ⟨S400000x1, .i32⟩
  | .hbm, ⟨22, _⟩ => ⟨S400000x64, .f32⟩
  | .hbm, ⟨23, _⟩ => ⟨S400000x32, .f32⟩
  | .hbm, ⟨24, _⟩ => ⟨S_, .f32⟩
  | .hbm, ⟨25, _⟩ => ⟨S50000x32, .f32⟩
  | .hbm, ⟨26, _⟩ => ⟨S400000x1, .i32⟩
  | .hbm, ⟨27, _⟩ => ⟨S50000x32, .f32⟩
  | .hbm, ⟨28, _⟩ => ⟨S1x32, .f32⟩
  | .hbm, ⟨29, _⟩ => ⟨S50000x32, .f32⟩
  | .hbm, ⟨30, _⟩ => ⟨S50000x64, .f32⟩
  | .hbm, ⟨31, _⟩ => ⟨S_, .i32⟩
  | .hbm, ⟨32, _⟩ => ⟨S400000, .i32⟩
  | .hbm, ⟨33, _⟩ => ⟨S400000, .i1⟩
  | .hbm, ⟨34, _⟩ => ⟨S_, .i32⟩
  | .hbm, ⟨35, _⟩ => ⟨S400000, .i32⟩
  | .hbm, ⟨36, _⟩ => ⟨S400000, .i32⟩
  | .hbm, ⟨37, _⟩ => ⟨S400000, .i32⟩
  | .hbm, ⟨38, _⟩ => ⟨S400000x1, .i32⟩
  | .hbm, ⟨39, _⟩ => ⟨S400000x64, .f32⟩
  | .hbm, ⟨40, _⟩ => ⟨S400000x32, .f32⟩
  | .hbm, ⟨41, _⟩ => ⟨S_, .f32⟩
  | .hbm, ⟨42, _⟩ => ⟨S50000x32, .f32⟩
  | .hbm, ⟨43, _⟩ => ⟨S400000x1, .i32⟩
  | .hbm, ⟨44, _⟩ => ⟨S50000x32, .f32⟩
  | .hbm, ⟨45, _⟩ => ⟨S1x32, .f32⟩
  | .hbm, ⟨46, _⟩ => ⟨S50000x32, .f32⟩
  | .hbm, ⟨47, _⟩ => ⟨S_, .i32⟩
  | .hbm, ⟨48, _⟩ => ⟨S400000, .i32⟩
  | .hbm, ⟨49, _⟩ => ⟨S400000, .i1⟩
  | .hbm, ⟨50, _⟩ => ⟨S_, .i32⟩
  | .hbm, ⟨51, _⟩ => ⟨S400000, .i32⟩
  | .hbm, ⟨52, _⟩ => ⟨S400000, .i32⟩
  | .hbm, ⟨53, _⟩ => ⟨S400000, .i32⟩
  | .hbm, ⟨54, _⟩ => ⟨S400000x1, .i32⟩
  | .hbm, ⟨55, _⟩ => ⟨S400000x32, .f32⟩
  | .hbm, ⟨56, _⟩ => ⟨S400000x32, .f32⟩
  | .hbm, ⟨57, _⟩ => ⟨S_, .f32⟩
  | .hbm, ⟨58, _⟩ => ⟨S50000x32, .f32⟩
  | .hbm, ⟨59, _⟩ => ⟨S400000x1, .i32⟩
  | .hbm, ⟨60, _⟩ => ⟨S50000x32, .f32⟩
  | .hbm, ⟨61, _⟩ => ⟨S1x32, .f32⟩
  | .hbm, ⟨62, _⟩ => ⟨S50000x32, .f32⟩
  | .local _ .vmem, ⟨0, _⟩ => ⟨S8000x64, .f32⟩
  | .local _ .vmem, ⟨1, _⟩ => ⟨S8000x64, .f32⟩
  | .local _ .vmem, ⟨2, _⟩ => ⟨S8000x2, .f32⟩
  | .local _ .vmem, ⟨3, _⟩ => ⟨S8000x2, .f32⟩
  | .local _ .vmem, ⟨4, _⟩ => ⟨S9x64x32, .f32⟩
  | .local _ .vmem, ⟨5, _⟩ => ⟨S8000x32, .f32⟩
  | .local _ .vmem, ⟨6, _⟩ => ⟨S8000x32, .f32⟩
  | .local _ .vmem, ⟨7, _⟩ => ⟨S10000x32, .f32⟩
  | .local _ .vmem, ⟨8, _⟩ => ⟨S10000x32, .f32⟩
  | .local _ .vmem, ⟨9, _⟩ => ⟨S10000x64, .f32⟩
  | .local _ .vmem, ⟨10, _⟩ => ⟨S10000x64, .f32⟩
  | .local _ .vmem, ⟨11, _⟩ => ⟨S64x32, .f32⟩
  | .local _ .vmem, ⟨12, _⟩ => ⟨S1x32, .f32⟩
  | .local _ .vmem, ⟨13, _⟩ => ⟨S10000x32, .f32⟩
  | .local _ .vmem, ⟨14, _⟩ => ⟨S10000x32, .f32⟩
  | .local _ .vmem, ⟨15, _⟩ => ⟨S8000x64, .f32⟩
  | .local _ .vmem, ⟨16, _⟩ => ⟨S8000x64, .f32⟩
  | .local _ .vmem, ⟨17, _⟩ => ⟨S8000x2, .f32⟩
  | .local _ .vmem, ⟨18, _⟩ => ⟨S8000x2, .f32⟩
  | .local _ .vmem, ⟨19, _⟩ => ⟨S9x64x32, .f32⟩
  | .local _ .vmem, ⟨20, _⟩ => ⟨S8000x32, .f32⟩
  | .local _ .vmem, ⟨21, _⟩ => ⟨S8000x32, .f32⟩
  | .local _ .vmem, ⟨22, _⟩ => ⟨S10000x32, .f32⟩
  | .local _ .vmem, ⟨23, _⟩ => ⟨S10000x32, .f32⟩
  | .local _ .vmem, ⟨24, _⟩ => ⟨S10000x64, .f32⟩
  | .local _ .vmem, ⟨25, _⟩ => ⟨S10000x64, .f32⟩
  | .local _ .vmem, ⟨26, _⟩ => ⟨S64x32, .f32⟩
  | .local _ .vmem, ⟨27, _⟩ => ⟨S1x32, .f32⟩
  | .local _ .vmem, ⟨28, _⟩ => ⟨S10000x32, .f32⟩
  | .local _ .vmem, ⟨29, _⟩ => ⟨S10000x32, .f32⟩
  | .local _ .vmem, ⟨30, _⟩ => ⟨S8000x32, .f32⟩
  | .local _ .vmem, ⟨31, _⟩ => ⟨S8000x32, .f32⟩
  | .local _ .vmem, ⟨32, _⟩ => ⟨S8000x2, .f32⟩
  | .local _ .vmem, ⟨33, _⟩ => ⟨S8000x2, .f32⟩
  | .local _ .vmem, ⟨34, _⟩ => ⟨S9x32x32, .f32⟩
  | .local _ .vmem, ⟨35, _⟩ => ⟨S8000x32, .f32⟩
  | .local _ .vmem, ⟨36, _⟩ => ⟨S8000x32, .f32⟩
  | .local _ .vmem, ⟨37, _⟩ => ⟨S10000x32, .f32⟩
  | .local _ .vmem, ⟨38, _⟩ => ⟨S10000x32, .f32⟩
  | .local _ .vmem, ⟨39, _⟩ => ⟨S10000x32, .f32⟩
  | .local _ .vmem, ⟨40, _⟩ => ⟨S10000x32, .f32⟩
  | .local _ .vmem, ⟨41, _⟩ => ⟨S32x32, .f32⟩
  | .local _ .vmem, ⟨42, _⟩ => ⟨S1x32, .f32⟩
  | .local _ .vmem, ⟨43, _⟩ => ⟨S10000x32, .f32⟩
  | .local _ .vmem, ⟨44, _⟩ => ⟨S10000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg4_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem3_0 : DmaSem sig := 42
abbrev cc5_sem4_0 : DmaSem sig := 43
abbrev cc5_sem4_1 : DmaSem sig := 44

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S9x64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x2 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S9x32x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x2_S8000x2_0_0 : ∀ a, (![0, 0] : Fin 2 → Nat) a + S8000x2.size a ≤ S8000x2.size a
  h_S8000x2 : 0 < S8000x2.numel
  inb_S9x64x32_S9x64x32_0_0_0 : ∀ a, (![0, 0, 0] : Fin 3 → Nat) a + S9x64x32.size a ≤ S9x64x32.size a
  h_S9x64x32 : 0 < S9x64x32.numel
  slices_S8000x2_o0_0_S8000x1 : S8000x2.Slices ![0, 0] S8000x1
  slices_S8000x2_o0_1_S8000x1 : S8000x2.Slices ![0, 1] S8000x1
  broadcasts_S8000x1_S8000x64 : S8000x1.Broadcasts S8000x64
  slices_S9x64x32_o0_0_0_S1x64x32 : S9x64x32.Slices ![0, 0, 0] S1x64x32
  shapeCasts_S1x64x32_S64x32 : S1x64x32.ShapeCasts S64x32
  slices_S9x64x32_o1_0_0_S1x64x32 : S9x64x32.Slices ![1, 0, 0] S1x64x32
  slices_S9x64x32_o2_0_0_S1x64x32 : S9x64x32.Slices ![2, 0, 0] S1x64x32
  slices_S9x64x32_o3_0_0_S1x64x32 : S9x64x32.Slices ![3, 0, 0] S1x64x32
  slices_S9x64x32_o4_0_0_S1x64x32 : S9x64x32.Slices ![4, 0, 0] S1x64x32
  slices_S9x64x32_o5_0_0_S1x64x32 : S9x64x32.Slices ![5, 0, 0] S1x64x32
  slices_S9x64x32_o6_0_0_S1x64x32 : S9x64x32.Slices ![6, 0, 0] S1x64x32
  slices_S9x64x32_o7_0_0_S1x64x32 : S9x64x32.Slices ![7, 0, 0] S1x64x32
  slices_S9x64x32_o8_0_0_S1x64x32 : S9x64x32.Slices ![8, 0, 0] S1x64x32
  inb_S8000x32_S8000x32_0_0 : ∀ a, (![0, 0] : Fin 2 → Nat) a + S8000x32.size a ≤ S8000x32.size a
  h_S8000x32 : 0 < S8000x32.numel
  bcast_S_S50000x32 : S_.BroadcastsInDim S50000x32 (![] : Fin 0 → Fin S50000x32.rank)
  shapeCasts_S32_S1x32 : S32.ShapeCasts S1x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S10000x64_S10000x64_0_0 : ∀ a, (![0, 0] : Fin 2 → Nat) a + S10000x64.size a ≤ S10000x64.size a
  h_S10000x64 : 0 < S10000x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  concatenates_S50000x32_S50000x32_S50000x64_d1 : Shape.Concatenates [S50000x32, S50000x32] S50000x64 1
  shapeCasts_S10000x64_S10000x64 : S10000x64.ShapeCasts S10000x64
  shapeCasts_S8000x32_S8000x32 : S8000x32.ShapeCasts S8000x32
  inb_S9x32x32_S9x32x32_0_0_0 : ∀ a, (![0, 0, 0] : Fin 3 → Nat) a + S9x32x32.size a ≤ S9x32x32.size a
  h_S9x32x32 : 0 < S9x32x32.numel
  broadcasts_S8000x1_S8000x32 : S8000x1.Broadcasts S8000x32
  slices_S9x32x32_o0_0_0_S1x32x32 : S9x32x32.Slices ![0, 0, 0] S1x32x32
  shapeCasts_S1x32x32_S32x32 : S1x32x32.ShapeCasts S32x32
  slices_S9x32x32_o1_0_0_S1x32x32 : S9x32x32.Slices ![1, 0, 0] S1x32x32
  slices_S9x32x32_o2_0_0_S1x32x32 : S9x32x32.Slices ![2, 0, 0] S1x32x32
  slices_S9x32x32_o3_0_0_S1x32x32 : S9x32x32.Slices ![3, 0, 0] S1x32x32
  slices_S9x32x32_o4_0_0_S1x32x32 : S9x32x32.Slices ![4, 0, 0] S1x32x32
  slices_S9x32x32_o5_0_0_S1x32x32 : S9x32x32.Slices ![5, 0, 0] S1x32x32
  slices_S9x32x32_o6_0_0_S1x32x32 : S9x32x32.Slices ![6, 0, 0] S1x32x32
  slices_S9x32x32_o7_0_0_S1x32x32 : S9x32x32.Slices ![7, 0, 0] S1x32x32
  slices_S9x32x32_o8_0_0_S1x32x32 : S9x32x32.Slices ![8, 0, 0] S1x32x32
  inb_S32x32_S32x32_0_0 : ∀ a, (![0, 0] : Fin 2 → Nat) a + S32x32.size a ≤ S32x32.size a
  h_S32x32 : 0 < S32x32.numel
  gather_S50000x64_S400000x1_S400000x64_1_0_n_n_0_1_164_wf : GatherDims.WF S50000x64 S400000x1 S400000x64 [1] [0] [] [0] [] 1 ![1, 64]
  dot_S8000x64_S64x32_S8000x32_1_0_0_1_n_n_wf : DotDims.WF S8000x64 S64x32 S8000x32 [1] [0] [0] [1] [] []
  scatter_S50000x32_S400000x1_S400000x32_1_0_0_1_wf : ScatterDims.WF S50000x32 S400000x1 S400000x32 [1] [0] [0] 1
  dot_S10000x64_S64x32_S10000x32_1_0_0_1_n_n_wf : DotDims.WF S10000x64 S64x32 S10000x32 [1] [0] [0] [1] [] []
  gather_S50000x32_S400000x1_S400000x32_1_0_n_n_0_1_132_wf : GatherDims.WF S50000x32 S400000x1 S400000x32 [1] [0] [] [0] [] 1 ![1, 32]
  dot_S8000x32_S32x32_S8000x32_1_0_0_1_n_n_wf : DotDims.WF S8000x32 S32x32 S8000x32 [1] [0] [0] [1] [] []
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S400000x64.size a
  hwx0_0 : ∀ i : grid0.Coords, EltTy.bits .f32 = 32 ∨ (Rect.block (s := S400000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x2.size a ≤ S400000x2.size a
  hwx0_1 : ∀ i : grid0.Coords, EltTy.bits .f32 = 32 ∨ (Rect.block (s := S400000x2) S8000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x64x32.size a ≤ S9x64x32.size a
  hwx0_2 : ∀ i : grid0.Coords, EltTy.bits .f32 = 32 ∨ (Rect.block (s := S9x64x32) S9x64x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x32.size a ≤ S400000x32.size a
  hwx0_3 : ∀ i : grid0.Coords, EltTy.bits .f32 = 32 ∨ (Rect.block (s := S400000x32) S8000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S50000x32.size a
  hwx1_0 : ∀ i : grid1.Coords, EltTy.bits .f32 = 32 ∨ (Rect.block (s := S50000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S50000x32.size a
  hwx1_4 : ∀ i : grid1.Coords, EltTy.bits .f32 = 32 ∨ (Rect.block (s := S50000x32) S10000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S400000x64.size a
  hwx2_0 : ∀ i : grid2.Coords, EltTy.bits .f32 = 32 ∨ (Rect.block (s := S400000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x2.size a ≤ S400000x2.size a
  hwx2_1 : ∀ i : grid2.Coords, EltTy.bits .f32 = 32 ∨ (Rect.block (s := S400000x2) S8000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S9x64x32.size a ≤ S9x64x32.size a
  hwx2_2 : ∀ i : grid2.Coords, EltTy.bits .f32 = 32 ∨ (Rect.block (s := S9x64x32) S9x64x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x32.size a ≤ S400000x32.size a
  hwx2_3 : ∀ i : grid2.Coords, EltTy.bits .f32 = 32 ∨ (Rect.block (s := S400000x32) S8000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S50000x32.size a
  hwx3_0 : ∀ i : grid3.Coords, EltTy.bits .f32 = 32 ∨ (Rect.block (s := S50000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S50000x64.size a
  hwx3_1 : ∀ i : grid3.Coords, EltTy.bits .f32 = 32 ∨ (Rect.block (s := S50000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x32.size a ≤ S50000x32.size a
  hwx3_4 : ∀ i : grid3.Coords, EltTy.bits .f32 = 32 ∨ (Rect.block (s := S50000x32) S10000x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x32.size a ≤ S400000x32.size a
  hwx4_0 : ∀ i : grid4.Coords, EltTy.bits .f32 = 32 ∨ (Rect.block (s := S400000x32) S8000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x2.size a ≤ S400000x2.size a
  hwx4_1 : ∀ i : grid4.Coords, EltTy.bits .f32 = 32 ∨ (Rect.block (s := S400000x2) S8000x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S9x32x32.size a ≤ S9x32x32.size a
  hwx4_2 : ∀ i : grid4.Coords, EltTy.bits .f32 = 32 ∨ (Rect.block (s := S9x32x32) S9x32x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x32.size a ≤ S400000x32.size a
  hwx4_3 : ∀ i : grid4.Coords, EltTy.bits .f32 = 32 ∨ (Rect.block (s := S400000x32) S8000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S50000x32.size a
  hwx5_0 : ∀ i : grid5.Coords, EltTy.bits .f32 = 32 ∨ (Rect.block (s := S50000x32) S10000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x32.size a ≤ S50000x32.size a
  hwx5_1 : ∀ i : grid5.Coords, EltTy.bits .f32 = 32 ∨ (Rect.block (s := S50000x32) S10000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x32.size a ≤ S32x32.size a
  hwx5_2 : ∀ i : grid5.Coords, EltTy.bits .f32 = 32 ∨ (Rect.block (s := S32x32) S32x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x32.size a ≤ S50000x32.size a
  hwx5_4 : ∀ i : grid5.Coords, EltTy.bits .f32 = 32 ∨ (Rect.block (s := S50000x32) S10000x32.size (cc5_transform_4 i) (hinb5_4 i)).WholeWords (EltTy.packing .f32)

variable [Facts₀]

def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def scatter_S50000x32_S400000x1_S400000x32_1_0_0_1 : ScatterDims S50000x32 S400000x1 S400000x32 where
  updateWindowDims := [1]
  insertedWindowDims := [0]
  scatterDimsToOperandDims := [0]
  indexVectorDim := 1
  wf := scatter_S50000x32_S400000x1_S400000x32_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S50000x32_S400000x1_S400000x32_1_0_n_n_0_1_132 : GatherDims S50000x32 S400000x1 S400000x32 where
  offsetDims := [1]
  collapsedSliceDims := [0]
  operandBatchingDims := []
  startIndicesBatchingDims := []
  startIndexMap := [0]
  indexVectorDim := 1
  sliceSizes := ![1, 32]
  wf := gather_S50000x32_S400000x1_S400000x32_1_0_n_n_0_1_132_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_v10) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S9x64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S8000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S10000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S8000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S9x64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S8000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v28) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v30) S10000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v37) S8000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S8000x2.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S9x32x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v38) S8000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v41) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v30) S10000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S32x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v42) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v43) S10000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x400000 : Shape := ⟨2, ![2, 400000]⟩
abbrev S400000x2 : Shape := ⟨2, ![400000, 2]⟩
abbrev S50000x32 : Shape := ⟨2, ![50000, 32]⟩
abbrev S9x64x32 : Shape := ⟨3, ![9, 64, 32]⟩
abbrev S64x32 : Shape := ⟨2, ![64, 32]⟩
abbrev S32 : Shape := ⟨1, ![32]⟩
abbrev S9x32x32 : Shape := ⟨3, ![9, 32, 32]⟩
abbrev S32x32 : Shape := ⟨2, ![32, 32]⟩
abbrev S1x400000 : Shape := ⟨2, ![1, 400000]⟩
abbrev S400000 : Shape := ⟨1, ![400000]⟩
abbrev S400000x1 : Shape := ⟨2, ![400000, 1]⟩
abbrev S_ : Shape := ⟨0, ![]⟩
abbrev S400000x3 : Shape := ⟨2, ![400000, 3]⟩
abbrev S400000x3x1 : Shape := ⟨3, ![400000, 3, 1]⟩
abbrev S400000x1x3 : Shape := ⟨3, ![400000, 1, 3]⟩
abbrev S400000x3x3 : Shape := ⟨3, ![400000, 3, 3]⟩
abbrev S400000x9 : Shape := ⟨2, ![400000, 9]⟩
abbrev S400000x64 : Shape := ⟨2, ![400000, 64]⟩
abbrev S400000x32 : Shape := ⟨2, ![400000, 32]⟩
abbrev S1x64x32 : Shape := ⟨3, ![1, 64, 32]⟩
abbrev S1x32 : Shape := ⟨2, ![1, 32]⟩
abbrev S1x32x32 : Shape := ⟨3, ![1, 32, 32]⟩

abbrev nBuf : Space → Nat
  | .hbm => 379
  | .vmem => 0
  | .smem => 0
  | _ => 0

abbrev hbmTy0_0 (i : Nat) : BufTy := match i % 128 with
  | 0 => ⟨S50000x64, .f32⟩
  | 1 => ⟨S2x400000, .i32⟩
  | 2 => ⟨S400000x2, .f32⟩
  | 3 => ⟨S50000x32, .f32⟩
  | 4 => ⟨S9x64x32, .f32⟩
  | 5 => ⟨S64x32, .f32⟩
  | 6 => ⟨S32, .f32⟩
  | 7 => ⟨S9x32x32, .f32⟩
  | 8 => ⟨S32x32, .f32⟩
  | 9 => ⟨S32, .f32⟩
  | 10 => ⟨S1x400000, .i32⟩
  | 11 => ⟨S400000, .i32⟩
  | 12 => ⟨S1x400000, .i32⟩
  | 13 => ⟨S400000, .i32⟩
  | 14 => ⟨S400000x1, .f32⟩
  | 15 => ⟨S400000, .f32⟩
  | 16 => ⟨S_, .f32⟩
  | 17 => ⟨S400000, .f32⟩
  | 18 => ⟨S400000, .f32⟩
  | 19 => ⟨S400000, .f32⟩
  | 20 => ⟨S_, .f32⟩
  | 21 => ⟨S400000, .f32⟩
  | 22 => ⟨S400000, .f32⟩
  | 23 => ⟨S400000, .f32⟩
  | 24 => ⟨S400000, .f32⟩
  | 25 => ⟨S400000, .f32⟩
  | 26 => ⟨S_, .f32⟩
  | 27 => ⟨S400000, .f32⟩
  | 28 => ⟨S400000, .f32⟩
  | 29 => ⟨S_, .f32⟩
  | 30 => ⟨S400000, .f32⟩
  | 31 => ⟨S400000, .f32⟩
  | 32 => ⟨S400000, .f32⟩
  | 33 => ⟨S400000x1, .f32⟩
  | 34 => ⟨S400000x1, .f32⟩
  | 35 => ⟨S400000x1, .f32⟩
  | 36 => ⟨S400000x3, .f32⟩
  | 37 => ⟨S400000x1, .f32⟩
  | 38 => ⟨S400000, .f32⟩
  | 39 => ⟨S_, .f32⟩
  | 40 => ⟨S400000, .f32⟩
  | 41 => ⟨S400000, .f32⟩
  | 42 => ⟨S400000, .f32⟩
  | 43 => ⟨S_, .f32⟩
  | 44 => ⟨S400000, .f32⟩
  | 45 => ⟨S400000, .f32⟩
  | 46 => ⟨S400000, .f32⟩
  | 47 => ⟨S400000, .f32⟩
  | 48 => ⟨S400000, .f32⟩
  | 49 => ⟨S_, .f32⟩
  | 50 => ⟨S400000, .f32⟩
  | 51 => ⟨S400000, .f32⟩
  | 52 => ⟨S_, .f32⟩
  | 53 => ⟨S400000, .f32⟩
  | 54 => ⟨S400000, .f32⟩
  | 55 => ⟨S400000, .f32⟩
  | 56 => ⟨S400000x1, .f32⟩
  | 57 => ⟨S400000x1, .f32⟩
  | 58 => ⟨S400000x1, .f32⟩
  | 59 => ⟨S400000x3, .f32⟩
  | 60 => ⟨S400000x3x1, .f32⟩
  | 61 => ⟨S400000x1x3, .f32⟩
  | 62 => ⟨S400000x3x3, .f32⟩
  | 63 => ⟨S400000x3x3, .f32⟩
  | 64 => ⟨S400000x3x3, .f32⟩
  | 65 => ⟨S400000x9, .f32⟩
  | 66 => ⟨S_, .i32⟩
  | 67 => ⟨S400000, .i32⟩
  | 68 => ⟨S400000, .i1⟩
  | 69 => ⟨S_, .i32⟩
  | 70 => ⟨S400000, .i32⟩
  | 71 => ⟨S400000, .i32⟩
  | 72 => ⟨S400000, .i32⟩
  | 73 => ⟨S400000x1, .i32⟩
  | 74 => ⟨S400000x64, .f32⟩
  | 75 => ⟨S_, .f32⟩
  | 76 => ⟨S400000x32, .f32⟩
  | 77 => ⟨S400000x1, .f32⟩
  | 78 => ⟨S400000, .f32⟩
  | 79 => ⟨S400000x1, .f32⟩
  | 80 => ⟨S400000x64, .f32⟩
  | 81 => ⟨S400000x64, .f32⟩
  | 82 => ⟨S1x64x32, .f32⟩
  | 83 => ⟨S64x32, .f32⟩
  | 84 => ⟨S400000x32, .f32⟩
  | 85 => ⟨S400000x32, .f32⟩
  | 86 => ⟨S400000x1, .f32⟩
  | 87 => ⟨S400000, .f32⟩
  | 88 => ⟨S400000x1, .f32⟩
  | 89 => ⟨S400000x64, .f32⟩
  | 90 => ⟨S400000x64, .f32⟩
  | 91 => ⟨S1x64x32, .f32⟩
  | 92 => ⟨S64x32, .f32⟩
  | 93 => ⟨S400000x32, .f32⟩
  | 94 => ⟨S400000x32, .f32⟩
  | 95 => ⟨S400000x1, .f32⟩
  | 96 => ⟨S400000, .f32⟩
  | 97 => ⟨S400000x1, .f32⟩
  | 98 => ⟨S400000x64, .f32⟩
  | 99 => ⟨S400000x64, .f32⟩
  | 100 => ⟨S1x64x32, .f32⟩
  | 101 => ⟨S64x32, .f32⟩
  | 102 => ⟨S400000x32, .f32⟩
  | 103 => ⟨S400000x32, .f32⟩
  | 104 => ⟨S400000x1, .f32⟩
  | 105 => ⟨S400000, .f32⟩
  | 106 => ⟨S400000x1, .f32⟩
  | 107 => ⟨S400000x64, .f32⟩
  | 108 => ⟨S400000x64, .f32⟩
  | 109 => ⟨S1x64x32, .f32⟩
  | 110 => ⟨S64x32, .f32⟩
  | 111 => ⟨S400000x32, .f32⟩
  | 112 => ⟨S400000x32, .f32⟩
  | 113 => ⟨S400000x1, .f32⟩
  | 114 => ⟨S400000, .f32⟩
  | 115 => ⟨S400000x1, .f32⟩
  | 116 => ⟨S400000x64, .f32⟩
  | 117 => ⟨S400000x64, .f32⟩
  | 118 => ⟨S1x64x32, .f32⟩
  | 119 => ⟨S64x32, .f32⟩
  | 120 => ⟨S400000x32, .f32⟩
  | 121 => ⟨S400000x32, .f32⟩
  | 122 => ⟨S400000x1, .f32⟩
  | 123 => ⟨S400000, .f32⟩
  | 124 => ⟨S400000x1, .f32⟩
  | 125 => ⟨S400000x64, .f32⟩
  | 126 => ⟨S400000x64, .f32⟩
  | 127 => ⟨S1x64x32, .f32⟩
  | _ => ⟨S50000x64, .f32⟩

abbrev hbmTy0_1 (i : Nat) : BufTy := match i % 128 with
  | 0 => ⟨S64x32, .f32⟩
  | 1 => ⟨S400000x32, .f32⟩
  | 2 => ⟨S400000x32, .f32⟩
  | 3 => ⟨S400000x1, .f32⟩
  | 4 => ⟨S400000, .f32⟩
  | 5 => ⟨S400000x1, .f32⟩
  | 6 => ⟨S400000x64, .f32⟩
  | 7 => ⟨S400000x64, .f32⟩
  | 8 => ⟨S1x64x32, .f32⟩
  | 9 => ⟨S64x32, .f32⟩
  | 10 => ⟨S400000x32, .f32⟩
  | 11 => ⟨S400000x32, .f32⟩
  | 12 => ⟨S400000x1, .f32⟩
  | 13 => ⟨S400000, .f32⟩
  | 14 => ⟨S400000x1, .f32⟩
  | 15 => ⟨S400000x64, .f32⟩
  | 16 => ⟨S400000x64, .f32⟩
  | 17 => ⟨S1x64x32, .f32⟩
  | 18 => ⟨S64x32, .f32⟩
  | 19 => ⟨S400000x32, .f32⟩
  | 20 => ⟨S400000x32, .f32⟩
  | 21 => ⟨S400000x1, .f32⟩
  | 22 => ⟨S400000, .f32⟩
  | 23 => ⟨S400000x1, .f32⟩
  | 24 => ⟨S400000x64, .f32⟩
  | 25 => ⟨S400000x64, .f32⟩
  | 26 => ⟨S1x64x32, .f32⟩
  | 27 => ⟨S64x32, .f32⟩
  | 28 => ⟨S400000x32, .f32⟩
  | 29 => ⟨S400000x32, .f32⟩
  | 30 => ⟨S_, .f32⟩
  | 31 => ⟨S50000x32, .f32⟩
  | 32 => ⟨S400000x1, .i32⟩
  | 33 => ⟨S50000x32, .f32⟩
  | 34 => ⟨S50000x32, .f32⟩
  | 35 => ⟨S50000x32, .f32⟩
  | 36 => ⟨S1x32, .f32⟩
  | 37 => ⟨S50000x32, .f32⟩
  | 38 => ⟨S50000x32, .f32⟩
  | 39 => ⟨S_, .f32⟩
  | 40 => ⟨S50000x32, .f32⟩
  | 41 => ⟨S50000x32, .f32⟩
  | 42 => ⟨S50000x64, .f32⟩
  | 43 => ⟨S_, .i32⟩
  | 44 => ⟨S400000, .i32⟩
  | 45 => ⟨S400000, .i1⟩
  | 46 => ⟨S_, .i32⟩
  | 47 => ⟨S400000, .i32⟩
  | 48 => ⟨S400000, .i32⟩
  | 49 => ⟨S400000, .i32⟩
  | 50 => ⟨S400000x1, .i32⟩
  | 51 => ⟨S400000x64, .f32⟩
  | 52 => ⟨S_, .f32⟩
  | 53 => ⟨S400000x32, .f32⟩
  | 54 => ⟨S400000x1, .f32⟩
  | 55 => ⟨S400000, .f32⟩
  | 56 => ⟨S400000x1, .f32⟩
  | 57 => ⟨S400000x64, .f32⟩
  | 58 => ⟨S400000x64, .f32⟩
  | 59 => ⟨S1x64x32, .f32⟩
  | 60 => ⟨S64x32, .f32⟩
  | 61 => ⟨S400000x32, .f32⟩
  | 62 => ⟨S400000x32, .f32⟩
  | 63 => ⟨S400000x1, .f32⟩
  | 64 => ⟨S400000, .f32⟩
  | 65 => ⟨S400000x1, .f32⟩
  | 66 => ⟨S400000x64, .f32⟩
  | 67 => ⟨S400000x64, .f32⟩
  | 68 => ⟨S1x64x32, .f32⟩
  | 69 => ⟨S64x32, .f32⟩
  | 70 => ⟨S400000x32, .f32⟩
  | 71 => ⟨S400000x32, .f32⟩
  | 72 => ⟨S400000x1, .f32⟩
  | 73 => ⟨S400000, .f32⟩
  | 74 => ⟨S400000x1, .f32⟩
  | 75 => ⟨S400000x64, .f32⟩
  | 76 => ⟨S400000x64, .f32⟩
  | 77 => ⟨S1x64x32, .f32⟩
  | 78 => ⟨S64x32, .f32⟩
  | 79 => ⟨S400000x32, .f32⟩
  | 80 => ⟨S400000x32, .f32⟩
  | 81 => ⟨S400000x1, .f32⟩
  | 82 => ⟨S400000, .f32⟩
  | 83 => ⟨S400000x1, .f32⟩
  | 84 => ⟨S400000x64, .f32⟩
  | 85 => ⟨S400000x64, .f32⟩
  | 86 => ⟨S1x64x32, .f32⟩
  | 87 => ⟨S64x32, .f32⟩
  | 88 => ⟨S400000x32, .f32⟩
  | 89 => ⟨S400000x32, .f32⟩
  | 90 => ⟨S400000x1, .f32⟩
  | 91 => ⟨S400000, .f32⟩
  | 92 => ⟨S400000x1, .f32⟩
  | 93 => ⟨S400000x64, .f32⟩
  | 94 => ⟨S400000x64, .f32⟩
  | 95 => ⟨S1x64x32, .f32⟩
  | 96 => ⟨S64x32, .f32⟩
  | 97 => ⟨S400000x32, .f32⟩
  | 98 => ⟨S400000x32, .f32⟩
  | 99 => ⟨S400000x1, .f32⟩
  | 100 => ⟨S400000, .f32⟩
  | 101 => ⟨S400000x1, .f32⟩
  | 102 => ⟨S400000x64, .f32⟩
  | 103 => ⟨S400000x64, .f32⟩
  | 104 => ⟨S1x64x32, .f32⟩
  | 105 => ⟨S64x32, .f32⟩
  | 106 => ⟨S400000x32, .f32⟩
  | 107 => ⟨S400000x32, .f32⟩
  | 108 => ⟨S400000x1, .f32⟩
  | 109 => ⟨S400000, .f32⟩
  | 110 => ⟨S400000x1, .f32⟩
  | 111 => ⟨S400000x64, .f32⟩
  | 112 => ⟨S400000x64, .f32⟩
  | 113 => ⟨S1x64x32, .f32⟩
  | 114 => ⟨S64x32, .f32⟩
  | 115 => ⟨S400000x32, .f32⟩
  | 116 => ⟨S400000x32, .f32⟩
  | 117 => ⟨S400000x1, .f32⟩
  | 118 => ⟨S400000, .f32⟩
  | 119 => ⟨S400000x1, .f32⟩
  | 120 => ⟨S400000x64, .f32⟩
  | 121 => ⟨S400000x64, .f32⟩
  | 122 => ⟨S1x64x32, .f32⟩
  | 123 => ⟨S64x32, .f32⟩
  | 124 => ⟨S400000x32, .f32⟩
  | 125 => ⟨S400000x32, .f32⟩
  | 126 => ⟨S400000x1, .f32⟩
  | 127 => ⟨S400000, .f32⟩
  | _ => ⟨S50000x64, .f32⟩

abbrev hbmTy0_2 (i : Nat) : BufTy := match i % 128 with
  | 0 => ⟨S400000x1, .f32⟩
  | 1 => ⟨S400000x64, .f32⟩
  | 2 => ⟨S400000x64, .f32⟩
  | 3 => ⟨S1x64x32, .f32⟩
  | 4 => ⟨S64x32, .f32⟩
  | 5 => ⟨S400000x32, .f32⟩
  | 6 => ⟨S400000x32, .f32⟩
  | 7 => ⟨S_, .f32⟩
  | 8 => ⟨S50000x32, .f32⟩
  | 9 => ⟨S400000x1, .i32⟩
  | 10 => ⟨S50000x32, .f32⟩
  | 11 => ⟨S50000x32, .f32⟩
  | 12 => ⟨S50000x32, .f32⟩
  | 13 => ⟨S1x32, .f32⟩
  | 14 => ⟨S50000x32, .f32⟩
  | 15 => ⟨S50000x32, .f32⟩
  | 16 => ⟨S_, .f32⟩
  | 17 => ⟨S50000x32, .f32⟩
  | 18 => ⟨S50000x32, .f32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x32, .f32⟩
  | 28 => ⟨S_, .f32⟩
  | 29 => ⟨S400000x32, .f32⟩
  | 30 => ⟨S400000x1, .f32⟩
  | 31 => ⟨S400000, .f32⟩
  | 32 => ⟨S400000x1, .f32⟩
  | 33 => ⟨S400000x32, .f32⟩
  | 34 => ⟨S400000x32, .f32⟩
  | 35 => ⟨S1x32x32, .f32⟩
  | 36 => ⟨S32x32, .f32⟩
  | 37 => ⟨S400000x32, .f32⟩
  | 38 => ⟨S400000x32, .f32⟩
  | 39 => ⟨S400000x1, .f32⟩
  | 40 => ⟨S400000, .f32⟩
  | 41 => ⟨S400000x1, .f32⟩
  | 42 => ⟨S400000x32, .f32⟩
  | 43 => ⟨S400000x32, .f32⟩
  | 44 => ⟨S1x32x32, .f32⟩
  | 45 => ⟨S32x32, .f32⟩
  | 46 => ⟨S400000x32, .f32⟩
  | 47 => ⟨S400000x32, .f32⟩
  | 48 => ⟨S400000x1, .f32⟩
  | 49 => ⟨S400000, .f32⟩
  | 50 => ⟨S400000x1, .f32⟩
  | 51 => ⟨S400000x32, .f32⟩
  | 52 => ⟨S400000x32, .f32⟩
  | 53 => ⟨S1x32x32, .f32⟩
  | 54 => ⟨S32x32, .f32⟩
  | 55 => ⟨S400000x32, .f32⟩
  | 56 => ⟨S400000x32, .f32⟩
  | 57 => ⟨S400000x1, .f32⟩
  | 58 => ⟨S400000, .f32⟩
  | 59 => ⟨S400000x1, .f32⟩
  | 60 => ⟨S400000x32, .f32⟩
  | 61 => ⟨S400000x32, .f32⟩
  | 62 => ⟨S1x32x32, .f32⟩
  | 63 => ⟨S32x32, .f32⟩
  | 64 => ⟨S400000x32, .f32⟩
  | 65 => ⟨S400000x32, .f32⟩
  | 66 => ⟨S400000x1, .f32⟩
  | 67 => ⟨S400000, .f32⟩
  | 68 => ⟨S400000x1, .f32⟩
  | 69 => ⟨S400000x32, .f32⟩
  | 70 => ⟨S400000x32, .f32⟩
  | 71 => ⟨S1x32x32, .f32⟩
  | 72 => ⟨S32x32, .f32⟩
  | 73 => ⟨S400000x32, .f32⟩
  | 74 => ⟨S400000x32, .f32⟩
  | 75 => ⟨S400000x1, .f32⟩
  | 76 => ⟨S400000, .f32⟩
  | 77 => ⟨S400000x1, .f32⟩
  | 78 => ⟨S400000x32, .f32⟩
  | 79 => ⟨S400000x32, .f32⟩
  | 80 => ⟨S1x32x32, .f32⟩
  | 81 => ⟨S32x32, .f32⟩
  | 82 => ⟨S400000x32, .f32⟩
  | 83 => ⟨S400000x32, .f32⟩
  | 84 => ⟨S400000x1, .f32⟩
  | 85 => ⟨S400000, .f32⟩
  | 86 => ⟨S400000x1, .f32⟩
  | 87 => ⟨S400000x32, .f32⟩
  | 88 => ⟨S400000x32, .f32⟩
  | 89 => ⟨S1x32x32, .f32⟩
  | 90 => ⟨S32x32, .f32⟩
  | 91 => ⟨S400000x32, .f32⟩
  | 92 => ⟨S400000x32, .f32⟩
  | 93 => ⟨S400000x1, .f32⟩
  | 94 => ⟨S400000, .f32⟩
  | 95 => ⟨S400000x1, .f32⟩
  | 96 => ⟨S400000x32, .f32⟩
  | 97 => ⟨S400000x32, .f32⟩
  | 98 => ⟨S1x32x32, .f32⟩
  | 99 => ⟨S32x32, .f32⟩
  | 100 => ⟨S400000x32, .f32⟩
  | 101 => ⟨S400000x32, .f32⟩
  | 102 => ⟨S400000x1, .f32⟩
  | 103 => ⟨S400000, .f32⟩
  | 104 => ⟨S400000x1, .f32⟩
  | 105 => ⟨S400000x32, .f32⟩
  | 106 => ⟨S400000x32, .f32⟩
  | 107 => ⟨S1x32x32, .f32⟩
  | 108 => ⟨S32x32, .f32⟩
  | 109 => ⟨S400000x32, .f32⟩
  | 110 => ⟨S400000x32, .f32⟩
  | 111 => ⟨S_, .f32⟩
  | 112 => ⟨S50000x32, .f32⟩
  | 113 => ⟨S400000x1, .i32⟩
  | 114 => ⟨S50000x32, .f32⟩
  | 115 => ⟨S50000x32, .f32⟩
  | 116 => ⟨S50000x32, .f32⟩
  | 117 => ⟨S1x32, .f32⟩
  | 118 => ⟨S50000x32, .f32⟩
  | 119 => ⟨S50000x32, .f32⟩
  | 120 => ⟨S_, .f32⟩
  | 121 => ⟨S50000x32, .f32⟩
  | 122 => ⟨S50000x32, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c : Ref sig .tc := ⟨.hbm, 66, rfl⟩
abbrev main_v48 : Ref sig .tc := ⟨.hbm, 67, rfl⟩
abbrev main_v49 : Ref sig .tc := ⟨.hbm, 68, rfl⟩
abbrev main_c_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_cst_9 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_call0_cst : Ref sig .tc := ⟨.hbm, 167, rfl⟩
abbrev main_call0_v0 : Ref sig .tc := ⟨.hbm, 168, rfl⟩
abbrev main_v145 : Ref sig .tc := ⟨.hbm, 169, rfl⟩
abbrev main_v146 : Ref sig .tc := ⟨.hbm, 170, rfl⟩
abbrev main_c_10 : Ref sig .tc := ⟨.hbm, 171, rfl⟩
abbrev main_v147 : Ref sig .tc := ⟨.hbm, 172, rfl⟩
abbrev main_v148 : Ref sig .tc := ⟨.hbm, 173, rfl⟩
abbrev main_c_11 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_cst_12 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_cst_13 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_call1_cst : Ref sig .tc := ⟨.hbm, 272, rfl⟩
abbrev main_call1_v0 : Ref sig .tc := ⟨.hbm, 273, rfl⟩
abbrev main_v244 : Ref sig .tc := ⟨.hbm, 274, rfl⟩
abbrev main_c_14 : Ref sig .tc := ⟨.hbm, 275, rfl⟩
abbrev main_v245 : Ref sig .tc := ⟨.hbm, 276, rfl⟩
abbrev main_v246 : Ref sig .tc := ⟨.hbm, 277, rfl⟩
abbrev main_c_15 : Ref sig .tc := ⟨.hbm, 278, rfl⟩
abbrev main_v247 : Ref sig .tc := ⟨.hbm, 279, rfl⟩
abbrev main_v248 : Ref sig .tc := ⟨.hbm, 280, rfl⟩
abbrev main_v249 : Ref sig .tc := ⟨.hbm, 281, rfl⟩
abbrev main_v250 : Ref sig .tc := ⟨.hbm, 282, rfl⟩
abbrev main_v251 : Ref sig .tc := ⟨.hbm, 283, rfl⟩
abbrev main_cst_16 : Ref sig .tc := ⟨.hbm, 284, rfl⟩
abbrev main_v252 : Ref sig .tc := ⟨.hbm, 285, rfl⟩
abbrev main_v253 : Ref sig .tc := ⟨.hbm, 286, rfl⟩
abbrev main_v254 : Ref sig .tc := ⟨.hbm, 287, rfl⟩
abbrev main_v255 : Ref sig .tc := ⟨.hbm, 288, rfl⟩
abbrev main_v256 : Ref sig .tc := ⟨.hbm, 289, rfl⟩
abbrev main_v257 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_v261 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_v277 : Ref sig .tc := ⟨.hbm, 310, rfl⟩
abbrev main_v278 : Ref sig .tc := ⟨.hbm, 311, rfl⟩
abbrev main_v279 : Ref sig .tc := ⟨.hbm, 312, rfl⟩
abbrev main_v280 : Ref sig .tc := ⟨.hbm, 313, rfl⟩
abbrev main_v281 : Ref sig .tc := ⟨.hbm, 314, rfl⟩
abbrev main_v282 : Ref sig .tc := ⟨.hbm, 315, rfl⟩
abbrev main_v283 : Ref sig .tc := ⟨.hbm, 316, rfl⟩
abbrev main_v284 : Ref sig .tc := ⟨.hbm, 317, rfl⟩
abbrev main_v285 : Ref sig .tc := ⟨.hbm, 318, rfl⟩
abbrev main_v286 : Ref sig .tc := ⟨.hbm, 319, rfl⟩
abbrev main_v287 : Ref sig .tc := ⟨.hbm, 320, rfl⟩
abbrev main_v288 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_v303 : Ref sig .tc := ⟨.hbm, 336, rfl⟩
abbrev main_v304 : Ref sig .tc := ⟨.hbm, 337, rfl⟩
abbrev main_v305 : Ref sig .tc := ⟨.hbm, 338, rfl⟩
abbrev main_v306 : Ref sig .tc := ⟨.hbm, 339, rfl⟩
abbrev main_v307 : Ref sig .tc := ⟨.hbm, 340, rfl⟩
abbrev main_v308 : Ref sig .tc := ⟨.hbm, 341, rfl⟩
abbrev main_v309 : Ref sig .tc := ⟨.hbm, 342, rfl⟩
abbrev main_v310 : Ref sig .tc := ⟨.hbm, 343, rfl⟩
abbrev main_v311 : Ref sig .tc := ⟨.hbm, 344, rfl⟩
abbrev main_v312 : Ref sig .tc := ⟨.hbm, 345, rfl⟩
abbrev main_v313 : Ref sig .tc := ⟨.hbm, 346, rfl⟩
abbrev main_v314 : Ref sig .tc := ⟨.hbm, 347, rfl⟩
abbrev main_v315 : Ref sig .tc := ⟨.hbm, 348, rfl⟩
abbrev main_v316 : Ref sig .tc := ⟨.hbm, 349, rfl⟩
abbrev main_v317 : Ref sig .tc := ⟨.hbm, 350, rfl⟩
abbrev main_v318 : Ref sig .tc := ⟨.hbm, 351, rfl⟩
abbrev main_v319 : Ref sig .tc := ⟨.hbm, 352, rfl⟩
abbrev main_v320 : Ref sig .tc := ⟨.hbm, 353, rfl⟩
abbrev main_v321 : Ref sig .tc := ⟨.hbm, 354, rfl⟩
abbrev main_v322 : Ref sig .tc := ⟨.hbm, 355, rfl⟩
abbrev main_v323 : Ref sig .tc := ⟨.hbm, 356, rfl⟩
abbrev main_v324 : Ref sig .tc := ⟨.hbm, 357, rfl⟩
abbrev main_v325 : Ref sig .tc := ⟨.hbm, 358, rfl⟩
abbrev main_v326 : Ref sig .tc := ⟨.hbm, 359, rfl⟩
abbrev main_v327 : Ref sig .tc := ⟨.hbm, 360, rfl⟩
abbrev main_v328 : Ref sig .tc := ⟨.hbm, 361, rfl⟩
abbrev main_v329 : Ref sig .tc := ⟨.hbm, 362, rfl⟩
abbrev main_v330 : Ref sig .tc := ⟨.hbm, 363, rfl⟩
abbrev main_v331 : Ref sig .tc := ⟨.hbm, 364, rfl⟩
abbrev main_v332 : Ref sig .tc := ⟨.hbm, 365, rfl⟩
abbrev main_v333 : Ref sig .tc := ⟨.hbm, 366, rfl⟩
abbrev main_cst_17 : Ref sig .tc := ⟨.hbm, 367, rfl⟩
abbrev main_v334 : Ref sig .tc := ⟨.hbm, 368, rfl⟩
abbrev main_v335 : Ref sig .tc := ⟨.hbm, 369, rfl⟩
abbrev main_v336 : Ref sig .tc := ⟨.hbm, 370, rfl⟩
abbrev main_v337 : Ref sig .tc := ⟨.hbm, 371, rfl⟩
abbrev main_v338 : Ref sig .tc := ⟨.hbm, 372, rfl⟩
abbrev main_v339 : Ref sig .tc := ⟨.hbm, 373, rfl⟩
abbrev main_v340 : Ref sig .tc := ⟨.hbm, 374, rfl⟩
abbrev main_v341 : Ref sig .tc := ⟨.hbm, 375, rfl⟩
abbrev main_call2_cst : Ref sig .tc := ⟨.hbm, 376, rfl⟩
abbrev main_call2_v0 : Ref sig .tc := ⟨.hbm, 377, rfl⟩
abbrev main_v342 : Ref sig .tc := ⟨.hbm, 378, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  slices_S400000x2_S400000x1_0_0 : S400000x2.Slices ![0, 0] S400000x1
  shapeCasts_S400000x1_S400000 : S400000x1.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x1_S400000x1_S400000x1_S400000x3_d1 : Shape.Concatenates [S400000x1, S400000x1, S400000x1] S400000x3 1
  slices_S400000x2_S400000x1_0_1 : S400000x2.Slices ![0, 1] S400000x1
  bcast_S400000x3_S400000x3x1_0_1 : S400000x3.BroadcastsInDim S400000x3x1 (![0, 1] : Fin 2 → Fin S400000x3x1.rank)
  bcast_S400000x3_S400000x1x3_0_2 : S400000x3.BroadcastsInDim S400000x1x3 (![0, 2] : Fin 2 → Fin S400000x1x3.rank)
  bcast_S400000x3x1_S400000x3x3_0_1_2 : S400000x3x1.BroadcastsInDim S400000x3x3 (![0, 1, 2] : Fin 3 → Fin S400000x3x3.rank)
  bcast_S400000x1x3_S400000x3x3_0_1_2 : S400000x1x3.BroadcastsInDim S400000x3x3 (![0, 1, 2] : Fin 3 → Fin S400000x3x3.rank)
  shapeCasts_S400000x3x3_S400000x9 : S400000x3x3.ShapeCasts S400000x9
  bcast_S_S400000x32 : S_.BroadcastsInDim S400000x32 (![] : Fin 0 → Fin S400000x32.rank)
  slices_S400000x9_S400000x1_0_0 : S400000x9.Slices ![0, 0] S400000x1
  bcast_S400000x1_S400000x64_0_1 : S400000x1.BroadcastsInDim S400000x64 (![0, 1] : Fin 2 → Fin S400000x64.rank)
  slices_S9x64x32_S1x64x32_0_0_0 : S9x64x32.Slices ![0, 0, 0] S1x64x32
  shapeCasts_S1x64x32_S64x32 : S1x64x32.ShapeCasts S64x32
  slices_S400000x9_S400000x1_0_1 : S400000x9.Slices ![0, 1] S400000x1
  slices_S9x64x32_S1x64x32_1_0_0 : S9x64x32.Slices ![1, 0, 0] S1x64x32
  slices_S400000x9_S400000x1_0_2 : S400000x9.Slices ![0, 2] S400000x1
  slices_S9x64x32_S1x64x32_2_0_0 : S9x64x32.Slices ![2, 0, 0] S1x64x32
  slices_S400000x9_S400000x1_0_3 : S400000x9.Slices ![0, 3] S400000x1
  slices_S9x64x32_S1x64x32_3_0_0 : S9x64x32.Slices ![3, 0, 0] S1x64x32
  slices_S400000x9_S400000x1_0_4 : S400000x9.Slices ![0, 4] S400000x1
  slices_S9x64x32_S1x64x32_4_0_0 : S9x64x32.Slices ![4, 0, 0] S1x64x32
  slices_S400000x9_S400000x1_0_5 : S400000x9.Slices ![0, 5] S400000x1
  slices_S9x64x32_S1x64x32_5_0_0 : S9x64x32.Slices ![5, 0, 0] S1x64x32
  slices_S400000x9_S400000x1_0_6 : S400000x9.Slices ![0, 6] S400000x1
  slices_S9x64x32_S1x64x32_6_0_0 : S9x64x32.Slices ![6, 0, 0] S1x64x32
  slices_S400000x9_S400000x1_0_7 : S400000x9.Slices ![0, 7] S400000x1
  slices_S9x64x32_S1x64x32_7_0_0 : S9x64x32.Slices ![7, 0, 0] S1x64x32
  slices_S400000x9_S400000x1_0_8 : S400000x9.Slices ![0, 8] S400000x1
  slices_S9x64x32_S1x64x32_8_0_0 : S9x64x32.Slices ![8, 0, 0] S1x64x32
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  concatenates_S50000x32_S50000x32_S50000x64_d1 : Shape.Concatenates [S50000x32, S50000x32] S50000x64 1
  bcast_S400000x1_S400000x32_0_1 : S400000x1.BroadcastsInDim S400000x32 (![0, 1] : Fin 2 → Fin S400000x32.rank)
  slices_S9x32x32_S1x32x32_0_0_0 : S9x32x32.Slices ![0, 0, 0] S1x32x32
  shapeCasts_S1x32x32_S32x32 : S1x32x32.ShapeCasts S32x32
  slices_S9x32x32_S1x32x32_1_0_0 : S9x32x32.Slices ![1, 0, 0] S1x32x32
  slices_S9x32x32_S1x32x32_2_0_0 : S9x32x32.Slices ![2, 0, 0] S1x32x32
  slices_S9x32x32_S1x32x32_3_0_0 : S9x32x32.Slices ![3, 0, 0] S1x32x32
  slices_S9x32x32_S1x32x32_4_0_0 : S9x32x32.Slices ![4, 0, 0] S1x32x32
  slices_S9x32x32_S1x32x32_5_0_0 : S9x32x32.Slices ![5, 0, 0] S1x32x32
  slices_S9x32x32_S1x32x32_6_0_0 : S9x32x32.Slices ![6, 0, 0] S1x32x32
  slices_S9x32x32_S1x32x32_7_0_0 : S9x32x32.Slices ![7, 0, 0] S1x32x32
  slices_S9x32x32_S1x32x32_8_0_0 : S9x32x32.Slices ![8, 0, 0] S1x32x32
  gather_S50000x64_S400000x1_S400000x64_1_0_n_n_0_1_164_wf : GatherDims.WF S50000x64 S400000x1 S400000x64 [1] [0] [] [0] [] 1 ![1, 64]
  dot_S400000x64_S64x32_S400000x32_1_0_0_1_n_n_wf : DotDims.WF S400000x64 S64x32 S400000x32 [1] [0] [0] [1] [] []
  scatter_S50000x32_S400000x1_S400000x32_1_0_0_1_wf : ScatterDims.WF S50000x32 S400000x1 S400000x32 [1] [0] [0] 1
  dot_S50000x64_S64x32_S50000x32_1_0_0_1_n_n_wf : DotDims.WF S50000x64 S64x32 S50000x32 [1] [0] [0] [1] [] []
  gather_S50000x32_S400000x1_S400000x32_1_0_n_n_0_1_132_wf : GatherDims.WF S50000x32 S400000x1 S400000x32 [1] [0] [] [0] [] 1 ![1, 32]
  dot_S400000x32_S32x32_S400000x32_1_0_0_1_n_n_wf : DotDims.WF S400000x32 S32x32 S400000x32 [1] [0] [0] [1] [] []
  dot_S50000x32_S32x32_S50000x32_1_0_0_1_n_n_wf : DotDims.WF S50000x32 S32x32 S50000x32 [1] [0] [0] [1] [] []

variable [Facts₀]

def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def dot_S400000x64_S64x32_S400000x32_1_0_0_1_n_n : DotDims S400000x64 S64x32 S400000x32 where
  lhsContracting := [1]
  rhsContracting := [0]
  lhsNonContracting := [0]
  rhsNonContracting := [1]
  lhsBatch := []
  rhsBatch := []
  wf := dot_S400000x64_S64x32_S400000x32_1_0_0_1_n_n_wf
def scatter_S50000x32_S400000x1_S400000x32_1_0_0_1 : ScatterDims S50000x32 S400000x1 S400000x32 where
  updateWindowDims := [1]
  insertedWindowDims := [0]
  scatterDimsToOperandDims := [0]
  indexVectorDim := 1
  wf := scatter_S50000x32_S400000x1_S400000x32_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S400000x1_S400000x32_1_0_n_n_0_1_132 : GatherDims S50000x32 S400000x1 S400000x32 where
  offsetDims := [1]
  collapsedSliceDims := [0]
  operandBatchingDims := []
  startIndicesBatchingDims := []
  startIndexMap := [0]
  indexVectorDim := 1
  sliceSizes := ![1, 32]
  wf := gather_S50000x32_S400000x1_S400000x32_1_0_n_n_0_1_132_wf
def dot_S400000x32_S32x32_S400000x32_1_0_0_1_n_n : DotDims S400000x32 S32x32 S400000x32 where
  lhsContracting := [1]
  rhsContracting := [0]
  lhsNonContracting := [0]
  rhsNonContracting := [1]
  lhsBatch := []
  rhsBatch := []
  wf := dot_S400000x32_S32x32_S400000x32_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf

class Facts : Prop extends Facts₀ where

variable [Facts]
-- ==== Proof.KRun.lean ====
/-
  The kernel program's run with its result named.

  Every weakly fair execution of the kernel program terminates without a fault; at the end the result buffer holds what
  the last of the six pipelines left in its output array — the value at the result buffer of the fold through the
  program's twelve segments (six stretches of host operations, six pipelines) from the launch memory — and the ten
  argument arrays hold what they held at launch.
-/
import proofs.«124089_j37623913513299_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the fold's value there, the arguments as launched. -/
theorem run : θ_run defs (onTc (τ := τ) (main (F := F))) ⟨m, fun _ => 0, ρ⟩ (fun r => ∀ c : Dev nD,
      r.2.mem ((c.tc : Thread nD τ).loc main_v43) = W12 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v43 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.ValueRun

end
-- ==== Proof.Spec.lean ====
/-
  The mathematics of one layer, as functions of whole arrays, on the extended reals.

  A layer sends node features `h` (one row of `C` numbers per node) to new node features in three steps.
  * Along every edge `e`, with source row `x = h[src e]` and the edge's two pseudo-coordinates `(t0, t1)`, the MESSAGE is
      msg e q = Σ_{k < 9} Σ_c (x c · B_k) · W k c q,      B_{3i+j} = b_i(t1) · b_j(t0),
    where `b_0 t = ½·(1 - t)²`, `b_1 t = (-t)·t + t + ½`, `b_2 t = (½·t)·t` are the three quadratic B-spline basis
    functions; the nine terms are added in the order k = 0, 1, …, 8, starting from zero.
  * The messages are summed into their target nodes (a scatter-add, which this module does not open).
  * A node's new row is `max (agg + Σ_c h c · root c q + b q) 0`.
  `edgeRow` and `nodeRow` are the first and third step at one entry; `edgeMsg` and `nodeUpd` are the same for whole
  arrays. Both programs are proved equal to these functions, association of every sum and product included, so no law
  of arithmetic beyond `0 - t = -t` is needed, and finiteness of the inputs is never used.
-/
import Idealize.ShloMosaic.PureOps.Ideal
import Idealize.ShloMosaic.Lib.ValueIdx

noncomputable section

open scoped BigOperators

namespace Cert.Spline

open Idealize.ShloMosaic Idealize.ShloMosaic.ValueIdx

/-- The f32 words of 0, ½ and 1, left as words: both programs spell them with the same words. -/
abbrev w0 : Ideal .f32 := Ideal.ofBits .f32 0x00000000#32
abbrev wHalf : Ideal .f32 := Ideal.ofBits .f32 0x3F000000#32
abbrev wOne : Ideal .f32 := Ideal.ofBits .f32 0x3F800000#32

/-- The three quadratic B-spline basis functions at `t`, associated as both programs compute them. -/
def basis (j : Fin 3) (t : Ideal .f32) : Ideal .f32 :=
  match j with
  | ⟨0, _⟩ => wHalf * ((wOne - t) * (wOne - t))
  | ⟨1, _⟩ => ((-t) * t + t) + wHalf
  | ⟨2, _⟩ => (wHalf * t) * t

/-- One of the nine terms of a message: the source row scaled by `b_i(t1) · b_j(t0)`, times column `q` of `W k`. -/
def term {C : ℕ} (x : Fin C → Ideal .f32) (t0 t1 : Ideal .f32) (i j : Fin 3) (wk : Fin C → Ideal .f32) : Ideal .f32 :=
  ∑ c : Fin C, (x c * (basis i t1 * basis j t0)) * wk c

/-- The message along one edge at one output channel: nine terms added from zero in the order k = 3i + j. -/
def edgeRow {C : ℕ} (x : Fin C → Ideal .f32) (t0 t1 : Ideal .f32) (w : Fin 9 → Fin C → Ideal .f32) : Ideal .f32 :=
  ((((((((w0 + term x t0 t1 0 0 (w 0)) + term x t0 t1 0 1 (w 1)) + term x t0 t1 0 2 (w 2))
    + term x t0 t1 1 0 (w 3)) + term x t0 t1 1 1 (w 4)) + term x t0 t1 1 2 (w 5))
    + term x t0 t1 2 0 (w 6)) + term x t0 t1 2 1 (w 7)) + term x t0 t1 2 2 (w 8)

/-- A node's new value at one channel. -/
def nodeRow {C : ℕ} (agg : Ideal .f32) (h root : Fin C → Ideal .f32) (b : Ideal .f32) : Ideal .f32 :=
  max ((agg + ∑ c : Fin C, h c * root c) + b) w0

/-- The messages of all edges: row `e` of `xj` is the source row of edge `e`, row `e` of `ps` its pseudo-coordinates. -/
def edgeMsg {E C M : ℕ} (xj : FVec Ideal ⟨2, ![E, C]⟩ .f32) (ps : FVec Ideal ⟨2, ![E, 2]⟩ .f32)
    (W : FVec Ideal ⟨3, ![9, C, M]⟩ .f32) : FVec Ideal ⟨2, ![E, M]⟩ .f32 := fun i =>
  edgeRow (fun c => xj (ix2 (⟨(i 0).val, idx2_lt0 i⟩ : Fin E) c))
    (ps (ix2 (⟨(i 0).val, idx2_lt0 i⟩ : Fin E) (0 : Fin 2))) (ps (ix2 (⟨(i 0).val, idx2_lt0 i⟩ : Fin E) (1 : Fin 2)))
    (fun k c => W (ix3 k c (⟨(i 1).val, idx2_lt1 i⟩ : Fin M)))

theorem edgeMsg_apply {E C M : ℕ} (xj : FVec Ideal ⟨2, ![E, C]⟩ .f32) (ps : FVec Ideal ⟨2, ![E, 2]⟩ .f32)
    (W : FVec Ideal ⟨3, ![9, C, M]⟩ .f32) (e : Fin E) (q : Fin M) :
    edgeMsg xj ps W (ix2 e q)
      = edgeRow (fun c => xj (ix2 e c)) (ps (ix2 e (0 : Fin 2))) (ps (ix2 e (1 : Fin 2))) (fun k c => W (ix3 k c q)) := rfl

/-- The node update of all nodes, the bias a vector `[M]`. -/
def nodeUpd {N C M : ℕ} (agg : FVec Ideal ⟨2, ![N, M]⟩ .f32) (h : FVec Ideal ⟨2, ![N, C]⟩ .f32)
    (root : FVec Ideal ⟨2, ![C, M]⟩ .f32) (b : FVec Ideal ⟨1, ![M]⟩ .f32) : FVec Ideal ⟨2, ![N, M]⟩ .f32 := fun i =>
  nodeRow (agg (ix2 (⟨(i 0).val, idx2_lt0 i⟩ : Fin N) (⟨(i 1).val, idx2_lt1 i⟩ : Fin M)))
    (fun c => h (ix2 (⟨(i 0).val, idx2_lt0 i⟩ : Fin N) c)) (fun c => root (ix2 c (⟨(i 1).val, idx2_lt1 i⟩ : Fin M)))
    (b (ix1 (⟨(i 1).val, idx2_lt1 i⟩ : Fin M)))

theorem nodeUpd_apply {N C M : ℕ} (agg : FVec Ideal ⟨2, ![N, M]⟩ .f32) (h : FVec Ideal ⟨2, ![N, C]⟩ .f32)
    (root : FVec Ideal ⟨2, ![C, M]⟩ .f32) (b : FVec Ideal ⟨1, ![M]⟩ .f32) (n : Fin N) (q : Fin M) :
    nodeUpd agg h root b (ix2 n q)
      = nodeRow (agg (ix2 n q)) (fun c => h (ix2 n c)) (fun c => root (ix2 c q)) (b (ix1 q)) := rfl

/-- A bias kept as a one-row matrix `[1, M]`, read back as the vector `[M]`. -/
def rowOf {M : ℕ} (b2 : FVec Ideal ⟨2, ![1, M]⟩ .f32) : FVec Ideal ⟨1, ![M]⟩ .f32 := fun j =>
  b2 (ix2 (0 : Fin 1) (⟨(j 0).val, (j 0).isLt⟩ : Fin M))

theorem rowOf_apply {M : ℕ} (b2 : FVec Ideal ⟨2, ![1, M]⟩ .f32) (q : Fin M) : rowOf b2 (ix1 q) = b2 (ix2 (0 : Fin 1) q) := rfl

end Cert.Spline

end
-- ==== Proof.KHost.lean ====
/-
  The kernel program's host operations between its six pipelines, read one stretch at a time.

  The program alternates stretches of host operations with pipelines. What a stretch leaves in the buffers it writes is
  a function of what the stretch found; the lemmas below state, for each buffer that a later pipeline or stretch reads,
  that function — directly as the reference program's stage of the same name of its arguments, whenever the buffers the
  stretch reads already hold the reference's stages. Both programs index, gather, scatter-add and concatenate with the
  same host operations in the same order, so each of these equations holds by unfolding the two spellings.
  A bias vector `[32]` viewed as a one-row matrix `[1, 32]` and read back along its row is the vector.
-/
import proofs.«124089_j37623913513299_2_alg».proof.Proof.Gen.KernelIdeal.Frame
import proofs.«124089_j37623913513299_2_alg».proof.Proof.ReadP
import proofs.«124089_j37623913513299_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

/-! ## The stretches, at any contents `W` of the buffers -/

section Stretches

variable (W : Valuation τ sig (Elt Ideal))

/-- Stretch 0: the gathered source rows of layer 1, and the two index vectors every layer reads. -/
theorem s0_v10 : StableHlo.after hostOps0 W (Proc.devRef .tc main_v10)
    = Cert.ReferenceIdeal.ReadP.val_main_v54 (F := Ideal) (W (Proc.devRef .tc main_arg0)) (W (Proc.devRef .tc main_arg1)) := by
  after_results; rfl
theorem s0_v1 : StableHlo.after hostOps0 W (Proc.devRef .tc main_v1) = Cert.ReferenceIdeal.ReadP.val_main_v1 (F := Ideal) (W (Proc.devRef .tc main_arg1)) := by
  after_results; rfl
theorem s0_v3 : StableHlo.after hostOps0 W (Proc.devRef .tc main_v3) = Cert.ReferenceIdeal.ReadP.val_main_v3 (F := Ideal) (W (Proc.devRef .tc main_arg1)) := by
  after_results; rfl

/-- Stretch 1: layer 1's messages summed into their target nodes; the bias as a one-row matrix. -/
theorem s1_v14 (x0 : (⟨Cert.ReferenceIdeal.S50000x64, .f32⟩ : BufTy).Contents (Elt Ideal)) (x1 : (⟨Cert.ReferenceIdeal.S2x400000, .i32⟩ : BufTy).Contents (Elt Ideal)) (x2 : (⟨Cert.ReferenceIdeal.S400000x2, .f32⟩ : BufTy).Contents (Elt Ideal)) (x4 : (⟨Cert.ReferenceIdeal.S9x64x32, .f32⟩ : BufTy).Contents (Elt Ideal))
    (h3 : W (Proc.devRef .tc main_v3) = Cert.ReferenceIdeal.ReadP.val_main_v3 (F := Ideal) x1) (h11 : W (Proc.devRef .tc main_v11) = Cert.ReferenceIdeal.ReadP.val_main_v136 (F := Ideal) x0 x1 x2 x4) :
    StableHlo.after hostOps1 W (Proc.devRef .tc main_v14) = Cert.ReferenceIdeal.ReadP.val_main_v139 (F := Ideal) x0 x1 x2 x4 := by
  after_results; rw [h3, h11]; rfl
theorem s1_v15 : StableHlo.after hostOps1 W (Proc.devRef .tc main_v15) = shapeCast S1x32 (W (Proc.devRef .tc main_arg6)) shapeCasts_S32_S1x32 := by
  after_results; rfl

/-- Stretch 2: layer 1's output joined with the skip features, and its rows gathered along the edges. -/
theorem s2_v17 (x0 : (⟨Cert.ReferenceIdeal.S50000x64, .f32⟩ : BufTy).Contents (Elt Ideal)) (x1 : (⟨Cert.ReferenceIdeal.S2x400000, .i32⟩ : BufTy).Contents (Elt Ideal)) (x2 : (⟨Cert.ReferenceIdeal.S400000x2, .f32⟩ : BufTy).Contents (Elt Ideal)) (x3 : (⟨Cert.ReferenceIdeal.S50000x32, .f32⟩ : BufTy).Contents (Elt Ideal)) (x4 : (⟨Cert.ReferenceIdeal.S9x64x32, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal))
    (h16 : W (Proc.devRef .tc main_v16) = Cert.ReferenceIdeal.ReadP.val_main_v145 (F := Ideal) x0 x1 x2 x4 x5 x6) (ha3 : W (Proc.devRef .tc main_arg3) = x3) :
    StableHlo.after hostOps2 W (Proc.devRef .tc main_v17) = Cert.ReferenceIdeal.ReadP.val_main_v146 (F := Ideal) x0 x1 x2 x3 x4 x5 x6 := by
  after_results; rw [h16, ha3]; rfl
theorem s2_v24 (x0 : (⟨Cert.ReferenceIdeal.S50000x64, .f32⟩ : BufTy).Contents (Elt Ideal)) (x1 : (⟨Cert.ReferenceIdeal.S2x400000, .i32⟩ : BufTy).Contents (Elt Ideal)) (x2 : (⟨Cert.ReferenceIdeal.S400000x2, .f32⟩ : BufTy).Contents (Elt Ideal)) (x3 : (⟨Cert.ReferenceIdeal.S50000x32, .f32⟩ : BufTy).Contents (Elt Ideal)) (x4 : (⟨Cert.ReferenceIdeal.S9x64x32, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal))
    (h16 : W (Proc.devRef .tc main_v16) = Cert.ReferenceIdeal.ReadP.val_main_v145 (F := Ideal) x0 x1 x2 x4 x5 x6) (ha3 : W (Proc.devRef .tc main_arg3) = x3) (h1 : W (Proc.devRef .tc main_v1) = Cert.ReferenceIdeal.ReadP.val_main_v1 (F := Ideal) x1) :
    StableHlo.after hostOps2 W (Proc.devRef .tc main_v24) = Cert.ReferenceIdeal.ReadP.val_main_v153 (F := Ideal) x0 x1 x2 x3 x4 x5 x6 := by
  after_results; rw [h16, ha3, h1]; rfl

/-- Stretch 3: layer 2's messages summed into their target nodes; the bias as a one-row matrix. -/
theorem s3_v28 (x0 : (⟨Cert.ReferenceIdeal.S50000x64, .f32⟩ : BufTy).Contents (Elt Ideal)) (x1 : (⟨Cert.ReferenceIdeal.S2x400000, .i32⟩ : BufTy).Contents (Elt Ideal)) (x2 : (⟨Cert.ReferenceIdeal.S400000x2, .f32⟩ : BufTy).Contents (Elt Ideal)) (x3 : (⟨Cert.ReferenceIdeal.S50000x32, .f32⟩ : BufTy).Contents (Elt Ideal)) (x4 : (⟨Cert.ReferenceIdeal.S9x64x32, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal))
    (h3 : W (Proc.devRef .tc main_v3) = Cert.ReferenceIdeal.ReadP.val_main_v3 (F := Ideal) x1) (h25 : W (Proc.devRef .tc main_v25) = Cert.ReferenceIdeal.ReadP.val_main_v235 (F := Ideal) x0 x1 x2 x3 x4 x5 x6) :
    StableHlo.after hostOps3 W (Proc.devRef .tc main_v28) = Cert.ReferenceIdeal.ReadP.val_main_v238 (F := Ideal) x0 x1 x2 x3 x4 x5 x6 := by
  after_results; rw [h3, h25]; rfl
theorem s3_v29 : StableHlo.after hostOps3 W (Proc.devRef .tc main_v29) = shapeCast S1x32 (W (Proc.devRef .tc main_arg6)) shapeCasts_S32_S1x32 := by
  after_results; rfl

/-- Stretch 4: layer 2's output gathered along the edges. -/
theorem s4_v37 (x0 : (⟨Cert.ReferenceIdeal.S50000x64, .f32⟩ : BufTy).Contents (Elt Ideal)) (x1 : (⟨Cert.ReferenceIdeal.S2x400000, .i32⟩ : BufTy).Contents (Elt Ideal)) (x2 : (⟨Cert.ReferenceIdeal.S400000x2, .f32⟩ : BufTy).Contents (Elt Ideal)) (x3 : (⟨Cert.ReferenceIdeal.S50000x32, .f32⟩ : BufTy).Contents (Elt Ideal)) (x4 : (⟨Cert.ReferenceIdeal.S9x64x32, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal))
    (h30 : W (Proc.devRef .tc main_v30) = Cert.ReferenceIdeal.ReadP.val_main_v244 (F := Ideal) x0 x1 x2 x3 x4 x5 x6) (h1 : W (Proc.devRef .tc main_v1) = Cert.ReferenceIdeal.ReadP.val_main_v1 (F := Ideal) x1) :
    StableHlo.after hostOps4 W (Proc.devRef .tc main_v37) = Cert.ReferenceIdeal.ReadP.val_main_v251 (F := Ideal) x0 x1 x2 x3 x4 x5 x6 := by
  after_results; rw [h30, h1]; rfl

/-- Stretch 5: layer 3's messages summed into their target nodes; the bias as a one-row matrix. -/
theorem s5_v41 (x0 : (⟨Cert.ReferenceIdeal.S50000x64, .f32⟩ : BufTy).Contents (Elt Ideal)) (x1 : (⟨Cert.ReferenceIdeal.S2x400000, .i32⟩ : BufTy).Contents (Elt Ideal)) (x2 : (⟨Cert.ReferenceIdeal.S400000x2, .f32⟩ : BufTy).Contents (Elt Ideal)) (x3 : (⟨Cert.ReferenceIdeal.S50000x32, .f32⟩ : BufTy).Contents (Elt Ideal)) (x4 : (⟨Cert.ReferenceIdeal.S9x64x32, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal)) (x7 : (⟨Cert.ReferenceIdeal.S9x32x32, .f32⟩ : BufTy).Contents (Elt Ideal))
    (h3 : W (Proc.devRef .tc main_v3) = Cert.ReferenceIdeal.ReadP.val_main_v3 (F := Ideal) x1) (h38 : W (Proc.devRef .tc main_v38) = Cert.ReferenceIdeal.ReadP.val_main_v333 (F := Ideal) x0 x1 x2 x3 x4 x5 x6 x7) :
    StableHlo.after hostOps5 W (Proc.devRef .tc main_v41) = Cert.ReferenceIdeal.ReadP.val_main_v336 (F := Ideal) x0 x1 x2 x3 x4 x5 x6 x7 := by
  after_results; rw [h3, h38]; rfl
theorem s5_v42 : StableHlo.after hostOps5 W (Proc.devRef .tc main_v42) = shapeCast S1x32 (W (Proc.devRef .tc main_arg9)) shapeCasts_S32_S1x32 := by
  after_results; rfl

end Stretches

/-! ## The bias row -/

/-- A vector of 32 numbers viewed as a 1 × 32 matrix, read back along its one row, is the vector: position `q` of the
    vector is position `0 · 32 + q` of the matrix. -/
theorem rowOf_reshape (b : FVec Ideal S32 .f32) : Cert.Spline.rowOf (shapeCast S1x32 b shapeCasts_S32_S1x32) = b := by
  funext j
  obtain ⟨q, rfl⟩ : ∃ q : Fin 32, j = ValueIdx.ix1 q := ⟨j 0, ValueIdx.eq_ix1 j⟩
  rw [Cert.Spline.rowOf_apply]
  exact shapeCast_apply b shapeCasts_S32_S1x32 (ValueIdx.ix2 (0 : Fin 1) q) (ValueIdx.ix1 q) (by
    rw [Shape.rowMajor_val_one, Shape.rowMajor_val_two]
    show q.val = 0 * 32 + q.val
    omega)

end Cert.KernelIdeal.Val

end
-- ==== Proof.KWalks.lean ====
/- A table of cases.
  Which segment writes which buffer. The kernel program's buffer contents at its thirteen segment boundaries are a fold
  `W0, W1, …, W12` from the launch memory: a stretch of host operations changes only the buffers its operations write, a
  pipeline only its output array. For each buffer that a later segment reads, the chain below steps from the boundary
  where it is read back to the boundary where it was produced — the launch memory for an argument array, boundary 1 for
  the two index vectors — one step per segment that leaves it alone (for an argument that a pipeline reads through an
  input window: the window's array is as the pipeline found it).
-/
import proofs.«124089_j37623913513299_2_alg».proof.Proof.Gen.KernelIdeal.Frame
import proofs.«124089_j37623913513299_2_alg».proof.Proof.KHost

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer that no operation of a stretch writes holds after the stretch what it held before. -/
macro "not_written" : tactic => `(tactic| (
  refine StableHlo.after_of_forall_not_mem _ _ (List.forall_iff_forall_mem.mp ?_)
  simp only [hostOps0, hostOps1, hostOps2, hostOps3, hostOps4, hostOps5, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- The two index vectors after the first stretch. -/
theorem W1_v1 : W1 m ρ c (Proc.devRef .tc main_v1) = Cert.ReferenceIdeal.ReadP.val_main_v1 (F := Ideal) (m ((c : Thread nD τ).loc main_arg1)) := s0_v1 (W0 m ρ c)
theorem W1_v3 : W1 m ρ c (Proc.devRef .tc main_v3) = Cert.ReferenceIdeal.ReadP.val_main_v3 (F := Ideal) (m ((c : Thread nD τ).loc main_arg1)) := s0_v3 (W0 m ρ c)

theorem wlk_arg2_1 : W1 m ρ c (Proc.devRef .tc main_arg2) = m ((c : Thread nD τ).loc main_arg2) :=
  calc W1 m ρ c (Proc.devRef .tc main_arg2)
    _ = W0 m ρ c (Proc.devRef .tc main_arg2) := (by not_written)
    _ = m ((c : Thread nD τ).loc main_arg2) := rfl

theorem wlk_arg4_1 : W1 m ρ c (Proc.devRef .tc main_arg4) = m ((c : Thread nD τ).loc main_arg4) :=
  calc W1 m ρ c (Proc.devRef .tc main_arg4)
    _ = W0 m ρ c (Proc.devRef .tc main_arg4) := (by not_written)
    _ = m ((c : Thread nD τ).loc main_arg4) := rfl

theorem wlk_arg6_2 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := (by not_written)
    _ = m ((c : Thread nD τ).loc main_arg6) := rfl

theorem wlk_arg0_3 : W3 m ρ c (Proc.devRef .tc main_arg0) = m ((c : Thread nD τ).loc main_arg0) :=
  calc W3 m ρ c (Proc.devRef .tc main_arg0)
    _ = W2 m ρ c (Proc.devRef .tc main_arg0) := (by not_written)
    _ = W1 m ρ c (Proc.devRef .tc main_arg0) := W2_of_ne m ρ c main_arg0 (by decide)
    _ = W0 m ρ c (Proc.devRef .tc main_arg0) := (by not_written)
    _ = m ((c : Thread nD τ).loc main_arg0) := rfl

theorem wlk_arg5_3 : W3 m ρ c (Proc.devRef .tc main_arg5) = m ((c : Thread nD τ).loc main_arg5) :=
  calc W3 m ρ c (Proc.devRef .tc main_arg5)
    _ = W2 m ρ c (Proc.devRef .tc main_arg5) := (by not_written)
    _ = W1 m ρ c (Proc.devRef .tc main_arg5) := W2_of_ne m ρ c main_arg5 (by decide)
    _ = W0 m ρ c (Proc.devRef .tc main_arg5) := (by not_written)
    _ = m ((c : Thread nD τ).loc main_arg5) := rfl

theorem wlk_arg3_4 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := (by not_written)
    _ = W1 m ρ c (Proc.devRef .tc main_arg3) := W2_of_ne m ρ c main_arg3 (by decide)
    _ = W0 m ρ c (Proc.devRef .tc main_arg3) := (by not_written)
    _ = m ((c : Thread nD τ).loc main_arg3) := rfl

theorem wlk_arg2_5 : W5 m ρ c (Proc.devRef .tc main_arg2) = m ((c : Thread nD τ).loc main_arg2) :=
  calc W5 m ρ c (Proc.devRef .tc main_arg2)
    _ = W4 m ρ c (Proc.devRef .tc main_arg2) := (by not_written)
    _ = W3 m ρ c (Proc.devRef .tc main_arg2) := W4_of_ne m ρ c main_arg2 (by decide)
    _ = W2 m ρ c (Proc.devRef .tc main_arg2) := (by not_written)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := (by not_written)
    _ = m ((c : Thread nD τ).loc main_arg2) := rfl

theorem wlk_arg4_5 : W5 m ρ c (Proc.devRef .tc main_arg4) = m ((c : Thread nD τ).loc main_arg4) :=
  calc W5 m ρ c (Proc.devRef .tc main_arg4)
    _ = W4 m ρ c (Proc.devRef .tc main_arg4) := (by not_written)
    _ = W3 m ρ c (Proc.devRef .tc main_arg4) := W4_of_ne m ρ c main_arg4 (by decide)
    _ = W2 m ρ c (Proc.devRef .tc main_arg4) := (by not_written)
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := (by not_written)
    _ = m ((c : Thread nD τ).loc main_arg4) := rfl

theorem wlk_arg6_6 : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := (by not_written)
    _ = W3 m ρ c (Proc.devRef .tc main_arg6) := W4_of_ne m ρ c main_arg6 (by decide)
    _ = W2 m ρ c (Proc.devRef .tc main_arg6) := (by not_written)
    _ = W1 m ρ c (Proc.devRef .tc main_arg6) := W2_of_ne m ρ c main_arg6 (by decide)
    _ = W0 m ρ c (Proc.devRef .tc main_arg6) := (by not_written)
    _ = m ((c : Thread nD τ).loc main_arg6) := rfl

theorem wlk_arg5_7 : W7 m ρ c (Proc.devRef .tc main_arg5) = m ((c : Thread nD τ).loc main_arg5) :=
  calc W7 m ρ c (Proc.devRef .tc main_arg5)
    _ = W6 m ρ c (Proc.devRef .tc main_arg5) := (by not_written)
    _ = W5 m ρ c (Proc.devRef .tc main_arg5) := W6_of_ne m ρ c main_arg5 (by decide)
    _ = W4 m ρ c (Proc.devRef .tc main_arg5) := (by not_written)
    _ = W3 m ρ c (Proc.devRef .tc main_arg5) := (W4_arr m ρ c 2).trans (((dat1 (V3 m ρ) c).arrAt_in 2 rfl _).trans (A_eq1 (V3 m ρ) c 2))
    _ = W2 m ρ c (Proc.devRef .tc main_arg5) := (by not_written)
    _ = W1 m ρ c (Proc.devRef .tc main_arg5) := W2_of_ne m ρ c main_arg5 (by decide)
    _ = W0 m ρ c (Proc.devRef .tc main_arg5) := (by not_written)
    _ = m ((c : Thread nD τ).loc main_arg5) := rfl

theorem wlk_arg2_9 : W9 m ρ c (Proc.devRef .tc main_arg2) = m ((c : Thread nD τ).loc main_arg2) :=
  calc W9 m ρ c (Proc.devRef .tc main_arg2)
    _ = W8 m ρ c (Proc.devRef .tc main_arg2) := (by not_written)
    _ = W7 m ρ c (Proc.devRef .tc main_arg2) := W8_of_ne m ρ c main_arg2 (by decide)
    _ = W6 m ρ c (Proc.devRef .tc main_arg2) := (by not_written)
    _ = W5 m ρ c (Proc.devRef .tc main_arg2) := (W6_arr m ρ c 1).trans (((dat2 (V5 m ρ) c).arrAt_in 1 rfl _).trans (A_eq2 (V5 m ρ) c 1))
    _ = W4 m ρ c (Proc.devRef .tc main_arg2) := (by not_written)
    _ = W3 m ρ c (Proc.devRef .tc main_arg2) := W4_of_ne m ρ c main_arg2 (by decide)
    _ = W2 m ρ c (Proc.devRef .tc main_arg2) := (by not_written)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := (by not_written)
    _ = m ((c : Thread nD τ).loc main_arg2) := rfl

theorem wlk_arg7_9 : W9 m ρ c (Proc.devRef .tc main_arg7) = m ((c : Thread nD τ).loc main_arg7) :=
  calc W9 m ρ c (Proc.devRef .tc main_arg7)
    _ = W8 m ρ c (Proc.devRef .tc main_arg7) := (by not_written)
    _ = W7 m ρ c (Proc.devRef .tc main_arg7) := W8_of_ne m ρ c main_arg7 (by decide)
    _ = W6 m ρ c (Proc.devRef .tc main_arg7) := (by not_written)
    _ = W5 m ρ c (Proc.devRef .tc main_arg7) := W6_of_ne m ρ c main_arg7 (by decide)
    _ = W4 m ρ c (Proc.devRef .tc main_arg7) := (by not_written)
    _ = W3 m ρ c (Proc.devRef .tc main_arg7) := W4_of_ne m ρ c main_arg7 (by decide)
    _ = W2 m ρ c (Proc.devRef .tc main_arg7) := (by not_written)
    _ = W1 m ρ c (Proc.devRef .tc main_arg7) := W2_of_ne m ρ c main_arg7 (by decide)
    _ = W0 m ρ c (Proc.devRef .tc main_arg7) := (by not_written)
    _ = m ((c : Thread nD τ).loc main_arg7) := rfl

theorem wlk_arg9_10 : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := (by not_written)
    _ = W7 m ρ c (Proc.devRef .tc main_arg9) := W8_of_ne m ρ c main_arg9 (by decide)
    _ = W6 m ρ c (Proc.devRef .tc main_arg9) := (by not_written)
    _ = W5 m ρ c (Proc.devRef .tc main_arg9) := W6_of_ne m ρ c main_arg9 (by decide)
    _ = W4 m ρ c (Proc.devRef .tc main_arg9) := (by not_written)
    _ = W3 m ρ c (Proc.devRef .tc main_arg9) := W4_of_ne m ρ c main_arg9 (by decide)
    _ = W2 m ρ c (Proc.devRef .tc main_arg9) := (by not_written)
    _ = W1 m ρ c (Proc.devRef .tc main_arg9) := W2_of_ne m ρ c main_arg9 (by decide)
    _ = W0 m ρ c (Proc.devRef .tc main_arg9) := (by not_written)
    _ = m ((c : Thread nD τ).loc main_arg9) := rfl

theorem wlk_arg8_11 : W11 m ρ c (Proc.devRef .tc main_arg8) = m ((c : Thread nD τ).loc main_arg8) :=
  calc W11 m ρ c (Proc.devRef .tc main_arg8)
    _ = W10 m ρ c (Proc.devRef .tc main_arg8) := (by not_written)
    _ = W9 m ρ c (Proc.devRef .tc main_arg8) := W10_of_ne m ρ c main_arg8 (by decide)
    _ = W8 m ρ c (Proc.devRef .tc main_arg8) := (by not_written)
    _ = W7 m ρ c (Proc.devRef .tc main_arg8) := W8_of_ne m ρ c main_arg8 (by decide)
    _ = W6 m ρ c (Proc.devRef .tc main_arg8) := (by not_written)
    _ = W5 m ρ c (Proc.devRef .tc main_arg8) := W6_of_ne m ρ c main_arg8 (by decide)
    _ = W4 m ρ c (Proc.devRef .tc main_arg8) := (by not_written)
    _ = W3 m ρ c (Proc.devRef .tc main_arg8) := W4_of_ne m ρ c main_arg8 (by decide)
    _ = W2 m ρ c (Proc.devRef .tc main_arg8) := (by not_written)
    _ = W1 m ρ c (Proc.devRef .tc main_arg8) := W2_of_ne m ρ c main_arg8 (by decide)
    _ = W0 m ρ c (Proc.devRef .tc main_arg8) := (by not_written)
    _ = m ((c : Thread nD τ).loc main_arg8) := rfl

theorem wlk_v3_2 : W2 m ρ c (Proc.devRef .tc main_v3) = Cert.ReferenceIdeal.ReadP.val_main_v3 (F := Ideal) (m ((c : Thread nD τ).loc main_arg1)) :=
  calc W2 m ρ c (Proc.devRef .tc main_v3)
    _ = W1 m ρ c (Proc.devRef .tc main_v3) := W2_of_ne m ρ c main_v3 (by decide)
    _ = Cert.ReferenceIdeal.ReadP.val_main_v3 (F := Ideal) (m ((c : Thread nD τ).loc main_arg1)) := W1_v3 m ρ c

theorem wlk_v3_6 : W6 m ρ c (Proc.devRef .tc main_v3) = Cert.ReferenceIdeal.ReadP.val_main_v3 (F := Ideal) (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := (by not_written)
    _ = W3 m ρ c (Proc.devRef .tc main_v3) := W4_of_ne m ρ c main_v3 (by decide)
    _ = W2 m ρ c (Proc.devRef .tc main_v3) := (by not_written)
    _ = W1 m ρ c (Proc.devRef .tc main_v3) := W2_of_ne m ρ c main_v3 (by decide)
    _ = Cert.ReferenceIdeal.ReadP.val_main_v3 (F := Ideal) (m ((c : Thread nD τ).loc main_arg1)) := W1_v3 m ρ c

theorem wlk_v3_10 : W10 m ρ c (Proc.devRef .tc main_v3) = Cert.ReferenceIdeal.ReadP.val_main_v3 (F := Ideal) (m ((c : Thread nD τ).loc main_arg1)) :=
  calc W10 m ρ c (Proc.devRef .tc main_v3)
    _ = W9 m ρ c (Proc.devRef .tc main_v3) := W10_of_ne m ρ c main_v3 (by decide)
    _ = W8 m ρ c (Proc.devRef .tc main_v3) := (by not_written)
    _ = W7 m ρ c (Proc.devRef .tc main_v3) := W8_of_ne m ρ c main_v3 (by decide)
    _ = W6 m ρ c (Proc.devRef .tc main_v3) := (by not_written)
    _ = W5 m ρ c (Proc.devRef .tc main_v3) := W6_of_ne m ρ c main_v3 (by decide)
    _ = W4 m ρ c (Proc.devRef .tc main_v3) := (by not_written)
    _ = W3 m ρ c (Proc.devRef .tc main_v3) := W4_of_ne m ρ c main_v3 (by decide)
    _ = W2 m ρ c (Proc.devRef .tc main_v3) := (by not_written)
    _ = W1 m ρ c (Proc.devRef .tc main_v3) := W2_of_ne m ρ c main_v3 (by decide)
    _ = Cert.ReferenceIdeal.ReadP.val_main_v3 (F := Ideal) (m ((c : Thread nD τ).loc main_arg1)) := W1_v3 m ρ c

theorem wlk_v1_4 : W4 m ρ c (Proc.devRef .tc main_v1) = Cert.ReferenceIdeal.ReadP.val_main_v1 (F := Ideal) (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := (by not_written)
    _ = W1 m ρ c (Proc.devRef .tc main_v1) := W2_of_ne m ρ c main_v1 (by decide)
    _ = Cert.ReferenceIdeal.ReadP.val_main_v1 (F := Ideal) (m ((c : Thread nD τ).loc main_arg1)) := W1_v1 m ρ c

theorem wlk_v1_8 : W8 m ρ c (Proc.devRef .tc main_v1) = Cert.ReferenceIdeal.ReadP.val_main_v1 (F := Ideal) (m ((c : Thread nD τ).loc main_arg1)) :=
  calc W8 m ρ c (Proc.devRef .tc main_v1)
    _ = W7 m ρ c (Proc.devRef .tc main_v1) := W8_of_ne m ρ c main_v1 (by decide)
    _ = W6 m ρ c (Proc.devRef .tc main_v1) := (by not_written)
    _ = W5 m ρ c (Proc.devRef .tc main_v1) := W6_of_ne m ρ c main_v1 (by decide)
    _ = W4 m ρ c (Proc.devRef .tc main_v1) := (by not_written)
    _ = W3 m ρ c (Proc.devRef .tc main_v1) := W4_of_ne m ρ c main_v1 (by decide)
    _ = W2 m ρ c (Proc.devRef .tc main_v1) := (by not_written)
    _ = W1 m ρ c (Proc.devRef .tc main_v1) := W2_of_ne m ρ c main_v1 (by decide)
    _ = Cert.ReferenceIdeal.ReadP.val_main_v1 (F := Ideal) (m ((c : Thread nD τ).loc main_arg1)) := W1_v1 m ρ c

theorem wlk_v17_7 : W7 m ρ c (Proc.devRef .tc main_v17) = W5 m ρ c (Proc.devRef .tc main_v17) :=
  calc W7 m ρ c (Proc.devRef .tc main_v17)
    _ = W6 m ρ c (Proc.devRef .tc main_v17) := (by not_written)
    _ = W5 m ρ c (Proc.devRef .tc main_v17) := W6_of_ne m ρ c main_v17 (by decide)

theorem wlk_v30_11 : W11 m ρ c (Proc.devRef .tc main_v30) = W8 m ρ c (Proc.devRef .tc main_v30) :=
  calc W11 m ρ c (Proc.devRef .tc main_v30)
    _ = W10 m ρ c (Proc.devRef .tc main_v30) := (by not_written)
    _ = W9 m ρ c (Proc.devRef .tc main_v30) := W10_of_ne m ρ c main_v30 (by decide)
    _ = W8 m ρ c (Proc.devRef .tc main_v30) := (by not_written)

end Cert.KernelIdeal.Val

end
-- ==== Proof.KChain.lean ====
/-
  The kernel program's result is the reference's last stage of the same arguments.

  Layer by layer: the pipeline that computes a layer's messages leaves `edgeMsg` of the gathered rows, the
  pseudo-coordinates and the layer's weights in its output array, and the reference's message stage is the same `edgeMsg`
  of its own gathered rows; the two gathers are the same host operation of equal operands. The scatter-add that follows is
  the same host operation of equal operands again. The pipeline that updates the nodes leaves `nodeUpd` of the summed
  messages, the layer's input features, the root weights and the bias, and so does the reference's node stage. Between
  the layers both programs join layer 1's output with the skip features by the same concatenation. So the buffers of the
  kernel program hold, boundary after boundary, the reference's stages of the launch contents of the arguments.
  Each lemma takes as hypotheses what the pipelines leave (`hf0 … hf5`) and what the reference's stages are
  (`hm1 … hn3`), and the boundaries before it (`e11`, `e16`, …).
-/
import proofs.«124089_j37623913513299_2_alg».proof.Proof.KWalks

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

/-- Boundary 2: layer 1's messages. -/
theorem at_v11
    (hf0 : ∀ (V : ((c : Dev nD) → (b : Ref sig .tc) → Buf (Elt Ideal) ((c : Thread nD τ).loc b))) (c : Dev nD), (dat0 (F := Ideal) V c).arrAt 3 cfg0.N = Cert.Spline.edgeMsg (E := 400000) (C := 64) (M := 32) (V c main_v10) (V c main_arg2) (V c main_arg4))
    (hm1 : ∀ (x0 : (⟨Cert.ReferenceIdeal.S50000x64, .f32⟩ : BufTy).Contents (Elt Ideal)) (x1 : (⟨Cert.ReferenceIdeal.S2x400000, .i32⟩ : BufTy).Contents (Elt Ideal)) (x2 : (⟨Cert.ReferenceIdeal.S400000x2, .f32⟩ : BufTy).Contents (Elt Ideal)) (x4 : (⟨Cert.ReferenceIdeal.S9x64x32, .f32⟩ : BufTy).Contents (Elt Ideal)), Cert.ReferenceIdeal.ReadP.val_main_v136 (F := Ideal) x0 x1 x2 x4 = Cert.Spline.edgeMsg (Cert.ReferenceIdeal.ReadP.val_main_v54 (F := Ideal) x0 x1) x2 x4)
    (m : (ℓ : Loc nD τ sig) → Buf (Elt Ideal) ℓ) (ρ : Dev nD → PrngReg) (c : Dev nD) :
    W2 m ρ c (Proc.devRef .tc main_v11) = Cert.ReferenceIdeal.ReadP.val_main_v136 (F := Ideal) (m ((c : Thread nD τ).loc main_arg0)) (m ((c : Thread nD τ).loc main_arg1)) (m ((c : Thread nD τ).loc main_arg2)) (m ((c : Thread nD τ).loc main_arg4)) := by
  refine (W2_arr m ρ c 3).trans ((hf0 (V1 m ρ) c).trans ?_)
  rw [hm1]
  show Cert.Spline.edgeMsg (E := 400000) (C := 64) (M := 32) (W1 m ρ c (Proc.devRef .tc main_v10)) (W1 m ρ c (Proc.devRef .tc main_arg2)) (W1 m ρ c (Proc.devRef .tc main_arg4)) = _
  have h10 : W1 m ρ c (Proc.devRef .tc main_v10) = Cert.ReferenceIdeal.ReadP.val_main_v54 (F := Ideal) (m ((c : Thread nD τ).loc main_arg0)) (m ((c : Thread nD τ).loc main_arg1)) := s0_v10 (W0 m ρ c)
  rw [h10, wlk_arg2_1 m ρ c, wlk_arg4_1 m ρ c]

/-- Boundary 4: layer 1's output. -/
theorem at_v16
    (hf1 : ∀ (V : ((c : Dev nD) → (b : Ref sig .tc) → Buf (Elt Ideal) ((c : Thread nD τ).loc b))) (c : Dev nD), (dat1 (F := Ideal) V c).arrAt 4 cfg1.N = Cert.Spline.nodeUpd (N := 50000) (C := 64) (M := 32) (V c main_v14) (V c main_arg0) (V c main_arg5) (Cert.Spline.rowOf (M := 32) (V c main_v15)))
    (hn1 : ∀ (x0 : (⟨Cert.ReferenceIdeal.S50000x64, .f32⟩ : BufTy).Contents (Elt Ideal)) (x1 : (⟨Cert.ReferenceIdeal.S2x400000, .i32⟩ : BufTy).Contents (Elt Ideal)) (x2 : (⟨Cert.ReferenceIdeal.S400000x2, .f32⟩ : BufTy).Contents (Elt Ideal)) (x4 : (⟨Cert.ReferenceIdeal.S9x64x32, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal)), Cert.ReferenceIdeal.ReadP.val_main_v145 (F := Ideal) x0 x1 x2 x4 x5 x6 = Cert.Spline.nodeUpd (Cert.ReferenceIdeal.ReadP.val_main_v139 (F := Ideal) x0 x1 x2 x4) x0 x5 x6)
    (m : (ℓ : Loc nD τ sig) → Buf (Elt Ideal) ℓ) (ρ : Dev nD → PrngReg) (c : Dev nD)
    (e11 : W2 m ρ c (Proc.devRef .tc main_v11) = Cert.ReferenceIdeal.ReadP.val_main_v136 (F := Ideal) (m ((c : Thread nD τ).loc main_arg0)) (m ((c : Thread nD τ).loc main_arg1)) (m ((c : Thread nD τ).loc main_arg2)) (m ((c : Thread nD τ).loc main_arg4))) :
    W4 m ρ c (Proc.devRef .tc main_v16) = Cert.ReferenceIdeal.ReadP.val_main_v145 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (W4_arr m ρ c 4).trans ((hf1 (V3 m ρ) c).trans ?_)
  rw [hn1]
  show Cert.Spline.nodeUpd (N := 50000) (C := 64) (M := 32) (W3 m ρ c (Proc.devRef .tc main_v14)) (W3 m ρ c (Proc.devRef .tc main_arg0)) (W3 m ρ c (Proc.devRef .tc main_arg5)) (Cert.Spline.rowOf (M := 32) (W3 m ρ c (Proc.devRef .tc main_v15))) = _
  have h14 : W3 m ρ c (Proc.devRef .tc main_v14) = Cert.ReferenceIdeal.ReadP.val_main_v139 (F := Ideal) (m ((c : Thread nD τ).loc main_arg0)) (m ((c : Thread nD τ).loc main_arg1)) (m ((c : Thread nD τ).loc main_arg2)) (m ((c : Thread nD τ).loc main_arg4)) := s1_v14 (W2 m ρ c) _ _ _ _ (wlk_v3_2 m ρ c) e11
  have h15 : W3 m ρ c (Proc.devRef .tc main_v15) = shapeCast S1x32 (m ((c : Thread nD τ).loc main_arg6)) shapeCasts_S32_S1x32 :=
    (s1_v15 (W2 m ρ c)).trans (congrArg (fun b => shapeCast S1x32 b shapeCasts_S32_S1x32) (wlk_arg6_2 m ρ c))
  rw [h14, h15, rowOf_reshape, wlk_arg0_3 m ρ c, wlk_arg5_3 m ρ c]

/-- Boundary 5: layer 1's output joined with the skip features. -/
theorem at_v17 (m : (ℓ : Loc nD τ sig) → Buf (Elt Ideal) ℓ) (ρ : Dev nD → PrngReg) (c : Dev nD)
    (e16 : W4 m ρ c (Proc.devRef .tc main_v16) = Cert.ReferenceIdeal.ReadP.val_main_v145 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) :
    W5 m ρ c (Proc.devRef .tc main_v17) = Cert.ReferenceIdeal.ReadP.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  s2_v17 (W4 m ρ c) _ _ _ _ _ _ _ e16 (wlk_arg3_4 m ρ c)

/-- Boundary 6: layer 2's messages. -/
theorem at_v25
    (hf2 : ∀ (V : ((c : Dev nD) → (b : Ref sig .tc) → Buf (Elt Ideal) ((c : Thread nD τ).loc b))) (c : Dev nD), (dat2 (F := Ideal) V c).arrAt 3 cfg2.N = Cert.Spline.edgeMsg (E := 400000) (C := 64) (M := 32) (V c main_v24) (V c main_arg2) (V c main_arg4))
    (hm2 : ∀ (x0 : (⟨Cert.ReferenceIdeal.S50000x64, .f32⟩ : BufTy).Contents (Elt Ideal)) (x1 : (⟨Cert.ReferenceIdeal.S2x400000, .i32⟩ : BufTy).Contents (Elt Ideal)) (x2 : (⟨Cert.ReferenceIdeal.S400000x2, .f32⟩ : BufTy).Contents (Elt Ideal)) (x3 : (⟨Cert.ReferenceIdeal.S50000x32, .f32⟩ : BufTy).Contents (Elt Ideal)) (x4 : (⟨Cert.ReferenceIdeal.S9x64x32, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal)), Cert.ReferenceIdeal.ReadP.val_main_v235 (F := Ideal) x0 x1 x2 x3 x4 x5 x6 = Cert.Spline.edgeMsg (Cert.ReferenceIdeal.ReadP.val_main_v153 (F := Ideal) x0 x1 x2 x3 x4 x5 x6) x2 x4)
    (m : (ℓ : Loc nD τ sig) → Buf (Elt Ideal) ℓ) (ρ : Dev nD → PrngReg) (c : Dev nD)
    (e16 : W4 m ρ c (Proc.devRef .tc main_v16) = Cert.ReferenceIdeal.ReadP.val_main_v145 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) :
    W6 m ρ c (Proc.devRef .tc main_v25) = Cert.ReferenceIdeal.ReadP.val_main_v235 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 3).trans ((hf2 (V5 m ρ) c).trans ?_)
  rw [hm2]
  show Cert.Spline.edgeMsg (E := 400000) (C := 64) (M := 32) (W5 m ρ c (Proc.devRef .tc main_v24)) (W5 m ρ c (Proc.devRef .tc main_arg2)) (W5 m ρ c (Proc.devRef .tc main_arg4)) = _
  have h24 : W5 m ρ c (Proc.devRef .tc main_v24) = Cert.ReferenceIdeal.ReadP.val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := s2_v24 (W4 m ρ c) _ _ _ _ _ _ _ e16 (wlk_arg3_4 m ρ c) (wlk_v1_4 m ρ c)
  rw [h24, wlk_arg2_5 m ρ c, wlk_arg4_5 m ρ c]

/-- Boundary 8: layer 2's output. -/
theorem at_v30
    (hf3 : ∀ (V : ((c : Dev nD) → (b : Ref sig .tc) → Buf (Elt Ideal) ((c : Thread nD τ).loc b))) (c : Dev nD), (dat3 (F := Ideal) V c).arrAt 4 cfg3.N = Cert.Spline.nodeUpd (N := 50000) (C := 64) (M := 32) (V c main_v28) (V c main_v17) (V c main_arg5) (Cert.Spline.rowOf (M := 32) (V c main_v29)))
    (hn2 : ∀ (x0 : (⟨Cert.ReferenceIdeal.S50000x64, .f32⟩ : BufTy).Contents (Elt Ideal)) (x1 : (⟨Cert.ReferenceIdeal.S2x400000, .i32⟩ : BufTy).Contents (Elt Ideal)) (x2 : (⟨Cert.ReferenceIdeal.S400000x2, .f32⟩ : BufTy).Contents (Elt Ideal)) (x3 : (⟨Cert.ReferenceIdeal.S50000x32, .f32⟩ : BufTy).Contents (Elt Ideal)) (x4 : (⟨Cert.ReferenceIdeal.S9x64x32, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal)), Cert.ReferenceIdeal.ReadP.val_main_v244 (F := Ideal) x0 x1 x2 x3 x4 x5 x6 = Cert.Spline.nodeUpd (Cert.ReferenceIdeal.ReadP.val_main_v238 (F := Ideal) x0 x1 x2 x3 x4 x5 x6) (Cert.ReferenceIdeal.ReadP.val_main_v146 (F := Ideal) x0 x1 x2 x3 x4 x5 x6) x5 x6)
    (m : (ℓ : Loc nD τ sig) → Buf (Elt Ideal) ℓ) (ρ : Dev nD → PrngReg) (c : Dev nD)
    (e17 : W5 m ρ c (Proc.devRef .tc main_v17) = Cert.ReferenceIdeal.ReadP.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (e25 : W6 m ρ c (Proc.devRef .tc main_v25) = Cert.ReferenceIdeal.ReadP.val_main_v235 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W8 m ρ c (Proc.devRef .tc main_v30) = Cert.ReferenceIdeal.ReadP.val_main_v244 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 4).trans ((hf3 (V7 m ρ) c).trans ?_)
  rw [hn2]
  show Cert.Spline.nodeUpd (N := 50000) (C := 64) (M := 32) (W7 m ρ c (Proc.devRef .tc main_v28)) (W7 m ρ c (Proc.devRef .tc main_v17)) (W7 m ρ c (Proc.devRef .tc main_arg5)) (Cert.Spline.rowOf (M := 32) (W7 m ρ c (Proc.devRef .tc main_v29))) = _
  have h28 : W7 m ρ c (Proc.devRef .tc main_v28) = Cert.ReferenceIdeal.ReadP.val_main_v238 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := s3_v28 (W6 m ρ c) _ _ _ _ _ _ _ (wlk_v3_6 m ρ c) e25
  have h29 : W7 m ρ c (Proc.devRef .tc main_v29) = shapeCast S1x32 (m ((c : Thread nD τ).loc main_arg6)) shapeCasts_S32_S1x32 :=
    (s3_v29 (W6 m ρ c)).trans (congrArg (fun b => shapeCast S1x32 b shapeCasts_S32_S1x32) (wlk_arg6_6 m ρ c))
  rw [h28, h29, rowOf_reshape, wlk_v17_7 m ρ c, e17, wlk_arg5_7 m ρ c]

/-- Boundary 10: layer 3's messages. -/
theorem at_v38
    (hf4 : ∀ (V : ((c : Dev nD) → (b : Ref sig .tc) → Buf (Elt Ideal) ((c : Thread nD τ).loc b))) (c : Dev nD), (dat4 (F := Ideal) V c).arrAt 3 cfg4.N = Cert.Spline.edgeMsg (E := 400000) (C := 32) (M := 32) (V c main_v37) (V c main_arg2) (V c main_arg7))
    (hm3 : ∀ (x0 : (⟨Cert.ReferenceIdeal.S50000x64, .f32⟩ : BufTy).Contents (Elt Ideal)) (x1 : (⟨Cert.ReferenceIdeal.S2x400000, .i32⟩ : BufTy).Contents (Elt Ideal)) (x2 : (⟨Cert.ReferenceIdeal.S400000x2, .f32⟩ : BufTy).Contents (Elt Ideal)) (x3 : (⟨Cert.ReferenceIdeal.S50000x32, .f32⟩ : BufTy).Contents (Elt Ideal)) (x4 : (⟨Cert.ReferenceIdeal.S9x64x32, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal)) (x7 : (⟨Cert.ReferenceIdeal.S9x32x32, .f32⟩ : BufTy).Contents (Elt Ideal)), Cert.ReferenceIdeal.ReadP.val_main_v333 (F := Ideal) x0 x1 x2 x3 x4 x5 x6 x7 = Cert.Spline.edgeMsg (Cert.ReferenceIdeal.ReadP.val_main_v251 (F := Ideal) x0 x1 x2 x3 x4 x5 x6) x2 x7)
    (m : (ℓ : Loc nD τ sig) → Buf (Elt Ideal) ℓ) (ρ : Dev nD → PrngReg) (c : Dev nD)
    (e30 : W8 m ρ c (Proc.devRef .tc main_v30) = Cert.ReferenceIdeal.ReadP.val_main_v244 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W10 m ρ c (Proc.devRef .tc main_v38) = Cert.ReferenceIdeal.ReadP.val_main_v333 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 3).trans ((hf4 (V9 m ρ) c).trans ?_)
  rw [hm3]
  show Cert.Spline.edgeMsg (E := 400000) (C := 32) (M := 32) (W9 m ρ c (Proc.devRef .tc main_v37)) (W9 m ρ c (Proc.devRef .tc main_arg2)) (W9 m ρ c (Proc.devRef .tc main_arg7)) = _
  have h37 : W9 m ρ c (Proc.devRef .tc main_v37) = Cert.ReferenceIdeal.ReadP.val_main_v251 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := s4_v37 (W8 m ρ c) _ _ _ _ _ _ _ e30 (wlk_v1_8 m ρ c)
  rw [h37, wlk_arg2_9 m ρ c, wlk_arg7_9 m ρ c]

/-- Boundary 12: the result. -/
theorem at_v43
    (hf5 : ∀ (V : ((c : Dev nD) → (b : Ref sig .tc) → Buf (Elt Ideal) ((c : Thread nD τ).loc b))) (c : Dev nD), (dat5 (F := Ideal) V c).arrAt 4 cfg5.N = Cert.Spline.nodeUpd (N := 50000) (C := 32) (M := 32) (V c main_v41) (V c main_v30) (V c main_arg8) (Cert.Spline.rowOf (M := 32) (V c main_v42)))
    (hn3 : ∀ (x0 : (⟨Cert.ReferenceIdeal.S50000x64, .f32⟩ : BufTy).Contents (Elt Ideal)) (x1 : (⟨Cert.ReferenceIdeal.S2x400000, .i32⟩ : BufTy).Contents (Elt Ideal)) (x2 : (⟨Cert.ReferenceIdeal.S400000x2, .f32⟩ : BufTy).Contents (Elt Ideal)) (x3 : (⟨Cert.ReferenceIdeal.S50000x32, .f32⟩ : BufTy).Contents (Elt Ideal)) (x4 : (⟨Cert.ReferenceIdeal.S9x64x32, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal)) (x7 : (⟨Cert.ReferenceIdeal.S9x32x32, .f32⟩ : BufTy).Contents (Elt Ideal)) (x8 : (⟨Cert.ReferenceIdeal.S32x32, .f32⟩ : BufTy).Contents (Elt Ideal)) (x9 : (⟨Cert.ReferenceIdeal.S32, .f32⟩ : BufTy).Contents (Elt Ideal)), Cert.ReferenceIdeal.ReadP.val_main_v342 (F := Ideal) x0 x1 x2 x3 x4 x5 x6 x7 x8 x9 = Cert.Spline.nodeUpd (Cert.ReferenceIdeal.ReadP.val_main_v336 (F := Ideal) x0 x1 x2 x3 x4 x5 x6 x7) (Cert.ReferenceIdeal.ReadP.val_main_v244 (F := Ideal) x0 x1 x2 x3 x4 x5 x6) x8 x9)
    (m : (ℓ : Loc nD τ sig) → Buf (Elt Ideal) ℓ) (ρ : Dev nD → PrngReg) (c : Dev nD)
    (e30 : W8 m ρ c (Proc.devRef .tc main_v30) = Cert.ReferenceIdeal.ReadP.val_main_v244 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (e38 : W10 m ρ c (Proc.devRef .tc main_v38) = Cert.ReferenceIdeal.ReadP.val_main_v333 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    W12 m ρ c (Proc.devRef .tc main_v43) = Cert.ReferenceIdeal.ReadP.val_main_v342 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 4).trans ((hf5 (V11 m ρ) c).trans ?_)
  rw [hn3]
  show Cert.Spline.nodeUpd (N := 50000) (C := 32) (M := 32) (W11 m ρ c (Proc.devRef .tc main_v41)) (W11 m ρ c (Proc.devRef .tc main_v30)) (W11 m ρ c (Proc.devRef .tc main_arg8)) (Cert.Spline.rowOf (M := 32) (W11 m ρ c (Proc.devRef .tc main_v42))) = _
  have h41 : W11 m ρ c (Proc.devRef .tc main_v41) = Cert.ReferenceIdeal.ReadP.val_main_v336 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := s5_v41 (W10 m ρ c) _ _ _ _ _ _ _ _ (wlk_v3_10 m ρ c) e38
  have h42 : W11 m ρ c (Proc.devRef .tc main_v42) = shapeCast S1x32 (m ((c : Thread nD τ).loc main_arg9)) shapeCasts_S32_S1x32 :=
    (s5_v42 (W10 m ρ c)).trans (congrArg (fun b => shapeCast S1x32 b shapeCasts_S32_S1x32) (wlk_arg9_10 m ρ c))
  rw [h41, h42, rowOf_reshape, wlk_v30_11 m ρ c, e30, wlk_arg8_11 m ρ c]

end Cert.KernelIdeal.Val

end
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.LibPlainDot.lean ====
/-
  Plain matrix products on the host, read at an entry.

  Dimension numbers of a product [N, K] × [K, M] → [N, M] are PLAIN when they contract the left operand's axis 1 against
  the right operand's axis 0, keep the left operand's axis 0 and the right operand's axis 1, and have no batch axis.
  For such dimension numbers the contraction has one axis of extent K, the operands are read at (p, k) and (k, q),
  and the host's product at entry (p, q) is the sum over k of l (p, k) · r (k, q) on the extended reals.
-/
import Idealize.ShloMosaic.PureOps.Ideal
import Idealize.ShloMosaic.PureOps.Ideal.Laws
import Idealize.ShloMosaic.Lib.ValueIdx
import proofs.«124089_j37623913513299_2_alg».proof.Proof.LibDotPlain

noncomputable section

open scoped BigOperators

namespace Cert.LibPlainDot

open Idealize.ShloMosaic Idealize.ShloMosaic.ValueIdx

variable {N K M : Nat} (D : DotDims ⟨2, ![N, K]⟩ ⟨2, ![K, M]⟩ ⟨2, ![N, M]⟩)

/-- What makes dimension numbers plain. -/
structure Plain : Prop where
  lc : D.lhsContracting = [1]
  rc : D.rhsContracting = [0]
  ln : D.lhsNonContracting = [0]
  rn : D.rhsNonContracting = [1]
  lb : D.lhsBatch = []
  rb : D.rhsBatch = []

variable {D}

theorem Plain.rank (h : Plain D) : D.contr.rank = 1 := by rw [D.rank_contr, h.lc]; rfl

theorem Plain.size (h : Plain D) : D.contr.size ⟨0, by rw [h.rank]; exact Nat.one_pos⟩ = K := by
  have hp : 0 < D.lhsContracting.length := by rw [h.lc]; exact Nat.one_pos
  rw [D.size_contr 0 hp]
  have : D.lhsContracting[0] = (1 : Fin 2) := by simp [h.lc]
  rw [this]; rfl

theorem Plain.l0 (h : Plain D) (i : (⟨2, ![N, M]⟩ : Shape).Idx) (k : D.contr.Idx) : (D.lhsIdx i k 0).val = (i 0).val := by
  unfold DotDims.lhsIdx
  simp only [h.lb, h.ln, List.not_mem_nil, List.mem_singleton, dite_false, dite_true, Fin.val_cast]
  have key : ∀ (p q : Nat) (hp : p < 2) (hq : q < 2), p = q → (i ⟨p, hp⟩).val = (i ⟨q, hq⟩).val :=
    fun p q hp hq e => by subst e; rfl
  exact key _ _ _ _ (by simp [h.lb, h.ln])

theorem Plain.l1 (h : Plain D) (i : (⟨2, ![N, M]⟩ : Shape).Idx) (k : D.contr.Idx) :
    (D.lhsIdx i k 1).val = (k ⟨0, by rw [h.rank]; exact Nat.one_pos⟩).val := D.lhsIdx_val_of_single h.lc i k

theorem Plain.r0 (h : Plain D) (i : (⟨2, ![N, M]⟩ : Shape).Idx) (k : D.contr.Idx) :
    (D.rhsIdx i k 0).val = (k ⟨0, by rw [h.rank]; exact Nat.one_pos⟩).val := D.rhsIdx_val_of_single h.rc i k

theorem Plain.r1 (h : Plain D) (i : (⟨2, ![N, M]⟩ : Shape).Idx) (k : D.contr.Idx) : (D.rhsIdx i k 1).val = (i 1).val := by
  unfold DotDims.rhsIdx
  have h10 : ¬ ((1 : Fin 2) ∈ ([] : List (Fin 2))) := List.not_mem_nil
  simp only [h.rb, h.rn, List.not_mem_nil, List.mem_singleton, dite_false, dite_true, Fin.val_cast]
  have key : ∀ (p q : Nat) (hp : p < 2) (hq : q < 2), p = q → (i ⟨p, hp⟩).val = (i ⟨q, hq⟩).val :=
    fun p q hp hq e => by subst e; rfl
  exact key _ _ _ _ (by simp [h.lb, h.ln, h.rn])

/-- The host's plain product at entry (p, q). -/
theorem hostDot_apply (h : Plain D) {φ₁ φ₂ : FTy} (prec : Option ContractPrecision) (l : FVec Ideal ⟨2, ![N, K]⟩ φ₁)
    (r : FVec Ideal ⟨2, ![K, M]⟩ φ₂) (p : Fin N) (q : Fin M) :
    Host.dotGeneral D prec l r (ix2 p q) = ∑ k : Fin K, l (ix2 p k) * r (ix2 k q) := by
  simp only [Host.dotGeneral]
  rw [Ideal.dotGeneral_apply]
  exact Cert.LibDotPlain.sum_contr_plain D h.rank h.size h.l0 h.l1 h.r0 h.r1 l r p q

/-- A matrix-unit plain product into a zero accumulator at entry (p, q). -/
theorem matmul_zero_apply (h : Plain D) {φ₁ φ₂ : FTy} (prec : Option ContractPrecision) (l : FVec Ideal ⟨2, ![N, K]⟩ φ₁)
    (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  Cert.LibDotPlain.matmul_zero_plain D h.rank h.size h.l0 h.l1 h.r0 h.r1 prec l r p q

end Cert.LibPlainDot

end
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KEdgeBody64.lean ====
/-
  The edge kernel's block of messages, entry by entry (64 input channels).

  One grid point holds 8000 edges: their source rows `x0` (8000 × 64), their pseudo-coordinates `x1` (8000 × 2) and all
  nine weight slabs `x2` (9 × 64 × 32). The body forms the six columns b_0, b_1, b_2 of column 0 (t0) and of column 1
  (t1) of `x1`, and adds, from zero and in the order k = 3i + j, the nine products
      (x0 scaled row by row by b_i(t1) · b_j(t0)) · x2[k].
  Read at entry (p, q) each product is a sum over the 64 channels c of (x0 (p, c) · (b_i(t1 p) · b_j(t0 p))) · x2 (k, c, q):
  the matrix product contracts the channel axis, the column of scale factors is constant along a row, and slab k of the
  weights, seen as a 64 × 32 matrix, has entry (c, q) at position (k, c, q). The body writes 0 − t where the basis
  function b_1 has −t; that is the only law of arithmetic used. The result is `Cert.Spline.edgeRow` of row p.
-/
import proofs.«124089_j37623913513299_2_alg».proof.Proof.Gen.KernelIdeal.Frame
import proofs.«124089_j37623913513299_2_alg».proof.Proof.Spec
import proofs.«124089_j37623913513299_2_alg».proof.Proof.LibPlainDot
import proofs.«124089_j37623913513299_2_alg».proof.Proof.LibKeepdims
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.ValueIdx
open Cert.Spline

/-- Offsets written (0, 0) are the zero offsets. -/
theorem e64_hz2 : (![0, 0] : Fin 2 → Nat) = fun _ => 0 := funext fun a => by fin_cases a <;> rfl
/-- Offsets written (0, 0, 0) are the zero offsets. -/
theorem e64_hz3 : (![0, 0, 0] : Fin 3 → Nat) = fun _ => 0 := funext fun a => by fin_cases a <;> rfl

/-- The products contract the rows' channel axis against the slab's first axis and have no batch axis. -/
theorem e64_plain : Cert.LibPlainDot.Plain dot_S8000x64_S64x32_S8000x32_1_0_0_1_n_n := ⟨rfl, rfl, rfl, rfl, rfl, rfl⟩

/-- Column 0 of the pseudo-coordinates, as a column: row p holds t0 of edge p. -/
theorem k0_pay3_apply (x1 : Vec Ideal S8000x2 .f32) (p : Fin 8000) :
    k0_pay3 x1 (ix2 p (0 : Fin 1)) = x1 (ix2 p (0 : Fin 2)) := by
  unfold k0_pay3
  refine extractStridedSlice_apply _ _ _ _ _ fun a => ?_
  match a with
  | ⟨0, _⟩ => show p.val = 0 + p.val; omega
  | ⟨1, _⟩ => rfl

/-- Column 1 of the pseudo-coordinates, as a column: row p holds t1 of edge p. -/
theorem k0_pay4_apply (x1 : Vec Ideal S8000x2 .f32) (p : Fin 8000) :
    k0_pay4 x1 (ix2 p (0 : Fin 1)) = x1 (ix2 p (1 : Fin 2)) := by
  unfold k0_pay4
  refine extractStridedSlice_apply _ _ _ _ _ fun a => ?_
  match a with
  | ⟨0, _⟩ => show p.val = 0 + p.val; omega
  | ⟨1, _⟩ => rfl

/-- b_0 of t0: ½ · (1 − t)². -/
theorem k0_pay5_apply (x1 : Vec Ideal S8000x2 .f32) (p : Fin 8000) :
    k0_pay5 x1 (ix2 p (0 : Fin 1)) = basis 0 (x1 (ix2 p (0 : Fin 2))) := by
  unfold k0_pay5
  show wHalf * ((wOne - k0_pay3 x1 (ix2 p 0)) * (wOne - k0_pay3 x1 (ix2 p 0))) = _
  rw [k0_pay3_apply]; rfl

/-- b_1 of t0: the body's (0 − t) · t + t + ½ is (−t) · t + t + ½. -/
theorem k0_pay6_apply (x1 : Vec Ideal S8000x2 .f32) (p : Fin 8000) :
    k0_pay6 x1 (ix2 p (0 : Fin 1)) = basis 1 (x1 (ix2 p (0 : Fin 2))) := by
  unfold k0_pay6
  show ((Ideal.ofBits .f32 0x00000000#32 - k0_pay3 x1 (ix2 p 0)) * k0_pay3 x1 (ix2 p 0) + k0_pay3 x1 (ix2 p 0)) + wHalf = _
  rw [k0_pay3_apply, Ideal.ofBits_zero_f32, zero_sub]; rfl

/-- b_2 of t0: (½ · t) · t. -/
theorem k0_pay7_apply (x1 : Vec Ideal S8000x2 .f32) (p : Fin 8000) :
    k0_pay7 x1 (ix2 p (0 : Fin 1)) = basis 2 (x1 (ix2 p (0 : Fin 2))) := by
  unfold k0_pay7
  show (wHalf * k0_pay3 x1 (ix2 p 0)) * k0_pay3 x1 (ix2 p 0) = _
  rw [k0_pay3_apply]; rfl

/-- b_0 of t1. -/
theorem k0_pay8_apply (x1 : Vec Ideal S8000x2 .f32) (p : Fin 8000) :
    k0_pay8 x1 (ix2 p (0 : Fin 1)) = basis 0 (x1 (ix2 p (1 : Fin 2))) := by
  unfold k0_pay8
  show wHalf * ((wOne - k0_pay4 x1 (ix2 p 0)) * (wOne - k0_pay4 x1 (ix2 p 0))) = _
  rw [k0_pay4_apply]; rfl

/-- b_1 of t1, again with 0 − t for −t. -/
theorem k0_pay9_apply (x1 : Vec Ideal S8000x2 .f32) (p : Fin 8000) :
    k0_pay9 x1 (ix2 p (0 : Fin 1)) = basis 1 (x1 (ix2 p (1 : Fin 2))) := by
  unfold k0_pay9
  show ((Ideal.ofBits .f32 0x00000000#32 - k0_pay4 x1 (ix2 p 0)) * k0_pay4 x1 (ix2 p 0) + k0_pay4 x1 (ix2 p 0)) + wHalf = _
  rw [k0_pay4_apply, Ideal.ofBits_zero_f32, zero_sub]; rfl

/-- b_2 of t1. -/
theorem k0_pay10_apply (x1 : Vec Ideal S8000x2 .f32) (p : Fin 8000) :
    k0_pay10 x1 (ix2 p (0 : Fin 1)) = basis 2 (x1 (ix2 p (1 : Fin 2))) := by
  unfold k0_pay10
  show (wHalf * k0_pay4 x1 (ix2 p 0)) * k0_pay4 x1 (ix2 p 0) = _
  rw [k0_pay4_apply]; rfl

/-- One of the nine products at entry (p, q): the rows `x` scaled by the product of two columns `a`, `b`, times slab `n`
    of the weights. The product is the sum over the channel c; the scale factor at (p, c) is the columns' entry p; slab
    `n` as a matrix has entry (c, q) at row-major position c · 32 + q of the slab, which is (n, c, q) of the weights. -/
theorem e64_slab_apply (x : FVec Ideal S8000x64 .f32) (a b : FVec Ideal S8000x1 .f32) (x2 : FVec Ideal S9x64x32 .f32)
    (n : Nat) (hn : n < 9) (hs : S9x64x32.Slices ![n, 0, 0] S1x64x32) (p : Fin 8000) (q : Fin 32) :
    matmul dot_S8000x64_S64x32_S8000x32_1_0_0_1_n_n none
        (mulf x (broadcastTo S8000x64 (mulf a b) broadcasts_S8000x1_S8000x64))
        (shapeCast S64x32 (extractStridedSlice S1x64x32 ![n, 0, 0] x2 hs) shapeCasts_S1x64x32_S64x32)
        (constant S8000x32 .f32 0x00000000#32) (ix2 p q)
      = ∑ c : Fin 64, (x (ix2 p c) * (a (ix2 p (0 : Fin 1)) * b (ix2 p (0 : Fin 1)))) * x2 (ix3 (⟨n, hn⟩ : Fin 9) c q) := by
  refine (Cert.LibPlainDot.matmul_zero_apply e64_plain none _ _ p q).trans ?_
  refine Finset.sum_congr rfl fun c _ => ?_
  refine congrArg₂ (· * ·) ?_ ?_
  · show x (ix2 p c) * broadcastTo S8000x64 (mulf a b) broadcasts_S8000x1_S8000x64 (ix2 p c) = _
    rw [broadcastTo_a1_ab_apply]; rfl
  · refine (shapeCast_apply _ _ (ix2 c q) (ix3 (0 : Fin 1) c q) ?_).trans ?_
    · rw [Shape.rowMajor_val_three, Shape.rowMajor_val_two]
      show (0 * 64 + c.val) * 32 + q.val = c.val * 32 + q.val
      omega
    · refine extractStridedSlice_apply _ _ _ _ _ fun a => ?_
      match a with
      | ⟨0, _⟩ => show n = n + 0; omega
      | ⟨1, _⟩ => show c.val = 0 + c.val; omega
      | ⟨2, _⟩ => show q.val = 0 + q.val; omega

/-- The block the body leaves, at entry (p, q), is the message of edge p at channel q: zero plus the nine products in the
    order k = 3i + j, each with its scale factor b_i(t1) · b_j(t0) and its slab k. -/
theorem out0_3_apply (x0 : Vec Ideal S8000x64 .f32) (x1 : Vec Ideal S8000x2 .f32) (x2 : Vec Ideal S9x64x32 .f32) (p : Fin 8000) (q : Fin 32) :
    out0_3 (F := Ideal) x0 x1 x2 (ix2 p q)
      = Cert.Spline.edgeRow (fun c => x0 (ix2 p c)) (x1 (ix2 p (0 : Fin 2))) (x1 (ix2 p (1 : Fin 2))) (fun k c => x2 (ix3 k c q)) := by
  unfold out0_3
  rw [View.canon_unit_zero e64_hz2]
  simp only [View.ld_unit_zero (S := S8000x64) e64_hz2, View.ld_unit_zero (S := S8000x2) e64_hz2, View.ld_unit_zero (S := S9x64x32) e64_hz3]
  unfold k0_pay1 k0_pay14 k0_pay12 k0_pay13 k0_pay15 k0_pay11 k0_pay2
  simp only [shapeCast_self, addf_apply, broadcast_apply]
  rw [e64_slab_apply x0 (k0_pay8 x1) (k0_pay5 x1) x2 0 (by decide) _ p q,
    e64_slab_apply x0 (k0_pay8 x1) (k0_pay6 x1) x2 1 (by decide) _ p q,
    e64_slab_apply x0 (k0_pay8 x1) (k0_pay7 x1) x2 2 (by decide) _ p q,
    e64_slab_apply x0 (k0_pay9 x1) (k0_pay5 x1) x2 3 (by decide) _ p q,
    e64_slab_apply x0 (k0_pay9 x1) (k0_pay6 x1) x2 4 (by decide) _ p q,
    e64_slab_apply x0 (k0_pay9 x1) (k0_pay7 x1) x2 5 (by decide) _ p q,
    e64_slab_apply x0 (k0_pay10 x1) (k0_pay5 x1) x2 6 (by decide) _ p q,
    e64_slab_apply x0 (k0_pay10 x1) (k0_pay6 x1) x2 7 (by decide) _ p q,
    e64_slab_apply x0 (k0_pay10 x1) (k0_pay7 x1) x2 8 (by decide) _ p q]
  simp only [k0_pay5_apply, k0_pay6_apply, k0_pay7_apply, k0_pay8_apply, k0_pay9_apply, k0_pay10_apply]
  rfl

/-- The second edge kernel is the first one again: the same operations in the same order on blocks of the same shapes. -/
theorem out2_3_eq_out0_3 (x0 : Vec Ideal S8000x64 .f32) (x1 : Vec Ideal S8000x2 .f32) (x2 : Vec Ideal S9x64x32 .f32) :
    out2_3 (F := Ideal) x0 x1 x2 = out0_3 (F := Ideal) x0 x1 x2 := rfl

/-- So its block is the message as well. -/
theorem out2_3_apply (x0 : Vec Ideal S8000x64 .f32) (x1 : Vec Ideal S8000x2 .f32) (x2 : Vec Ideal S9x64x32 .f32) (p : Fin 8000) (q : Fin 32) :
    out2_3 (F := Ideal) x0 x1 x2 (ix2 p q)
      = Cert.Spline.edgeRow (fun c => x0 (ix2 p c)) (x1 (ix2 p (0 : Fin 2))) (x1 (ix2 p (1 : Fin 2))) (fun k c => x2 (ix3 k c q)) :=
  (congrFun (out2_3_eq_out0_3 x0 x1 x2) (ix2 p q)).trans (out0_3_apply x0 x1 x2 p q)

end Cert.KernelIdeal.Val

end
-- ==== Proof.KEdgeFinal0.lean ====
/-
  From the blocks to the array: the edge kernel of 64 input channels over all 400000 edges.

  The grid has 50 points; point t holds edges 8000·t … 8000·t + 7999: the source rows' block and the pseudo-coordinates'
  block at t are those rows of their arrays, the weights' block is the whole weight array at every point, and the output
  block at t is rows 8000·t … 8000·t + 7999 of the message array. So entry (p, q) of what point t writes back is the
  message of edge 8000·t + p at channel q, computed from that edge's own source row and pseudo-coordinates: the block
  written back is the block of `Cert.Spline.edgeMsg` of the three arrays. Every row r lies in the block of point
  r / 8000, so the blocks cover the array and the array ends holding `edgeMsg`.
-/
import proofs.«124089_j37623913513299_2_alg».proof.Proof.KEdgeBody64
import Idealize.ShloMosaic.Lib.Pipeline.Value

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open Cert.Spline

variable (V : (c : Dev nD) → (b : Ref sig .tc) → Buf (Elt Ideal) ((c : Thread nD τ).loc b))

/-- The block indices at grid point t, decided over the 50 points: the two edge-indexed inputs and the output sit at row
    block t, column block 0; the weights at block (0, 0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- Entry (p, q) of the body's block is entry (e, q) of the messages, when row p of the two edge-indexed blocks is row e
    of their arrays and the weights' block is the weight array. -/
theorem block0_point (x0 : Vec Ideal S8000x64 .f32) (x1 : Vec Ideal S8000x2 .f32) (x2 : Vec Ideal S9x64x32 .f32)
    (xj : FVec Ideal S400000x64 .f32) (ps : FVec Ideal S400000x2 .f32) (W : FVec Ideal S9x64x32 .f32)
    (p : Fin 8000) (q : Fin 32) (e : Fin 400000)
    (h0 : ∀ ch : Fin 64, x0 (ix2 p ch) = xj (ix2 e ch)) (h1 : ∀ u : Fin 2, x1 (ix2 p u) = ps (ix2 e u))
    (h2 : ∀ (k : Fin 9) (ch : Fin 64), x2 (ix3 k ch q) = W (ix3 k ch q)) :
    out0_3 (F := Ideal) x0 x1 x2 (ix2 p q) = edgeMsg xj ps W (ix2 e q) := by
  rw [out0_3_apply, edgeMsg_apply]
  simp only [h0, h1, h2]

/-- Row p of the source rows' block at point t is row 8000·t + p of the array. -/
theorem iblk0_0_apply (c : Dev nD) (t : Fin cfg0.N) (p : Fin 8000) (ch : Fin 64) (e : Fin 400000) (he : e.val = t.val * 8000 + p.val) :
    (iblk0 V c 0 t : Vec Ideal S8000x64 .f32) (ix2 p ch) = (V c main_v10 : S400000x64.Idx → Ideal .f32) (ix2 e ch) := by
  obtain ⟨e00, e01, -⟩ := idx_facts0 t
  unfold iblk0
  rw [View.read_apply]
  show V c main_v10 _ = V c main_v10 _
  congr 1
  funext a
  apply Fin.ext
  match a with
  | ⟨0, _⟩ => show win0_0.index t (0 : Fin 2) * 8000 + 1 * p.val = e.val; rw [e00, he]; omega
  | ⟨1, _⟩ => show win0_0.index t (1 : Fin 2) * 64 + 1 * ch.val = ch.val; rw [e01]; omega

/-- Row p of the pseudo-coordinates' block at point t is row 8000·t + p of the array. -/
theorem iblk0_1_apply (c : Dev nD) (t : Fin cfg0.N) (p : Fin 8000) (u : Fin 2) (e : Fin 400000) (he : e.val = t.val * 8000 + p.val) :
    (iblk0 V c 1 t : Vec Ideal S8000x2 .f32) (ix2 p u) = (V c main_arg2 : S400000x2.Idx → Ideal .f32) (ix2 e u) := by
  obtain ⟨-, -, e10, e11, -⟩ := idx_facts0 t
  unfold iblk0
  rw [View.read_apply]
  show V c main_arg2 _ = V c main_arg2 _
  congr 1
  funext a
  apply Fin.ext
  match a with
  | ⟨0, _⟩ => show win0_1.index t (0 : Fin 2) * 8000 + 1 * p.val = e.val; rw [e10, he]; omega
  | ⟨1, _⟩ => show win0_1.index t (1 : Fin 2) * 2 + 1 * u.val = u.val; rw [e11]; omega

/-- The weights' block at every point is the weight array. -/
theorem iblk0_2_apply (c : Dev nD) (t : Fin cfg0.N) (k : Fin 9) (ch : Fin 64) (q : Fin 32) :
    (iblk0 V c 2 t : Vec Ideal S9x64x32 .f32) (ix3 k ch q) = (V c main_arg4 : S9x64x32.Idx → Ideal .f32) (ix3 k ch q) := by
  obtain ⟨-, -, -, -, e20, e21, e22, -⟩ := idx_facts0 t
  unfold iblk0
  rw [View.read_apply]
  show V c main_arg4 _ = V c main_arg4 _
  congr 1
  funext a
  apply Fin.ext
  match a with
  | ⟨0, _⟩ => show win0_2.index t (0 : Fin 3) * 9 + 1 * k.val = k.val; rw [e20]; omega
  | ⟨1, _⟩ => show win0_2.index t (1 : Fin 3) * 64 + 1 * ch.val = ch.val; rw [e21]; omega
  | ⟨2, _⟩ => show win0_2.index t (2 : Fin 3) * 32 + 1 * q.val = q.val; rw [e22]; omega

/-- What point t writes back is block t of the messages of the three arrays as the region finds them: entry (p, q) of the
    block sits at (8000·t + p, q) of the array. -/
theorem flushed0_eq (c : Dev nD) (t : Fin cfg0.N) :
    (dat0 V c).flushed 3 t = ((cfg0.win 3).blk t).view.read (Elt Ideal)
      (edgeMsg (V c main_v10 : S400000x64.Idx → Ideal .f32) (V c main_arg2 : S400000x2.Idx → Ideal .f32) (V c main_arg4 : S9x64x32.Idx → Ideal .f32)) := by
  show (cfg0.win 3).cut (grid0.coords t) ((dat0 V c).after 3 t) = _
  rw [after0_3]
  obtain ⟨-, -, -, -, -, -, -, e30, e31⟩ := idx_facts0 t
  have hN : cfg0.N = 50 := N_0
  have ht : t.val < 50 := by have := t.isLt; omega
  funext j
  have hj0 : (j 0).val < 8000 := (j 0).isLt
  have hj1 : (j 1).val < 32 := (j 1).isLt
  show out0_3 (iblk0 V c 0 t) (iblk0 V c 1 t) (iblk0 V c 2 t) ((cfg0.win 3).xinj (grid0.coords t) j)
    = edgeMsg (V c main_v10 : S400000x64.Idx → Ideal .f32) (V c main_arg2 : S400000x2.Idx → Ideal .f32) (V c main_arg4 : S9x64x32.Idx → Ideal .f32) (((cfg0.win 3).blk t).view.emb j)
  have hy : (cfg0.win 3).xinj (grid0.coords t) j = ix2 (⟨(j 0).val, hj0⟩ : Fin 8000) (⟨(j 1).val, hj1⟩ : Fin 32) :=
    funext fun a => by match a with | ⟨0, _⟩ => rfl | ⟨1, _⟩ => rfl
  have hi : ((cfg0.win 3).blk t).view.emb j = ix2 (⟨t.val * 8000 + (j 0).val, by omega⟩ : Fin 400000) (⟨(j 1).val, hj1⟩ : Fin 32) :=
    funext fun a => Fin.ext (by
      match a with
      | ⟨0, _⟩ => show win0_3.index t (0 : Fin 2) * 8000 + 1 * (j 0).val = t.val * 8000 + (j 0).val; rw [e30]; omega
      | ⟨1, _⟩ => show win0_3.index t (1 : Fin 2) * 32 + 1 * (j 1).val = (j 1).val; rw [e31]; omega)
  rw [hy, hi]
  exact block0_point _ _ _ _ _ _ _ _ _ (fun ch => iblk0_0_apply V c t _ ch _ rfl) (fun u => iblk0_1_apply V c t _ u _ rfl)
    (fun k ch => iblk0_2_apply V c t k ch _)

/-- An entry of the message array is in point t's block iff each coordinate is in the block's range on its axis. -/
theorem mem_blk0 (t : Fin cfg0.N) (i : S400000x32.Idx) :
    i ∈ ((cfg0.win 3).blk t).view.set ↔ ∀ a : Fin 2, win0_3.index t a * S8000x32.size a ≤ (i a).val ∧ (i a).val < win0_3.index t a * S8000x32.size a + S8000x32.size a := by
  show i ∈ ((View.whole main_v11).slice (win0_3.rect t)).set ↔ _
  rw [View.set_slice_whole, Rect.mem_set_unit]
  exact Iff.rfl

/-- Every entry is covered: row r is in the block of point r / 8000, which writes back. -/
theorem cover0 (i : S400000x32.Idx) : ∃ t : Fin cfg0.N, (cfg0.win 3).flush t = true ∧ i ∈ ((cfg0.win 3).blk t).view.set := by
  have hi0 : (i 0).val < 400000 := (i 0).isLt
  have hi1 : (i 1).val < 32 := (i 1).isLt
  have hN : cfg0.N = 50 := N_0
  have ht : (i 0).val / 8000 < cfg0.N := by rw [hN]; omega
  obtain ⟨-, -, -, -, -, -, -, e30, e31⟩ := idx_facts0 ⟨(i 0).val / 8000, ht⟩
  refine ⟨⟨(i 0).val / 8000, ht⟩, flush0_3 _, ?_⟩
  rw [mem_blk0]
  intro a
  match a with
  | ⟨0, _⟩ =>
    show win0_3.index ⟨(i 0).val / 8000, ht⟩ (0 : Fin 2) * 8000 ≤ (i 0).val ∧ (i 0).val < win0_3.index ⟨(i 0).val / 8000, ht⟩ (0 : Fin 2) * 8000 + 8000
    rw [e30]; show (i 0).val / 8000 * 8000 ≤ (i 0).val ∧ (i 0).val < (i 0).val / 8000 * 8000 + 8000; omega
  | ⟨1, _⟩ =>
    show win0_3.index ⟨(i 0).val / 8000, ht⟩ (1 : Fin 2) * 32 ≤ (i 1).val ∧ (i 1).val < win0_3.index ⟨(i 0).val / 8000, ht⟩ (1 : Fin 2) * 32 + 32
    rw [e31]; omega

/-- The message array after the region: the messages of all 400000 edges, from the source rows, the pseudo-coordinates and
    the weights as the region finds them. -/
theorem final0 (c : Dev nD) : (dat0 V c).arrAt 3 cfg0.N
    = edgeMsg (V c main_v10 : S400000x64.Idx → Ideal .f32) (V c main_arg2 : S400000x2.Idx → Ideal .f32) (V c main_arg4 : S9x64x32.Idx → Ideal .f32) :=
  (dat0 V c).arrAt_eq_of_cover 3 _ (fun t _ => flushed0_eq V c t) cover0

end Cert.KernelIdeal.Val

end
-- ==== Proof.KEdgeFinal2.lean ====
/-
  From the blocks to the array: the edge kernel of 64 input channels over all 400000 edges.

  The grid has 50 points; point t holds edges 8000·t … 8000·t + 7999: the source rows' block and the pseudo-coordinates'
  block at t are those rows of their arrays, the weights' block is the whole weight array at every point, and the output
  block at t is rows 8000·t … 8000·t + 7999 of the message array. So entry (p, q) of what point t writes back is the
  message of edge 8000·t + p at channel q, computed from that edge's own source row and pseudo-coordinates: the block
  written back is the block of `Cert.Spline.edgeMsg` of the three arrays. Every row r lies in the block of point
  r / 8000, so the blocks cover the array and the array ends holding `edgeMsg`.
-/
import proofs.«124089_j37623913513299_2_alg».proof.Proof.KEdgeBody64
import Idealize.ShloMosaic.Lib.Pipeline.Value

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open Cert.Spline

variable (V : (c : Dev nD) → (b : Ref sig .tc) → Buf (Elt Ideal) ((c : Thread nD τ).loc b))

/-- The block indices at grid point t, decided over the 50 points: the two edge-indexed inputs and the output sit at row
    block t, column block 0; the weights at block (0, 0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 3) = 0 ∧ win2_2.index t (1 : Fin 3) = 0 ∧ win2_2.index t (2 : Fin 3) = 0
    ∧ win2_3.index t (0 : Fin 2) = t.val ∧ win2_3.index t (1 : Fin 2) = 0 :=
  (by decide +kernel : ∀ t : Fin grid2.N, _)

/-- Entry (p, q) of the body's block is entry (e, q) of the messages, when row p of the two edge-indexed blocks is row e
    of their arrays and the weights' block is the weight array. -/
theorem block2_point (x0 : Vec Ideal S8000x64 .f32) (x1 : Vec Ideal S8000x2 .f32) (x2 : Vec Ideal S9x64x32 .f32)
    (xj : FVec Ideal S400000x64 .f32) (ps : FVec Ideal S400000x2 .f32) (W : FVec Ideal S9x64x32 .f32)
    (p : Fin 8000) (q : Fin 32) (e : Fin 400000)
    (h0 : ∀ ch : Fin 64, x0 (ix2 p ch) = xj (ix2 e ch)) (h1 : ∀ u : Fin 2, x1 (ix2 p u) = ps (ix2 e u))
    (h2 : ∀ (k : Fin 9) (ch : Fin 64), x2 (ix3 k ch q) = W (ix3 k ch q)) :
    out2_3 (F := Ideal) x0 x1 x2 (ix2 p q) = edgeMsg xj ps W (ix2 e q) := by
  rw [out2_3_apply, edgeMsg_apply]
  simp only [h0, h1, h2]

/-- Row p of the source rows' block at point t is row 8000·t + p of the array. -/
theorem iblk2_0_apply (c : Dev nD) (t : Fin cfg2.N) (p : Fin 8000) (ch : Fin 64) (e : Fin 400000) (he : e.val = t.val * 8000 + p.val) :
    (iblk2 V c 0 t : Vec Ideal S8000x64 .f32) (ix2 p ch) = (V c main_v24 : S400000x64.Idx → Ideal .f32) (ix2 e ch) := by
  obtain ⟨e00, e01, -⟩ := idx_facts2 t
  unfold iblk2
  rw [View.read_apply]
  show V c main_v24 _ = V c main_v24 _
  congr 1
  funext a
  apply Fin.ext
  match a with
  | ⟨0, _⟩ => show win2_0.index t (0 : Fin 2) * 8000 + 1 * p.val = e.val; rw [e00, he]; omega
  | ⟨1, _⟩ => show win2_0.index t (1 : Fin 2) * 64 + 1 * ch.val = ch.val; rw [e01]; omega

/-- Row p of the pseudo-coordinates' block at point t is row 8000·t + p of the array. -/
theorem iblk2_1_apply (c : Dev nD) (t : Fin cfg2.N) (p : Fin 8000) (u : Fin 2) (e : Fin 400000) (he : e.val = t.val * 8000 + p.val) :
    (iblk2 V c 1 t : Vec Ideal S8000x2 .f32) (ix2 p u) = (V c main_arg2 : S400000x2.Idx → Ideal .f32) (ix2 e u) := by
  obtain ⟨-, -, e10, e11, -⟩ := idx_facts2 t
  unfold iblk2
  rw [View.read_apply]
  show V c main_arg2 _ = V c main_arg2 _
  congr 1
  funext a
  apply Fin.ext
  match a with
  | ⟨0, _⟩ => show win2_1.index t (0 : Fin 2) * 8000 + 1 * p.val = e.val; rw [e10, he]; omega
  | ⟨1, _⟩ => show win2_1.index t (1 : Fin 2) * 2 + 1 * u.val = u.val; rw [e11]; omega

/-- The weights' block at every point is the weight array. -/
theorem iblk2_2_apply (c : Dev nD) (t : Fin cfg2.N) (k : Fin 9) (ch : Fin 64) (q : Fin 32) :
    (iblk2 V c 2 t : Vec Ideal S9x64x32 .f32) (ix3 k ch q) = (V c main_arg4 : S9x64x32.Idx → Ideal .f32) (ix3 k ch q) := by
  obtain ⟨-, -, -, -, e20, e21, e22, -⟩ := idx_facts2 t
  unfold iblk2
  rw [View.read_apply]
  show V c main_arg4 _ = V c main_arg4 _
  congr 1
  funext a
  apply Fin.ext
  match a with
  | ⟨0, _⟩ => show win2_2.index t (0 : Fin 3) * 9 + 1 * k.val = k.val; rw [e20]; omega
  | ⟨1, _⟩ => show win2_2.index t (1 : Fin 3) * 64 + 1 * ch.val = ch.val; rw [e21]; omega
  | ⟨2, _⟩ => show win2_2.index t (2 : Fin 3) * 32 + 1 * q.val = q.val; rw [e22]; omega

/-- What point t writes back is block t of the messages of the three arrays as the region finds them: entry (p, q) of the
    block sits at (8000·t + p, q) of the array. -/
theorem flushed2_eq (c : Dev nD) (t : Fin cfg2.N) :
    (dat2 V c).flushed 3 t = ((cfg2.win 3).blk t).view.read (Elt Ideal)
      (edgeMsg (V c main_v24 : S400000x64.Idx → Ideal .f32) (V c main_arg2 : S400000x2.Idx → Ideal .f32) (V c main_arg4 : S9x64x32.Idx → Ideal .f32)) := by
  show (cfg2.win 3).cut (grid2.coords t) ((dat2 V c).after 3 t) = _
  rw [after2_3]
  obtain ⟨-, -, -, -, -, -, -, e30, e31⟩ := idx_facts2 t
  have hN : cfg2.N = 50 := N_2
  have ht : t.val < 50 := by have := t.isLt; omega
  funext j
  have hj0 : (j 0).val < 8000 := (j 0).isLt
  have hj1 : (j 1).val < 32 := (j 1).isLt
  show out2_3 (iblk2 V c 0 t) (iblk2 V c 1 t) (iblk2 V c 2 t) ((cfg2.win 3).xinj (grid2.coords t) j)
    = edgeMsg (V c main_v24 : S400000x64.Idx → Ideal .f32) (V c main_arg2 : S400000x2.Idx → Ideal .f32) (V c main_arg4 : S9x64x32.Idx → Ideal .f32) (((cfg2.win 3).blk t).view.emb j)
  have hy : (cfg2.win 3).xinj (grid2.coords t) j = ix2 (⟨(j 0).val, hj0⟩ : Fin 8000) (⟨(j 1).val, hj1⟩ : Fin 32) :=
    funext fun a => by match a with | ⟨0, _⟩ => rfl | ⟨1, _⟩ => rfl
  have hi : ((cfg2.win 3).blk t).view.emb j = ix2 (⟨t.val * 8000 + (j 0).val, by omega⟩ : Fin 400000) (⟨(j 1).val, hj1⟩ : Fin 32) :=
    funext fun a => Fin.ext (by
      match a with
      | ⟨0, _⟩ => show win2_3.index t (0 : Fin 2) * 8000 + 1 * (j 0).val = t.val * 8000 + (j 0).val; rw [e30]; omega
      | ⟨1, _⟩ => show win2_3.index t (1 : Fin 2) * 32 + 1 * (j 1).val = (j 1).val; rw [e31]; omega)
  rw [hy, hi]
  exact block2_point _ _ _ _ _ _ _ _ _ (fun ch => iblk2_0_apply V c t _ ch _ rfl) (fun u => iblk2_1_apply V c t _ u _ rfl)
    (fun k ch => iblk2_2_apply V c t k ch _)

/-- An entry of the message array is in point t's block iff each coordinate is in the block's range on its axis. -/
theorem mem_blk2 (t : Fin cfg2.N) (i : S400000x32.Idx) :
    i ∈ ((cfg2.win 3).blk t).view.set ↔ ∀ a : Fin 2, win2_3.index t a * S8000x32.size a ≤ (i a).val ∧ (i a).val < win2_3.index t a * S8000x32.size a + S8000x32.size a := by
  show i ∈ ((View.whole main_v25).slice (win2_3.rect t)).set ↔ _
  rw [View.set_slice_whole, Rect.mem_set_unit]
  exact Iff.rfl

/-- Every entry is covered: row r is in the block of point r / 8000, which writes back. -/
theorem cover2 (i : S400000x32.Idx) : ∃ t : Fin cfg2.N, (cfg2.win 3).flush t = true ∧ i ∈ ((cfg2.win 3).blk t).view.set := by
  have hi0 : (i 0).val < 400000 := (i 0).isLt
  have hi1 : (i 1).val < 32 := (i 1).isLt
  have hN : cfg2.N = 50 := N_2
  have ht : (i 0).val / 8000 < cfg2.N := by rw [hN]; omega
  obtain ⟨-, -, -, -, -, -, -, e30, e31⟩ := idx_facts2 ⟨(i 0).val / 8000, ht⟩
  refine ⟨⟨(i 0).val / 8000, ht⟩, flush2_3 _, ?_⟩
  rw [mem_blk2]
  intro a
  match a with
  | ⟨0, _⟩ =>
    show win2_3.index ⟨(i 0).val / 8000, ht⟩ (0 : Fin 2) * 8000 ≤ (i 0).val ∧ (i 0).val < win2_3.index ⟨(i 0).val / 8000, ht⟩ (0 : Fin 2) * 8000 + 8000
    rw [e30]; show (i 0).val / 8000 * 8000 ≤ (i 0).val ∧ (i 0).val < (i 0).val / 8000 * 8000 + 8000; omega
  | ⟨1, _⟩ =>
    show win2_3.index ⟨(i 0).val / 8000, ht⟩ (1 : Fin 2) * 32 ≤ (i 1).val ∧ (i 1).val < win2_3.index ⟨(i 0).val / 8000, ht⟩ (1 : Fin 2) * 32 + 32
    rw [e31]; omega

/-- The message array after the region: the messages of all 400000 edges, from the source rows, the pseudo-coordinates and
    the weights as the region finds them. -/
theorem final2 (c : Dev nD) : (dat2 V c).arrAt 3 cfg2.N
    = edgeMsg (V c main_v24 : S400000x64.Idx → Ideal .f32) (V c main_arg2 : S400000x2.Idx → Ideal .f32) (V c main_arg4 : S9x64x32.Idx → Ideal .f32) :=
  (dat2 V c).arrAt_eq_of_cover 3 _ (fun t _ => flushed2_eq V c t) cover2

end Cert.KernelIdeal.Val

end
-- ==== Proof.KEdgeBody32.lean ====
/-
  The edge kernel's block of messages, entry by entry (32 input channels).

  One grid point holds 8000 edges: their source rows `x0` (8000 × 32), their pseudo-coordinates `x1` (8000 × 2) and all
  nine weight slabs `x2` (9 × 32 × 32). The body forms the six columns b_0, b_1, b_2 of column 0 (t0) and of column 1
  (t1) of `x1`, and adds, from zero and in the order k = 3i + j, the nine products
      (x0 scaled row by row by b_i(t1) · b_j(t0)) · x2[k].
  Read at entry (p, q) each product is a sum over the 32 channels c of (x0 (p, c) · (b_i(t1 p) · b_j(t0 p))) · x2 (k, c, q):
  the matrix product contracts the channel axis, the column of scale factors is constant along a row, and slab k of the
  weights, seen as a 32 × 32 matrix, has entry (c, q) at position (k, c, q). The body writes 0 − t where the basis
  function b_1 has −t; that is the only law of arithmetic used. The result is `Cert.Spline.edgeRow` of row p.
-/
import proofs.«124089_j37623913513299_2_alg».proof.Proof.Gen.KernelIdeal.Frame
import proofs.«124089_j37623913513299_2_alg».proof.Proof.Spec
import proofs.«124089_j37623913513299_2_alg».proof.Proof.LibPlainDot
import proofs.«124089_j37623913513299_2_alg».proof.Proof.LibKeepdims
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.ValueIdx
open Cert.Spline

/-- Offsets written (0, 0) are the zero offsets. -/
theorem e32_hz2 : (![0, 0] : Fin 2 → Nat) = fun _ => 0 := funext fun a => by fin_cases a <;> rfl
/-- Offsets written (0, 0, 0) are the zero offsets. -/
theorem e32_hz3 : (![0, 0, 0] : Fin 3 → Nat) = fun _ => 0 := funext fun a => by fin_cases a <;> rfl

/-- The products contract the rows' channel axis against the slab's first axis and have no batch axis. -/
theorem e32_plain : Cert.LibPlainDot.Plain dot_S8000x32_S32x32_S8000x32_1_0_0_1_n_n := ⟨rfl, rfl, rfl, rfl, rfl, rfl⟩

/-- Column 0 of the pseudo-coordinates, as a column: row p holds t0 of edge p. -/
theorem k4_pay3_apply (x1 : Vec Ideal S8000x2 .f32) (p : Fin 8000) :
    k4_pay3 x1 (ix2 p (0 : Fin 1)) = x1 (ix2 p (0 : Fin 2)) := by
  unfold k4_pay3
  refine extractStridedSlice_apply _ _ _ _ _ fun a => ?_
  match a with
  | ⟨0, _⟩ => show p.val = 0 + p.val; omega
  | ⟨1, _⟩ => rfl

/-- Column 1 of the pseudo-coordinates, as a column: row p holds t1 of edge p. -/
theorem k4_pay4_apply (x1 : Vec Ideal S8000x2 .f32) (p : Fin 8000) :
    k4_pay4 x1 (ix2 p (0 : Fin 1)) = x1 (ix2 p (1 : Fin 2)) := by
  unfold k4_pay4
  refine extractStridedSlice_apply _ _ _ _ _ fun a => ?_
  match a with
  | ⟨0, _⟩ => show p.val = 0 + p.val; omega
  | ⟨1, _⟩ => rfl

/-- b_0 of t0: ½ · (1 − t)². -/
theorem k4_pay5_apply (x1 : Vec Ideal S8000x2 .f32) (p : Fin 8000) :
    k4_pay5 x1 (ix2 p (0 : Fin 1)) = basis 0 (x1 (ix2 p (0 : Fin 2))) := by
  unfold k4_pay5
  show wHalf * ((wOne - k4_pay3 x1 (ix2 p 0)) * (wOne - k4_pay3 x1 (ix2 p 0))) = _
  rw [k4_pay3_apply]; rfl

/-- b_1 of t0: the body's (0 − t) · t + t + ½ is (−t) · t + t + ½. -/
theorem k4_pay6_apply (x1 : Vec Ideal S8000x2 .f32) (p : Fin 8000) :
    k4_pay6 x1 (ix2 p (0 : Fin 1)) = basis 1 (x1 (ix2 p (0 : Fin 2))) := by
  unfold k4_pay6
  show ((Ideal.ofBits .f32 0x00000000#32 - k4_pay3 x1 (ix2 p 0)) * k4_pay3 x1 (ix2 p 0) + k4_pay3 x1 (ix2 p 0)) + wHalf = _
  rw [k4_pay3_apply, Ideal.ofBits_zero_f32, zero_sub]; rfl

/-- b_2 of t0: (½ · t) · t. -/
theorem k4_pay7_apply (x1 : Vec Ideal S8000x2 .f32) (p : Fin 8000) :
    k4_pay7 x1 (ix2 p (0 : Fin 1)) = basis 2 (x1 (ix2 p (0 : Fin 2))) := by
  unfold k4_pay7
  show (wHalf * k4_pay3 x1 (ix2 p 0)) * k4_pay3 x1 (ix2 p 0) = _
  rw [k4_pay3_apply]; rfl

/-- b_0 of t1. -/
theorem k4_pay8_apply (x1 : Vec Ideal S8000x2 .f32) (p : Fin 8000) :
    k4_pay8 x1 (ix2 p (0 : Fin 1)) = basis 0 (x1 (ix2 p (1 : Fin 2))) := by
  unfold k4_pay8
  show wHalf * ((wOne - k4_pay4 x1 (ix2 p 0)) * (wOne - k4_pay4 x1 (ix2 p 0))) = _
  rw [k4_pay4_apply]; rfl

/-- b_1 of t1, again with 0 − t for −t. -/
theorem k4_pay9_apply (x1 : Vec Ideal S8000x2 .f32) (p : Fin 8000) :
    k4_pay9 x1 (ix2 p (0 : Fin 1)) = basis 1 (x1 (ix2 p (1 : Fin 2))) := by
  unfold k4_pay9
  show ((Ideal.ofBits .f32 0x00000000#32 - k4_pay4 x1 (ix2 p 0)) * k4_pay4 x1 (ix2 p 0) + k4_pay4 x1 (ix2 p 0)) + wHalf = _
  rw [k4_pay4_apply, Ideal.ofBits_zero_f32, zero_sub]; rfl

/-- b_2 of t1. -/
theorem k4_pay10_apply (x1 : Vec Ideal S8000x2 .f32) (p : Fin 8000) :
    k4_pay10 x1 (ix2 p (0 : Fin 1)) = basis 2 (x1 (ix2 p (1 : Fin 2))) := by
  unfold k4_pay10
  show (wHalf * k4_pay4 x1 (ix2 p 0)) * k4_pay4 x1 (ix2 p 0) = _
  rw [k4_pay4_apply]; rfl

/-- One of the nine products at entry (p, q): the rows `x` scaled by the product of two columns `a`, `b`, times slab `n`
    of the weights. The product is the sum over the channel c; the scale factor at (p, c) is the columns' entry p; slab
    `n` as a matrix has entry (c, q) at row-major position c · 32 + q of the slab, which is (n, c, q) of the weights. -/
theorem e32_slab_apply (x : FVec Ideal S8000x32 .f32) (a b : FVec Ideal S8000x1 .f32) (x2 : FVec Ideal S9x32x32 .f32)
    (n : Nat) (hn : n < 9) (hs : S9x32x32.Slices ![n, 0, 0] S1x32x32) (p : Fin 8000) (q : Fin 32) :
    matmul dot_S8000x32_S32x32_S8000x32_1_0_0_1_n_n none
        (mulf x (broadcastTo S8000x32 (mulf a b) broadcasts_S8000x1_S8000x32))
        (shapeCast S32x32 (extractStridedSlice S1x32x32 ![n, 0, 0] x2 hs) shapeCasts_S1x32x32_S32x32)
        (constant S8000x32 .f32 0x00000000#32) (ix2 p q)
      = ∑ c : Fin 32, (x (ix2 p c) * (a (ix2 p (0 : Fin 1)) * b (ix2 p (0 : Fin 1)))) * x2 (ix3 (⟨n, hn⟩ : Fin 9) c q) := by
  refine (Cert.LibPlainDot.matmul_zero_apply e32_plain none _ _ p q).trans ?_
  refine Finset.sum_congr rfl fun c _ => ?_
  refine congrArg₂ (· * ·) ?_ ?_
  · show x (ix2 p c) * broadcastTo S8000x32 (mulf a b) broadcasts_S8000x1_S8000x32 (ix2 p c) = _
    rw [broadcastTo_a1_ab_apply]; rfl
  · refine (shapeCast_apply _ _ (ix2 c q) (ix3 (0 : Fin 1) c q) ?_).trans ?_
    · rw [Shape.rowMajor_val_three, Shape.rowMajor_val_two]
      show (0 * 32 + c.val) * 32 + q.val = c.val * 32 + q.val
      omega
    · refine extractStridedSlice_apply _ _ _ _ _ fun a => ?_
      match a with
      | ⟨0, _⟩ => show n = n + 0; omega
      | ⟨1, _⟩ => show c.val = 0 + c.val; omega
      | ⟨2, _⟩ => show q.val = 0 + q.val; omega

/-- The block the body leaves, at entry (p, q), is the message of edge p at channel q: zero plus the nine products in the
    order k = 3i + j, each with its scale factor b_i(t1) · b_j(t0) and its slab k. -/
theorem out4_3_apply (x0 : Vec Ideal S8000x32 .f32) (x1 : Vec Ideal S8000x2 .f32) (x2 : Vec Ideal S9x32x32 .f32) (p : Fin 8000) (q : Fin 32) :
    out4_3 (F := Ideal) x0 x1 x2 (ix2 p q)
      = Cert.Spline.edgeRow (fun c => x0 (ix2 p c)) (x1 (ix2 p (0 : Fin 2))) (x1 (ix2 p (1 : Fin 2))) (fun k c => x2 (ix3 k c q)) := by
  unfold out4_3
  rw [View.canon_unit_zero e32_hz2]
  simp only [View.ld_unit_zero (S := S8000x32) e32_hz2, View.ld_unit_zero (S := S8000x2) e32_hz2, View.ld_unit_zero (S := S9x32x32) e32_hz3]
  unfold k4_pay1 k4_pay14 k4_pay12 k4_pay13 k4_pay15 k4_pay11 k4_pay2
  simp only [shapeCast_self, addf_apply, broadcast_apply]
  rw [e32_slab_apply x0 (k4_pay8 x1) (k4_pay5 x1) x2 0 (by decide) _ p q,
    e32_slab_apply x0 (k4_pay8 x1) (k4_pay6 x1) x2 1 (by decide) _ p q,
    e32_slab_apply x0 (k4_pay8 x1) (k4_pay7 x1) x2 2 (by decide) _ p q,
    e32_slab_apply x0 (k4_pay9 x1) (k4_pay5 x1) x2 3 (by decide) _ p q,
    e32_slab_apply x0 (k4_pay9 x1) (k4_pay6 x1) x2 4 (by decide) _ p q,
    e32_slab_apply x0 (k4_pay9 x1) (k4_pay7 x1) x2 5 (by decide) _ p q,
    e32_slab_apply x0 (k4_pay10 x1) (k4_pay5 x1) x2 6 (by decide) _ p q,
    e32_slab_apply x0 (k4_pay10 x1) (k4_pay6 x1) x2 7 (by decide) _ p q,
    e32_slab_apply x0 (k4_pay10 x1) (k4_pay7 x1) x2 8 (by decide) _ p q]
  simp only [k4_pay5_apply, k4_pay6_apply, k4_pay7_apply, k4_pay8_apply, k4_pay9_apply, k4_pay10_apply]
  rfl

end Cert.KernelIdeal.Val

end
-- ==== Proof.KEdgeFinal4.lean ====
/-
  From the blocks to the array: the edge kernel of 32 input channels over all 400000 edges.

  The grid has 50 points; point t holds edges 8000·t … 8000·t + 7999: the source rows' block and the pseudo-coordinates'
  block at t are those rows of their arrays, the weights' block is the whole weight array at every point, and the output
  block at t is rows 8000·t … 8000·t + 7999 of the message array. So entry (p, q) of what point t writes back is the
  message of edge 8000·t + p at channel q, computed from that edge's own source row and pseudo-coordinates: the block
  written back is the block of `Cert.Spline.edgeMsg` of the three arrays. Every row r lies in the block of point
  r / 8000, so the blocks cover the array and the array ends holding `edgeMsg`.
-/
import proofs.«124089_j37623913513299_2_alg».proof.Proof.KEdgeBody32
import Idealize.ShloMosaic.Lib.Pipeline.Value

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open Cert.Spline

variable (V : (c : Dev nD) → (b : Ref sig .tc) → Buf (Elt Ideal) ((c : Thread nD τ).loc b))

/-- The block indices at grid point t, decided over the 50 points: the two edge-indexed inputs and the output sit at row
    block t, column block 0; the weights at block (0, 0, 0). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 3) = 0 ∧ win4_2.index t (1 : Fin 3) = 0 ∧ win4_2.index t (2 : Fin 3) = 0
    ∧ win4_3.index t (0 : Fin 2) = t.val ∧ win4_3.index t (1 : Fin 2) = 0 :=
  (by decide +kernel : ∀ t : Fin grid4.N, _)

/-- Entry (p, q) of the body's block is entry (e, q) of the messages, when row p of the two edge-indexed blocks is row e
    of their arrays and the weights' block is the weight array. -/
theorem block4_point (x0 : Vec Ideal S8000x32 .f32) (x1 : Vec Ideal S8000x2 .f32) (x2 : Vec Ideal S9x32x32 .f32)
    (xj : FVec Ideal S400000x32 .f32) (ps : FVec Ideal S400000x2 .f32) (W : FVec Ideal S9x32x32 .f32)
    (p : Fin 8000) (q : Fin 32) (e : Fin 400000)
    (h0 : ∀ ch : Fin 32, x0 (ix2 p ch) = xj (ix2 e ch)) (h1 : ∀ u : Fin 2, x1 (ix2 p u) = ps (ix2 e u))
    (h2 : ∀ (k : Fin 9) (ch : Fin 32), x2 (ix3 k ch q) = W (ix3 k ch q)) :
    out4_3 (F := Ideal) x0 x1 x2 (ix2 p q) = edgeMsg xj ps W (ix2 e q) := by
  rw [out4_3_apply, edgeMsg_apply]
  simp only [h0, h1, h2]

/-- Row p of the source rows' block at point t is row 8000·t + p of the array. -/
theorem iblk4_0_apply (c : Dev nD) (t : Fin cfg4.N) (p : Fin 8000) (ch : Fin 32) (e : Fin 400000) (he : e.val = t.val * 8000 + p.val) :
    (iblk4 V c 0 t : Vec Ideal S8000x32 .f32) (ix2 p ch) = (V c main_v37 : S400000x32.Idx → Ideal .f32) (ix2 e ch) := by
  obtain ⟨e00, e01, -⟩ := idx_facts4 t
  unfold iblk4
  rw [View.read_apply]
  show V c main_v37 _ = V c main_v37 _
  congr 1
  funext a
  apply Fin.ext
  match a with
  | ⟨0, _⟩ => show win4_0.index t (0 : Fin 2) * 8000 + 1 * p.val = e.val; rw [e00, he]; omega
  | ⟨1, _⟩ => show win4_0.index t (1 : Fin 2) * 32 + 1 * ch.val = ch.val; rw [e01]; omega

/-- Row p of the pseudo-coordinates' block at point t is row 8000·t + p of the array. -/
theorem iblk4_1_apply (c : Dev nD) (t : Fin cfg4.N) (p : Fin 8000) (u : Fin 2) (e : Fin 400000) (he : e.val = t.val * 8000 + p.val) :
    (iblk4 V c 1 t : Vec Ideal S8000x2 .f32) (ix2 p u) = (V c main_arg2 : S400000x2.Idx → Ideal .f32) (ix2 e u) := by
  obtain ⟨-, -, e10, e11, -⟩ := idx_facts4 t
  unfold iblk4
  rw [View.read_apply]
  show V c main_arg2 _ = V c main_arg2 _
  congr 1
  funext a
  apply Fin.ext
  match a with
  | ⟨0, _⟩ => show win4_1.index t (0 : Fin 2) * 8000 + 1 * p.val = e.val; rw [e10, he]; omega
  | ⟨1, _⟩ => show win4_1.index t (1 : Fin 2) * 2 + 1 * u.val = u.val; rw [e11]; omega

/-- The weights' block at every point is the weight array. -/
theorem iblk4_2_apply (c : Dev nD) (t : Fin cfg4.N) (k : Fin 9) (ch : Fin 32) (q : Fin 32) :
    (iblk4 V c 2 t : Vec Ideal S9x32x32 .f32) (ix3 k ch q) = (V c main_arg7 : S9x32x32.Idx → Ideal .f32) (ix3 k ch q) := by
  obtain ⟨-, -, -, -, e20, e21, e22, -⟩ := idx_facts4 t
  unfold iblk4
  rw [View.read_apply]
  show V c main_arg7 _ = V c main_arg7 _
  congr 1
  funext a
  apply Fin.ext
  match a with
  | ⟨0, _⟩ => show win4_2.index t (0 : Fin 3) * 9 + 1 * k.val = k.val; rw [e20]; omega
  | ⟨1, _⟩ => show win4_2.index t (1 : Fin 3) * 32 + 1 * ch.val = ch.val; rw [e21]; omega
  | ⟨2, _⟩ => show win4_2.index t (2 : Fin 3) * 32 + 1 * q.val = q.val; rw [e22]; omega

/-- What point t writes back is block t of the messages of the three arrays as the region finds them: entry (p, q) of the
    block sits at (8000·t + p, q) of the array. -/
theorem flushed4_eq (c : Dev nD) (t : Fin cfg4.N) :
    (dat4 V c).flushed 3 t = ((cfg4.win 3).blk t).view.read (Elt Ideal)
      (edgeMsg (V c main_v37 : S400000x32.Idx → Ideal .f32) (V c main_arg2 : S400000x2.Idx → Ideal .f32) (V c main_arg7 : S9x32x32.Idx → Ideal .f32)) := by
  show (cfg4.win 3).cut (grid4.coords t) ((dat4 V c).after 3 t) = _
  rw [after4_3]
  obtain ⟨-, -, -, -, -, -, -, e30, e31⟩ := idx_facts4 t
  have hN : cfg4.N = 50 := N_4
  have ht : t.val < 50 := by have := t.isLt; omega
  funext j
  have hj0 : (j 0).val < 8000 := (j 0).isLt
  have hj1 : (j 1).val < 32 := (j 1).isLt
  show out4_3 (iblk4 V c 0 t) (iblk4 V c 1 t) (iblk4 V c 2 t) ((cfg4.win 3).xinj (grid4.coords t) j)
    = edgeMsg (V c main_v37 : S400000x32.Idx → Ideal .f32) (V c main_arg2 : S400000x2.Idx → Ideal .f32) (V c main_arg7 : S9x32x32.Idx → Ideal .f32) (((cfg4.win 3).blk t).view.emb j)
  have hy : (cfg4.win 3).xinj (grid4.coords t) j = ix2 (⟨(j 0).val, hj0⟩ : Fin 8000) (⟨(j 1).val, hj1⟩ : Fin 32) :=
    funext fun a => by match a with | ⟨0, _⟩ => rfl | ⟨1, _⟩ => rfl
  have hi : ((cfg4.win 3).blk t).view.emb j = ix2 (⟨t.val * 8000 + (j 0).val, by omega⟩ : Fin 400000) (⟨(j 1).val, hj1⟩ : Fin 32) :=
    funext fun a => Fin.ext (by
      match a with
      | ⟨0, _⟩ => show win4_3.index t (0 : Fin 2) * 8000 + 1 * (j 0).val = t.val * 8000 + (j 0).val; rw [e30]; omega
      | ⟨1, _⟩ => show win4_3.index t (1 : Fin 2) * 32 + 1 * (j 1).val = (j 1).val; rw [e31]; omega)
  rw [hy, hi]
  exact block4_point _ _ _ _ _ _ _ _ _ (fun ch => iblk4_0_apply V c t _ ch _ rfl) (fun u => iblk4_1_apply V c t _ u _ rfl)
    (fun k ch => iblk4_2_apply V c t k ch _)

/-- An entry of the message array is in point t's block iff each coordinate is in the block's range on its axis. -/
theorem mem_blk4 (t : Fin cfg4.N) (i : S400000x32.Idx) :
    i ∈ ((cfg4.win 3).blk t).view.set ↔ ∀ a : Fin 2, win4_3.index t a * S8000x32.size a ≤ (i a).val ∧ (i a).val < win4_3.index t a * S8000x32.size a + S8000x32.size a := by
  show i ∈ ((View.whole main_v38).slice (win4_3.rect t)).set ↔ _
  rw [View.set_slice_whole, Rect.mem_set_unit]
  exact Iff.rfl

/-- Every entry is covered: row r is in the block of point r / 8000, which writes back. -/
theorem cover4 (i : S400000x32.Idx) : ∃ t : Fin cfg4.N, (cfg4.win 3).flush t = true ∧ i ∈ ((cfg4.win 3).blk t).view.set := by
  have hi0 : (i 0).val < 400000 := (i 0).isLt
  have hi1 : (i 1).val < 32 := (i 1).isLt
  have hN : cfg4.N = 50 := N_4
  have ht : (i 0).val / 8000 < cfg4.N := by rw [hN]; omega
  obtain ⟨-, -, -, -, -, -, -, e30, e31⟩ := idx_facts4 ⟨(i 0).val / 8000, ht⟩
  refine ⟨⟨(i 0).val / 8000, ht⟩, flush4_3 _, ?_⟩
  rw [mem_blk4]
  intro a
  match a with
  | ⟨0, _⟩ =>
    show win4_3.index ⟨(i 0).val / 8000, ht⟩ (0 : Fin 2) * 8000 ≤ (i 0).val ∧ (i 0).val < win4_3.index ⟨(i 0).val / 8000, ht⟩ (0 : Fin 2) * 8000 + 8000
    rw [e30]; show (i 0).val / 8000 * 8000 ≤ (i 0).val ∧ (i 0).val < (i 0).val / 8000 * 8000 + 8000; omega
  | ⟨1, _⟩ =>
    show win4_3.index ⟨(i 0).val / 8000, ht⟩ (1 : Fin 2) * 32 ≤ (i 1).val ∧ (i 1).val < win4_3.index ⟨(i 0).val / 8000, ht⟩ (1 : Fin 2) * 32 + 32
    rw [e31]; omega

/-- The message array after the region: the messages of all 400000 edges, from the source rows, the pseudo-coordinates and
    the weights as the region finds them. -/
theorem final4 (c : Dev nD) : (dat4 V c).arrAt 3 cfg4.N
    = edgeMsg (V c main_v37 : S400000x32.Idx → Ideal .f32) (V c main_arg2 : S400000x2.Idx → Ideal .f32) (V c main_arg7 : S9x32x32.Idx → Ideal .f32) :=
  (dat4 V c).arrAt_eq_of_cover 3 _ (fun t _ => flushed4_eq V c t) cover4

end Cert.KernelIdeal.Val

end
-- ==== Proof.KNodeBody.lean ====
/-
  The node kernels at one entry.

  Each of the three node kernels loads four whole blocks — the aggregated messages [10000,32], the node features
  [10000,C], the root weights [C,32] and the bias as a one-row matrix [1,32] — and stores one whole block [10000,32]:
  the matrix product of the features with the root weights into a zero accumulator, added to the aggregated messages,
  plus the bias row repeated down the rows, and the maximum of that with zero. At row p and channel q this is
    max ((agg p q + Σ_c x p c · root c q) + bias q) 0,
  with the sums and the two additions associated exactly so, which is the specification's node row.
-/
import proofs.«124089_j37623913513299_2_alg».proof.Proof.Gen.KernelIdeal.Frame
import proofs.«124089_j37623913513299_2_alg».proof.Proof.Spec
import proofs.«124089_j37623913513299_2_alg».proof.Proof.LibPlainDot
import Idealize.ShloMosaic.Lib.ValueLayout
import Idealize.ShloMosaic.Lib.Pipeline.Value

noncomputable section

open scoped BigOperators

namespace Cert.KernelIdeal.Val

open Cert.KernelIdeal Cert.KernelIdeal.Gen Idealize.ShloMosaic Idealize.ShloMosaic.ValueIdx

/-- The whole-buffer rectangle starts at zero on both axes. -/
theorem hz : (![0, 0] : Fin 2 → Nat) = fun _ => 0 := funext fun a => by fin_cases a <;> rfl

/-- The two products of the node kernels, [10000,64]×[64,32] and [10000,32]×[32,32], are plain matrix products. -/
theorem plain64 : Cert.LibPlainDot.Plain dot_S10000x64_S64x32_S10000x32_1_0_0_1_n_n := ⟨rfl, rfl, rfl, rfl, rfl, rfl⟩
theorem plain32 : Cert.LibPlainDot.Plain dot_S10000x32_S32x32_S10000x32_1_0_0_1_n_n := ⟨rfl, rfl, rfl, rfl, rfl, rfl⟩

/-- The node kernel's stored value at row p, channel q: max (agg + Σ_c x c · root c q + bias q) 0. -/
theorem k1_pay1_apply (v0 : Vec Ideal S10000x32 .f32) (v2 : Vec Ideal S10000x64 .f32) (v3 : Vec Ideal S64x32 .f32)
    (v4 : Vec Ideal S1x32 .f32) (p : Fin 10000) (q : Fin 32) :
    k1_pay1 (F := Ideal) v0 v2 v3 v4 (ix2 p q)
      = Cert.Spline.nodeRow (v0 (ix2 p q)) (fun c => v2 (ix2 p c)) (fun c => v3 (ix2 c q)) (v4 (ix2 (0 : Fin 1) q)) := by
  unfold k1_pay1 Cert.Spline.nodeRow
  rw [maximumf_apply, addf_apply, addf_apply, broadcast_apply, shapeCast_self, shapeCast_self]
  refine congrArg₂ max (congrArg₂ (· + ·) (congrArg₂ (· + ·) rfl ?_) ?_) rfl
  · exact Cert.LibPlainDot.matmul_zero_apply plain64 none v2 v3 p q
  · exact broadcastTo_1b_ab_apply v4 _ p q

theorem k3_pay1_apply (v0 : Vec Ideal S10000x32 .f32) (v2 : Vec Ideal S10000x64 .f32) (v3 : Vec Ideal S64x32 .f32)
    (v4 : Vec Ideal S1x32 .f32) (p : Fin 10000) (q : Fin 32) :
    k3_pay1 (F := Ideal) v0 v2 v3 v4 (ix2 p q)
      = Cert.Spline.nodeRow (v0 (ix2 p q)) (fun c => v2 (ix2 p c)) (fun c => v3 (ix2 c q)) (v4 (ix2 (0 : Fin 1) q)) := by
  unfold k3_pay1 Cert.Spline.nodeRow
  rw [maximumf_apply, addf_apply, addf_apply, broadcast_apply, shapeCast_self, shapeCast_self, shapeCast_self]
  refine congrArg₂ max (congrArg₂ (· + ·) (congrArg₂ (· + ·) rfl ?_) ?_) rfl
  · exact Cert.LibPlainDot.matmul_zero_apply plain64 none v2 v3 p q
  · exact broadcastTo_1b_ab_apply v4 _ p q

theorem k5_pay1_apply (v0 : Vec Ideal S10000x32 .f32) (v2 : Vec Ideal S10000x32 .f32) (v3 : Vec Ideal S32x32 .f32)
    (v4 : Vec Ideal S1x32 .f32) (p : Fin 10000) (q : Fin 32) :
    k5_pay1 (F := Ideal) v0 v2 v3 v4 (ix2 p q)
      = Cert.Spline.nodeRow (v0 (ix2 p q)) (fun c => v2 (ix2 p c)) (fun c => v3 (ix2 c q)) (v4 (ix2 (0 : Fin 1) q)) := by
  unfold k5_pay1 Cert.Spline.nodeRow
  rw [maximumf_apply, addf_apply, addf_apply, broadcast_apply, shapeCast_self, shapeCast_self, shapeCast_self]
  refine congrArg₂ max (congrArg₂ (· + ·) (congrArg₂ (· + ·) rfl ?_) ?_) rfl
  · exact Cert.LibPlainDot.matmul_zero_apply plain32 none v2 v3 p q
  · exact broadcastTo_1b_ab_apply v4 _ p q

/-- What the first node kernel leaves in its output block, entry by entry: one store over the whole block, of the
    payload of the four whole-block loads. -/
theorem out1_4_apply (x0 : Vec Ideal S10000x32 .f32) (x1 : Vec Ideal S10000x64 .f32) (x2 : Vec Ideal S64x32 .f32)
    (x3 : Vec Ideal S1x32 .f32) (p : Fin 10000) (q : Fin 32) :
    out1_4 (F := Ideal) x0 x1 x2 x3 (ix2 p q)
      = Cert.Spline.nodeRow (x0 (ix2 p q)) (fun c => x1 (ix2 p c)) (fun c => x2 (ix2 c q)) (x3 (ix2 (0 : Fin 1) q)) := by
  unfold out1_4
  rw [View.canon_unit_zero hz]
  rw [View.ld_unit_zero (S := S10000x32) hz, View.ld_unit_zero (S := S10000x64) hz, View.ld_unit_zero (S := S64x32) hz,
    View.ld_unit_zero (S := S1x32) hz]
  exact k1_pay1_apply x0 x1 x2 x3 p q

theorem out3_4_apply (x0 : Vec Ideal S10000x32 .f32) (x1 : Vec Ideal S10000x64 .f32) (x2 : Vec Ideal S64x32 .f32)
    (x3 : Vec Ideal S1x32 .f32) (p : Fin 10000) (q : Fin 32) :
    out3_4 (F := Ideal) x0 x1 x2 x3 (ix2 p q)
      = Cert.Spline.nodeRow (x0 (ix2 p q)) (fun c => x1 (ix2 p c)) (fun c => x2 (ix2 c q)) (x3 (ix2 (0 : Fin 1) q)) := by
  unfold out3_4
  rw [View.canon_unit_zero hz]
  rw [View.ld_unit_zero (S := S10000x32) hz, View.ld_unit_zero (S := S10000x64) hz, View.ld_unit_zero (S := S64x32) hz,
    View.ld_unit_zero (S := S1x32) hz]
  exact k3_pay1_apply x0 x1 x2 x3 p q

theorem out5_4_apply (x0 : Vec Ideal S10000x32 .f32) (x1 : Vec Ideal S10000x32 .f32) (x2 : Vec Ideal S32x32 .f32)
    (x3 : Vec Ideal S1x32 .f32) (p : Fin 10000) (q : Fin 32) :
    out5_4 (F := Ideal) x0 x1 x2 x3 (ix2 p q)
      = Cert.Spline.nodeRow (x0 (ix2 p q)) (fun c => x1 (ix2 p c)) (fun c => x2 (ix2 c q)) (x3 (ix2 (0 : Fin 1) q)) := by
  unfold out5_4
  rw [View.canon_unit_zero hz]
  rw [View.ld_unit_zero (S := S10000x32) hz, View.ld_unit_zero (S := S10000x32) hz, View.ld_unit_zero (S := S32x32) hz,
    View.ld_unit_zero (S := S1x32) hz]
  exact k5_pay1_apply x0 x1 x2 x3 p q

end Cert.KernelIdeal.Val

end
-- ==== Proof.KNodeFinal1.lean ====
/-
  From the blocks of node kernel 1 (the first layer's node update) to its output array.

  The kernel runs at five grid points; at point t it is handed rows 10000·t … 10000·t + 9999 of the aggregated messages
  and of the node features, the whole root-weight matrix and the whole bias row, and writes back rows
  10000·t … 10000·t + 9999 of its output. By the entry-wise reading of the stored block, what point t writes back is
  block t of the node update of the four input arrays; the five blocks tile the output (row r lies in the block of
  point r / 10000), so the output array ends holding the node update of the arrays as the region finds them.
-/
import proofs.«124089_j37623913513299_2_alg».proof.Proof.KNodeBody
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Idealize.ShloMosaic Idealize.ShloMosaic.ValueIdx Idealize.ShloMosaic.TcCoe
open Idealize.SL.Sem
open Idealize.ShloMosaic.Pipeline (Dat)

/-- One output block against the whole arrays: when the four loaded blocks are the rows b·10000 … b·10000 + 9999 of the
    aggregated messages and of the features, the whole root weights and the whole bias row, the stored block is those
    rows of the node update. -/
theorem node_block1 (x0 : Vec Ideal S10000x32 .f32) (x1 : Vec Ideal S10000x64 .f32) (x2 : Vec Ideal S64x32 .f32)
    (x3 : Vec Ideal S1x32 .f32) (A0 : S50000x32.Idx → Ideal .f32) (A1 : S50000x64.Idx → Ideal .f32)
    (A2 : S64x32.Idx → Ideal .f32) (A3 : S1x32.Idx → Ideal .f32) (b : Nat)
    (h0 : ∀ (y : S10000x32.Idx) (i : S50000x32.Idx), (i 0).val = b * 10000 + (y 0).val → (i 1).val = (y 1).val → x0 y = A0 i)
    (h1 : ∀ (y : S10000x64.Idx) (i : S50000x64.Idx), (i 0).val = b * 10000 + (y 0).val → (i 1).val = (y 1).val → x1 y = A1 i)
    (h2 : x2 = A2) (h3 : x3 = A3)
    (j : S10000x32.Idx) (i : S50000x32.Idx) (hi0 : (i 0).val = b * 10000 + (j 0).val) (hi1 : (i 1).val = (j 1).val) :
    out1_4 (F := Ideal) x0 x1 x2 x3 j = Cert.Spline.nodeUpd A0 A1 A2 (Cert.Spline.rowOf A3) i := by
  obtain ⟨p, q, rfl⟩ : ∃ (p : Fin 10000) (q : Fin 32), j = ix2 p q := ⟨j 0, j 1, eq_ix2 j⟩
  obtain ⟨n, q', rfl⟩ : ∃ (n : Fin 50000) (q' : Fin 32), i = ix2 n q' := ⟨i 0, i 1, eq_ix2 i⟩
  have hq : q' = q := Fin.ext hi1
  subst hq
  rw [out1_4_apply, Cert.Spline.nodeUpd_apply, Cert.Spline.rowOf_apply, h2, h3]
  have e0 : x0 (ix2 p q') = A0 (ix2 n q') := h0 _ _ hi0 rfl
  have e1 : (fun c => x1 (ix2 p c)) = fun c => A1 (ix2 n c) := funext fun c => h1 _ _ hi0 rfl
  rw [e0, e1]

variable (V : (c : Dev nD) → (b : Ref sig .tc) → Buf (Elt Ideal) ((c : Thread nD τ).loc b))

/-- The block index maps over the grid: at point t the row-blocked windows sit at block (t, 0), the whole windows at (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the node update of the arrays as the region finds them. -/
theorem flushed_eq1 (c : Dev nD) (t : Fin cfg1.N) :
    (dat1 (F := Ideal) V c).flushed 4 t = ((cfg1.win 4).blk t).view.read (Elt Ideal)
      (Cert.Spline.nodeUpd (V c main_v14 : S50000x32.Idx → Ideal .f32) (V c main_arg0 : S50000x64.Idx → Ideal .f32)
        (V c main_arg5 : S64x32.Idx → Ideal .f32) (Cert.Spline.rowOf (V c main_v15 : S1x32.Idx → Ideal .f32))) := by
  show (cfg1.win 4).cut (grid1.coords t) ((dat1 V c).after 4 t) = _
  rw [after1_4]
  obtain ⟨e00, e01, e10, e11, e20, e21, e30, e31, e40, e41⟩ := idx_facts1 t
  funext j
  show out1_4 (F := Ideal) _ _ _ _ _ = Cert.Spline.nodeUpd _ _ _ _ (((cfg1.win 4).blk t).view.emb j)
  refine node_block1 _ _ _ _ _ _ _ _ t.val ?_ ?_ ?_ ?_ _ _ ?_ ?_
  · intro y i hi0 hi1
    show V c main_v14 (((cfg1.win 0).blk t).view.emb y) = V c main_v14 i
    refine congrArg _ (funext fun a => Fin.ext ?_)
    match a with
    | ⟨0, _⟩ => show win1_0.index t (0 : Fin 2) * 10000 + 1 * (y 0).val = (i 0).val; rw [e00, hi0]; omega
    | ⟨1, _⟩ => show win1_0.index t (1 : Fin 2) * 32 + 1 * (y 1).val = (i 1).val; rw [e01, hi1]; omega
  · intro y i hi0 hi1
    show V c main_arg0 (((cfg1.win 1).blk t).view.emb y) = V c main_arg0 i
    refine congrArg _ (funext fun a => Fin.ext ?_)
    match a with
    | ⟨0, _⟩ => show win1_1.index t (0 : Fin 2) * 10000 + 1 * (y 0).val = (i 0).val; rw [e10, hi0]; omega
    | ⟨1, _⟩ => show win1_1.index t (1 : Fin 2) * 64 + 1 * (y 1).val = (i 1).val; rw [e11, hi1]; omega
  · funext y
    show V c main_arg5 (((cfg1.win 2).blk t).view.emb y) = V c main_arg5 y
    refine congrArg _ (funext fun a => Fin.ext ?_)
    match a with
    | ⟨0, _⟩ => show win1_2.index t (0 : Fin 2) * 64 + 1 * (y 0).val = (y 0).val; rw [e20]; omega
    | ⟨1, _⟩ => show win1_2.index t (1 : Fin 2) * 32 + 1 * (y 1).val = (y 1).val; rw [e21]; omega
  · funext y
    show V c main_v15 (((cfg1.win 3).blk t).view.emb y) = V c main_v15 y
    refine congrArg _ (funext fun a => Fin.ext ?_)
    match a with
    | ⟨0, _⟩ => show win1_3.index t (0 : Fin 2) * 1 + 1 * (y 0).val = (y 0).val; rw [e30]; omega
    | ⟨1, _⟩ => show win1_3.index t (1 : Fin 2) * 32 + 1 * (y 1).val = (y 1).val; rw [e31]; omega
  · show win1_4.index t (0 : Fin 2) * 10000 + 1 * (j 0).val = t.val * 10000 + (j 0).val
    rw [e40]; omega
  · show win1_4.index t (1 : Fin 2) * 32 + 1 * (j 1).val = (j 1).val
    rw [e41]; omega

/-- The five output blocks tile the array, row r in the block of point r / 10000: the array ends holding the node update. -/
theorem final1 (c : Dev nD) :
    (dat1 (F := Ideal) V c).arrAt 4 cfg1.N
      = Cert.Spline.nodeUpd (V c main_v14 : S50000x32.Idx → Ideal .f32) (V c main_arg0 : S50000x64.Idx → Ideal .f32)
        (V c main_arg5 : S64x32.Idx → Ideal .f32) (Cert.Spline.rowOf (V c main_v15 : S1x32.Idx → Ideal .f32)) :=
  (dat1 V c).arrAt_eq_of_cover 4 _ (fun t _ => flushed_eq1 V c t) fun i => by
    have hi0 : (i 0).val < 50000 := (i 0).isLt
    have hi1 : (i 1).val < 32 := (i 1).isLt
    have hN : cfg1.N = 5 := N_1
    have ht : (i 0).val / 10000 < cfg1.N := by rw [hN]; omega
    obtain ⟨-, -, -, -, -, -, -, -, e40, e41⟩ := idx_facts1 ⟨(i 0).val / 10000, ht⟩
    refine ⟨⟨(i 0).val / 10000, ht⟩, flush1_4 _, ?_⟩
    show i ∈ ((View.whole main_v16).slice (win1_4.rect ⟨(i 0).val / 10000, ht⟩)).set
    rw [View.set_slice_whole, Rect.mem_set_unit]
    intro a
    match a with
    | ⟨0, _⟩ =>
      show win1_4.index ⟨(i 0).val / 10000, ht⟩ (0 : Fin 2) * 10000 ≤ (i 0).val
        ∧ (i 0).val < win1_4.index ⟨(i 0).val / 10000, ht⟩ (0 : Fin 2) * 10000 + 10000
      rw [e40]
      show (i 0).val / 10000 * 10000 ≤ (i 0).val ∧ (i 0).val < (i 0).val / 10000 * 10000 + 10000
      omega
    | ⟨1, _⟩ =>
      show win1_4.index ⟨(i 0).val / 10000, ht⟩ (1 : Fin 2) * 32 ≤ (i 1).val
        ∧ (i 1).val < win1_4.index ⟨(i 0).val / 10000, ht⟩ (1 : Fin 2) * 32 + 32
      rw [e41]; omega

end Cert.KernelIdeal.Val

end
-- ==== Proof.KNodeFinal3.lean ====
/-
  From the blocks of node kernel 3 (the second layer's node update) to its output array.

  The kernel runs at five grid points; at point t it is handed rows 10000·t … 10000·t + 9999 of the aggregated messages
  and of the node features, the whole root-weight matrix and the whole bias row, and writes back rows
  10000·t … 10000·t + 9999 of its output. By the entry-wise reading of the stored block, what point t writes back is
  block t of the node update of the four input arrays; the five blocks tile the output (row r lies in the block of
  point r / 10000), so the output array ends holding the node update of the arrays as the region finds them.
-/
import proofs.«124089_j37623913513299_2_alg».proof.Proof.KNodeBody
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Idealize.ShloMosaic Idealize.ShloMosaic.ValueIdx Idealize.ShloMosaic.TcCoe
open Idealize.SL.Sem
open Idealize.ShloMosaic.Pipeline (Dat)

/-- One output block against the whole arrays: when the four loaded blocks are the rows b·10000 … b·10000 + 9999 of the
    aggregated messages and of the features, the whole root weights and the whole bias row, the stored block is those
    rows of the node update. -/
theorem node_block3 (x0 : Vec Ideal S10000x32 .f32) (x1 : Vec Ideal S10000x64 .f32) (x2 : Vec Ideal S64x32 .f32)
    (x3 : Vec Ideal S1x32 .f32) (A0 : S50000x32.Idx → Ideal .f32) (A1 : S50000x64.Idx → Ideal .f32)
    (A2 : S64x32.Idx → Ideal .f32) (A3 : S1x32.Idx → Ideal .f32) (b : Nat)
    (h0 : ∀ (y : S10000x32.Idx) (i : S50000x32.Idx), (i 0).val = b * 10000 + (y 0).val → (i 1).val = (y 1).val → x0 y = A0 i)
    (h1 : ∀ (y : S10000x64.Idx) (i : S50000x64.Idx), (i 0).val = b * 10000 + (y 0).val → (i 1).val = (y 1).val → x1 y = A1 i)
    (h2 : x2 = A2) (h3 : x3 = A3)
    (j : S10000x32.Idx) (i : S50000x32.Idx) (hi0 : (i 0).val = b * 10000 + (j 0).val) (hi1 : (i 1).val = (j 1).val) :
    out3_4 (F := Ideal) x0 x1 x2 x3 j = Cert.Spline.nodeUpd A0 A1 A2 (Cert.Spline.rowOf A3) i := by
  obtain ⟨p, q, rfl⟩ : ∃ (p : Fin 10000) (q : Fin 32), j = ix2 p q := ⟨j 0, j 1, eq_ix2 j⟩
  obtain ⟨n, q', rfl⟩ : ∃ (n : Fin 50000) (q' : Fin 32), i = ix2 n q' := ⟨i 0, i 1, eq_ix2 i⟩
  have hq : q' = q := Fin.ext hi1
  subst hq
  rw [out3_4_apply, Cert.Spline.nodeUpd_apply, Cert.Spline.rowOf_apply, h2, h3]
  have e0 : x0 (ix2 p q') = A0 (ix2 n q') := h0 _ _ hi0 rfl
  have e1 : (fun c => x1 (ix2 p c)) = fun c => A1 (ix2 n c) := funext fun c => h1 _ _ hi0 rfl
  rw [e0, e1]

variable (V : (c : Dev nD) → (b : Ref sig .tc) → Buf (Elt Ideal) ((c : Thread nD τ).loc b))

/-- The block index maps over the grid: at point t the row-blocked windows sit at block (t, 0), the whole windows at (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the node update of the arrays as the region finds them. -/
theorem flushed_eq3 (c : Dev nD) (t : Fin cfg3.N) :
    (dat3 (F := Ideal) V c).flushed 4 t = ((cfg3.win 4).blk t).view.read (Elt Ideal)
      (Cert.Spline.nodeUpd (V c main_v28 : S50000x32.Idx → Ideal .f32) (V c main_v17 : S50000x64.Idx → Ideal .f32)
        (V c main_arg5 : S64x32.Idx → Ideal .f32) (Cert.Spline.rowOf (V c main_v29 : S1x32.Idx → Ideal .f32))) := by
  show (cfg3.win 4).cut (grid3.coords t) ((dat3 V c).after 4 t) = _
  rw [after3_4]
  obtain ⟨e00, e01, e10, e11, e20, e21, e30, e31, e40, e41⟩ := idx_facts3 t
  funext j
  show out3_4 (F := Ideal) _ _ _ _ _ = Cert.Spline.nodeUpd _ _ _ _ (((cfg3.win 4).blk t).view.emb j)
  refine node_block3 _ _ _ _ _ _ _ _ t.val ?_ ?_ ?_ ?_ _ _ ?_ ?_
  · intro y i hi0 hi1
    show V c main_v28 (((cfg3.win 0).blk t).view.emb y) = V c main_v28 i
    refine congrArg _ (funext fun a => Fin.ext ?_)
    match a with
    | ⟨0, _⟩ => show win3_0.index t (0 : Fin 2) * 10000 + 1 * (y 0).val = (i 0).val; rw [e00, hi0]; omega
    | ⟨1, _⟩ => show win3_0.index t (1 : Fin 2) * 32 + 1 * (y 1).val = (i 1).val; rw [e01, hi1]; omega
  · intro y i hi0 hi1
    show V c main_v17 (((cfg3.win 1).blk t).view.emb y) = V c main_v17 i
    refine congrArg _ (funext fun a => Fin.ext ?_)
    match a with
    | ⟨0, _⟩ => show win3_1.index t (0 : Fin 2) * 10000 + 1 * (y 0).val = (i 0).val; rw [e10, hi0]; omega
    | ⟨1, _⟩ => show win3_1.index t (1 : Fin 2) * 64 + 1 * (y 1).val = (i 1).val; rw [e11, hi1]; omega
  · funext y
    show V c main_arg5 (((cfg3.win 2).blk t).view.emb y) = V c main_arg5 y
    refine congrArg _ (funext fun a => Fin.ext ?_)
    match a with
    | ⟨0, _⟩ => show win3_2.index t (0 : Fin 2) * 64 + 1 * (y 0).val = (y 0).val; rw [e20]; omega
    | ⟨1, _⟩ => show win3_2.index t (1 : Fin 2) * 32 + 1 * (y 1).val = (y 1).val; rw [e21]; omega
  · funext y
    show V c main_v29 (((cfg3.win 3).blk t).view.emb y) = V c main_v29 y
    refine congrArg _ (funext fun a => Fin.ext ?_)
    match a with
    | ⟨0, _⟩ => show win3_3.index t (0 : Fin 2) * 1 + 1 * (y 0).val = (y 0).val; rw [e30]; omega
    | ⟨1, _⟩ => show win3_3.index t (1 : Fin 2) * 32 + 1 * (y 1).val = (y 1).val; rw [e31]; omega
  · show win3_4.index t (0 : Fin 2) * 10000 + 1 * (j 0).val = t.val * 10000 + (j 0).val
    rw [e40]; omega
  · show win3_4.index t (1 : Fin 2) * 32 + 1 * (j 1).val = (j 1).val
    rw [e41]; omega

/-- The five output blocks tile the array, row r in the block of point r / 10000: the array ends holding the node update. -/
theorem final3 (c : Dev nD) :
    (dat3 (F := Ideal) V c).arrAt 4 cfg3.N
      = Cert.Spline.nodeUpd (V c main_v28 : S50000x32.Idx → Ideal .f32) (V c main_v17 : S50000x64.Idx → Ideal .f32)
        (V c main_arg5 : S64x32.Idx → Ideal .f32) (Cert.Spline.rowOf (V c main_v29 : S1x32.Idx → Ideal .f32)) :=
  (dat3 V c).arrAt_eq_of_cover 4 _ (fun t _ => flushed_eq3 V c t) fun i => by
    have hi0 : (i 0).val < 50000 := (i 0).isLt
    have hi1 : (i 1).val < 32 := (i 1).isLt
    have hN : cfg3.N = 5 := N_3
    have ht : (i 0).val / 10000 < cfg3.N := by rw [hN]; omega
    obtain ⟨-, -, -, -, -, -, -, -, e40, e41⟩ := idx_facts3 ⟨(i 0).val / 10000, ht⟩
    refine ⟨⟨(i 0).val / 10000, ht⟩, flush3_4 _, ?_⟩
    show i ∈ ((View.whole main_v30).slice (win3_4.rect ⟨(i 0).val / 10000, ht⟩)).set
    rw [View.set_slice_whole, Rect.mem_set_unit]
    intro a
    match a with
    | ⟨0, _⟩ =>
      show win3_4.index ⟨(i 0).val / 10000, ht⟩ (0 : Fin 2) * 10000 ≤ (i 0).val
        ∧ (i 0).val < win3_4.index ⟨(i 0).val / 10000, ht⟩ (0 : Fin 2) * 10000 + 10000
      rw [e40]
      show (i 0).val / 10000 * 10000 ≤ (i 0).val ∧ (i 0).val < (i 0).val / 10000 * 10000 + 10000
      omega
    | ⟨1, _⟩ =>
      show win3_4.index ⟨(i 0).val / 10000, ht⟩ (1 : Fin 2) * 32 ≤ (i 1).val
        ∧ (i 1).val < win3_4.index ⟨(i 0).val / 10000, ht⟩ (1 : Fin 2) * 32 + 32
      rw [e41]; omega

end Cert.KernelIdeal.Val

end
-- ==== Proof.KNodeFinal5.lean ====
/-
  From the blocks of node kernel 5 (the third layer's node update, 32 input channels) to its output array.

  The kernel runs at five grid points; at point t it is handed rows 10000·t … 10000·t + 9999 of the aggregated messages
  and of the node features, the whole root-weight matrix and the whole bias row, and writes back rows
  10000·t … 10000·t + 9999 of its output. By the entry-wise reading of the stored block, what point t writes back is
  block t of the node update of the four input arrays; the five blocks tile the output (row r lies in the block of
  point r / 10000), so the output array ends holding the node update of the arrays as the region finds them.
-/
import proofs.«124089_j37623913513299_2_alg».proof.Proof.KNodeBody
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Idealize.ShloMosaic Idealize.ShloMosaic.ValueIdx Idealize.ShloMosaic.TcCoe
open Idealize.SL.Sem
open Idealize.ShloMosaic.Pipeline (Dat)

/-- One output block against the whole arrays: when the four loaded blocks are the rows b·10000 … b·10000 + 9999 of the
    aggregated messages and of the features, the whole root weights and the whole bias row, the stored block is those
    rows of the node update. -/
theorem node_block5 (x0 : Vec Ideal S10000x32 .f32) (x1 : Vec Ideal S10000x32 .f32) (x2 : Vec Ideal S32x32 .f32)
    (x3 : Vec Ideal S1x32 .f32) (A0 : S50000x32.Idx → Ideal .f32) (A1 : S50000x32.Idx → Ideal .f32)
    (A2 : S32x32.Idx → Ideal .f32) (A3 : S1x32.Idx → Ideal .f32) (b : Nat)
    (h0 : ∀ (y : S10000x32.Idx) (i : S50000x32.Idx), (i 0).val = b * 10000 + (y 0).val → (i 1).val = (y 1).val → x0 y = A0 i)
    (h1 : ∀ (y : S10000x32.Idx) (i : S50000x32.Idx), (i 0).val = b * 10000 + (y 0).val → (i 1).val = (y 1).val → x1 y = A1 i)
    (h2 : x2 = A2) (h3 : x3 = A3)
    (j : S10000x32.Idx) (i : S50000x32.Idx) (hi0 : (i 0).val = b * 10000 + (j 0).val) (hi1 : (i 1).val = (j 1).val) :
    out5_4 (F := Ideal) x0 x1 x2 x3 j = Cert.Spline.nodeUpd A0 A1 A2 (Cert.Spline.rowOf A3) i := by
  obtain ⟨p, q, rfl⟩ : ∃ (p : Fin 10000) (q : Fin 32), j = ix2 p q := ⟨j 0, j 1, eq_ix2 j⟩
  obtain ⟨n, q', rfl⟩ : ∃ (n : Fin 50000) (q' : Fin 32), i = ix2 n q' := ⟨i 0, i 1, eq_ix2 i⟩
  have hq : q' = q := Fin.ext hi1
  subst hq
  rw [out5_4_apply, Cert.Spline.nodeUpd_apply, Cert.Spline.rowOf_apply, h2, h3]
  have e0 : x0 (ix2 p q') = A0 (ix2 n q') := h0 _ _ hi0 rfl
  have e1 : (fun c => x1 (ix2 p c)) = fun c => A1 (ix2 n c) := funext fun c => h1 _ _ hi0 rfl
  rw [e0, e1]

variable (V : (c : Dev nD) → (b : Ref sig .tc) → Buf (Elt Ideal) ((c : Thread nD τ).loc b))

/-- The block index maps over the grid: at point t the row-blocked windows sit at block (t, 0), the whole windows at (0, 0). -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point t writes back is block t of the node update of the arrays as the region finds them. -/
theorem flushed_eq5 (c : Dev nD) (t : Fin cfg5.N) :
    (dat5 (F := Ideal) V c).flushed 4 t = ((cfg5.win 4).blk t).view.read (Elt Ideal)
      (Cert.Spline.nodeUpd (V c main_v41 : S50000x32.Idx → Ideal .f32) (V c main_v30 : S50000x32.Idx → Ideal .f32)
        (V c main_arg8 : S32x32.Idx → Ideal .f32) (Cert.Spline.rowOf (V c main_v42 : S1x32.Idx → Ideal .f32))) := by
  show (cfg5.win 4).cut (grid5.coords t) ((dat5 V c).after 4 t) = _
  rw [after5_4]
  obtain ⟨e00, e01, e10, e11, e20, e21, e30, e31, e40, e41⟩ := idx_facts5 t
  funext j
  show out5_4 (F := Ideal) _ _ _ _ _ = Cert.Spline.nodeUpd _ _ _ _ (((cfg5.win 4).blk t).view.emb j)
  refine node_block5 _ _ _ _ _ _ _ _ t.val ?_ ?_ ?_ ?_ _ _ ?_ ?_
  · intro y i hi0 hi1
    show V c main_v41 (((cfg5.win 0).blk t).view.emb y) = V c main_v41 i
    refine congrArg _ (funext fun a => Fin.ext ?_)
    match a with
    | ⟨0, _⟩ => show win5_0.index t (0 : Fin 2) * 10000 + 1 * (y 0).val = (i 0).val; rw [e00, hi0]; omega
    | ⟨1, _⟩ => show win5_0.index t (1 : Fin 2) * 32 + 1 * (y 1).val = (i 1).val; rw [e01, hi1]; omega
  · intro y i hi0 hi1
    show V c main_v30 (((cfg5.win 1).blk t).view.emb y) = V c main_v30 i
    refine congrArg _ (funext fun a => Fin.ext ?_)
    match a with
    | ⟨0, _⟩ => show win5_1.index t (0 : Fin 2) * 10000 + 1 * (y 0).val = (i 0).val; rw [e10, hi0]; omega
    | ⟨1, _⟩ => show win5_1.index t (1 : Fin 2) * 32 + 1 * (y 1).val = (i 1).val; rw [e11, hi1]; omega
  · funext y
    show V c main_arg8 (((cfg5.win 2).blk t).view.emb y) = V c main_arg8 y
    refine congrArg _ (funext fun a => Fin.ext ?_)
    match a with
    | ⟨0, _⟩ => show win5_2.index t (0 : Fin 2) * 32 + 1 * (y 0).val = (y 0).val; rw [e20]; omega
    | ⟨1, _⟩ => show win5_2.index t (1 : Fin 2) * 32 + 1 * (y 1).val = (y 1).val; rw [e21]; omega
  · funext y
    show V c main_v42 (((cfg5.win 3).blk t).view.emb y) = V c main_v42 y
    refine congrArg _ (funext fun a => Fin.ext ?_)
    match a with
    | ⟨0, _⟩ => show win5_3.index t (0 : Fin 2) * 1 + 1 * (y 0).val = (y 0).val; rw [e30]; omega
    | ⟨1, _⟩ => show win5_3.index t (1 : Fin 2) * 32 + 1 * (y 1).val = (y 1).val; rw [e31]; omega
  · show win5_4.index t (0 : Fin 2) * 10000 + 1 * (j 0).val = t.val * 10000 + (j 0).val
    rw [e40]; omega
  · show win5_4.index t (1 : Fin 2) * 32 + 1 * (j 1).val = (j 1).val
    rw [e41]; omega

/-- The five output blocks tile the array, row r in the block of point r / 10000: the array ends holding the node update. -/
theorem final5 (c : Dev nD) :
    (dat5 (F := Ideal) V c).arrAt 4 cfg5.N
      = Cert.Spline.nodeUpd (V c main_v41 : S50000x32.Idx → Ideal .f32) (V c main_v30 : S50000x32.Idx → Ideal .f32)
        (V c main_arg8 : S32x32.Idx → Ideal .f32) (Cert.Spline.rowOf (V c main_v42 : S1x32.Idx → Ideal .f32)) :=
  (dat5 V c).arrAt_eq_of_cover 4 _ (fun t _ => flushed_eq5 V c t) fun i => by
    have hi0 : (i 0).val < 50000 := (i 0).isLt
    have hi1 : (i 1).val < 32 := (i 1).isLt
    have hN : cfg5.N = 5 := N_5
    have ht : (i 0).val / 10000 < cfg5.N := by rw [hN]; omega
    obtain ⟨-, -, -, -, -, -, -, -, e40, e41⟩ := idx_facts5 ⟨(i 0).val / 10000, ht⟩
    refine ⟨⟨(i 0).val / 10000, ht⟩, flush5_4 _, ?_⟩
    show i ∈ ((View.whole main_v43).slice (win5_4.rect ⟨(i 0).val / 10000, ht⟩)).set
    rw [View.set_slice_whole, Rect.mem_set_unit]
    intro a
    match a with
    | ⟨0, _⟩ =>
      show win5_4.index ⟨(i 0).val / 10000, ht⟩ (0 : Fin 2) * 10000 ≤ (i 0).val
        ∧ (i 0).val < win5_4.index ⟨(i 0).val / 10000, ht⟩ (0 : Fin 2) * 10000 + 10000
      rw [e40]
      show (i 0).val / 10000 * 10000 ≤ (i 0).val ∧ (i 0).val < (i 0).val / 10000 * 10000 + 10000
      omega
    | ⟨1, _⟩ =>
      show win5_4.index ⟨(i 0).val / 10000, ht⟩ (1 : Fin 2) * 32 ≤ (i 1).val
        ∧ (i 1).val < win5_4.index ⟨(i 0).val / 10000, ht⟩ (1 : Fin 2) * 32 + 32
      rw [e41]; omega

end Cert.KernelIdeal.Val

end
-- ==== Proof.LibHostRow3.lean ====
/-
  Three small facts about host operations on a matrix with three columns, at the exact values.

  A fold of a commutative, associative operation over three entries is the three entries combined; a maximum over
  axis `1` of an `[a, 3]` array, started from `-∞`, is at row `p` the largest of the row's three entries; and three
  `[a, 1]` columns joined along axis `1` give the matrix whose entry `(p, k)` is column `k`'s entry `(p, 0)`.
-/
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefValue

open Idealize.ShloMosaic Idealize.ShloMosaic.ValueIdx

/-- The f32 word of `-∞` denotes the least extended real. -/
theorem ofBits_negInf_f32 : Ideal.ofBits .f32 0xFF800000#32 = ⊥ := by simp [Ideal.ofBits, Ideal.ieee]

/-- The f32 word of `1.0` denotes one. -/
theorem ofBits_one_word_f32 : Ideal.ofBits .f32 0x3F800000#32 = 1 := by
  simp [Ideal.ofBits, Ideal.ieee, -EReal.coe_mul]; norm_num

/-- A fold over three entries, written out. -/
theorem fold_univ_fin3 {α : Type} (f : α → α → α) [Std.Commutative f] [Std.Associative f] (b : α) (g : Fin 3 → α) :
    (Finset.univ : Finset (Fin 3)).fold f b g = f (g 0) (f (g 1) (f (g 2) b)) := by
  simp only [Fin.univ_succ, Finset.fold_cons, Finset.fold_map, Finset.univ_unique, Finset.fold_singleton]
  rfl

/-- The largest of three extended reals, as the fold of `max` from the least element. -/
theorem fold_max_bot_fin3 (g : Fin 3 → EReal) :
    (Finset.univ : Finset (Fin 3)).fold max ⊥ g = max (max (g 0) (g 1)) (g 2) := by
  rw [fold_univ_fin3 max ⊥ g, max_bot_right, max_assoc]

/-- A row index with the column `k` put back on axis `1` is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The host's maximum over axis `1` of an `[a, 3]` array of exact values, from an initial value that is `-∞`: at row
    `p`, the largest of the row's three entries. -/
theorem hostReduce_max_row3 {a : ℕ} (x : FVec Ideal ⟨2, ![a, 3]⟩ .f32) (init : (⟨0, ![]⟩ : Shape).Idx → Ideal .f32)
    (h' : (⟨2, ![a, 3]⟩ : Shape).ReducesTo [1] (⟨1, ![a]⟩ : Shape)) (h : (⟨2, ![a, 3]⟩ : Shape).Reduces [1] (⟨1, ![a]⟩ : Shape))
    (hu : 0 < (⟨0, ![]⟩ : Shape).numel) (hinit : init (Shape.Idx.first hu) = (⊥ : EReal)) (p : Fin a) :
    Host.reduce FloatOps.maximumf x init h' hu (ix1 p)
      = max (max (x (ix2 p 0)) (x (ix2 p 1))) (x (ix2 p 2)) := by
  rw [Host.reduce_eq_fold_single FloatOps.maximumf x init h' h hu, hinit]
  have hf : (x ∘ h.lift (ix1 p)) = fun k : Fin 3 => x (ix2 p k) := funext fun k => congrArg x (lift_row h p k)
  refine Eq.trans ?_ (fold_max_bot_fin3 fun k : Fin 3 => x (ix2 p k))
  exact congrArg (fun f => Finset.fold max (⊥ : EReal) f (Finset.univ : Finset (Fin 3))) hf

section Columns
variable {α : Type} {a : ℕ}

/-- Three `[a, 1]` columns joined along axis `1`, read in column `0`. -/
theorem concat3_cols_apply0 (y0 y1 y2 : (⟨2, ![a, 1]⟩ : Shape).Idx → α)
    (h : Shape.Concatenates (([⟨⟨2, ![a, 1]⟩, y0⟩, ⟨⟨2, ![a, 1]⟩, y1⟩, ⟨⟨2, ![a, 1]⟩, y2⟩] : List ((s : Shape) × (s.Idx → α))).map (·.1))
      (⟨2, ![a, 3]⟩ : Shape) 1) (p : Fin a) :
    concatenate (⟨2, ![a, 3]⟩ : Shape) 1 [⟨⟨2, ![a, 1]⟩, y0⟩, ⟨⟨2, ![a, 1]⟩, y1⟩, ⟨⟨2, ![a, 1]⟩, y2⟩] h (ix2 p 0) = y0 (ix2 p 0) :=
  concatenate_apply_piece 1 _ h (ix2 p 0) 0 (by show (0 : ℕ) < 3; decide) ⟨2, ![a, 1]⟩ y0 rfl rfl 0 rfl (ix2 p 0)
    (fun b => by match b with
      | ⟨0, _⟩ => exact fun _ => rfl
      | ⟨1, _⟩ => exact fun hb => absurd rfl hb) rfl

/-- Three `[a, 1]` columns joined along axis `1`, read in column `1`. -/
theorem concat3_cols_apply1 (y0 y1 y2 : (⟨2, ![a, 1]⟩ : Shape).Idx → α)
    (h : Shape.Concatenates (([⟨⟨2, ![a, 1]⟩, y0⟩, ⟨⟨2, ![a, 1]⟩, y1⟩, ⟨⟨2, ![a, 1]⟩, y2⟩] : List ((s : Shape) × (s.Idx → α))).map (·.1))
      (⟨2, ![a, 3]⟩ : Shape) 1) (p : Fin a) :
    concatenate (⟨2, ![a, 3]⟩ : Shape) 1 [⟨⟨2, ![a, 1]⟩, y0⟩, ⟨⟨2, ![a, 1]⟩, y1⟩, ⟨⟨2, ![a, 1]⟩, y2⟩] h (ix2 p 1) = y1 (ix2 p 0) :=
  concatenate_apply_piece 1 _ h (ix2 p 1) 1 (by show (1 : ℕ) < 3; decide) ⟨2, ![a, 1]⟩ y1 rfl rfl 1 rfl (ix2 p 0)
    (fun b => by match b with
      | ⟨0, _⟩ => exact fun _ => rfl
      | ⟨1, _⟩ => exact fun hb => absurd rfl hb) rfl

/-- Three `[a, 1]` columns joined along axis `1`, read in column `2`. -/
theorem concat3_cols_apply2 (y0 y1 y2 : (⟨2, ![a, 1]⟩ : Shape).Idx → α)
    (h : Shape.Concatenates (([⟨⟨2, ![a, 1]⟩, y0⟩, ⟨⟨2, ![a, 1]⟩, y1⟩, ⟨⟨2, ![a, 1]⟩, y2⟩] : List ((s : Shape) × (s.Idx → α))).map (·.1))
      (⟨2, ![a, 3]⟩ : Shape) 1) (p : Fin a) :
    concatenate (⟨2, ![a, 3]⟩ : Shape) 1 [⟨⟨2, ![a, 1]⟩, y0⟩, ⟨⟨2, ![a, 1]⟩, y1⟩, ⟨⟨2, ![a, 1]⟩, y2⟩] h (ix2 p 2) = y2 (ix2 p 0) :=
  concatenate_apply_piece 1 _ h (ix2 p 2) 2 (by show (2 : ℕ) < 3; decide) ⟨2, ![a, 1]⟩ y2 rfl rfl 2 rfl (ix2 p 0)
    (fun b => by match b with
      | ⟨0, _⟩ => exact fun _ => rfl
      | ⟨1, _⟩ => exact fun hb => absurd rfl hb) rfl

end Columns

end Cert.ReferenceIdeal.RefValue

end
-- ==== Proof.RefBasis.lean ====
/-
  The basis table of the reference program.

  The reference builds, for every edge `e` with pseudo-coordinates `(t0, t1) = (x2[e,0], x2[e,1])`, the three quadratic
  B-spline basis values of `t0` as a row of an `[E, 3]` table and those of `t1` as a row of another, multiplies the
  two as an outer product `[E, 3, 3]` (first factor from `t1`, second from `t0`) and flattens it row-major to
  `[E, 9]`. Hence entry `(e, 3 i + j)` of the flattened table is `b_i(t1) · b_j(t0)`, each factor associated exactly
  as `Cert.Spline.basis` writes it.
-/
import proofs.«124089_j37623913513299_2_alg».proof.Proof.ReadP
import proofs.«124089_j37623913513299_2_alg».proof.Proof.Spec
import proofs.«124089_j37623913513299_2_alg».proof.Proof.LibHostRow3

noncomputable section

namespace Cert.ReferenceIdeal.RefVal

open Cert.ReferenceIdeal Cert.ReferenceIdeal.ReadP Idealize.ShloMosaic Idealize.ShloMosaic.ValueIdx

/-- Column `0` of the pseudo-coordinates, as a vector: entry `e` is `x2[e, 0]`. -/
theorem col0_at (x2 : (⟨S400000x2, .f32⟩ : BufTy).Contents (Elt Ideal)) (e : Fin 400000) :
    val_main_v5 (F := Ideal) x2 (ix1 e) = x2 (ix2 e (0 : Fin 2)) := by
  rw [val_main_v5_apply, val_main_v4_apply]
  exact congrArg x2 (funext fun a => Fin.ext (by
    match a with
    | ⟨0, _⟩ => exact Nat.div_one _
    | ⟨1, _⟩ => rfl))

/-- Column `1` of the pseudo-coordinates, as a vector: entry `e` is `x2[e, 1]`. -/
theorem col1_at (x2 : (⟨S400000x2, .f32⟩ : BufTy).Contents (Elt Ideal)) (e : Fin 400000) :
    val_main_v24 (F := Ideal) x2 (ix1 e) = x2 (ix2 e (1 : Fin 2)) := by
  rw [val_main_v24_apply, val_main_v23_apply]
  exact congrArg x2 (funext fun a => Fin.ext (by
    match a with
    | ⟨0, _⟩ => exact Nat.div_one _
    | ⟨1, _⟩ => rfl))

/-- A vector `[E]` kept as a column `[E, 1]` is read at `(e, 0)` where the vector is read at `e`. -/
theorem colIdx (e : Fin 400000) : (fun a => match a with | ⟨0, _⟩ => ⟨(ix2 e (0 : Fin 1) 0).val, (ix2 e (0 : Fin 1) 0).isLt⟩ : S400000.Idx) = ix1 e :=
  funext fun a => Fin.ext (by match a with | ⟨0, _⟩ => rfl)

/-- The table of the three basis values of `t0 = x2[e, 0]`. -/
theorem basis0_at (x2 : (⟨S400000x2, .f32⟩ : BufTy).Contents (Elt Ideal)) (e : Fin 400000) (j : Fin 3) :
    val_main_v22 (F := Ideal) x2 (ix2 e j) = Cert.Spline.basis j (x2 (ix2 e (0 : Fin 2))) := by
  have h5 := col0_at x2 e
  unfold val_main_v22
  match j with
  | ⟨0, _⟩ =>
    refine (RefValue.concat3_cols_apply0 _ _ _ _ e).trans ?_
    rw [val_main_v19_apply, show idx_main_v19 (ix2 e (0 : Fin 1)) = ix1 e from colIdx e, val_main_v10_apply,
      val_main_v9_apply, val_main_cst_0_apply, val_main_v8_apply, val_main_v7_apply, val_main_v6_apply,
      val_main_cst_apply, h5]
    rfl
  | ⟨1, _⟩ =>
    refine (RefValue.concat3_cols_apply1 _ _ _ _ e).trans ?_
    rw [val_main_v20_apply, show idx_main_v20 (ix2 e (0 : Fin 1)) = ix1 e from colIdx e, val_main_v15_apply,
      val_main_v14_apply, val_main_cst_1_apply, val_main_v13_apply, val_main_v12_apply, val_main_v11_apply, h5]
    rfl
  | ⟨2, _⟩ =>
    refine (RefValue.concat3_cols_apply2 _ _ _ _ e).trans ?_
    rw [val_main_v21_apply, show idx_main_v21 (ix2 e (0 : Fin 1)) = ix1 e from colIdx e, val_main_v18_apply,
      val_main_v17_apply, val_main_v16_apply, val_main_cst_2_apply, h5]
    rfl

/-- The table of the three basis values of `t1 = x2[e, 1]`. -/
theorem basis1_at (x2 : (⟨S400000x2, .f32⟩ : BufTy).Contents (Elt Ideal)) (e : Fin 400000) (i : Fin 3) :
    val_main_v41 (F := Ideal) x2 (ix2 e i) = Cert.Spline.basis i (x2 (ix2 e (1 : Fin 2))) := by
  have h24 := col1_at x2 e
  unfold val_main_v41
  match i with
  | ⟨0, _⟩ =>
    refine (RefValue.concat3_cols_apply0 _ _ _ _ e).trans ?_
    rw [val_main_v38_apply, show idx_main_v38 (ix2 e (0 : Fin 1)) = ix1 e from colIdx e, val_main_v29_apply,
      val_main_v28_apply, val_main_cst_4_apply, val_main_v27_apply, val_main_v26_apply, val_main_v25_apply,
      val_main_cst_3_apply, h24]
    rfl
  | ⟨1, _⟩ =>
    refine (RefValue.concat3_cols_apply1 _ _ _ _ e).trans ?_
    rw [val_main_v39_apply, show idx_main_v39 (ix2 e (0 : Fin 1)) = ix1 e from colIdx e, val_main_v34_apply,
      val_main_v33_apply, val_main_cst_5_apply, val_main_v32_apply, val_main_v31_apply, val_main_v30_apply, h24]
    rfl
  | ⟨2, _⟩ =>
    refine (RefValue.concat3_cols_apply2 _ _ _ _ e).trans ?_
    rw [val_main_v40_apply, show idx_main_v40 (ix2 e (0 : Fin 1)) = ix1 e from colIdx e, val_main_v37_apply,
      val_main_v36_apply, val_main_v35_apply, val_main_cst_6_apply, h24]
    rfl

/-- The flattened outer product: entry `(e, 3 i + j)` is `b_i(t1) · b_j(t0)`. -/
theorem basisTable_at (x2 : (⟨S400000x2, .f32⟩ : BufTy).Contents (Elt Ideal)) (e : Fin 400000) (i j : Fin 3) (k : Fin 9) (hk : k.val = 3 * i.val + j.val) :
    val_main_v47 (F := Ideal) x2 (ix2 e k)
      = Cert.Spline.basis i (x2 (ix2 e (1 : Fin 2))) * Cert.Spline.basis j (x2 (ix2 e (0 : Fin 2))) := by
  have hi := i.isLt
  have hj := j.isLt
  have he := e.isLt
  have h1 : idx_main_v42 (idx_main_v44 (idx_main_v47 (ix2 e k))) = ix2 e i := funext fun a => Fin.ext (by
    match a with
    | ⟨0, _⟩ => show (e.val * 9 + k.val) / 9 = e.val; omega
    | ⟨1, _⟩ => show (e.val * 9 + k.val) / 3 % 3 = i.val; omega)
  have h0 : idx_main_v43 (idx_main_v45 (idx_main_v47 (ix2 e k))) = ix2 e j := funext fun a => Fin.ext (by
    match a with
    | ⟨0, _⟩ => show (e.val * 9 + k.val) / 9 = e.val; omega
    | ⟨1, _⟩ => show (e.val * 9 + k.val) % 3 = j.val; omega)
  rw [val_main_v47_apply, val_main_v46_apply, val_main_v44_apply, val_main_v42_apply, val_main_v45_apply,
    val_main_v43_apply, h1, h0, basis1_at, basis0_at]
  rfl

end Cert.ReferenceIdeal.RefVal

end
-- ==== Proof.RefTerm.lean ====
/-
  One of the nine terms of a message, read off the reference program.

  In each layer the reference computes term `k` of the message with eight consecutive operations: it slices column
  `k` out of the basis table `[E, 9]`, flattens it to a vector `[E]`, turns it back into a column `[E, 1]`, repeats
  it along the `C` channels, multiplies the gathered source rows by it, slices matrix `k` out of the weights
  `[9, C, M]`, flattens that to `[C, M]`, and contracts the two over the channel. Read at edge `e` and output
  channel `q`, the result is
      Σ_c (x[e, c] · (b_i(t1) · b_j(t0))) · W[k, c, q],        k = 3 i + j,
  which is `Cert.Spline.term` at the edge's source row, pseudo-coordinates and column `q` of `W k`. The only
  arithmetic is on indices: a column `[E, 1]` is read at `(e, 0)`, and the row-major position `c · M + q` of the
  flattened weights splits back into `(c, q)`.
-/
import proofs.«124089_j37623913513299_2_alg».proof.Proof.RefBasis

namespace Cert.ReferenceIdeal.RefVal

open Cert.ReferenceIdeal Cert.ReferenceIdeal.ReadP Idealize.ShloMosaic Idealize.ShloMosaic.ValueIdx

open Lean in
/-- Term `k = 3 i + j` of a message at `(e, q)`: the contraction numbered `s + 7`, whose operands are built by the
    operations `s, …, s + 6` (in the order listed in this module's header), equals
    `Σ_c (x[e, c] · (b_i(t1) · b_j(t0))) · W[k, c, q]`. `C` is the number of channels contracted over. -/
macro "ref_term " s:num " at " i:num j:num k:num " of " x2:ident e:ident q:ident " width " C:num : tactic => do
  let n := s.getNat
  let ap (m : Nat) : Ident := mkIdent (Name.mkSimple s!"val_main_v{m}_apply")
  let ix (m : Nat) : Ident := mkIdent (Name.mkSimple s!"idx_main_v{m}")
  let lix : Ident := mkIdent (Name.mkSimple s!"lidx_main_v{n + 7}")
  let rix : Ident := mkIdent (Name.mkSimple s!"ridx_main_v{n + 7}")
  `(tactic| (
    unfold Cert.Spline.term
    rw [$(ap (n + 7)):ident]
    refine Finset.sum_congr rfl fun c _ => ?_
    have hl : $lix (ix2 $e $q) c = ix2 $e c :=
      funext fun a => Fin.ext (by match a with | ⟨0, _⟩ => rfl | ⟨1, _⟩ => rfl)
    have hr : $rix (ix2 $e $q) c = ix2 c $q :=
      funext fun a => Fin.ext (by match a with | ⟨0, _⟩ => rfl | ⟨1, _⟩ => rfl)
    have hb : $(ix n) ($(ix (n + 1)) ($(ix (n + 2)) ($(ix (n + 3)) (ix2 $e c)))) = ix2 $e ($k : Fin 9) :=
      funext fun a => Fin.ext (by match a with | ⟨0, _⟩ => exact Nat.div_one _ | ⟨1, _⟩ => rfl)
    have hw : $(ix (n + 5)) ($(ix (n + 6)) (ix2 c $q)) = ix3 ($k : Fin 9) c $q :=
      funext fun a => Fin.ext (by
        have hc := c.isLt
        have hq := ($q).isLt
        match a with
        | ⟨0, _⟩ => rfl
        | ⟨1, _⟩ => show (c.val * 32 + ($q).val) / 32 % $C = c.val; omega
        | ⟨2, _⟩ => show (c.val * 32 + ($q).val) % 32 = ($q).val; omega)
    rw [hl, hr, $(ap (n + 4)):ident, $(ap (n + 3)):ident, $(ap (n + 2)):ident, $(ap (n + 1)):ident, $(ap n):ident, hb,
      basisTable_at $x2 $e ($i : Fin 3) ($j : Fin 3) ($k : Fin 9) rfl, $(ap (n + 6)):ident, $(ap (n + 5)):ident, hw]
    rfl))

end Cert.ReferenceIdeal.RefVal
-- ==== Proof.RefLayer1.lean ====
/-
  Layer 1 of the reference program is the specification's layer.

  The message `v136` is `edgeMsg` of the gathered source rows `v54` (rows of the node features `x0`), the
  pseudo-coordinates and the weights `x4`; the node update `v145` is `nodeUpd` of the scattered sum `v139`, the node
  features `x0`, the root weights `x5` and the bias `x6`. Neither the gather nor the scatter-add is opened: each
  stays the same term on both sides.
-/
import proofs.«124089_j37623913513299_2_alg».proof.Proof.RefTerm

noncomputable section

namespace Cert.ReferenceIdeal.RefVal

open Cert.ReferenceIdeal Cert.ReferenceIdeal.ReadP Idealize.ShloMosaic Idealize.ShloMosaic.ValueIdx

/-- The message of layer 1: the nine contractions, added from the zero array in the order `k = 0, …, 8`. -/
theorem msg1 (x0 : (⟨S50000x64, .f32⟩ : BufTy).Contents (Elt Ideal)) (x1 : (⟨S2x400000, .i32⟩ : BufTy).Contents (Elt Ideal)) (x2 : (⟨S400000x2, .f32⟩ : BufTy).Contents (Elt Ideal)) (x4 : (⟨S9x64x32, .f32⟩ : BufTy).Contents (Elt Ideal)) :
    val_main_v136 (F := Ideal) x0 x1 x2 x4
      = Cert.Spline.edgeMsg (val_main_v54 (F := Ideal) x0 x1) x2 x4 := by
  funext i
  obtain ⟨e, q, rfl⟩ : ∃ (e : Fin 400000) (q : Fin 32), i = ix2 e q := ⟨i 0, i 1, eq_ix2 i⟩
  rw [Cert.Spline.edgeMsg_apply]
  unfold Cert.Spline.edgeRow
  rw [val_main_v136_apply, val_main_v127_apply, val_main_v118_apply, val_main_v109_apply, val_main_v100_apply,
    val_main_v91_apply, val_main_v82_apply, val_main_v73_apply, val_main_v64_apply,
    val_main_v55_apply, val_main_cst_8_apply]
  refine congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) rfl ?_) ?_) ?_) ?_) ?_) ?_) ?_) ?_) ?_
  · ref_term 56 at 0 0 0 of x2 e q width 64
  · ref_term 65 at 0 1 1 of x2 e q width 64
  · ref_term 74 at 0 2 2 of x2 e q width 64
  · ref_term 83 at 1 0 3 of x2 e q width 64
  · ref_term 92 at 1 1 4 of x2 e q width 64
  · ref_term 101 at 1 2 5 of x2 e q width 64
  · ref_term 110 at 2 0 6 of x2 e q width 64
  · ref_term 119 at 2 1 7 of x2 e q width 64
  · ref_term 128 at 2 2 8 of x2 e q width 64

/-- The node update of layer 1: the aggregated messages, plus the node's own row times the root weights, plus the
    bias, cut off below at zero. -/
theorem node1 (x0 : (⟨S50000x64, .f32⟩ : BufTy).Contents (Elt Ideal)) (x1 : (⟨S2x400000, .i32⟩ : BufTy).Contents (Elt Ideal)) (x2 : (⟨S400000x2, .f32⟩ : BufTy).Contents (Elt Ideal)) (x4 : (⟨S9x64x32, .f32⟩ : BufTy).Contents (Elt Ideal)) (x5 : (⟨S64x32, .f32⟩ : BufTy).Contents (Elt Ideal)) (x6 : (⟨S32, .f32⟩ : BufTy).Contents (Elt Ideal)) :
    val_main_v145 (F := Ideal) x0 x1 x2 x4 x5 x6
      = Cert.Spline.nodeUpd (val_main_v139 (F := Ideal) x0 x1 x2 x4) x0 x5 x6 := by
  funext i
  obtain ⟨n, q, rfl⟩ : ∃ (n : Fin 50000) (q : Fin 32), i = ix2 n q := ⟨i 0, i 1, eq_ix2 i⟩
  rw [Cert.Spline.nodeUpd_apply]
  unfold Cert.Spline.nodeRow
  have hb : idx_main_v142 (idx_main_v143 (ix2 n q)) = ix1 q :=
    funext fun a => Fin.ext (by match a with | ⟨0, _⟩ => rfl)
  have hs : (∑ k : Fin 64, x0 (lidx_main_v140 (ix2 n q) k) * x5 (ridx_main_v140 (ix2 n q) k))
      = ∑ c : Fin 64, x0 (ix2 n c) * x5 (ix2 c q) :=
    Finset.sum_congr rfl fun c _ => by
      rw [show lidx_main_v140 (ix2 n q) c = ix2 n c from
          funext fun a => Fin.ext (by match a with | ⟨0, _⟩ => rfl | ⟨1, _⟩ => rfl),
        show ridx_main_v140 (ix2 n q) c = ix2 c q from
          funext fun a => Fin.ext (by match a with | ⟨0, _⟩ => rfl | ⟨1, _⟩ => rfl)]
  rw [val_main_v145_apply, val_main_v144_apply, val_main_v141_apply, val_main_v140_apply, hs, val_main_v143_apply,
    val_main_v142_apply, hb, val_main_call0_v0_apply, val_main_call0_cst_apply]
  rfl

end Cert.ReferenceIdeal.RefVal

end
-- ==== Proof.RefLayer2.lean ====
/-
  Layer 2 of the reference program is the specification's layer.

  The message `v235` is `edgeMsg` of the gathered source rows `v153` (rows of the joined features `v146`), the
  pseudo-coordinates and the weights `x4`, with the same basis table as layer 1; the node update `v244` is `nodeUpd`
  of the scattered sum `v238`, the joined features `v146`, the root weights `x5` and the bias `x6`. The join, the
  gather and the scatter-add are not opened: each stays the same term on both sides.
-/
import proofs.«124089_j37623913513299_2_alg».proof.Proof.RefTerm

noncomputable section

namespace Cert.ReferenceIdeal.RefVal

open Cert.ReferenceIdeal Cert.ReferenceIdeal.ReadP Idealize.ShloMosaic Idealize.ShloMosaic.ValueIdx

/-- The message of layer 2: the nine contractions, added from the zero array in the order `k = 0, …, 8`. -/
theorem msg2 (x0 : (⟨S50000x64, .f32⟩ : BufTy).Contents (Elt Ideal)) (x1 : (⟨S2x400000, .i32⟩ : BufTy).Contents (Elt Ideal)) (x2 : (⟨S400000x2, .f32⟩ : BufTy).Contents (Elt Ideal)) (x3 : (⟨S50000x32, .f32⟩ : BufTy).Contents (Elt Ideal)) (x4 : (⟨S9x64x32, .f32⟩ : BufTy).Contents (Elt Ideal)) (x5 : (⟨S64x32, .f32⟩ : BufTy).Contents (Elt Ideal)) (x6 : (⟨S32, .f32⟩ : BufTy).Contents (Elt Ideal)) :
    val_main_v235 (F := Ideal) x0 x1 x2 x3 x4 x5 x6
      = Cert.Spline.edgeMsg (val_main_v153 (F := Ideal) x0 x1 x2 x3 x4 x5 x6) x2 x4 := by
  funext i
  obtain ⟨e, q, rfl⟩ : ∃ (e : Fin 400000) (q : Fin 32), i = ix2 e q := ⟨i 0, i 1, eq_ix2 i⟩
  rw [Cert.Spline.edgeMsg_apply]
  unfold Cert.Spline.edgeRow
  rw [val_main_v235_apply, val_main_v226_apply, val_main_v217_apply, val_main_v208_apply, val_main_v199_apply,
    val_main_v190_apply, val_main_v181_apply, val_main_v172_apply, val_main_v163_apply,
    val_main_v154_apply, val_main_cst_12_apply]
  refine congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) rfl ?_) ?_) ?_) ?_) ?_) ?_) ?_) ?_) ?_
  · ref_term 155 at 0 0 0 of x2 e q width 64
  · ref_term 164 at 0 1 1 of x2 e q width 64
  · ref_term 173 at 0 2 2 of x2 e q width 64
  · ref_term 182 at 1 0 3 of x2 e q width 64
  · ref_term 191 at 1 1 4 of x2 e q width 64
  · ref_term 200 at 1 2 5 of x2 e q width 64
  · ref_term 209 at 2 0 6 of x2 e q width 64
  · ref_term 218 at 2 1 7 of x2 e q width 64
  · ref_term 227 at 2 2 8 of x2 e q width 64

/-- The node update of layer 2: the aggregated messages, plus the node's own row times the root weights, plus the
    bias, cut off below at zero. -/
theorem node2 (x0 : (⟨S50000x64, .f32⟩ : BufTy).Contents (Elt Ideal)) (x1 : (⟨S2x400000, .i32⟩ : BufTy).Contents (Elt Ideal)) (x2 : (⟨S400000x2, .f32⟩ : BufTy).Contents (Elt Ideal)) (x3 : (⟨S50000x32, .f32⟩ : BufTy).Contents (Elt Ideal)) (x4 : (⟨S9x64x32, .f32⟩ : BufTy).Contents (Elt Ideal)) (x5 : (⟨S64x32, .f32⟩ : BufTy).Contents (Elt Ideal)) (x6 : (⟨S32, .f32⟩ : BufTy).Contents (Elt Ideal)) :
    val_main_v244 (F := Ideal) x0 x1 x2 x3 x4 x5 x6
      = Cert.Spline.nodeUpd (val_main_v238 (F := Ideal) x0 x1 x2 x3 x4 x5 x6)
          (val_main_v146 (F := Ideal) x0 x1 x2 x3 x4 x5 x6) x5 x6 := by
  funext i
  obtain ⟨n, q, rfl⟩ : ∃ (n : Fin 50000) (q : Fin 32), i = ix2 n q := ⟨i 0, i 1, eq_ix2 i⟩
  rw [Cert.Spline.nodeUpd_apply]
  unfold Cert.Spline.nodeRow
  have hb : idx_main_v241 (idx_main_v242 (ix2 n q)) = ix1 q :=
    funext fun a => Fin.ext (by match a with | ⟨0, _⟩ => rfl)
  have hs : (∑ k : Fin 64, val_main_v146 (F := Ideal) x0 x1 x2 x3 x4 x5 x6 (lidx_main_v239 (ix2 n q) k)
        * x5 (ridx_main_v239 (ix2 n q) k))
      = ∑ c : Fin 64, val_main_v146 (F := Ideal) x0 x1 x2 x3 x4 x5 x6 (ix2 n c) * x5 (ix2 c q) :=
    Finset.sum_congr rfl fun c _ => by
      rw [show lidx_main_v239 (ix2 n q) c = ix2 n c from
          funext fun a => Fin.ext (by match a with | ⟨0, _⟩ => rfl | ⟨1, _⟩ => rfl),
        show ridx_main_v239 (ix2 n q) c = ix2 c q from
          funext fun a => Fin.ext (by match a with | ⟨0, _⟩ => rfl | ⟨1, _⟩ => rfl)]
  rw [val_main_v244_apply, val_main_v243_apply, val_main_v240_apply, val_main_v239_apply, hs, val_main_v242_apply,
    val_main_v241_apply, hb, val_main_call1_v0_apply, val_main_call1_cst_apply]
  rfl

end Cert.ReferenceIdeal.RefVal

end
-- ==== Proof.RefLayer3.lean ====
/-
  Layer 3 of the reference program is the specification's layer.

  The message `v333` is `edgeMsg` of the gathered source rows `v251` (rows of layer 2's result `v244`, 32 channels),
  the pseudo-coordinates and the weights `x7`, with the same basis table as layers 1 and 2; the node update `v342` is
  `nodeUpd` of the scattered sum `v336`, layer 2's result `v244`, the root weights `x8` and the bias `x9`. The
  gather and the scatter-add are not opened: each stays the same term on both sides.
-/
import proofs.«124089_j37623913513299_2_alg».proof.Proof.RefTerm

noncomputable section

namespace Cert.ReferenceIdeal.RefVal

open Cert.ReferenceIdeal Cert.ReferenceIdeal.ReadP Idealize.ShloMosaic Idealize.ShloMosaic.ValueIdx

/-- The message of layer 3: the nine contractions, added from the zero array in the order `k = 0, …, 8`. -/
theorem msg3 (x0 : (⟨S50000x64, .f32⟩ : BufTy).Contents (Elt Ideal)) (x1 : (⟨S2x400000, .i32⟩ : BufTy).Contents (Elt Ideal)) (x2 : (⟨S400000x2, .f32⟩ : BufTy).Contents (Elt Ideal)) (x3 : (⟨S50000x32, .f32⟩ : BufTy).Contents (Elt Ideal)) (x4 : (⟨S9x64x32, .f32⟩ : BufTy).Contents (Elt Ideal)) (x5 : (⟨S64x32, .f32⟩ : BufTy).Contents (Elt Ideal)) (x6 : (⟨S32, .f32⟩ : BufTy).Contents (Elt Ideal)) (x7 : (⟨S9x32x32, .f32⟩ : BufTy).Contents (Elt Ideal)) :
    val_main_v333 (F := Ideal) x0 x1 x2 x3 x4 x5 x6 x7
      = Cert.Spline.edgeMsg (val_main_v251 (F := Ideal) x0 x1 x2 x3 x4 x5 x6) x2 x7 := by
  funext i
  obtain ⟨e, q, rfl⟩ : ∃ (e : Fin 400000) (q : Fin 32), i = ix2 e q := ⟨i 0, i 1, eq_ix2 i⟩
  rw [Cert.Spline.edgeMsg_apply]
  unfold Cert.Spline.edgeRow
  rw [val_main_v333_apply, val_main_v324_apply, val_main_v315_apply, val_main_v306_apply, val_main_v297_apply,
    val_main_v288_apply, val_main_v279_apply, val_main_v270_apply, val_main_v261_apply,
    val_main_v252_apply, val_main_cst_16_apply]
  refine congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) rfl ?_) ?_) ?_) ?_) ?_) ?_) ?_) ?_) ?_
  · ref_term 253 at 0 0 0 of x2 e q width 32
  · ref_term 262 at 0 1 1 of x2 e q width 32
  · ref_term 271 at 0 2 2 of x2 e q width 32
  · ref_term 280 at 1 0 3 of x2 e q width 32
  · ref_term 289 at 1 1 4 of x2 e q width 32
  · ref_term 298 at 1 2 5 of x2 e q width 32
  · ref_term 307 at 2 0 6 of x2 e q width 32
  · ref_term 316 at 2 1 7 of x2 e q width 32
  · ref_term 325 at 2 2 8 of x2 e q width 32

/-- The node update of layer 3: the aggregated messages, plus the node's own row times the root weights, plus the
    bias, cut off below at zero. -/
theorem node3 (x0 : (⟨S50000x64, .f32⟩ : BufTy).Contents (Elt Ideal)) (x1 : (⟨S2x400000, .i32⟩ : BufTy).Contents (Elt Ideal)) (x2 : (⟨S400000x2, .f32⟩ : BufTy).Contents (Elt Ideal)) (x3 : (⟨S50000x32, .f32⟩ : BufTy).Contents (Elt Ideal)) (x4 : (⟨S9x64x32, .f32⟩ : BufTy).Contents (Elt Ideal)) (x5 : (⟨S64x32, .f32⟩ : BufTy).Contents (Elt Ideal)) (x6 : (⟨S32, .f32⟩ : BufTy).Contents (Elt Ideal)) (x7 : (⟨S9x32x32, .f32⟩ : BufTy).Contents (Elt Ideal)) (x8 : (⟨S32x32, .f32⟩ : BufTy).Contents (Elt Ideal)) (x9 : (⟨S32, .f32⟩ : BufTy).Contents (Elt Ideal)) :
    val_main_v342 (F := Ideal) x0 x1 x2 x3 x4 x5 x6 x7 x8 x9
      = Cert.Spline.nodeUpd (val_main_v336 (F := Ideal) x0 x1 x2 x3 x4 x5 x6 x7)
          (val_main_v244 (F := Ideal) x0 x1 x2 x3 x4 x5 x6) x8 x9 := by
  funext i
  obtain ⟨n, q, rfl⟩ : ∃ (n : Fin 50000) (q : Fin 32), i = ix2 n q := ⟨i 0, i 1, eq_ix2 i⟩
  rw [Cert.Spline.nodeUpd_apply]
  unfold Cert.Spline.nodeRow
  have hb : idx_main_v339 (idx_main_v340 (ix2 n q)) = ix1 q :=
    funext fun a => Fin.ext (by match a with | ⟨0, _⟩ => rfl)
  have hs : (∑ k : Fin 32, val_main_v244 (F := Ideal) x0 x1 x2 x3 x4 x5 x6 (lidx_main_v337 (ix2 n q) k)
        * x8 (ridx_main_v337 (ix2 n q) k))
      = ∑ c : Fin 32, val_main_v244 (F := Ideal) x0 x1 x2 x3 x4 x5 x6 (ix2 n c) * x8 (ix2 c q) :=
    Finset.sum_congr rfl fun c _ => by
      rw [show lidx_main_v337 (ix2 n q) c = ix2 n c from
          funext fun a => Fin.ext (by match a with | ⟨0, _⟩ => rfl | ⟨1, _⟩ => rfl),
        show ridx_main_v337 (ix2 n q) c = ix2 c q from
          funext fun a => Fin.ext (by match a with | ⟨0, _⟩ => rfl | ⟨1, _⟩ => rfl)]
  rw [val_main_v342_apply, val_main_v341_apply, val_main_v338_apply, val_main_v337_apply, hs, val_main_v340_apply,
    val_main_v339_apply, hb, val_main_call2_v0_apply, val_main_call2_cst_apply]
  rfl

end Cert.ReferenceIdeal.RefVal

end
-- ==== Proof.KResult.lean ====
/-
  The kernel program's result buffer holds the reference's result stage of the launch contents of the arguments:
  the six pipelines' output arrays (three message pipelines, three node-update pipelines) and the reference's six
  message and node stages, put through the chain of segment boundaries.
-/
import proofs.«124089_j37623913513299_2_alg».proof.Proof.KChain
import proofs.«124089_j37623913513299_2_alg».proof.Proof.KEdgeFinal0
import proofs.«124089_j37623913513299_2_alg».proof.Proof.KEdgeFinal2
import proofs.«124089_j37623913513299_2_alg».proof.Proof.KEdgeFinal4
import proofs.«124089_j37623913513299_2_alg».proof.Proof.KNodeFinal1
import proofs.«124089_j37623913513299_2_alg».proof.Proof.KNodeFinal3
import proofs.«124089_j37623913513299_2_alg».proof.Proof.KNodeFinal5
import proofs.«124089_j37623913513299_2_alg».proof.Proof.RefLayer1
import proofs.«124089_j37623913513299_2_alg».proof.Proof.RefLayer2
import proofs.«124089_j37623913513299_2_alg».proof.Proof.RefLayer3

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

/-- At the end of the fold through the kernel program's segments, the result buffer holds the reference's result stage
    of the arguments as launched. -/
theorem result (m : (ℓ : Loc nD τ sig) → Buf (Elt Ideal) ℓ) (ρ : Dev nD → PrngReg) (c : Dev nD) :
    W12 m ρ c (Proc.devRef .tc main_v43) = Cert.ReferenceIdeal.ReadP.val_main_v342 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  have e11 := at_v11 final0 Cert.ReferenceIdeal.RefVal.msg1 m ρ c
  have e16 := at_v16 final1 Cert.ReferenceIdeal.RefVal.node1 m ρ c e11
  have e17 := at_v17 m ρ c e16
  have e25 := at_v25 final2 Cert.ReferenceIdeal.RefVal.msg2 m ρ c e16
  have e30 := at_v30 final3 Cert.ReferenceIdeal.RefVal.node2 m ρ c e17 e25
  have e38 := at_v38 final4 Cert.ReferenceIdeal.RefVal.msg3 m ρ c e30
  at_v43 final5 Cert.ReferenceIdeal.RefVal.node3 m ρ c e30 e38

end Cert.KernelIdeal.Val

end
-- ==== Proof.RefOps.lean ====
/- A table of cases.
  The reference program's 369 host operations, as 7 lists: list k holds, in order, the operations of the k-th printed
  part of the program's body (an operation of a called function stands in its call's place). The body is the lists run one
  after the other, so it is their concatenation run as one line; every operation touches TensorCore buffers only and
  determines its result.
-/
import proofs.«124089_j37623913513299_2_alg».proof.Proof.Gen.ReferenceIdeal
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of part 0 of the body. -/
abbrev ops0 : List (HloOp τ sig (Elt F)) :=
  [ unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    unary main_arg2 main_v4 ((extractStridedSlice S400000x1 ![0, 0] · slices_S400000x2_S400000x1_0_0) : (⟨S400000x2, .f32⟩ : BufTy).Contents (Elt F) → (⟨S400000x1, .f32⟩ : BufTy).Contents (Elt F)),
    reshape main_v4 main_v5 rfl shapeCasts_S400000x1_S400000,
    nullary main_cst (constant S_ .f32 0x3F800000#32),
    unary main_cst main_v6 (broadcastInDim S400000 ![] bcast_S_S400000 : (⟨S_, .f32⟩ : BufTy).Contents (Elt F) → (⟨S400000, .f32⟩ : BufTy).Contents (Elt F)),
    binary main_v6 main_v5 main_v7 (subf : (⟨S400000, .f32⟩ : BufTy).Contents (Elt F) → (⟨S400000, .f32⟩ : BufTy).Contents (Elt F) → (⟨S400000, .f32⟩ : BufTy).Contents (Elt F)),
    binary main_v7 main_v7 main_v8 (mulf : (⟨S400000, .f32⟩ : BufTy).Contents (Elt F) → (⟨S400000, .f32⟩ : BufTy).Contents (Elt F) → (⟨S400000, .f32⟩ : BufTy).Contents (Elt F)),
    nullary main_cst_0 (constant S_ .f32 0x3F000000#32),
    unary main_cst_0 main_v9 (broadcastInDim S400000 ![] bcast_S_S400000 : (⟨S_, .f32⟩ : BufTy).Contents (Elt F) → (⟨S400000, .f32⟩ : BufTy).Contents (Elt F)),
    binary main_v9 main_v8 main_v10 (mulf : (⟨S400000, .f32⟩ : BufTy).Contents (Elt F) → (⟨S400000, .f32⟩ : BufTy).Contents (Elt F) → (⟨S400000, .f32⟩ : BufTy).Contents (Elt F)),
    unary main_v5 main_v11 (Host.negf : (⟨S400000, .f32⟩ : BufTy).Contents (Elt F) → (⟨S400000, .f32⟩ : BufTy).Contents (Elt F)),
    binary main_v11 main_v5 main_v12 (mulf : (⟨S400000, .f32⟩ : BufTy).Contents (Elt F) → (⟨S400000, .f32⟩ : BufTy).Contents (Elt F) → (⟨S400000, .f32⟩ : BufTy).Contents (Elt F)),
    binary main_v12 main_v5 main_v13 (addf : (⟨S400000, .f32⟩ : BufTy).Contents (Elt F) → (⟨S400000, .f32⟩ : BufTy).Contents (Elt F) → (⟨S400000, .f32⟩ : BufTy).Contents (Elt F)),
    nullary main_cst_1 (constant S_ .f32 0x3F000000#32),
    unary main_cst_1 main_v14 (broadcastInDim S400000 ![] bcast_S_S400000 : (⟨S_, .f32⟩ : BufTy).Contents (Elt F) → (⟨S400000, .f32⟩ : BufTy).Contents (Elt F)),
    binary main_v13 main_v14 main_v15 (addf : (⟨S400000, .f32⟩ : BufTy).Contents (Elt F) → (⟨S400000, .f32⟩ : BufTy).Contents (Elt F) → (⟨S400000, .f32⟩ : BufTy).Contents (Elt F)),
    nullary main_cst_2 (constant S_ .f32 0x3F000000#32),
    unary main_cst_2 main_v16 (broadcastInDim S400000 ![] bcast_S_S400000 : (⟨S_, .f32⟩ : BufTy).Contents (Elt F) → (⟨S400000, .f32⟩ : BufTy).Contents (Elt F)),
    binary main_v16 main_v5 main_v17 (mulf : (⟨S400000, .f32⟩ : BufTy).Contents (Elt F) → (⟨S400000, .f32⟩ : BufTy).Contents (Elt F) → (⟨S400000, .f32⟩ : BufTy).Contents (Elt F)),
    binary main_v17 main_v5 main_v18 (mulf : (⟨S400000, .f32⟩ : BufTy).Contents (Elt F) → (⟨S400000, .f32⟩ : BufTy).Contents (Elt F) → (⟨S400000, .f32⟩ : BufTy).Contents (Elt F)),
    unary main_v10 main_v19 (broadcastInDim S400000x1 ![0] bcast_S400000_S400000x1_0 : (⟨S400000, .f32⟩ : BufTy).Contents (Elt F) → (⟨S400000x1, .f32⟩ : BufTy).Contents (Elt F)),
    unary main_v15 main_v20 (broadcastInDim S400000x1 ![0] bcast_S400000_S400000x1_0 : (⟨S400000, .f32⟩ : BufTy).Contents (Elt F) → (⟨S400000x1, .f32⟩ : BufTy).Contents (Elt F)),
    unary main_v18 main_v21 (broadcastInDim S400000x1 ![0] bcast_S400000_S400000x1_0 : (⟨S400000, .f32⟩ : BufTy).Contents (Elt F) → (⟨S400000x1, .f32⟩ : BufTy).Contents (Elt F)),
    nary ![main_v19, main_v20, main_v21] main_v22 (fun u => concatenate S400000x3 1 [⟨S400000x1, u 0⟩, ⟨S400000x1, u 1⟩, ⟨S400000x1, u 2⟩] concatenates_S400000x1_S400000x1_S400000x1_S400000x3_d1),
    unary main_arg2 main_v23 ((extractStridedSlice S400000x1 ![0, 1] · slices_S400000x2_S400000x1_0_1) : (⟨S400000x2, .f32⟩ : BufTy).Contents (Elt F) → (⟨S400000x1, .f32⟩ : BufTy).Contents (Elt F)),
    reshape main_v23 main_v24 rfl shapeCasts_S400000x1_S400000,
    nullary main_cst_3 (constant S_ .f32 0x3F800000#32),
    unary main_cst_3 main_v25 (broadcastInDim S400000 ![] bcast_S_S400000 : (⟨S_, .f32⟩ : BufTy).Contents (Elt F) → (⟨S400000, .f32⟩ : BufTy).Contents (Elt F)),
    binary main_v25 main_v24 main_v26 (subf : (⟨S400000, .f32⟩ : BufTy).Contents (Elt F) → (⟨S400000, .f32⟩ : BufTy).Contents (Elt F) → (⟨S400000, .f32⟩ : BufTy).Contents (Elt F)),
    binary main_v26 main_v26 main_v27 (mulf : (⟨S400000, .f32⟩ : BufTy).Contents (Elt F) → (⟨S400000, .f32⟩ : BufTy).Contents (Elt F) → (⟨S400000, .f32⟩ : BufTy).Contents (Elt F)),
    nullary main_cst_4 (constant S_ .f32 0x3F000000#32),
    unary main_cst_4 main_v28 (broadcastInDim S400000 ![] bcast_S_S400000 : (⟨S_, .f32⟩ : BufTy).Contents (Elt F) → (⟨S400000, .f32⟩ : BufTy).Contents (Elt F)),
    binary main_v28 main_v27 main_v29 (mulf : (⟨S400000, .f32⟩ : BufTy).Contents (Elt F) → (⟨S400000, .f32⟩ : BufTy).Contents (Elt F) → (⟨S400000, .f32⟩ : BufTy).Contents (Elt F)),
    unary main_v24 main_v30 (Host.negf : (⟨S400000, .f32⟩ : BufTy).Contents (Elt F) → (⟨S400000, .f32⟩ : BufTy).Contents (Elt F)),
    binary main_v30 main_v24 main_v31 (mulf : (⟨S400000, .f32⟩ : BufTy).Contents (Elt F) → (⟨S400000, .f32⟩ : BufTy).Contents (Elt F) → (⟨S400000, .f32⟩ : BufTy).Contents (Elt F)),
    binary main_v31 main_v24 main_v32 (addf : (⟨S400000, .f32⟩ : BufTy).Contents (Elt F) → (⟨S400000, .f32⟩ : BufTy).Contents (Elt F) → (⟨S400000, .f32⟩ : BufTy).Contents (Elt F)),
    nullary main_cst_5 (constant S_ .f32 0x3F000000#32),
    unary main_cst_5 main_v33 (broadcastInDim S400000 ![] bcast_S_S400000 : (⟨S_, .f32⟩ : BufTy).Contents (Elt F) → (⟨S400000, .f32⟩ : BufTy).Contents (Elt F)),
    binary main_v32 main_v33 main_v34 (addf : (⟨S400000, .f32⟩ : BufTy).Contents (Elt F) → (⟨S400000, .f32⟩ : BufTy).Contents (Elt F) → (⟨S400000, .f32⟩ : BufTy).Contents (Elt F)),
    nullary main_cst_6 (constant S_ .f32 0x3F000000#32),
    unary main_cst_6 main_v35 (broadcastInDim S400000 ![] bcast_S_S400000 : (⟨S_, .f32⟩ : BufTy).Contents (Elt F) → (⟨S400000, .f32⟩ : BufTy).Contents (Elt F)),
    binary main_v35 main_v24 main_v36 (mulf : (⟨S400000, .f32⟩ : BufTy).Contents (Elt F) → (⟨S400000, .f32⟩ : BufTy).Contents (Elt F) → (⟨S400000, .f32⟩ : BufTy).Contents (Elt F)),
    binary main_v36 main_v24 main_v37 (mulf : (⟨S400000, .f32⟩ : BufTy).Contents (Elt F) → (⟨S400000, .f32⟩ : BufTy).Contents (Elt F) → (⟨S400000, .f32⟩ : BufTy).Contents (Elt F)),
    unary main_v29 main_v38 (broadcastInDim S400000x1 ![0] bcast_S400000_S400000x1_0 : (⟨S400000, .f32⟩ : BufTy).Contents (Elt F) → (⟨S400000x1, .f32⟩ : BufTy).Contents (Elt F)),
    unary main_v34 main_v39 (broadcastInDim S400000x1 ![0] bcast_S400000_S400000x1_0 : (⟨S400000, .f32⟩ : BufTy).Contents (Elt F) → (⟨S400000x1, .f32⟩ : BufTy).Contents (Elt F)),
    unary main_v37 main_v40 (broadcastInDim S400000x1 ![0] bcast_S400000_S400000x1_0 : (⟨S400000, .f32⟩ : BufTy).Contents (Elt F) → (⟨S400000x1, .f32⟩ : BufTy).Contents (Elt F)),
    nary ![main_v38, main_v39, main_v40] main_v41 (fun u => concatenate S400000x3 1 [⟨S400000x1, u 0⟩, ⟨S400000x1, u 1⟩, ⟨S400000x1, u 2⟩] concatenates_S400000x1_S400000x1_S400000x1_S400000x3_d1),
    unary main_v41 main_v42 (broadcastInDim S400000x3x1 ![0, 1] bcast_S400000x3_S400000x3x1_0_1 : (⟨S400000x3, .f32⟩ : BufTy).Contents (Elt F) → (⟨S400000x3x1, .f32⟩ : BufTy).Contents (Elt F)),
    unary main_v22 main_v43 (broadcastInDim S400000x1x3 ![0, 2] bcast_S400000x3_S400000x1x3_0_2 : (⟨S400000x3, .f32⟩ : BufTy).Contents (Elt F) → (⟨S400000x1x3, .f32⟩ : BufTy).Contents (Elt F)),
    unary main_v42 main_v44 (broadcastInDim S400000x3x3 ![0, 1, 2] bcast_S400000x3x1_S400000x3x3_0_1_2 : (⟨S400000x3x1, .f32⟩ : BufTy).Contents (Elt F) → (⟨S400000x3x3, .f32⟩ : BufTy).Contents (Elt F)),
    unary main_v43 main_v45 (broadcastInDim S400000x3x3 ![0, 1, 2] bcast_S400000x1x3_S400000x3x3_0_1_2 : (⟨S400000x1x3, .f32⟩ : BufTy).Contents (Elt F) → (⟨S400000x3x3, .f32⟩ : BufTy).Contents (Elt F)),
    binary main_v44 main_v45 main_v46 (mulf : (⟨S400000x3x3, .f32⟩ : BufTy).Contents (Elt F) → (⟨S400000x3x3, .f32⟩ : BufTy).Contents (Elt F) → (⟨S400000x3x3, .f32⟩ : BufTy).Contents (Elt F)),
    reshape main_v46 main_v47 rfl shapeCasts_S400000x3x3_S400000x9,
    nullary main_c (constantI S_ 32 0#32),
    unary main_c main_v48 (broadcastInDim S400000 ![] bcast_S_S400000 : (⟨S_, .i32⟩ : BufTy).Contents (Elt F) → (⟨S400000, .i32⟩ : BufTy).Contents (Elt F)),
    binary main_v1 main_v48 main_v49 (cmpi .slt : (⟨S400000, .i32⟩ : BufTy).Contents (Elt F) → (⟨S400000, .i32⟩ : BufTy).Contents (Elt F) → (⟨S400000, .i1⟩ : BufTy).Contents (Elt F)),
    nullary main_c_7 (constantI S_ 32 50000#32) ]

/-- The operations of part 1 of the body. -/
abbrev ops1 : List (HloOp τ sig (Elt F)) :=
  [ unary main_c_7 main_v50 (broadcastInDim S400000 ![] bcast_S_S400000 : (⟨S_, .i32⟩ : BufTy).Contents (Elt F) → (⟨S400000, .i32⟩ : BufTy).Contents (Elt F)),
    binary main_v1 main_v50 main_v51 (addi : (⟨S400000, .i32⟩ : BufTy).Contents (Elt F) → (⟨S400000, .i32⟩ : BufTy).Contents (Elt F) → (⟨S400000, .i32⟩ : BufTy).Contents (Elt F)),
    ternary main_v49 main_v51 main_v1 main_v52 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v52 main_v53 (broadcastInDim S400000x1 ![0] bcast_S400000_S400000x1_0 : (⟨S400000, .i32⟩ : BufTy).Contents (Elt F) → (⟨S400000x1, .i32⟩ : BufTy).Contents (Elt F)),
    binary main_arg0 main_v53 main_v54 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)),
    nullary main_cst_8 (constant S_ .f32 0x00000000#32),
    unary main_cst_8 main_v55 (broadcastInDim S400000x32 ![] bcast_S_S400000x32 : (⟨S_, .f32⟩ : BufTy).Contents (Elt F) → (⟨S400000x32, .f32⟩ : BufTy).Contents (Elt F)),
    unary main_v47 main_v56 ((extractStridedSlice S400000x1 ![0, 0] · slices_S400000x9_S400000x1_0_0) : (⟨S400000x9, .f32⟩ : BufTy).Contents (Elt F) → (⟨S400000x1, .f32⟩ : BufTy).Contents (Elt F)),
    reshape main_v56 main_v57 rfl shapeCasts_S400000x1_S400000,
    unary main_v57 main_v58 (broadcastInDim S400000x1 ![0] bcast_S400000_S400000x1_0 : (⟨S400000, .f32⟩ : BufTy).Contents (Elt F) → (⟨S400000x1, .f32⟩ : BufTy).Contents (Elt F)),
    unary main_v58 main_v59 (broadcastInDim S400000x64 ![0, 1] bcast_S400000x1_S400000x64_0_1 : (⟨S400000x1, .f32⟩ : BufTy).Contents (Elt F) → (⟨S400000x64, .f32⟩ : BufTy).Contents (Elt F)),
    binary main_v54 main_v59 main_v60 (mulf : (⟨S400000x64, .f32⟩ : BufTy).Contents (Elt F) → (⟨S400000x64, .f32⟩ : BufTy).Contents (Elt F) → (⟨S400000x64, .f32⟩ : BufTy).Contents (Elt F)),
    unary main_arg4 main_v61 ((extractStridedSlice S1x64x32 ![0, 0, 0] · slices_S9x64x32_S1x64x32_0_0_0) : (⟨S9x64x32, .f32⟩ : BufTy).Contents (Elt F) → (⟨S1x64x32, .f32⟩ : BufTy).Contents (Elt F)),
    reshape main_v61 main_v62 rfl shapeCasts_S1x64x32_S64x32,
    binary main_v60 main_v62 main_v63 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    binary main_v55 main_v63 main_v64 (addf : (⟨S400000x32, .f32⟩ : BufTy).Contents (Elt F) → (⟨S400000x32, .f32⟩ : BufTy).Contents (Elt F) → (⟨S400000x32, .f32⟩ : BufTy).Contents (Elt F)),
    unary main_v47 main_v65 ((extractStridedSlice S400000x1 ![0, 1] · slices_S400000x9_S400000x1_0_1) : (⟨S400000x9, .f32⟩ : BufTy).Contents (Elt F) → (⟨S400000x1, .f32⟩ : BufTy).Contents (Elt F)),
    reshape main_v65 main_v66 rfl shapeCasts_S400000x1_S400000,
    unary main_v66 main_v67 (broadcastInDim S400000x1 ![0] bcast_S400000_S400000x1_0 : (⟨S400000, .f32⟩ : BufTy).Contents (Elt F) → (⟨S400000x1, .f32⟩ : BufTy).Contents (Elt F)),
    unary main_v67 main_v68 (broadcastInDim S400000x64 ![0, 1] bcast_S400000x1_S400000x64_0_1 : (⟨S400000x1, .f32⟩ : BufTy).Contents (Elt F) → (⟨S400000x64, .f32⟩ : BufTy).Contents (Elt F)),
    binary main_v54 main_v68 main_v69 (mulf : (⟨S400000x64, .f32⟩ : BufTy).Contents (Elt F) → (⟨S400000x64, .f32⟩ : BufTy).Contents (Elt F) → (⟨S400000x64, .f32⟩ : BufTy).Contents (Elt F)),
    unary main_arg4 main_v70 ((extractStridedSlice S1x64x32 ![1, 0, 0] · slices_S9x64x32_S1x64x32_1_0_0) : (⟨S9x64x32, .f32⟩ : BufTy).Contents (Elt F) → (⟨S1x64x32, .f32⟩ : BufTy).Contents (Elt F)),
    reshape main_v70 main_v71 rfl shapeCasts_S1x64x32_S64x32,
    binary main_v69 main_v71 main_v72 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    binary main_v64 main_v72 main_v73 (addf : (⟨S400000x32, .f32⟩ : BufTy).Contents (Elt F) → (⟨S400000x32, .f32⟩ : BufTy).Contents (Elt F) → (⟨S400000x32, .f32⟩ : BufTy).Contents (Elt F)),
    unary main_v47 main_v74 ((extractStridedSlice S400000x1 ![0, 2] · slices_S400000x9_S400000x1_0_2) : (⟨S400000x9, .f32⟩ : BufTy).Contents (Elt F) → (⟨S400000x1, .f32⟩ : BufTy).Contents (Elt F)),
    reshape main_v74 main_v75 rfl shapeCasts_S400000x1_S400000,
    unary main_v75 main_v76 (broadcastInDim S400000x1 ![0] bcast_S400000_S400000x1_0 : (⟨S400000, .f32⟩ : BufTy).Contents (Elt F) → (⟨S400000x1, .f32⟩ : BufTy).Contents (Elt F)),
    unary main_v76 main_v77 (broadcastInDim S400000x64 ![0, 1] bcast_S400000x1_S400000x64_0_1 : (⟨S400000x1, .f32⟩ : BufTy).Contents (Elt F) → (⟨S400000x64, .f32⟩ : BufTy).Contents (Elt F)),
    binary main_v54 main_v77 main_v78 (mulf : (⟨S400000x64, .f32⟩ : BufTy).Contents (Elt F) → (⟨S400000x64, .f32⟩ : BufTy).Contents (Elt F) → (⟨S400000x64, .f32⟩ : BufTy).Contents (Elt F)),
    unary main_arg4 main_v79 ((extractStridedSlice S1x64x32 ![2, 0, 0] · slices_S9x64x32_S1x64x32_2_0_0) : (⟨S9x64x32, .f32⟩ : BufTy).Contents (Elt F) → (⟨S1x64x32, .f32⟩ : BufTy).Contents (Elt F)),
    reshape main_v79 main_v80 rfl shapeCasts_S1x64x32_S64x32,
    binary main_v78 main_v80 main_v81 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    binary main_v73 main_v81 main_v82 (addf : (⟨S400000x32, .f32⟩ : BufTy).Contents (Elt F) → (⟨S400000x32, .f32⟩ : BufTy).Contents (Elt F) → (⟨S400000x32, .f32⟩ : BufTy).Contents (Elt F)),
    unary main_v47 main_v83 ((extractStridedSlice S400000x1 ![0, 3] · slices_S400000x9_S400000x1_0_3) : (⟨S400000x9, .f32⟩ : BufTy).Contents (Elt F) → (⟨S400000x1, .f32⟩ : BufTy).Contents (Elt F)),
    reshape main_v83 main_v84 rfl shapeCasts_S400000x1_S400000,
    unary main_v84 main_v85 (broadcastInDim S400000x1 ![0] bcast_S400000_S400000x1_0 : (⟨S400000, .f32⟩ : BufTy).Contents (Elt F) → (⟨S400000x1, .f32⟩ : BufTy).Contents (Elt F)),
    unary main_v85 main_v86 (broadcastInDim S400000x64 ![0, 1] bcast_S400000x1_S400000x64_0_1 : (⟨S400000x1, .f32⟩ : BufTy).Contents (Elt F) → (⟨S400000x64, .f32⟩ : BufTy).Contents (Elt F)),
    binary main_v54 main_v86 main_v87 (mulf : (⟨S400000x64, .f32⟩ : BufTy).Contents (Elt F) → (⟨S400000x64, .f32⟩ : BufTy).Contents (Elt F) → (⟨S400000x64, .f32⟩ : BufTy).Contents (Elt F)),
    unary main_arg4 main_v88 ((extractStridedSlice S1x64x32 ![3, 0, 0] · slices_S9x64x32_S1x64x32_3_0_0) : (⟨S9x64x32, .f32⟩ : BufTy).Contents (Elt F) → (⟨S1x64x32, .f32⟩ : BufTy).Contents (Elt F)),
    reshape main_v88 main_v89 rfl shapeCasts_S1x64x32_S64x32,
    binary main_v87 main_v89 main_v90 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    binary main_v82 main_v90 main_v91 (addf : (⟨S400000x32, .f32⟩ : BufTy).Contents (Elt F) → (⟨S400000x32, .f32⟩ : BufTy).Contents (Elt F) → (⟨S400000x32, .f32⟩ : BufTy).Contents (Elt F)),
    unary main_v47 main_v92 ((extractStridedSlice S400000x1 ![0, 4] · slices_S400000x9_S400000x1_0_4) : (⟨S400000x9, .f32⟩ : BufTy).Contents (Elt F) → (⟨S400000x1, .f32⟩ : BufTy).Contents (Elt F)),
    reshape main_v92 main_v93 rfl shapeCasts_S400000x1_S400000,
    unary main_v93 main_v94 (broadcastInDim S400000x1 ![0] bcast_S400000_S400000x1_0 : (⟨S400000, .f32⟩ : BufTy).Contents (Elt F) → (⟨S400000x1, .f32⟩ : BufTy).Contents (Elt F)),
    unary main_v94 main_v95 (broadcastInDim S400000x64 ![0, 1] bcast_S400000x1_S400000x64_0_1 : (⟨S400000x1, .f32⟩ : BufTy).Contents (Elt F) → (⟨S400000x64, .f32⟩ : BufTy).Contents (Elt F)),
    binary main_v54 main_v95 main_v96 (mulf : (⟨S400000x64, .f32⟩ : BufTy).Contents (Elt F) → (⟨S400000x64, .f32⟩ : BufTy).Contents (Elt F) → (⟨S400000x64, .f32⟩ : BufTy).Contents (Elt F)),
    unary main_arg4 main_v97 ((extractStridedSlice S1x64x32 ![4, 0, 0] · slices_S9x64x32_S1x64x32_4_0_0) : (⟨S9x64x32, .f32⟩ : BufTy).Contents (Elt F) → (⟨S1x64x32, .f32⟩ : BufTy).Contents (Elt F)),
    reshape main_v97 main_v98 rfl shapeCasts_S1x64x32_S64x32,
    binary main_v96 main_v98 main_v99 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    binary main_v91 main_v99 main_v100 (addf : (⟨S400000x32, .f32⟩ : BufTy).Contents (Elt F) → (⟨S400000x32, .f32⟩ : BufTy).Contents (Elt F) → (⟨S400000x32, .f32⟩ : BufTy).Contents (Elt F)),
    unary main_v47 main_v101 ((extractStridedSlice S400000x1 ![0, 5] · slices_S400000x9_S400000x1_0_5) : (⟨S400000x9, .f32⟩ : BufTy).Contents (Elt F) → (⟨S400000x1, .f32⟩ : BufTy).Contents (Elt F)),
    reshape main_v101 main_v102 rfl shapeCasts_S400000x1_S400000,
    unary main_v102 main_v103 (broadcastInDim S400000x1 ![0] bcast_S400000_S400000x1_0 : (⟨S400000, .f32⟩ : BufTy).Contents (Elt F) → (⟨S400000x1, .f32⟩ : BufTy).Contents (Elt F)),
    unary main_v103 main_v104 (broadcastInDim S400000x64 ![0, 1] bcast_S400000x1_S400000x64_0_1 : (⟨S400000x1, .f32⟩ : BufTy).Contents (Elt F) → (⟨S400000x64, .f32⟩ : BufTy).Contents (Elt F)),
    binary main_v54 main_v104 main_v105 (mulf : (⟨S400000x64, .f32⟩ : BufTy).Contents (Elt F) → (⟨S400000x64, .f32⟩ : BufTy).Contents (Elt F) → (⟨S400000x64, .f32⟩ : BufTy).Contents (Elt F)),
    unary main_arg4 main_v106 ((extractStridedSlice S1x64x32 ![5, 0, 0] · slices_S9x64x32_S1x64x32_5_0_0) : (⟨S9x64x32, .f32⟩ : BufTy).Contents (Elt F) → (⟨S1x64x32, .f32⟩ : BufTy).Contents (Elt F)),
    reshape main_v106 main_v107 rfl shapeCasts_S1x64x32_S64x32,
    binary main_v105 main_v107 main_v108 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)) ]

/-- The operations of part 2 of the body. -/
abbrev ops2 : List (HloOp τ sig (Elt F)) :=
  [ binary main_v100 main_v108 main_v109 (addf : (⟨S400000x32, .f32⟩ : BufTy).Contents (Elt F) → (⟨S400000x32, .f32⟩ : BufTy).Contents (Elt F) → (⟨S400000x32, .f32⟩ : BufTy).Contents (Elt F)),
    unary main_v47 main_v110 ((extractStridedSlice S400000x1 ![0, 6] · slices_S400000x9_S400000x1_0_6) : (⟨S400000x9, .f32⟩ : BufTy).Contents (Elt F) → (⟨S400000x1, .f32⟩ : BufTy).Contents (Elt F)),
    reshape main_v110 main_v111 rfl shapeCasts_S400000x1_S400000,
    unary main_v111 main_v112 (broadcastInDim S400000x1 ![0] bcast_S400000_S400000x1_0 : (⟨S400000, .f32⟩ : BufTy).Contents (Elt F) → (⟨S400000x1, .f32⟩ : BufTy).Contents (Elt F)),
    unary main_v112 main_v113 (broadcastInDim S400000x64 ![0, 1] bcast_S400000x1_S400000x64_0_1 : (⟨S400000x1, .f32⟩ : BufTy).Contents (Elt F) → (⟨S400000x64, .f32⟩ : BufTy).Contents (Elt F)),
    binary main_v54 main_v113 main_v114 (mulf : (⟨S400000x64, .f32⟩ : BufTy).Contents (Elt F) → (⟨S400000x64, .f32⟩ : BufTy).Contents (Elt F) → (⟨S400000x64, .f32⟩ : BufTy).Contents (Elt F)),
    unary main_arg4 main_v115 ((extractStridedSlice S1x64x32 ![6, 0, 0] · slices_S9x64x32_S1x64x32_6_0_0) : (⟨S9x64x32, .f32⟩ : BufTy).Contents (Elt F) → (⟨S1x64x32, .f32⟩ : BufTy).Contents (Elt F)),
    reshape main_v115 main_v116 rfl shapeCasts_S1x64x32_S64x32,
    binary main_v114 main_v116 main_v117 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    binary main_v109 main_v117 main_v118 (addf : (⟨S400000x32, .f32⟩ : BufTy).Contents (Elt F) → (⟨S400000x32, .f32⟩ : BufTy).Contents (Elt F) → (⟨S400000x32, .f32⟩ : BufTy).Contents (Elt F)),
    unary main_v47 main_v119 ((extractStridedSlice S400000x1 ![0, 7] · slices_S400000x9_S400000x1_0_7) : (⟨S400000x9, .f32⟩ : BufTy).Contents (Elt F) → (⟨S400000x1, .f32⟩ : BufTy).Contents (Elt F)),
    reshape main_v119 main_v120 rfl shapeCasts_S400000x1_S400000,
    unary main_v120 main_v121 (broadcastInDim S400000x1 ![0] bcast_S400000_S400000x1_0 : (⟨S400000, .f32⟩ : BufTy).Contents (Elt F) → (⟨S400000x1, .f32⟩ : BufTy).Contents (Elt F)),
    unary main_v121 main_v122 (broadcastInDim S400000x64 ![0, 1] bcast_S400000x1_S400000x64_0_1 : (⟨S400000x1, .f32⟩ : BufTy).Contents (Elt F) → (⟨S400000x64, .f32⟩ : BufTy).Contents (Elt F)),
    binary main_v54 main_v122 main_v123 (mulf : (⟨S400000x64, .f32⟩ : BufTy).Contents (Elt F) → (⟨S400000x64, .f32⟩ : BufTy).Contents (Elt F) → (⟨S400000x64, .f32⟩ : BufTy).Contents (Elt F)),
    unary main_arg4 main_v124 ((extractStridedSlice S1x64x32 ![7, 0, 0] · slices_S9x64x32_S1x64x32_7_0_0) : (⟨S9x64x32, .f32⟩ : BufTy).Contents (Elt F) → (⟨S1x64x32, .f32⟩ : BufTy).Contents (Elt F)),
    reshape main_v124 main_v125 rfl shapeCasts_S1x64x32_S64x32,
    binary main_v123 main_v125 main_v126 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    binary main_v118 main_v126 main_v127 (addf : (⟨S400000x32, .f32⟩ : BufTy).Contents (Elt F) → (⟨S400000x32, .f32⟩ : BufTy).Contents (Elt F) → (⟨S400000x32, .f32⟩ : BufTy).Contents (Elt F)),
    unary main_v47 main_v128 ((extractStridedSlice S400000x1 ![0, 8] · slices_S400000x9_S400000x1_0_8) : (⟨S400000x9, .f32⟩ : BufTy).Contents (Elt F) → (⟨S400000x1, .f32⟩ : BufTy).Contents (Elt F)),
    reshape main_v128 main_v129 rfl shapeCasts_S400000x1_S400000,
    unary main_v129 main_v130 (broadcastInDim S400000x1 ![0] bcast_S400000_S400000x1_0 : (⟨S400000, .f32⟩ : BufTy).Contents (Elt F) → (⟨S400000x1, .f32⟩ : BufTy).Contents (Elt F)),
    unary main_v130 main_v131 (broadcastInDim S400000x64 ![0, 1] bcast_S400000x1_S400000x64_0_1 : (⟨S400000x1, .f32⟩ : BufTy).Contents (Elt F) → (⟨S400000x64, .f32⟩ : BufTy).Contents (Elt F)),
    binary main_v54 main_v131 main_v132 (mulf : (⟨S400000x64, .f32⟩ : BufTy).Contents (Elt F) → (⟨S400000x64, .f32⟩ : BufTy).Contents (Elt F) → (⟨S400000x64, .f32⟩ : BufTy).Contents (Elt F)),
    unary main_arg4 main_v133 ((extractStridedSlice S1x64x32 ![8, 0, 0] · slices_S9x64x32_S1x64x32_8_0_0) : (⟨S9x64x32, .f32⟩ : BufTy).Contents (Elt F) → (⟨S1x64x32, .f32⟩ : BufTy).Contents (Elt F)),
    reshape main_v133 main_v134 rfl shapeCasts_S1x64x32_S64x32,
    binary main_v132 main_v134 main_v135 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    binary main_v127 main_v135 main_v136 (addf : (⟨S400000x32, .f32⟩ : BufTy).Contents (Elt F) → (⟨S400000x32, .f32⟩ : BufTy).Contents (Elt F) → (⟨S400000x32, .f32⟩ : BufTy).Contents (Elt F)),
    nullary main_cst_9 (constant S_ .f32 0x00000000#32),
    unary main_cst_9 main_v137 (broadcastInDim S50000x32 ![] bcast_S_S50000x32 : (⟨S_, .f32⟩ : BufTy).Contents (Elt F) → (⟨S50000x32, .f32⟩ : BufTy).Contents (Elt F)),
    unary main_v3 main_v138 (broadcastInDim S400000x1 ![0] bcast_S400000_S400000x1_0 : (⟨S400000, .i32⟩ : BufTy).Contents (Elt F) → (⟨S400000x1, .i32⟩ : BufTy).Contents (Elt F)),
    ternary main_v137 main_v138 main_v136 main_v139 ((fun x i u => Host.scatterAdd scatter_S50000x32_S400000x1_S400000x32_1_0_0_1 x i u) : (⟨S50000x32, .f32⟩ : BufTy).Contents (Elt F) → (⟨S400000x1, .i32⟩ : BufTy).Contents (Elt F) → (⟨S400000x32, .f32⟩ : BufTy).Contents (Elt F) → (⟨S50000x32, .f32⟩ : BufTy).Contents (Elt F)),
    binary main_arg0 main_arg5 main_v140 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    binary main_v139 main_v140 main_v141 (addf : (⟨S50000x32, .f32⟩ : BufTy).Contents (Elt F) → (⟨S50000x32, .f32⟩ : BufTy).Contents (Elt F) → (⟨S50000x32, .f32⟩ : BufTy).Contents (Elt F)),
    unary main_arg6 main_v142 (broadcastInDim S1x32 ![1] bcast_S32_S1x32_1 : (⟨S32, .f32⟩ : BufTy).Contents (Elt F) → (⟨S1x32, .f32⟩ : BufTy).Contents (Elt F)),
    unary main_v142 main_v143 (broadcastInDim S50000x32 ![0, 1] bcast_S1x32_S50000x32_0_1 : (⟨S1x32, .f32⟩ : BufTy).Contents (Elt F) → (⟨S50000x32, .f32⟩ : BufTy).Contents (Elt F)),
    binary main_v141 main_v143 main_v144 (addf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x32, .f32⟩) main_call0_v0) (broadcastInDim S50000x32 ![] bcast_S_S50000x32),
    TRef.binary (TRef.of (T := ⟨S50000x32, .f32⟩) main_v144) (TRef.of (T := ⟨S50000x32, .f32⟩) main_call0_v0) (TRef.of (T := ⟨S50000x32, .f32⟩) main_v145) maximumf,
    binary main_v145 main_arg3 main_v146 ((fun a b => concatenate S50000x64 1 [⟨S50000x32, a⟩, ⟨S50000x32, b⟩] concatenates_S50000x32_S50000x32_S50000x64_d1) : (⟨S50000x32, .f32⟩ : BufTy).Contents (Elt F) → (⟨S50000x32, .f32⟩ : BufTy).Contents (Elt F) → (⟨S50000x64, .f32⟩ : BufTy).Contents (Elt F)),
    nullary main_c_10 (constantI S_ 32 0#32),
    unary main_c_10 main_v147 (broadcastInDim S400000 ![] bcast_S_S400000 : (⟨S_, .i32⟩ : BufTy).Contents (Elt F) → (⟨S400000, .i32⟩ : BufTy).Contents (Elt F)),
    binary main_v1 main_v147 main_v148 (cmpi .slt : (⟨S400000, .i32⟩ : BufTy).Contents (Elt F) → (⟨S400000, .i32⟩ : BufTy).Contents (Elt F) → (⟨S400000, .i1⟩ : BufTy).Contents (Elt F)),
    nullary main_c_11 (constantI S_ 32 50000#32),
    unary main_c_11 main_v149 (broadcastInDim S400000 ![] bcast_S_S400000 : (⟨S_, .i32⟩ : BufTy).Contents (Elt F) → (⟨S400000, .i32⟩ : BufTy).Contents (Elt F)),
    binary main_v1 main_v149 main_v150 (addi : (⟨S400000, .i32⟩ : BufTy).Contents (Elt F) → (⟨S400000, .i32⟩ : BufTy).Contents (Elt F) → (⟨S400000, .i32⟩ : BufTy).Contents (Elt F)),
    ternary main_v148 main_v150 main_v1 main_v151 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v151 main_v152 (broadcastInDim S400000x1 ![0] bcast_S400000_S400000x1_0 : (⟨S400000, .i32⟩ : BufTy).Contents (Elt F) → (⟨S400000x1, .i32⟩ : BufTy).Contents (Elt F)),
    binary main_v146 main_v152 main_v153 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)),
    nullary main_cst_12 (constant S_ .f32 0x00000000#32),
    unary main_cst_12 main_v154 (broadcastInDim S400000x32 ![] bcast_S_S400000x32 : (⟨S_, .f32⟩ : BufTy).Contents (Elt F) → (⟨S400000x32, .f32⟩ : BufTy).Contents (Elt F)),
    unary main_v47 main_v155 ((extractStridedSlice S400000x1 ![0, 0] · slices_S400000x9_S400000x1_0_0) : (⟨S400000x9, .f32⟩ : BufTy).Contents (Elt F) → (⟨S400000x1, .f32⟩ : BufTy).Contents (Elt F)),
    reshape main_v155 main_v156 rfl shapeCasts_S400000x1_S400000,
    unary main_v156 main_v157 (broadcastInDim S400000x1 ![0] bcast_S400000_S400000x1_0 : (⟨S400000, .f32⟩ : BufTy).Contents (Elt F) → (⟨S400000x1, .f32⟩ : BufTy).Contents (Elt F)),
    unary main_v157 main_v158 (broadcastInDim S400000x64 ![0, 1] bcast_S400000x1_S400000x64_0_1 : (⟨S400000x1, .f32⟩ : BufTy).Contents (Elt F) → (⟨S400000x64, .f32⟩ : BufTy).Contents (Elt F)),
    binary main_v153 main_v158 main_v159 (mulf : (⟨S400000x64, .f32⟩ : BufTy).Contents (Elt F) → (⟨S400000x64, .f32⟩ : BufTy).Contents (Elt F) → (⟨S400000x64, .f32⟩ : BufTy).Contents (Elt F)),
    unary main_arg4 main_v160 ((extractStridedSlice S1x64x32 ![0, 0, 0] · slices_S9x64x32_S1x64x32_0_0_0) : (⟨S9x64x32, .f32⟩ : BufTy).Contents (Elt F) → (⟨S1x64x32, .f32⟩ : BufTy).Contents (Elt F)),
    reshape main_v160 main_v161 rfl shapeCasts_S1x64x32_S64x32,
    binary main_v159 main_v161 main_v162 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    binary main_v154 main_v162 main_v163 (addf : (⟨S400000x32, .f32⟩ : BufTy).Contents (Elt F) → (⟨S400000x32, .f32⟩ : BufTy).Contents (Elt F) → (⟨S400000x32, .f32⟩ : BufTy).Contents (Elt F)),
    unary main_v47 main_v164 ((extractStridedSlice S400000x1 ![0, 1] · slices_S400000x9_S400000x1_0_1) : (⟨S400000x9, .f32⟩ : BufTy).Contents (Elt F) → (⟨S400000x1, .f32⟩ : BufTy).Contents (Elt F)) ]

/-- The operations of part 3 of the body. -/
abbrev ops3 : List (HloOp τ sig (Elt F)) :=
  [ reshape main_v164 main_v165 rfl shapeCasts_S400000x1_S400000,
    unary main_v165 main_v166 (broadcastInDim S400000x1 ![0] bcast_S400000_S400000x1_0 : (⟨S400000, .f32⟩ : BufTy).Contents (Elt F) → (⟨S400000x1, .f32⟩ : BufTy).Contents (Elt F)),
    unary main_v166 main_v167 (broadcastInDim S400000x64 ![0, 1] bcast_S400000x1_S400000x64_0_1 : (⟨S400000x1, .f32⟩ : BufTy).Contents (Elt F) → (⟨S400000x64, .f32⟩ : BufTy).Contents (Elt F)),
    binary main_v153 main_v167 main_v168 (mulf : (⟨S400000x64, .f32⟩ : BufTy).Contents (Elt F) → (⟨S400000x64, .f32⟩ : BufTy).Contents (Elt F) → (⟨S400000x64, .f32⟩ : BufTy).Contents (Elt F)),
    unary main_arg4 main_v169 ((extractStridedSlice S1x64x32 ![1, 0, 0] · slices_S9x64x32_S1x64x32_1_0_0) : (⟨S9x64x32, .f32⟩ : BufTy).Contents (Elt F) → (⟨S1x64x32, .f32⟩ : BufTy).Contents (Elt F)),
    reshape main_v169 main_v170 rfl shapeCasts_S1x64x32_S64x32,
    binary main_v168 main_v170 main_v171 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    binary main_v163 main_v171 main_v172 (addf : (⟨S400000x32, .f32⟩ : BufTy).Contents (Elt F) → (⟨S400000x32, .f32⟩ : BufTy).Contents (Elt F) → (⟨S400000x32, .f32⟩ : BufTy).Contents (Elt F)),
    unary main_v47 main_v173 ((extractStridedSlice S400000x1 ![0, 2] · slices_S400000x9_S400000x1_0_2) : (⟨S400000x9, .f32⟩ : BufTy).Contents (Elt F) → (⟨S400000x1, .f32⟩ : BufTy).Contents (Elt F)),
    reshape main_v173 main_v174 rfl shapeCasts_S400000x1_S400000,
    unary main_v174 main_v175 (broadcastInDim S400000x1 ![0] bcast_S400000_S400000x1_0 : (⟨S400000, .f32⟩ : BufTy).Contents (Elt F) → (⟨S400000x1, .f32⟩ : BufTy).Contents (Elt F)),
    unary main_v175 main_v176 (broadcastInDim S400000x64 ![0, 1] bcast_S400000x1_S400000x64_0_1 : (⟨S400000x1, .f32⟩ : BufTy).Contents (Elt F) → (⟨S400000x64, .f32⟩ : BufTy).Contents (Elt F)),
    binary main_v153 main_v176 main_v177 (mulf : (⟨S400000x64, .f32⟩ : BufTy).Contents (Elt F) → (⟨S400000x64, .f32⟩ : BufTy).Contents (Elt F) → (⟨S400000x64, .f32⟩ : BufTy).Contents (Elt F)),
    unary main_arg4 main_v178 ((extractStridedSlice S1x64x32 ![2, 0, 0] · slices_S9x64x32_S1x64x32_2_0_0) : (⟨S9x64x32, .f32⟩ : BufTy).Contents (Elt F) → (⟨S1x64x32, .f32⟩ : BufTy).Contents (Elt F)),
    reshape main_v178 main_v179 rfl shapeCasts_S1x64x32_S64x32,
    binary main_v177 main_v179 main_v180 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    binary main_v172 main_v180 main_v181 (addf : (⟨S400000x32, .f32⟩ : BufTy).Contents (Elt F) → (⟨S400000x32, .f32⟩ : BufTy).Contents (Elt F) → (⟨S400000x32, .f32⟩ : BufTy).Contents (Elt F)),
    unary main_v47 main_v182 ((extractStridedSlice S400000x1 ![0, 3] · slices_S400000x9_S400000x1_0_3) : (⟨S400000x9, .f32⟩ : BufTy).Contents (Elt F) → (⟨S400000x1, .f32⟩ : BufTy).Contents (Elt F)),
    reshape main_v182 main_v183 rfl shapeCasts_S400000x1_S400000,
    unary main_v183 main_v184 (broadcastInDim S400000x1 ![0] bcast_S400000_S400000x1_0 : (⟨S400000, .f32⟩ : BufTy).Contents (Elt F) → (⟨S400000x1, .f32⟩ : BufTy).Contents (Elt F)),
    unary main_v184 main_v185 (broadcastInDim S400000x64 ![0, 1] bcast_S400000x1_S400000x64_0_1 : (⟨S400000x1, .f32⟩ : BufTy).Contents (Elt F) → (⟨S400000x64, .f32⟩ : BufTy).Contents (Elt F)),
    binary main_v153 main_v185 main_v186 (mulf : (⟨S400000x64, .f32⟩ : BufTy).Contents (Elt F) → (⟨S400000x64, .f32⟩ : BufTy).Contents (Elt F) → (⟨S400000x64, .f32⟩ : BufTy).Contents (Elt F)),
    unary main_arg4 main_v187 ((extractStridedSlice S1x64x32 ![3, 0, 0] · slices_S9x64x32_S1x64x32_3_0_0) : (⟨S9x64x32, .f32⟩ : BufTy).Contents (Elt F) → (⟨S1x64x32, .f32⟩ : BufTy).Contents (Elt F)),
    reshape main_v187 main_v188 rfl shapeCasts_S1x64x32_S64x32,
    binary main_v186 main_v188 main_v189 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    binary main_v181 main_v189 main_v190 (addf : (⟨S400000x32, .f32⟩ : BufTy).Contents (Elt F) → (⟨S400000x32, .f32⟩ : BufTy).Contents (Elt F) → (⟨S400000x32, .f32⟩ : BufTy).Contents (Elt F)),
    unary main_v47 main_v191 ((extractStridedSlice S400000x1 ![0, 4] · slices_S400000x9_S400000x1_0_4) : (⟨S400000x9, .f32⟩ : BufTy).Contents (Elt F) → (⟨S400000x1, .f32⟩ : BufTy).Contents (Elt F)),
    reshape main_v191 main_v192 rfl shapeCasts_S400000x1_S400000,
    unary main_v192 main_v193 (broadcastInDim S400000x1 ![0] bcast_S400000_S400000x1_0 : (⟨S400000, .f32⟩ : BufTy).Contents (Elt F) → (⟨S400000x1, .f32⟩ : BufTy).Contents (Elt F)),
    unary main_v193 main_v194 (broadcastInDim S400000x64 ![0, 1] bcast_S400000x1_S400000x64_0_1 : (⟨S400000x1, .f32⟩ : BufTy).Contents (Elt F) → (⟨S400000x64, .f32⟩ : BufTy).Contents (Elt F)),
    binary main_v153 main_v194 main_v195 (mulf : (⟨S400000x64, .f32⟩ : BufTy).Contents (Elt F) → (⟨S400000x64, .f32⟩ : BufTy).Contents (Elt F) → (⟨S400000x64, .f32⟩ : BufTy).Contents (Elt F)),
    unary main_arg4 main_v196 ((extractStridedSlice S1x64x32 ![4, 0, 0] · slices_S9x64x32_S1x64x32_4_0_0) : (⟨S9x64x32, .f32⟩ : BufTy).Contents (Elt F) → (⟨S1x64x32, .f32⟩ : BufTy).Contents (Elt F)),
    reshape main_v196 main_v197 rfl shapeCasts_S1x64x32_S64x32,
    binary main_v195 main_v197 main_v198 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    binary main_v190 main_v198 main_v199 (addf : (⟨S400000x32, .f32⟩ : BufTy).Contents (Elt F) → (⟨S400000x32, .f32⟩ : BufTy).Contents (Elt F) → (⟨S400000x32, .f32⟩ : BufTy).Contents (Elt F)),
    unary main_v47 main_v200 ((extractStridedSlice S400000x1 ![0, 5] · slices_S400000x9_S400000x1_0_5) : (⟨S400000x9, .f32⟩ : BufTy).Contents (Elt F) → (⟨S400000x1, .f32⟩ : BufTy).Contents (Elt F)),
    reshape main_v200 main_v201 rfl shapeCasts_S400000x1_S400000,
    unary main_v201 main_v202 (broadcastInDim S400000x1 ![0] bcast_S400000_S400000x1_0 : (⟨S400000, .f32⟩ : BufTy).Contents (Elt F) → (⟨S400000x1, .f32⟩ : BufTy).Contents (Elt F)),
    unary main_v202 main_v203 (broadcastInDim S400000x64 ![0, 1] bcast_S400000x1_S400000x64_0_1 : (⟨S400000x1, .f32⟩ : BufTy).Contents (Elt F) → (⟨S400000x64, .f32⟩ : BufTy).Contents (Elt F)),
    binary main_v153 main_v203 main_v204 (mulf : (⟨S400000x64, .f32⟩ : BufTy).Contents (Elt F) → (⟨S400000x64, .f32⟩ : BufTy).Contents (Elt F) → (⟨S400000x64, .f32⟩ : BufTy).Contents (Elt F)),
    unary main_arg4 main_v205 ((extractStridedSlice S1x64x32 ![5, 0, 0] · slices_S9x64x32_S1x64x32_5_0_0) : (⟨S9x64x32, .f32⟩ : BufTy).Contents (Elt F) → (⟨S1x64x32, .f32⟩ : BufTy).Contents (Elt F)),
    reshape main_v205 main_v206 rfl shapeCasts_S1x64x32_S64x32,
    binary main_v204 main_v206 main_v207 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    binary main_v199 main_v207 main_v208 (addf : (⟨S400000x32, .f32⟩ : BufTy).Contents (Elt F) → (⟨S400000x32, .f32⟩ : BufTy).Contents (Elt F) → (⟨S400000x32, .f32⟩ : BufTy).Contents (Elt F)),
    unary main_v47 main_v209 ((extractStridedSlice S400000x1 ![0, 6] · slices_S400000x9_S400000x1_0_6) : (⟨S400000x9, .f32⟩ : BufTy).Contents (Elt F) → (⟨S400000x1, .f32⟩ : BufTy).Contents (Elt F)),
    reshape main_v209 main_v210 rfl shapeCasts_S400000x1_S400000,
    unary main_v210 main_v211 (broadcastInDim S400000x1 ![0] bcast_S400000_S400000x1_0 : (⟨S400000, .f32⟩ : BufTy).Contents (Elt F) → (⟨S400000x1, .f32⟩ : BufTy).Contents (Elt F)),
    unary main_v211 main_v212 (broadcastInDim S400000x64 ![0, 1] bcast_S400000x1_S400000x64_0_1 : (⟨S400000x1, .f32⟩ : BufTy).Contents (Elt F) → (⟨S400000x64, .f32⟩ : BufTy).Contents (Elt F)),
    binary main_v153 main_v212 main_v213 (mulf : (⟨S400000x64, .f32⟩ : BufTy).Contents (Elt F) → (⟨S400000x64, .f32⟩ : BufTy).Contents (Elt F) → (⟨S400000x64, .f32⟩ : BufTy).Contents (Elt F)),
    unary main_arg4 main_v214 ((extractStridedSlice S1x64x32 ![6, 0, 0] · slices_S9x64x32_S1x64x32_6_0_0) : (⟨S9x64x32, .f32⟩ : BufTy).Contents (Elt F) → (⟨S1x64x32, .f32⟩ : BufTy).Contents (Elt F)),
    reshape main_v214 main_v215 rfl shapeCasts_S1x64x32_S64x32,
    binary main_v213 main_v215 main_v216 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    binary main_v208 main_v216 main_v217 (addf : (⟨S400000x32, .f32⟩ : BufTy).Contents (Elt F) → (⟨S400000x32, .f32⟩ : BufTy).Contents (Elt F) → (⟨S400000x32, .f32⟩ : BufTy).Contents (Elt F)),
    unary main_v47 main_v218 ((extractStridedSlice S400000x1 ![0, 7] · slices_S400000x9_S400000x1_0_7) : (⟨S400000x9, .f32⟩ : BufTy).Contents (Elt F) → (⟨S400000x1, .f32⟩ : BufTy).Contents (Elt F)),
    reshape main_v218 main_v219 rfl shapeCasts_S400000x1_S400000,
    unary main_v219 main_v220 (broadcastInDim S400000x1 ![0] bcast_S400000_S400000x1_0 : (⟨S400000, .f32⟩ : BufTy).Contents (Elt F) → (⟨S400000x1, .f32⟩ : BufTy).Contents (Elt F)),
    unary main_v220 main_v221 (broadcastInDim S400000x64 ![0, 1] bcast_S400000x1_S400000x64_0_1 : (⟨S400000x1, .f32⟩ : BufTy).Contents (Elt F) → (⟨S400000x64, .f32⟩ : BufTy).Contents (Elt F)),
    binary main_v153 main_v221 main_v222 (mulf : (⟨S400000x64, .f32⟩ : BufTy).Contents (Elt F) → (⟨S400000x64, .f32⟩ : BufTy).Contents (Elt F) → (⟨S400000x64, .f32⟩ : BufTy).Contents (Elt F)),
    unary main_arg4 main_v223 ((extractStridedSlice S1x64x32 ![7, 0, 0] · slices_S9x64x32_S1x64x32_7_0_0) : (⟨S9x64x32, .f32⟩ : BufTy).Contents (Elt F) → (⟨S1x64x32, .f32⟩ : BufTy).Contents (Elt F)),
    reshape main_v223 main_v224 rfl shapeCasts_S1x64x32_S64x32 ]

/-- The operations of part 4 of the body. -/
abbrev ops4 : List (HloOp τ sig (Elt F)) :=
  [ binary main_v222 main_v224 main_v225 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    binary main_v217 main_v225 main_v226 (addf : (⟨S400000x32, .f32⟩ : BufTy).Contents (Elt F) → (⟨S400000x32, .f32⟩ : BufTy).Contents (Elt F) → (⟨S400000x32, .f32⟩ : BufTy).Contents (Elt F)),
    unary main_v47 main_v227 ((extractStridedSlice S400000x1 ![0, 8] · slices_S400000x9_S400000x1_0_8) : (⟨S400000x9, .f32⟩ : BufTy).Contents (Elt F) → (⟨S400000x1, .f32⟩ : BufTy).Contents (Elt F)),
    reshape main_v227 main_v228 rfl shapeCasts_S400000x1_S400000,
    unary main_v228 main_v229 (broadcastInDim S400000x1 ![0] bcast_S400000_S400000x1_0 : (⟨S400000, .f32⟩ : BufTy).Contents (Elt F) → (⟨S400000x1, .f32⟩ : BufTy).Contents (Elt F)),
    unary main_v229 main_v230 (broadcastInDim S400000x64 ![0, 1] bcast_S400000x1_S400000x64_0_1 : (⟨S400000x1, .f32⟩ : BufTy).Contents (Elt F) → (⟨S400000x64, .f32⟩ : BufTy).Contents (Elt F)),
    binary main_v153 main_v230 main_v231 (mulf : (⟨S400000x64, .f32⟩ : BufTy).Contents (Elt F) → (⟨S400000x64, .f32⟩ : BufTy).Contents (Elt F) → (⟨S400000x64, .f32⟩ : BufTy).Contents (Elt F)),
    unary main_arg4 main_v232 ((extractStridedSlice S1x64x32 ![8, 0, 0] · slices_S9x64x32_S1x64x32_8_0_0) : (⟨S9x64x32, .f32⟩ : BufTy).Contents (Elt F) → (⟨S1x64x32, .f32⟩ : BufTy).Contents (Elt F)),
    reshape main_v232 main_v233 rfl shapeCasts_S1x64x32_S64x32,
    binary main_v231 main_v233 main_v234 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    binary main_v226 main_v234 main_v235 (addf : (⟨S400000x32, .f32⟩ : BufTy).Contents (Elt F) → (⟨S400000x32, .f32⟩ : BufTy).Contents (Elt F) → (⟨S400000x32, .f32⟩ : BufTy).Contents (Elt F)),
    nullary main_cst_13 (constant S_ .f32 0x00000000#32),
    unary main_cst_13 main_v236 (broadcastInDim S50000x32 ![] bcast_S_S50000x32 : (⟨S_, .f32⟩ : BufTy).Contents (Elt F) → (⟨S50000x32, .f32⟩ : BufTy).Contents (Elt F)),
    unary main_v3 main_v237 (broadcastInDim S400000x1 ![0] bcast_S400000_S400000x1_0 : (⟨S400000, .i32⟩ : BufTy).Contents (Elt F) → (⟨S400000x1, .i32⟩ : BufTy).Contents (Elt F)),
    ternary main_v236 main_v237 main_v235 main_v238 ((fun x i u => Host.scatterAdd scatter_S50000x32_S400000x1_S400000x32_1_0_0_1 x i u) : (⟨S50000x32, .f32⟩ : BufTy).Contents (Elt F) → (⟨S400000x1, .i32⟩ : BufTy).Contents (Elt F) → (⟨S400000x32, .f32⟩ : BufTy).Contents (Elt F) → (⟨S50000x32, .f32⟩ : BufTy).Contents (Elt F)),
    binary main_v146 main_arg5 main_v239 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    binary main_v238 main_v239 main_v240 (addf : (⟨S50000x32, .f32⟩ : BufTy).Contents (Elt F) → (⟨S50000x32, .f32⟩ : BufTy).Contents (Elt F) → (⟨S50000x32, .f32⟩ : BufTy).Contents (Elt F)),
    unary main_arg6 main_v241 (broadcastInDim S1x32 ![1] bcast_S32_S1x32_1 : (⟨S32, .f32⟩ : BufTy).Contents (Elt F) → (⟨S1x32, .f32⟩ : BufTy).Contents (Elt F)),
    unary main_v241 main_v242 (broadcastInDim S50000x32 ![0, 1] bcast_S1x32_S50000x32_0_1 : (⟨S1x32, .f32⟩ : BufTy).Contents (Elt F) → (⟨S50000x32, .f32⟩ : BufTy).Contents (Elt F)),
    binary main_v240 main_v242 main_v243 (addf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x32, .f32⟩) main_call1_v0) (broadcastInDim S50000x32 ![] bcast_S_S50000x32),
    TRef.binary (TRef.of (T := ⟨S50000x32, .f32⟩) main_v243) (TRef.of (T := ⟨S50000x32, .f32⟩) main_call1_v0) (TRef.of (T := ⟨S50000x32, .f32⟩) main_v244) maximumf,
    nullary main_c_14 (constantI S_ 32 0#32),
    unary main_c_14 main_v245 (broadcastInDim S400000 ![] bcast_S_S400000 : (⟨S_, .i32⟩ : BufTy).Contents (Elt F) → (⟨S400000, .i32⟩ : BufTy).Contents (Elt F)),
    binary main_v1 main_v245 main_v246 (cmpi .slt : (⟨S400000, .i32⟩ : BufTy).Contents (Elt F) → (⟨S400000, .i32⟩ : BufTy).Contents (Elt F) → (⟨S400000, .i1⟩ : BufTy).Contents (Elt F)),
    nullary main_c_15 (constantI S_ 32 50000#32),
    unary main_c_15 main_v247 (broadcastInDim S400000 ![] bcast_S_S400000 : (⟨S_, .i32⟩ : BufTy).Contents (Elt F) → (⟨S400000, .i32⟩ : BufTy).Contents (Elt F)),
    binary main_v1 main_v247 main_v248 (addi : (⟨S400000, .i32⟩ : BufTy).Contents (Elt F) → (⟨S400000, .i32⟩ : BufTy).Contents (Elt F) → (⟨S400000, .i32⟩ : BufTy).Contents (Elt F)),
    ternary main_v246 main_v248 main_v1 main_v249 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v249 main_v250 (broadcastInDim S400000x1 ![0] bcast_S400000_S400000x1_0 : (⟨S400000, .i32⟩ : BufTy).Contents (Elt F) → (⟨S400000x1, .i32⟩ : BufTy).Contents (Elt F)),
    binary main_v244 main_v250 main_v251 ((fun x i => Host.gather gather_S50000x32_S400000x1_S400000x32_1_0_n_n_0_1_132 x i) : (⟨S50000x32, .f32⟩ : BufTy).Contents (Elt F) → (⟨S400000x1, .i32⟩ : BufTy).Contents (Elt F) → (⟨S400000x32, .f32⟩ : BufTy).Contents (Elt F)),
    nullary main_cst_16 (constant S_ .f32 0x00000000#32),
    unary main_cst_16 main_v252 (broadcastInDim S400000x32 ![] bcast_S_S400000x32 : (⟨S_, .f32⟩ : BufTy).Contents (Elt F) → (⟨S400000x32, .f32⟩ : BufTy).Contents (Elt F)),
    unary main_v47 main_v253 ((extractStridedSlice S400000x1 ![0, 0] · slices_S400000x9_S400000x1_0_0) : (⟨S400000x9, .f32⟩ : BufTy).Contents (Elt F) → (⟨S400000x1, .f32⟩ : BufTy).Contents (Elt F)),
    reshape main_v253 main_v254 rfl shapeCasts_S400000x1_S400000,
    unary main_v254 main_v255 (broadcastInDim S400000x1 ![0] bcast_S400000_S400000x1_0 : (⟨S400000, .f32⟩ : BufTy).Contents (Elt F) → (⟨S400000x1, .f32⟩ : BufTy).Contents (Elt F)),
    unary main_v255 main_v256 (broadcastInDim S400000x32 ![0, 1] bcast_S400000x1_S400000x32_0_1 : (⟨S400000x1, .f32⟩ : BufTy).Contents (Elt F) → (⟨S400000x32, .f32⟩ : BufTy).Contents (Elt F)),
    binary main_v251 main_v256 main_v257 (mulf : (⟨S400000x32, .f32⟩ : BufTy).Contents (Elt F) → (⟨S400000x32, .f32⟩ : BufTy).Contents (Elt F) → (⟨S400000x32, .f32⟩ : BufTy).Contents (Elt F)),
    unary main_arg7 main_v258 ((extractStridedSlice S1x32x32 ![0, 0, 0] · slices_S9x32x32_S1x32x32_0_0_0) : (⟨S9x32x32, .f32⟩ : BufTy).Contents (Elt F) → (⟨S1x32x32, .f32⟩ : BufTy).Contents (Elt F)),
    reshape main_v258 main_v259 rfl shapeCasts_S1x32x32_S32x32,
    binary main_v257 main_v259 main_v260 ((fun l r => Host.dotGeneral dot_S400000x32_S32x32_S400000x32_1_0_0_1_n_n none l r) : (⟨S400000x32, .f32⟩ : BufTy).Contents (Elt F) → (⟨S32x32, .f32⟩ : BufTy).Contents (Elt F) → (⟨S400000x32, .f32⟩ : BufTy).Contents (Elt F)),
    binary main_v252 main_v260 main_v261 (addf : (⟨S400000x32, .f32⟩ : BufTy).Contents (Elt F) → (⟨S400000x32, .f32⟩ : BufTy).Contents (Elt F) → (⟨S400000x32, .f32⟩ : BufTy).Contents (Elt F)),
    unary main_v47 main_v262 ((extractStridedSlice S400000x1 ![0, 1] · slices_S400000x9_S400000x1_0_1) : (⟨S400000x9, .f32⟩ : BufTy).Contents (Elt F) → (⟨S400000x1, .f32⟩ : BufTy).Contents (Elt F)),
    reshape main_v262 main_v263 rfl shapeCasts_S400000x1_S400000,
    unary main_v263 main_v264 (broadcastInDim S400000x1 ![0] bcast_S400000_S400000x1_0 : (⟨S400000, .f32⟩ : BufTy).Contents (Elt F) → (⟨S400000x1, .f32⟩ : BufTy).Contents (Elt F)),
    unary main_v264 main_v265 (broadcastInDim S400000x32 ![0, 1] bcast_S400000x1_S400000x32_0_1 : (⟨S400000x1, .f32⟩ : BufTy).Contents (Elt F) → (⟨S400000x32, .f32⟩ : BufTy).Contents (Elt F)),
    binary main_v251 main_v265 main_v266 (mulf : (⟨S400000x32, .f32⟩ : BufTy).Contents (Elt F) → (⟨S400000x32, .f32⟩ : BufTy).Contents (Elt F) → (⟨S400000x32, .f32⟩ : BufTy).Contents (Elt F)),
    unary main_arg7 main_v267 ((extractStridedSlice S1x32x32 ![1, 0, 0] · slices_S9x32x32_S1x32x32_1_0_0) : (⟨S9x32x32, .f32⟩ : BufTy).Contents (Elt F) → (⟨S1x32x32, .f32⟩ : BufTy).Contents (Elt F)),
    reshape main_v267 main_v268 rfl shapeCasts_S1x32x32_S32x32,
    binary main_v266 main_v268 main_v269 ((fun l r => Host.dotGeneral dot_S400000x32_S32x32_S400000x32_1_0_0_1_n_n none l r) : (⟨S400000x32, .f32⟩ : BufTy).Contents (Elt F) → (⟨S32x32, .f32⟩ : BufTy).Contents (Elt F) → (⟨S400000x32, .f32⟩ : BufTy).Contents (Elt F)),
    binary main_v261 main_v269 main_v270 (addf : (⟨S400000x32, .f32⟩ : BufTy).Contents (Elt F) → (⟨S400000x32, .f32⟩ : BufTy).Contents (Elt F) → (⟨S400000x32, .f32⟩ : BufTy).Contents (Elt F)),
    unary main_v47 main_v271 ((extractStridedSlice S400000x1 ![0, 2] · slices_S400000x9_S400000x1_0_2) : (⟨S400000x9, .f32⟩ : BufTy).Contents (Elt F) → (⟨S400000x1, .f32⟩ : BufTy).Contents (Elt F)),
    reshape main_v271 main_v272 rfl shapeCasts_S400000x1_S400000,
    unary main_v272 main_v273 (broadcastInDim S400000x1 ![0] bcast_S400000_S400000x1_0 : (⟨S400000, .f32⟩ : BufTy).Contents (Elt F) → (⟨S400000x1, .f32⟩ : BufTy).Contents (Elt F)),
    unary main_v273 main_v274 (broadcastInDim S400000x32 ![0, 1] bcast_S400000x1_S400000x32_0_1 : (⟨S400000x1, .f32⟩ : BufTy).Contents (Elt F) → (⟨S400000x32, .f32⟩ : BufTy).Contents (Elt F)),
    binary main_v251 main_v274 main_v275 (mulf : (⟨S400000x32, .f32⟩ : BufTy).Contents (Elt F) → (⟨S400000x32, .f32⟩ : BufTy).Contents (Elt F) → (⟨S400000x32, .f32⟩ : BufTy).Contents (Elt F)),
    unary main_arg7 main_v276 ((extractStridedSlice S1x32x32 ![2, 0, 0] · slices_S9x32x32_S1x32x32_2_0_0) : (⟨S9x32x32, .f32⟩ : BufTy).Contents (Elt F) → (⟨S1x32x32, .f32⟩ : BufTy).Contents (Elt F)),
    reshape main_v276 main_v277 rfl shapeCasts_S1x32x32_S32x32,
    binary main_v275 main_v277 main_v278 ((fun l r => Host.dotGeneral dot_S400000x32_S32x32_S400000x32_1_0_0_1_n_n none l r) : (⟨S400000x32, .f32⟩ : BufTy).Contents (Elt F) → (⟨S32x32, .f32⟩ : BufTy).Contents (Elt F) → (⟨S400000x32, .f32⟩ : BufTy).Contents (Elt F)),
    binary main_v270 main_v278 main_v279 (addf : (⟨S400000x32, .f32⟩ : BufTy).Contents (Elt F) → (⟨S400000x32, .f32⟩ : BufTy).Contents (Elt F) → (⟨S400000x32, .f32⟩ : BufTy).Contents (Elt F)),
    unary main_v47 main_v280 ((extractStridedSlice S400000x1 ![0, 3] · slices_S400000x9_S400000x1_0_3) : (⟨S400000x9, .f32⟩ : BufTy).Contents (Elt F) → (⟨S400000x1, .f32⟩ : BufTy).Contents (Elt F)) ]

/-- The operations of part 5 of the body. -/
abbrev ops5 : List (HloOp τ sig (Elt F)) :=
  [ reshape main_v280 main_v281 rfl shapeCasts_S400000x1_S400000,
    unary main_v281 main_v282 (broadcastInDim S400000x1 ![0] bcast_S400000_S400000x1_0 : (⟨S400000, .f32⟩ : BufTy).Contents (Elt F) → (⟨S400000x1, .f32⟩ : BufTy).Contents (Elt F)),
    unary main_v282 main_v283 (broadcastInDim S400000x32 ![0, 1] bcast_S400000x1_S400000x32_0_1 : (⟨S400000x1, .f32⟩ : BufTy).Contents (Elt F) → (⟨S400000x32, .f32⟩ : BufTy).Contents (Elt F)),
    binary main_v251 main_v283 main_v284 (mulf : (⟨S400000x32, .f32⟩ : BufTy).Contents (Elt F) → (⟨S400000x32, .f32⟩ : BufTy).Contents (Elt F) → (⟨S400000x32, .f32⟩ : BufTy).Contents (Elt F)),
    unary main_arg7 main_v285 ((extractStridedSlice S1x32x32 ![3, 0, 0] · slices_S9x32x32_S1x32x32_3_0_0) : (⟨S9x32x32, .f32⟩ : BufTy).Contents (Elt F) → (⟨S1x32x32, .f32⟩ : BufTy).Contents (Elt F)),
    reshape main_v285 main_v286 rfl shapeCasts_S1x32x32_S32x32,
    binary main_v284 main_v286 main_v287 ((fun l r => Host.dotGeneral dot_S400000x32_S32x32_S400000x32_1_0_0_1_n_n none l r) : (⟨S400000x32, .f32⟩ : BufTy).Contents (Elt F) → (⟨S32x32, .f32⟩ : BufTy).Contents (Elt F) → (⟨S400000x32, .f32⟩ : BufTy).Contents (Elt F)),
    binary main_v279 main_v287 main_v288 (addf : (⟨S400000x32, .f32⟩ : BufTy).Contents (Elt F) → (⟨S400000x32, .f32⟩ : BufTy).Contents (Elt F) → (⟨S400000x32, .f32⟩ : BufTy).Contents (Elt F)),
    unary main_v47 main_v289 ((extractStridedSlice S400000x1 ![0, 4] · slices_S400000x9_S400000x1_0_4) : (⟨S400000x9, .f32⟩ : BufTy).Contents (Elt F) → (⟨S400000x1, .f32⟩ : BufTy).Contents (Elt F)),
    reshape main_v289 main_v290 rfl shapeCasts_S400000x1_S400000,
    unary main_v290 main_v291 (broadcastInDim S400000x1 ![0] bcast_S400000_S400000x1_0 : (⟨S400000, .f32⟩ : BufTy).Contents (Elt F) → (⟨S400000x1, .f32⟩ : BufTy).Contents (Elt F)),
    unary main_v291 main_v292 (broadcastInDim S400000x32 ![0, 1] bcast_S400000x1_S400000x32_0_1 : (⟨S400000x1, .f32⟩ : BufTy).Contents (Elt F) → (⟨S400000x32, .f32⟩ : BufTy).Contents (Elt F)),
    binary main_v251 main_v292 main_v293 (mulf : (⟨S400000x32, .f32⟩ : BufTy).Contents (Elt F) → (⟨S400000x32, .f32⟩ : BufTy).Contents (Elt F) → (⟨S400000x32, .f32⟩ : BufTy).Contents (Elt F)),
    unary main_arg7 main_v294 ((extractStridedSlice S1x32x32 ![4, 0, 0] · slices_S9x32x32_S1x32x32_4_0_0) : (⟨S9x32x32, .f32⟩ : BufTy).Contents (Elt F) → (⟨S1x32x32, .f32⟩ : BufTy).Contents (Elt F)),
    reshape main_v294 main_v295 rfl shapeCasts_S1x32x32_S32x32,
    binary main_v293 main_v295 main_v296 ((fun l r => Host.dotGeneral dot_S400000x32_S32x32_S400000x32_1_0_0_1_n_n none l r) : (⟨S400000x32, .f32⟩ : BufTy).Contents (Elt F) → (⟨S32x32, .f32⟩ : BufTy).Contents (Elt F) → (⟨S400000x32, .f32⟩ : BufTy).Contents (Elt F)),
    binary main_v288 main_v296 main_v297 (addf : (⟨S400000x32, .f32⟩ : BufTy).Contents (Elt F) → (⟨S400000x32, .f32⟩ : BufTy).Contents (Elt F) → (⟨S400000x32, .f32⟩ : BufTy).Contents (Elt F)),
    unary main_v47 main_v298 ((extractStridedSlice S400000x1 ![0, 5] · slices_S400000x9_S400000x1_0_5) : (⟨S400000x9, .f32⟩ : BufTy).Contents (Elt F) → (⟨S400000x1, .f32⟩ : BufTy).Contents (Elt F)),
    reshape main_v298 main_v299 rfl shapeCasts_S400000x1_S400000,
    unary main_v299 main_v300 (broadcastInDim S400000x1 ![0] bcast_S400000_S400000x1_0 : (⟨S400000, .f32⟩ : BufTy).Contents (Elt F) → (⟨S400000x1, .f32⟩ : BufTy).Contents (Elt F)),
    unary main_v300 main_v301 (broadcastInDim S400000x32 ![0, 1] bcast_S400000x1_S400000x32_0_1 : (⟨S400000x1, .f32⟩ : BufTy).Contents (Elt F) → (⟨S400000x32, .f32⟩ : BufTy).Contents (Elt F)),
    binary main_v251 main_v301 main_v302 (mulf : (⟨S400000x32, .f32⟩ : BufTy).Contents (Elt F) → (⟨S400000x32, .f32⟩ : BufTy).Contents (Elt F) → (⟨S400000x32, .f32⟩ : BufTy).Contents (Elt F)),
    unary main_arg7 main_v303 ((extractStridedSlice S1x32x32 ![5, 0, 0] · slices_S9x32x32_S1x32x32_5_0_0) : (⟨S9x32x32, .f32⟩ : BufTy).Contents (Elt F) → (⟨S1x32x32, .f32⟩ : BufTy).Contents (Elt F)),
    reshape main_v303 main_v304 rfl shapeCasts_S1x32x32_S32x32,
    binary main_v302 main_v304 main_v305 ((fun l r => Host.dotGeneral dot_S400000x32_S32x32_S400000x32_1_0_0_1_n_n none l r) : (⟨S400000x32, .f32⟩ : BufTy).Contents (Elt F) → (⟨S32x32, .f32⟩ : BufTy).Contents (Elt F) → (⟨S400000x32, .f32⟩ : BufTy).Contents (Elt F)),
    binary main_v297 main_v305 main_v306 (addf : (⟨S400000x32, .f32⟩ : BufTy).Contents (Elt F) → (⟨S400000x32, .f32⟩ : BufTy).Contents (Elt F) → (⟨S400000x32, .f32⟩ : BufTy).Contents (Elt F)),
    unary main_v47 main_v307 ((extractStridedSlice S400000x1 ![0, 6] · slices_S400000x9_S400000x1_0_6) : (⟨S400000x9, .f32⟩ : BufTy).Contents (Elt F) → (⟨S400000x1, .f32⟩ : BufTy).Contents (Elt F)),
    reshape main_v307 main_v308 rfl shapeCasts_S400000x1_S400000,
    unary main_v308 main_v309 (broadcastInDim S400000x1 ![0] bcast_S400000_S400000x1_0 : (⟨S400000, .f32⟩ : BufTy).Contents (Elt F) → (⟨S400000x1, .f32⟩ : BufTy).Contents (Elt F)),
    unary main_v309 main_v310 (broadcastInDim S400000x32 ![0, 1] bcast_S400000x1_S400000x32_0_1 : (⟨S400000x1, .f32⟩ : BufTy).Contents (Elt F) → (⟨S400000x32, .f32⟩ : BufTy).Contents (Elt F)),
    binary main_v251 main_v310 main_v311 (mulf : (⟨S400000x32, .f32⟩ : BufTy).Contents (Elt F) → (⟨S400000x32, .f32⟩ : BufTy).Contents (Elt F) → (⟨S400000x32, .f32⟩ : BufTy).Contents (Elt F)),
    unary main_arg7 main_v312 ((extractStridedSlice S1x32x32 ![6, 0, 0] · slices_S9x32x32_S1x32x32_6_0_0) : (⟨S9x32x32, .f32⟩ : BufTy).Contents (Elt F) → (⟨S1x32x32, .f32⟩ : BufTy).Contents (Elt F)),
    reshape main_v312 main_v313 rfl shapeCasts_S1x32x32_S32x32,
    binary main_v311 main_v313 main_v314 ((fun l r => Host.dotGeneral dot_S400000x32_S32x32_S400000x32_1_0_0_1_n_n none l r) : (⟨S400000x32, .f32⟩ : BufTy).Contents (Elt F) → (⟨S32x32, .f32⟩ : BufTy).Contents (Elt F) → (⟨S400000x32, .f32⟩ : BufTy).Contents (Elt F)),
    binary main_v306 main_v314 main_v315 (addf : (⟨S400000x32, .f32⟩ : BufTy).Contents (Elt F) → (⟨S400000x32, .f32⟩ : BufTy).Contents (Elt F) → (⟨S400000x32, .f32⟩ : BufTy).Contents (Elt F)),
    unary main_v47 main_v316 ((extractStridedSlice S400000x1 ![0, 7] · slices_S400000x9_S400000x1_0_7) : (⟨S400000x9, .f32⟩ : BufTy).Contents (Elt F) → (⟨S400000x1, .f32⟩ : BufTy).Contents (Elt F)),
    reshape main_v316 main_v317 rfl shapeCasts_S400000x1_S400000,
    unary main_v317 main_v318 (broadcastInDim S400000x1 ![0] bcast_S400000_S400000x1_0 : (⟨S400000, .f32⟩ : BufTy).Contents (Elt F) → (⟨S400000x1, .f32⟩ : BufTy).Contents (Elt F)),
    unary main_v318 main_v319 (broadcastInDim S400000x32 ![0, 1] bcast_S400000x1_S400000x32_0_1 : (⟨S400000x1, .f32⟩ : BufTy).Contents (Elt F) → (⟨S400000x32, .f32⟩ : BufTy).Contents (Elt F)),
    binary main_v251 main_v319 main_v320 (mulf : (⟨S400000x32, .f32⟩ : BufTy).Contents (Elt F) → (⟨S400000x32, .f32⟩ : BufTy).Contents (Elt F) → (⟨S400000x32, .f32⟩ : BufTy).Contents (Elt F)),
    unary main_arg7 main_v321 ((extractStridedSlice S1x32x32 ![7, 0, 0] · slices_S9x32x32_S1x32x32_7_0_0) : (⟨S9x32x32, .f32⟩ : BufTy).Contents (Elt F) → (⟨S1x32x32, .f32⟩ : BufTy).Contents (Elt F)),
    reshape main_v321 main_v322 rfl shapeCasts_S1x32x32_S32x32,
    binary main_v320 main_v322 main_v323 ((fun l r => Host.dotGeneral dot_S400000x32_S32x32_S400000x32_1_0_0_1_n_n none l r) : (⟨S400000x32, .f32⟩ : BufTy).Contents (Elt F) → (⟨S32x32, .f32⟩ : BufTy).Contents (Elt F) → (⟨S400000x32, .f32⟩ : BufTy).Contents (Elt F)),
    binary main_v315 main_v323 main_v324 (addf : (⟨S400000x32, .f32⟩ : BufTy).Contents (Elt F) → (⟨S400000x32, .f32⟩ : BufTy).Contents (Elt F) → (⟨S400000x32, .f32⟩ : BufTy).Contents (Elt F)),
    unary main_v47 main_v325 ((extractStridedSlice S400000x1 ![0, 8] · slices_S400000x9_S400000x1_0_8) : (⟨S400000x9, .f32⟩ : BufTy).Contents (Elt F) → (⟨S400000x1, .f32⟩ : BufTy).Contents (Elt F)),
    reshape main_v325 main_v326 rfl shapeCasts_S400000x1_S400000,
    unary main_v326 main_v327 (broadcastInDim S400000x1 ![0] bcast_S400000_S400000x1_0 : (⟨S400000, .f32⟩ : BufTy).Contents (Elt F) → (⟨S400000x1, .f32⟩ : BufTy).Contents (Elt F)),
    unary main_v327 main_v328 (broadcastInDim S400000x32 ![0, 1] bcast_S400000x1_S400000x32_0_1 : (⟨S400000x1, .f32⟩ : BufTy).Contents (Elt F) → (⟨S400000x32, .f32⟩ : BufTy).Contents (Elt F)),
    binary main_v251 main_v328 main_v329 (mulf : (⟨S400000x32, .f32⟩ : BufTy).Contents (Elt F) → (⟨S400000x32, .f32⟩ : BufTy).Contents (Elt F) → (⟨S400000x32, .f32⟩ : BufTy).Contents (Elt F)),
    unary main_arg7 main_v330 ((extractStridedSlice S1x32x32 ![8, 0, 0] · slices_S9x32x32_S1x32x32_8_0_0) : (⟨S9x32x32, .f32⟩ : BufTy).Contents (Elt F) → (⟨S1x32x32, .f32⟩ : BufTy).Contents (Elt F)),
    reshape main_v330 main_v331 rfl shapeCasts_S1x32x32_S32x32,
    binary main_v329 main_v331 main_v332 ((fun l r => Host.dotGeneral dot_S400000x32_S32x32_S400000x32_1_0_0_1_n_n none l r) : (⟨S400000x32, .f32⟩ : BufTy).Contents (Elt F) → (⟨S32x32, .f32⟩ : BufTy).Contents (Elt F) → (⟨S400000x32, .f32⟩ : BufTy).Contents (Elt F)),
    binary main_v324 main_v332 main_v333 (addf : (⟨S400000x32, .f32⟩ : BufTy).Contents (Elt F) → (⟨S400000x32, .f32⟩ : BufTy).Contents (Elt F) → (⟨S400000x32, .f32⟩ : BufTy).Contents (Elt F)),
    nullary main_cst_17 (constant S_ .f32 0x00000000#32),
    unary main_cst_17 main_v334 (broadcastInDim S50000x32 ![] bcast_S_S50000x32 : (⟨S_, .f32⟩ : BufTy).Contents (Elt F) → (⟨S50000x32, .f32⟩ : BufTy).Contents (Elt F)),
    unary main_v3 main_v335 (broadcastInDim S400000x1 ![0] bcast_S400000_S400000x1_0 : (⟨S400000, .i32⟩ : BufTy).Contents (Elt F) → (⟨S400000x1, .i32⟩ : BufTy).Contents (Elt F)),
    ternary main_v334 main_v335 main_v333 main_v336 ((fun x i u => Host.scatterAdd scatter_S50000x32_S400000x1_S400000x32_1_0_0_1 x i u) : (⟨S50000x32, .f32⟩ : BufTy).Contents (Elt F) → (⟨S400000x1, .i32⟩ : BufTy).Contents (Elt F) → (⟨S400000x32, .f32⟩ : BufTy).Contents (Elt F) → (⟨S50000x32, .f32⟩ : BufTy).Contents (Elt F)),
    binary main_v244 main_arg8 main_v337 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    binary main_v336 main_v337 main_v338 (addf : (⟨S50000x32, .f32⟩ : BufTy).Contents (Elt F) → (⟨S50000x32, .f32⟩ : BufTy).Contents (Elt F) → (⟨S50000x32, .f32⟩ : BufTy).Contents (Elt F)),
    unary main_arg9 main_v339 (broadcastInDim S1x32 ![1] bcast_S32_S1x32_1 : (⟨S32, .f32⟩ : BufTy).Contents (Elt F) → (⟨S1x32, .f32⟩ : BufTy).Contents (Elt F)) ]

/-- The operations of part 6 of the body. -/
abbrev ops6 : List (HloOp τ sig (Elt F)) :=
  [ unary main_v339 main_v340 (broadcastInDim S50000x32 ![0, 1] bcast_S1x32_S50000x32_0_1 : (⟨S1x32, .f32⟩ : BufTy).Contents (Elt F) → (⟨S50000x32, .f32⟩ : BufTy).Contents (Elt F)),
    binary main_v338 main_v340 main_v341 (addf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x32, .f32⟩) main_call2_v0) (broadcastInDim S50000x32 ![] bcast_S_S50000x32),
    TRef.binary (TRef.of (T := ⟨S50000x32, .f32⟩) main_v341) (TRef.of (T := ⟨S50000x32, .f32⟩) main_call2_v0) (TRef.of (T := ⟨S50000x32, .f32⟩) main_v342) maximumf ]

theorem part0_eq (d : Dev nD) : main_part0 (F := F) d = seq ops0 := rfl
theorem part1_eq (d : Dev nD) : main_part1 (F := F) d = seq ops1 := rfl
theorem part2_eq (d : Dev nD) : main_part2 (F := F) d = seq ops2 := rfl
theorem part3_eq (d : Dev nD) : main_part3 (F := F) d = seq ops3 := rfl
theorem part4_eq (d : Dev nD) : main_part4 (F := F) d = seq ops4 := rfl
theorem part5_eq (d : Dev nD) : main_part5 (F := F) d = seq ops5 := rfl
theorem part6_eq (d : Dev nD) : main_part6 (F := F) d = seq ops6 := rfl

/-- The whole line. -/
abbrev ops : List (HloOp τ sig (Elt F)) := ops0 ++ (ops1 ++ (ops2 ++ (ops3 ++ (ops4 ++ (ops5 ++ (ops6))))))

/-- The body is the line run in order. -/
theorem main_eq (d : Dev nD) : main (F := F) d = seq ops := by
  unfold main
  simp only [part0_eq, part1_eq, part2_eq, part3_eq, part4_eq, part5_eq, part6_eq, seq_append]

theorem scopedRefs_eq : (Finset.univ.filter fun b : Ref sig .tc => b.isScoped) = ∅ := by decide
theorem scopedSems_eq : (Finset.univ.filter fun sm : SemLoc sig => sm.isScoped .tc) = ∅ := by decide

theorem sub0 : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., binary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., nary_bufs_sub .., unary_bufs_sub .., reshape_bufs_sub .., nullary_bufs_sub .., unary_bufs_sub .., binary_bufs_sub .., binary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., nary_bufs_sub .., unary_bufs_sub .., unary_bufs_sub .., unary_bufs_sub .., unary_bufs_sub .., binary_bufs_sub .., reshape_bufs_sub .., nullary_bufs_sub .., unary_bufs_sub .., binary_bufs_sub .., nullary_bufs_sub ..⟩
theorem sub1 : (ops1 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub ..⟩
theorem sub2 : (ops2 : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., reshape_bufs_sub .., unary_bufs_sub .., unary_bufs_sub .., binary_bufs_sub .., unary_bufs_sub .., reshape_bufs_sub .., binary_bufs_sub .., binary_bufs_sub .., unary_bufs_sub ..⟩
theorem sub3 : (ops3 : List (HloOp τ sig (Elt F))).Forall fun op => op.bufs ⊆ tcRefs τ sig :=
  ⟨reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub ..⟩
theorem sub4 : (ops4 : List (HloOp τ sig (Elt F))).Forall fun op => op.bufs ⊆ tcRefs τ sig :=
  ⟨binary_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub ..⟩
theorem sub5 : (ops5 : List (HloOp τ sig (Elt F))).Forall fun op => op.bufs ⊆ tcRefs τ sig :=
  ⟨reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., unary_bufs_sub .., unary_bufs_sub .., ternary_bufs_sub .., binary_bufs_sub .., binary_bufs_sub .., unary_bufs_sub ..⟩
theorem sub6 : (ops6 : List (HloOp τ sig (Elt F))).Forall fun op => op.bufs ⊆ tcRefs τ sig :=
  ⟨unary_bufs_sub .., binary_bufs_sub .., nullary_bufs_sub .., unary_bufs_sub .., binary_bufs_sub ..⟩

/-- Every operation touches TensorCore buffers only. -/
theorem ops_sub : (ops : List (HloOp τ sig (Elt F))).Forall fun op => op.bufs ⊆ tcRefs τ sig :=
  List.forall_append.mpr ⟨sub0, List.forall_append.mpr ⟨sub1, List.forall_append.mpr ⟨sub2, List.forall_append.mpr ⟨sub3, List.forall_append.mpr ⟨sub4, List.forall_append.mpr ⟨sub5, sub6⟩⟩⟩⟩⟩⟩

theorem fresh0 : ∀ op ∈ (ops0 : List (HloOp τ sig (Elt F))), op.fresh = ∅ := by
  intro _ h; (repeat (cases h with | head => rfl | tail _ h => ?_)); exact nomatch h
theorem fresh1 : ∀ op ∈ (ops1 : List (HloOp τ sig (Elt F))), op.fresh = ∅ := by
  intro _ h; (repeat (cases h with | head => rfl | tail _ h => ?_)); exact nomatch h
theorem fresh2 : ∀ op ∈ (ops2 : List (HloOp τ sig (Elt F))), op.fresh = ∅ := by
  intro _ h; (repeat (cases h with | head => rfl | tail _ h => ?_)); exact nomatch h
theorem fresh3 : ∀ op ∈ (ops3 : List (HloOp τ sig (Elt F))), op.fresh = ∅ := by
  intro _ h; (repeat (cases h with | head => rfl | tail _ h => ?_)); exact nomatch h
theorem fresh4 : ∀ op ∈ (ops4 : List (HloOp τ sig (Elt F))), op.fresh = ∅ := by
  intro _ h; (repeat (cases h with | head => rfl | tail _ h => ?_)); exact nomatch h
theorem fresh5 : ∀ op ∈ (ops5 : List (HloOp τ sig (Elt F))), op.fresh = ∅ := by
  intro _ h; (repeat (cases h with | head => rfl | tail _ h => ?_)); exact nomatch h
theorem fresh6 : ∀ op ∈ (ops6 : List (HloOp τ sig (Elt F))), op.fresh = ∅ := by
  intro _ h; (repeat (cases h with | head => rfl | tail _ h => ?_)); exact nomatch h

/-- Every operation determines its result. -/
theorem ops_fresh : ∀ op ∈ (ops : List (HloOp τ sig (Elt F))), op.fresh = ∅ := by
  intro op h
  simp only [List.mem_append] at h
  rcases h with h | h | h | h | h | h | h
  · exact fresh0 op h
  · exact fresh1 op h
  · exact fresh2 op h
  · exact fresh3 op h
  · exact fresh4 op h
  · exact fresh5 op h
  · exact fresh6 op h

end Cert.ReferenceIdeal.RefRun

end
-- ==== Proof.LibHostRead.lean ====
/-
  Reading a line of host operations one operation at a time.

  A line is a list of operations, each writing one buffer. After the whole line, the buffer the k-th operation writes
  holds that operation's function of what the first k operations left, provided no later operation writes it again; and
  a buffer that no operation from the k-th on writes holds after the whole line what it held after the first k. So the
  contents of every buffer after the line can be read off stage by stage, in program order, each stage from the stages
  of its operands.

  An operation of a module-local function names its buffers through typed references, and moves contents between a
  buffer's own type and the value's type along the equation of the two. Those transports are identities; stated with
  heterogeneous equality they vanish once the typed reference is opened and its equation substituted.
-/
import Idealize.ShloMosaic.Lib.StableHlo.Run

namespace HostRead

open Idealize.ShloMosaic Idealize.ShloMosaic.StableHlo Idealize.ShloMosaic.TcCoe

variable {sig : RefSig} {τ : Topo} {Val : EltTy → Type}

/-- Each operation of `l` writes exactly the buffer listed at its place in `ys`. -/
abbrev Outs (l : List (HloOp τ sig Val)) (ys : List (Ref sig .tc)) : Prop :=
  List.Forall₂ (fun op y => op.writes = {Proc.devRef (τ := τ) .tc y}) l ys

/-- A line run after another is the two run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference not among a line's results is written by none of its operations. -/
theorem not_written {l : List (HloOp τ sig Val)} {ys : List (Ref sig .tc)} (h : Outs l ys) (r : Ref sig .tc) (hr : r ∉ ys) :
    ∀ op ∈ l, Proc.devRef (τ := τ) .tc r ∉ op.writes := by
  induction h with
  | nil => intro op hop; cases hop
  | @cons op₀ y l' ys' hw _ ih =>
    intro op hop
    rcases List.mem_cons.mp hop with rfl | hop
    · rw [hw, Finset.mem_singleton]
      exact devRef_ne_of_ne (fun e => hr (e ▸ List.mem_cons_self))
    · exact ih (fun h' => hr (List.mem_cons_of_mem _ h')) op hop

/-- A buffer none of the operations from the `k`-th on writes: after the line, what the first `k` left. -/
theorem after_take {l : List (HloOp τ sig Val)} {ys : List (Ref sig .tc)} (h : Outs l ys) (k : Nat) (r : Ref sig .tc)
    (hr : r ∉ ys.drop k) (V : Valuation τ sig Val) :
    after l V (Proc.devRef .tc r) = after (l.take k) V (Proc.devRef .tc r) := by
  have e := after_append (l.take k) (l.drop k) V
  rw [List.take_append_drop] at e
  rw [e]
  exact after_of_forall_not_mem _ _ (not_written (List.forall₂_drop k h) r hr)

/-- The buffer the `k`-th operation writes, if none after it writes it again: after the line, that operation's result
    from what the first `k` left. -/
theorem after_at {l : List (HloOp τ sig Val)} {ys : List (Ref sig .tc)} (h : Outs l ys) (k : Nat) (op : HloOp τ sig Val)
    (y : Ref sig .tc) (hk : l[k]? = some op) (hy : y ∉ ys.drop (k + 1)) (V : Valuation τ sig Val) :
    after l V (Proc.devRef .tc y) = op.result (after (l.take k) V) (Proc.devRef .tc y) := by
  rw [after_take h (k + 1) y hy V]
  have e : l.take (k + 1) = l.take k ++ [op] := by rw [List.take_succ, hk]; rfl
  rw [e, after_append]
  rfl

/-! ## Operations over typed references -/

section Typed

variable {Tx Ta Tb Tc Ty : BufTy}

/-- A constant into a typed reference's buffer: the buffer holds the constant. -/
theorem tnullary_heq (y : TRef sig Ty) (v : Ty.Contents Val) (F : Valuation τ sig Val) :
    HEq ((TRef.nullary (τ := τ) y v).result F (Proc.devRef .tc y.ref)) v := by
  obtain ⟨ry, rfl, _, _⟩ := y
  rw [nullary_result]
  exact cast_heq _ _

/-- A one-operand operation over typed references: the result buffer holds the function of the operand's contents. -/
theorem tunary_heq (x : TRef sig Tx) (y : TRef sig Ty) (f : Tx.Contents Val → Ty.Contents Val) (F : Valuation τ sig Val)
    (vx : Tx.Contents Val) (hx : HEq (F (Proc.devRef .tc x.ref)) vx) :
    HEq ((TRef.unary (τ := τ) x y f).result F (Proc.devRef .tc y.ref)) (f vx) := by
  obtain ⟨rx, rfl, _, _⟩ := x
  obtain ⟨ry, rfl, _, _⟩ := y
  obtain rfl := eq_of_heq hx
  rw [unary_result]
  exact cast_heq _ _

/-- A two-operand operation over typed references. -/
theorem tbinary_heq (a : TRef sig Ta) (b : TRef sig Tb) (y : TRef sig Ty) (f : Ta.Contents Val → Tb.Contents Val → Ty.Contents Val)
    (F : Valuation τ sig Val) (va : Ta.Contents Val) (vb : Tb.Contents Val)
    (ha : HEq (F (Proc.devRef .tc a.ref)) va) (hb : HEq (F (Proc.devRef .tc b.ref)) vb) :
    HEq ((TRef.binary (τ := τ) a b y f).result F (Proc.devRef .tc y.ref)) (f va vb) := by
  obtain ⟨ra, rfl, _, _⟩ := a
  obtain ⟨rb, rfl, _, _⟩ := b
  obtain ⟨ry, rfl, _, _⟩ := y
  obtain rfl := eq_of_heq ha
  obtain rfl := eq_of_heq hb
  rw [binary_result]
  exact cast_heq _ _

/-- A three-operand operation over typed references. -/
theorem tternary_heq (c : TRef sig Tc) (a : TRef sig Ta) (b : TRef sig Tb) (y : TRef sig Ty)
    (f : Tc.Contents Val → Ta.Contents Val → Tb.Contents Val → Ty.Contents Val)
    (F : Valuation τ sig Val) (vc : Tc.Contents Val) (va : Ta.Contents Val) (vb : Tb.Contents Val)
    (hc : HEq (F (Proc.devRef .tc c.ref)) vc) (ha : HEq (F (Proc.devRef .tc a.ref)) va) (hb : HEq (F (Proc.devRef .tc b.ref)) vb) :
    HEq ((TRef.ternary (τ := τ) c a b y f).result F (Proc.devRef .tc y.ref)) (f vc va vb) := by
  obtain ⟨rc, rfl, _, _⟩ := c
  obtain ⟨ra, rfl, _, _⟩ := a
  obtain ⟨rb, rfl, _, _⟩ := b
  obtain ⟨ry, rfl, _, _⟩ := y
  obtain rfl := eq_of_heq hc
  obtain rfl := eq_of_heq ha
  obtain rfl := eq_of_heq hb
  rw [ternary_result]
  exact cast_heq _ _

end Typed

end HostRead
-- ==== Proof.LibHostSsa.lean ====
/-
  A line of host operations in which every buffer is written once, read as a system of equations.

  When each operation of a line writes one buffer of its own and no later operation writes that buffer again, what the
  buffer holds after the WHOLE line is the operation's function of what its operand buffers hold after the WHOLE line:
  an operand is written, if at all, before the operation, so the line's later operations leave it alone.  Each lemma
  below states this for one kind of operation, the k-th of the line; the side conditions are that the result buffer is
  not among the buffers written after place k, and that no operand is among the buffers written from place k on.
-/
import proofs.«124089_j37623913513299_2_alg».proof.Proof.LibHostRead

namespace HostRead

open Idealize.ShloMosaic Idealize.ShloMosaic.StableHlo Idealize.ShloMosaic.TcCoe

variable {sig : RefSig} {τ : Topo} {Val : EltTy → Type}
variable {l : List (HloOp τ sig Val)} {ys : List (Ref sig .tc)}

/-- A constant: after the line the buffer holds it. -/
theorem nullary_at (h : Outs l ys) (V : Valuation τ sig Val) (k : Nat) (y : Ref sig .tc) (v : y.ty.Contents Val) (hy)
    (hk : l[k]? = some (nullary y v hy)) (hy' : y ∉ ys.drop (k + 1)) :
    after l V (Proc.devRef .tc y) = v := by
  rw [after_at h k _ y hk hy' V, nullary_result]

/-- A one-operand operation. -/
theorem unary_at (h : Outs l ys) (V : Valuation τ sig Val) (k : Nat) (x y : Ref sig .tc)
    (f : x.ty.Contents Val → y.ty.Contents Val) (hx hy)
    (hk : l[k]? = some (unary x y f hx hy)) (hy' : y ∉ ys.drop (k + 1)) (hx' : x ∉ ys.drop k) :
    after l V (Proc.devRef .tc y) = f (after l V (Proc.devRef .tc x)) := by
  rw [after_at h k _ y hk hy' V, unary_result, after_take h k x hx' V]

/-- A reshape. -/
theorem reshape_at (h : Outs l ys) (V : Valuation τ sig Val) (k : Nat) (x y : Ref sig .tc) (he hn hx hy)
    (hk : l[k]? = some (reshape (Val := Val) x y he hn hx hy)) (hy' : y ∉ ys.drop (k + 1)) (hx' : x ∉ ys.drop k) :
    after l V (Proc.devRef .tc y) = fun i => he ▸ shapeCast y.ty.shape (after l V (Proc.devRef .tc x)) hn i := by
  rw [after_at h k _ y hk hy' V, reshape_result, after_take h k x hx' V]

/-- A two-operand operation. -/
theorem binary_at (h : Outs l ys) (V : Valuation τ sig Val) (k : Nat) (a b y : Ref sig .tc)
    (f : a.ty.Contents Val → b.ty.Contents Val → y.ty.Contents Val) (ha hb hy)
    (hk : l[k]? = some (binary a b y f ha hb hy)) (hy' : y ∉ ys.drop (k + 1)) (ha' : a ∉ ys.drop k) (hb' : b ∉ ys.drop k) :
    after l V (Proc.devRef .tc y) = f (after l V (Proc.devRef .tc a)) (after l V (Proc.devRef .tc b)) := by
  rw [after_at h k _ y hk hy' V, binary_result, after_take h k a ha' V, after_take h k b hb' V]

/-- A three-operand operation. -/
theorem ternary_at (h : Outs l ys) (V : Valuation τ sig Val) (k : Nat) (c a b y : Ref sig .tc)
    (f : c.ty.Contents Val → a.ty.Contents Val → b.ty.Contents Val → y.ty.Contents Val) (hc ha hb hy)
    (hk : l[k]? = some (ternary c a b y f hc ha hb hy)) (hy' : y ∉ ys.drop (k + 1))
    (hc' : c ∉ ys.drop k) (ha' : a ∉ ys.drop k) (hb' : b ∉ ys.drop k) :
    after l V (Proc.devRef .tc y)
      = f (after l V (Proc.devRef .tc c)) (after l V (Proc.devRef .tc a)) (after l V (Proc.devRef .tc b)) := by
  rw [after_at h k _ y hk hy' V, ternary_result, after_take h k c hc' V, after_take h k a ha' V, after_take h k b hb' V]

end HostRead
-- ==== Proof.LibHostOnce.lean ====
/-
  A line of host operations in which every buffer is written once: the side conditions, from the list of written
  buffers having no repetition.

  When the buffers a line writes are all different, the buffer written at place k is not written after place k, and a
  buffer written at an earlier place j < k is not written from place k on; a buffer the line never writes is not written
  from any place on. Also here: an operation of any number of operands read as an equation between the buffers' contents
  after the whole line, and the written-buffer lists of two lines run one after the other.
-/
import proofs.«124089_j37623913513299_2_alg».proof.Proof.LibHostSsa
import Mathlib.Data.List.Nodup

namespace HostRead

open Idealize.ShloMosaic Idealize.ShloMosaic.StableHlo Idealize.ShloMosaic.TcCoe

/-- In a list without repetition, the entry at place j does not occur from a later place k on. -/
theorem not_mem_drop_of_lt {α : Type*} {ys : List α} (h : ys.Nodup) {j k : Nat} {x : α} (hj : ys[j]? = some x) (hjk : j < k) :
    x ∉ ys.drop k := by
  intro hx
  obtain ⟨i, hi⟩ := List.mem_iff_getElem?.mp hx
  rw [List.getElem?_drop] at hi
  have hlt : k + i < ys.length := by
    by_contra hge
    rw [List.getElem?_eq_none (Nat.le_of_not_lt hge)] at hi
    cases hi
  exact (List.nodup_iff_getElem?_ne_getElem?.mp h) j (k + i) (by omega) hlt (hj.trans hi.symm)

variable {sig : RefSig} {τ : Topo} {Val : EltTy → Type}

/-- Two lines, each writing its listed buffers, run one after the other write the two lists in turn. -/
theorem outs_append {l₁ l₂ : List (HloOp τ sig Val)} {y₁ y₂ : List (Ref sig .tc)} (h₁ : Outs l₁ y₁) (h₂ : Outs l₂ y₂) :
    Outs (l₁ ++ l₂) (y₁ ++ y₂) := by
  induction h₁ with
  | nil => exact h₂
  | cons hw _ ih => exact List.Forall₂.cons hw ih

variable {l : List (HloOp τ sig Val)} {ys : List (Ref sig .tc)}

/-- An operation of any number of operands. -/
theorem nary_at (h : Outs l ys) (V : Valuation τ sig Val) (k : Nat) {n : Nat} (xs : Fin n → Ref sig .tc) (y : Ref sig .tc)
    (f : ((i : Fin n) → (xs i).ty.Contents Val) → y.ty.Contents Val) (hxs hy)
    (hk : l[k]? = some (nary xs y f hxs hy)) (hy' : y ∉ ys.drop (k + 1)) (hx' : ∀ i, xs i ∉ ys.drop k) :
    after l V (Proc.devRef .tc y) = f (fun i => after l V (Proc.devRef .tc (xs i))) := by
  rw [after_at h k _ y hk hy' V, nary_result]
  exact congrArg f (funext fun i => (after_take h k (xs i) (hx' i) V).symm)

end HostRead
-- ==== Proof.RefSsa.lean ====
/- A table of cases.
  The reference program's line of host operations writes every buffer once. So after the whole line each buffer holds its
  operation's function of what the operand buffers hold after the whole line, and, going through the line in order, each
  buffer holds the stage of the same name of the argument arrays: one equation per operation, each from the equations of
  its operands and the stage's definition.
-/
import proofs.«124089_j37623913513299_2_alg».proof.Proof.RefOps
import proofs.«124089_j37623913513299_2_alg».proof.Proof.ReadP
import proofs.«124089_j37623913513299_2_alg».proof.Proof.LibHostSsa
import proofs.«124089_j37623913513299_2_alg».proof.Proof.LibHostOnce

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers the operations of part 0 write, in order. -/
abbrev ys0 : List (Ref sig .tc) :=
  [main_v0, main_v1, main_v2, main_v3, main_v4, main_v5, main_cst, main_v6, main_v7, main_v8, main_cst_0, main_v9, main_v10, main_v11, main_v12, main_v13, main_cst_1, main_v14, main_v15, main_cst_2, main_v16, main_v17, main_v18, main_v19, main_v20, main_v21, main_v22, main_v23, main_v24, main_cst_3, main_v25, main_v26, main_v27, main_cst_4, main_v28, main_v29, main_v30, main_v31, main_v32, main_cst_5, main_v33, main_v34, main_cst_6, main_v35, main_v36, main_v37, main_v38, main_v39, main_v40, main_v41, main_v42, main_v43, main_v44, main_v45, main_v46, main_v47, main_c, main_v48, main_v49, main_c_7]
/-- The buffers the operations of part 1 write, in order. -/
abbrev ys1 : List (Ref sig .tc) :=
  [main_v50, main_v51, main_v52, main_v53, main_v54, main_cst_8, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108]
/-- The buffers the operations of part 2 write, in order. -/
abbrev ys2 : List (Ref sig .tc) :=
  [main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_cst_9, main_v137, main_v138, main_v139, main_v140, main_v141, main_v142, main_v143, main_v144, main_call0_cst, main_call0_v0, main_v145, main_v146, main_c_10, main_v147, main_v148, main_c_11, main_v149, main_v150, main_v151, main_v152, main_v153, main_cst_12, main_v154, main_v155, main_v156, main_v157, main_v158, main_v159, main_v160, main_v161, main_v162, main_v163, main_v164]
/-- The buffers the operations of part 3 write, in order. -/
abbrev ys3 : List (Ref sig .tc) :=
  [main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224]
/-- The buffers the operations of part 4 write, in order. -/
abbrev ys4 : List (Ref sig .tc) :=
  [main_v225, main_v226, main_v227, main_v228, main_v229, main_v230, main_v231, main_v232, main_v233, main_v234, main_v235, main_cst_13, main_v236, main_v237, main_v238, main_v239, main_v240, main_v241, main_v242, main_v243, main_call1_cst, main_call1_v0, main_v244, main_c_14, main_v245, main_v246, main_c_15, main_v247, main_v248, main_v249, main_v250, main_v251, main_cst_16, main_v252, main_v253, main_v254, main_v255, main_v256, main_v257, main_v258, main_v259, main_v260, main_v261, main_v262, main_v263, main_v264, main_v265, main_v266, main_v267, main_v268, main_v269, main_v270, main_v271, main_v272, main_v273, main_v274, main_v275, main_v276, main_v277, main_v278, main_v279, main_v280]
/-- The buffers the operations of part 5 write, in order. -/
abbrev ys5 : List (Ref sig .tc) :=
  [main_v281, main_v282, main_v283, main_v284, main_v285, main_v286, main_v287, main_v288, main_v289, main_v290, main_v291, main_v292, main_v293, main_v294, main_v295, main_v296, main_v297, main_v298, main_v299, main_v300, main_v301, main_v302, main_v303, main_v304, main_v305, main_v306, main_v307, main_v308, main_v309, main_v310, main_v311, main_v312, main_v313, main_v314, main_v315, main_v316, main_v317, main_v318, main_v319, main_v320, main_v321, main_v322, main_v323, main_v324, main_v325, main_v326, main_v327, main_v328, main_v329, main_v330, main_v331, main_v332, main_v333, main_cst_17, main_v334, main_v335, main_v336, main_v337, main_v338, main_v339]
/-- The buffers the operations of part 6 write, in order. -/
abbrev ys6 : List (Ref sig .tc) :=
  [main_v340, main_v341, main_call2_cst, main_call2_v0, main_v342]

abbrev ys : List (Ref sig .tc) := ys0 ++ (ys1 ++ (ys2 ++ (ys3 ++ (ys4 ++ (ys5 ++ (ys6))))))

theorem outs0 : HostRead.Outs (τ := τ) (ops0 (F := Ideal)) ys0 := by
  repeat (first | exact List.Forall₂.nil | refine List.Forall₂.cons rfl ?_)
theorem outs1 : HostRead.Outs (τ := τ) (ops1 (F := Ideal)) ys1 := by
  repeat (first | exact List.Forall₂.nil | refine List.Forall₂.cons rfl ?_)
theorem outs2 : HostRead.Outs (τ := τ) (ops2 (F := Ideal)) ys2 := by
  repeat (first | exact List.Forall₂.nil | refine List.Forall₂.cons rfl ?_)
theorem outs3 : HostRead.Outs (τ := τ) (ops3 (F := Ideal)) ys3 := by
  repeat (first | exact List.Forall₂.nil | refine List.Forall₂.cons rfl ?_)
theorem outs4 : HostRead.Outs (τ := τ) (ops4 (F := Ideal)) ys4 := by
  repeat (first | exact List.Forall₂.nil | refine List.Forall₂.cons rfl ?_)
theorem outs5 : HostRead.Outs (τ := τ) (ops5 (F := Ideal)) ys5 := by
  repeat (first | exact List.Forall₂.nil | refine List.Forall₂.cons rfl ?_)
theorem outs6 : HostRead.Outs (τ := τ) (ops6 (F := Ideal)) ys6 := by
  repeat (first | exact List.Forall₂.nil | refine List.Forall₂.cons rfl ?_)

/-- Operation by operation, the line writes the listed buffers. -/
theorem outs : HostRead.Outs (τ := τ) (ops (F := Ideal)) ys :=
  HostRead.outs_append outs0 (HostRead.outs_append outs1 (HostRead.outs_append outs2 (HostRead.outs_append outs3 (HostRead.outs_append outs4 (HostRead.outs_append outs5 (outs6))))))

/-- No buffer is written twice. -/
theorem ys_nodup : ys.Nodup := by decide +kernel

theorem na (k : Nat) {y : Ref sig .tc} (h : ys[k]? = some y) : y ∉ ys.drop (k + 1) := HostRead.not_mem_drop_of_lt ys_nodup h (Nat.lt_succ_self k)
theorem nb (j k : Nat) {x : Ref sig .tc} (h : ys[j]? = some x) (hjk : j < k) : x ∉ ys.drop k := HostRead.not_mem_drop_of_lt ys_nodup h hjk
theorem narg {x : Ref sig .tc} (h : x ∉ ys) (k : Nat) : x ∉ ys.drop k := fun hx => h (List.mem_of_mem_drop hx)

theorem n_arg0 : main_arg0 ∉ ys := by decide +kernel
theorem n_arg1 : main_arg1 ∉ ys := by decide +kernel
theorem n_arg2 : main_arg2 ∉ ys := by decide +kernel
theorem n_arg3 : main_arg3 ∉ ys := by decide +kernel
theorem n_arg4 : main_arg4 ∉ ys := by decide +kernel
theorem n_arg5 : main_arg5 ∉ ys := by decide +kernel
theorem n_arg6 : main_arg6 ∉ ys := by decide +kernel
theorem n_arg7 : main_arg7 ∉ ys := by decide +kernel
theorem n_arg8 : main_arg8 ∉ ys := by decide +kernel
theorem n_arg9 : main_arg9 ∉ ys := by decide +kernel

variable (V : Valuation τ sig (Elt Ideal))

/-! The argument arrays are not written. -/
theorem e_arg0 : after (ops (F := Ideal)) V (Proc.devRef .tc main_arg0) = V (Proc.devRef .tc main_arg0) :=
  HostRead.after_take outs 0 main_arg0 (narg n_arg0 0) V
theorem e_arg1 : after (ops (F := Ideal)) V (Proc.devRef .tc main_arg1) = V (Proc.devRef .tc main_arg1) :=
  HostRead.after_take outs 0 main_arg1 (narg n_arg1 0) V
theorem e_arg2 : after (ops (F := Ideal)) V (Proc.devRef .tc main_arg2) = V (Proc.devRef .tc main_arg2) :=
  HostRead.after_take outs 0 main_arg2 (narg n_arg2 0) V
theorem e_arg3 : after (ops (F := Ideal)) V (Proc.devRef .tc main_arg3) = V (Proc.devRef .tc main_arg3) :=
  HostRead.after_take outs 0 main_arg3 (narg n_arg3 0) V
theorem e_arg4 : after (ops (F := Ideal)) V (Proc.devRef .tc main_arg4) = V (Proc.devRef .tc main_arg4) :=
  HostRead.after_take outs 0 main_arg4 (narg n_arg4 0) V
theorem e_arg5 : after (ops (F := Ideal)) V (Proc.devRef .tc main_arg5) = V (Proc.devRef .tc main_arg5) :=
  HostRead.after_take outs 0 main_arg5 (narg n_arg5 0) V
theorem e_arg6 : after (ops (F := Ideal)) V (Proc.devRef .tc main_arg6) = V (Proc.devRef .tc main_arg6) :=
  HostRead.after_take outs 0 main_arg6 (narg n_arg6 0) V
theorem e_arg7 : after (ops (F := Ideal)) V (Proc.devRef .tc main_arg7) = V (Proc.devRef .tc main_arg7) :=
  HostRead.after_take outs 0 main_arg7 (narg n_arg7 0) V
theorem e_arg8 : after (ops (F := Ideal)) V (Proc.devRef .tc main_arg8) = V (Proc.devRef .tc main_arg8) :=
  HostRead.after_take outs 0 main_arg8 (narg n_arg8 0) V
theorem e_arg9 : after (ops (F := Ideal)) V (Proc.devRef .tc main_arg9) = V (Proc.devRef .tc main_arg9) :=
  HostRead.after_take outs 0 main_arg9 (narg n_arg9 0) V

/-! The operations, in order. -/
theorem e_v0 : after (ops (F := Ideal)) V (Proc.devRef .tc main_v0) = Cert.ReferenceIdeal.ReadP.val_main_v0 (F := Ideal) (V (Proc.devRef .tc main_arg1)) := by
  rw [HostRead.unary_at outs V 0 main_arg1 main_v0 _ _ _ rfl (na 0 rfl) (narg n_arg1 0), e_arg1 V] <;> rfl
theorem e_v1 : after (ops (F := Ideal)) V (Proc.devRef .tc main_v1) = Cert.ReferenceIdeal.ReadP.val_main_v1 (F := Ideal) (V (Proc.devRef .tc main_arg1)) := by
  rw [HostRead.reshape_at outs V 1 main_v0 main_v1 _ _ _ _ rfl (na 1 rfl) (nb 0 1 rfl (by decide)), e_v0 V] <;> rfl
theorem e_v2 : after (ops (F := Ideal)) V (Proc.devRef .tc main_v2) = Cert.ReferenceIdeal.ReadP.val_main_v2 (F := Ideal) (V (Proc.devRef .tc main_arg1)) := by
  rw [HostRead.unary_at outs V 2 main_arg1 main_v2 _ _ _ rfl (na 2 rfl) (narg n_arg1 2), e_arg1 V] <;> rfl
theorem e_v3 : after (ops (F := Ideal)) V (Proc.devRef .tc main_v3) = Cert.ReferenceIdeal.ReadP.val_main_v3 (F := Ideal) (V (Proc.devRef .tc main_arg1)) := by
  rw [HostRead.reshape_at outs V 3 main_v2 main_v3 _ _ _ _ rfl (na 3 rfl) (nb 2 3 rfl (by decide)), e_v2 V] <;> rfl
theorem e_v4 : after (ops (F := Ideal)) V (Proc.devRef .tc main_v4) = Cert.ReferenceIdeal.ReadP.val_main_v4 (F := Ideal) (V (Proc.devRef .tc main_arg2)) := by
  rw [HostRead.unary_at outs V 4 main_arg2 main_v4 _ _ _ rfl (na 4 rfl) (narg n_arg2 4), e_arg2 V] <;> rfl
theorem e_v5 : after (ops (F := Ideal)) V (Proc.devRef .tc main_v5) = Cert.ReferenceIdeal.ReadP.val_main_v5 (F := Ideal) (V (Proc.devRef .tc main_arg2)) := by
  rw [HostRead.reshape_at outs V 5 main_v4 main_v5 _ _ _ _ rfl (na 5 rfl) (nb 4 5 rfl (by decide)), e_v4 V] <;> rfl
theorem e_cst : after (ops (F := Ideal)) V (Proc.devRef .tc main_cst) = Cert.ReferenceIdeal.ReadP.val_main_cst (F := Ideal) := by
  rw [HostRead.nullary_at outs V 6 main_cst _ _ rfl (na 6 rfl)] <;> rfl
theorem e_v6 : after (ops (F := Ideal)) V (Proc.devRef .tc main_v6) = Cert.ReferenceIdeal.ReadP.val_main_v6 (F := Ideal) := by
  rw [HostRead.unary_at outs V 7 main_cst main_v6 _ _ _ rfl (na 7 rfl) (nb 6 7 rfl (by decide)), e_cst V] <;> rfl
theorem e_v7 : after (ops (F := Ideal)) V (Proc.devRef .tc main_v7) = Cert.ReferenceIdeal.ReadP.val_main_v7 (F := Ideal) (V (Proc.devRef .tc main_arg2)) := by
  rw [HostRead.binary_at outs V 8 main_v6 main_v5 main_v7 _ _ _ _ rfl (na 8 rfl) (nb 7 8 rfl (by decide)) (nb 5 8 rfl (by decide)), e_v6 V, e_v5 V] <;> rfl
theorem e_v8 : after (ops (F := Ideal)) V (Proc.devRef .tc main_v8) = Cert.ReferenceIdeal.ReadP.val_main_v8 (F := Ideal) (V (Proc.devRef .tc main_arg2)) := by
  rw [HostRead.binary_at outs V 9 main_v7 main_v7 main_v8 _ _ _ _ rfl (na 9 rfl) (nb 8 9 rfl (by decide)) (nb 8 9 rfl (by decide)), e_v7 V] <;> rfl
theorem e_cst_0 : after (ops (F := Ideal)) V (Proc.devRef .tc main_cst_0) = Cert.ReferenceIdeal.ReadP.val_main_cst_0 (F := Ideal) := by
  rw [HostRead.nullary_at outs V 10 main_cst_0 _ _ rfl (na 10 rfl)] <;> rfl
theorem e_v9 : after (ops (F := Ideal)) V (Proc.devRef .tc main_v9) = Cert.ReferenceIdeal.ReadP.val_main_v9 (F := Ideal) := by
  rw [HostRead.unary_at outs V 11 main_cst_0 main_v9 _ _ _ rfl (na 11 rfl) (nb 10 11 rfl (by decide)), e_cst_0 V] <;> rfl
theorem e_v10 : after (ops (F := Ideal)) V (Proc.devRef .tc main_v10) = Cert.ReferenceIdeal.ReadP.val_main_v10 (F := Ideal) (V (Proc.devRef .tc main_arg2)) := by
  rw [HostRead.binary_at outs V 12 main_v9 main_v8 main_v10 _ _ _ _ rfl (na 12 rfl) (nb 11 12 rfl (by decide)) (nb 9 12 rfl (by decide)), e_v9 V, e_v8 V] <;> rfl
theorem e_v11 : after (ops (F := Ideal)) V (Proc.devRef .tc main_v11) = Cert.ReferenceIdeal.ReadP.val_main_v11 (F := Ideal) (V (Proc.devRef .tc main_arg2)) := by
  rw [HostRead.unary_at outs V 13 main_v5 main_v11 _ _ _ rfl (na 13 rfl) (nb 5 13 rfl (by decide)), e_v5 V] <;> rfl
theorem e_v12 : after (ops (F := Ideal)) V (Proc.devRef .tc main_v12) = Cert.ReferenceIdeal.ReadP.val_main_v12 (F := Ideal) (V (Proc.devRef .tc main_arg2)) := by
  rw [HostRead.binary_at outs V 14 main_v11 main_v5 main_v12 _ _ _ _ rfl (na 14 rfl) (nb 13 14 rfl (by decide)) (nb 5 14 rfl (by decide)), e_v11 V, e_v5 V] <;> rfl
theorem e_v13 : after (ops (F := Ideal)) V (Proc.devRef .tc main_v13) = Cert.ReferenceIdeal.ReadP.val_main_v13 (F := Ideal) (V (Proc.devRef .tc main_arg2)) := by
  rw [HostRead.binary_at outs V 15 main_v12 main_v5 main_v13 _ _ _ _ rfl (na 15 rfl) (nb 14 15 rfl (by decide)) (nb 5 15 rfl (by decide)), e_v12 V, e_v5 V] <;> rfl
theorem e_cst_1 : after (ops (F := Ideal)) V (Proc.devRef .tc main_cst_1) = Cert.ReferenceIdeal.ReadP.val_main_cst_1 (F := Ideal) := by
  rw [HostRead.nullary_at outs V 16 main_cst_1 _ _ rfl (na 16 rfl)] <;> rfl
theorem e_v14 : after (ops (F := Ideal)) V (Proc.devRef .tc main_v14) = Cert.ReferenceIdeal.ReadP.val_main_v14 (F := Ideal) := by
  rw [HostRead.unary_at outs V 17 main_cst_1 main_v14 _ _ _ rfl (na 17 rfl) (nb 16 17 rfl (by decide)), e_cst_1 V] <;> rfl
theorem e_v15 : after (ops (F := Ideal)) V (Proc.devRef .tc main_v15) = Cert.ReferenceIdeal.ReadP.val_main_v15 (F := Ideal) (V (Proc.devRef .tc main_arg2)) := by
  rw [HostRead.binary_at outs V 18 main_v13 main_v14 main_v15 _ _ _ _ rfl (na 18 rfl) (nb 15 18 rfl (by decide)) (nb 17 18 rfl (by decide)), e_v13 V, e_v14 V] <;> rfl
theorem e_cst_2 : after (ops (F := Ideal)) V (Proc.devRef .tc main_cst_2) = Cert.ReferenceIdeal.ReadP.val_main_cst_2 (F := Ideal) := by
  rw [HostRead.nullary_at outs V 19 main_cst_2 _ _ rfl (na 19 rfl)] <;> rfl
theorem e_v16 : after (ops (F := Ideal)) V (Proc.devRef .tc main_v16) = Cert.ReferenceIdeal.ReadP.val_main_v16 (F := Ideal) := by
  rw [HostRead.unary_at outs V 20 main_cst_2 main_v16 _ _ _ rfl (na 20 rfl) (nb 19 20 rfl (by decide)), e_cst_2 V] <;> rfl
theorem e_v17 : after (ops (F := Ideal)) V (Proc.devRef .tc main_v17) = Cert.ReferenceIdeal.ReadP.val_main_v17 (F := Ideal) (V (Proc.devRef .tc main_arg2)) := by
  rw [HostRead.binary_at outs V 21 main_v16 main_v5 main_v17 _ _ _ _ rfl (na 21 rfl) (nb 20 21 rfl (by decide)) (nb 5 21 rfl (by decide)), e_v16 V, e_v5 V] <;> rfl
theorem e_v18 : after (ops (F := Ideal)) V (Proc.devRef .tc main_v18) = Cert.ReferenceIdeal.ReadP.val_main_v18 (F := Ideal) (V (Proc.devRef .tc main_arg2)) := by
  rw [HostRead.binary_at outs V 22 main_v17 main_v5 main_v18 _ _ _ _ rfl (na 22 rfl) (nb 21 22 rfl (by decide)) (nb 5 22 rfl (by decide)), e_v17 V, e_v5 V] <;> rfl
theorem e_v19 : after (ops (F := Ideal)) V (Proc.devRef .tc main_v19) = Cert.ReferenceIdeal.ReadP.val_main_v19 (F := Ideal) (V (Proc.devRef .tc main_arg2)) := by
  rw [HostRead.unary_at outs V 23 main_v10 main_v19 _ _ _ rfl (na 23 rfl) (nb 12 23 rfl (by decide)), e_v10 V] <;> rfl
theorem e_v20 : after (ops (F := Ideal)) V (Proc.devRef .tc main_v20) = Cert.ReferenceIdeal.ReadP.val_main_v20 (F := Ideal) (V (Proc.devRef .tc main_arg2)) := by
  rw [HostRead.unary_at outs V 24 main_v15 main_v20 _ _ _ rfl (na 24 rfl) (nb 18 24 rfl (by decide)), e_v15 V] <;> rfl
theorem e_v21 : after (ops (F := Ideal)) V (Proc.devRef .tc main_v21) = Cert.ReferenceIdeal.ReadP.val_main_v21 (F := Ideal) (V (Proc.devRef .tc main_arg2)) := by
  rw [HostRead.unary_at outs V 25 main_v18 main_v21 _ _ _ rfl (na 25 rfl) (nb 22 25 rfl (by decide)), e_v18 V] <;> rfl
theorem e_v22 : after (ops (F := Ideal)) V (Proc.devRef .tc main_v22) = Cert.ReferenceIdeal.ReadP.val_main_v22 (F := Ideal) (V (Proc.devRef .tc main_arg2)) := by
  rw [HostRead.nary_at outs V 26 ![main_v19, main_v20, main_v21] main_v22 _ _ _ rfl (na 26 rfl)
    (fun i => match i with | ⟨0, _⟩ => nb 23 26 rfl (by decide) | ⟨1, _⟩ => nb 24 26 rfl (by decide) | ⟨2, _⟩ => nb 25 26 rfl (by decide))]
  show concatenate S400000x3 1 [⟨S400000x1, (after (ops (F := Ideal)) V (Proc.devRef .tc main_v19))⟩, ⟨S400000x1, (after (ops (F := Ideal)) V (Proc.devRef .tc main_v20))⟩, ⟨S400000x1, (after (ops (F := Ideal)) V (Proc.devRef .tc main_v21))⟩] concatenates_S400000x1_S400000x1_S400000x1_S400000x3_d1 = _
  rw [e_v19 V, e_v20 V, e_v21 V] <;> rfl
theorem e_v23 : after (ops (F := Ideal)) V (Proc.devRef .tc main_v23) = Cert.ReferenceIdeal.ReadP.val_main_v23 (F := Ideal) (V (Proc.devRef .tc main_arg2)) := by
  rw [HostRead.unary_at outs V 27 main_arg2 main_v23 _ _ _ rfl (na 27 rfl) (narg n_arg2 27), e_arg2 V] <;> rfl
theorem e_v24 : after (ops (F := Ideal)) V (Proc.devRef .tc main_v24) = Cert.ReferenceIdeal.ReadP.val_main_v24 (F := Ideal) (V (Proc.devRef .tc main_arg2)) := by
  rw [HostRead.reshape_at outs V 28 main_v23 main_v24 _ _ _ _ rfl (na 28 rfl) (nb 27 28 rfl (by decide)), e_v23 V] <;> rfl
theorem e_cst_3 : after (ops (F := Ideal)) V (Proc.devRef .tc main_cst_3) = Cert.ReferenceIdeal.ReadP.val_main_cst_3 (F := Ideal) := by
  rw [HostRead.nullary_at outs V 29 main_cst_3 _ _ rfl (na 29 rfl)] <;> rfl
theorem e_v25 : after (ops (F := Ideal)) V (Proc.devRef .tc main_v25) = Cert.ReferenceIdeal.ReadP.val_main_v25 (F := Ideal) := by
  rw [HostRead.unary_at outs V 30 main_cst_3 main_v25 _ _ _ rfl (na 30 rfl) (nb 29 30 rfl (by decide)), e_cst_3 V] <;> rfl
theorem e_v26 : after (ops (F := Ideal)) V (Proc.devRef .tc main_v26) = Cert.ReferenceIdeal.ReadP.val_main_v26 (F := Ideal) (V (Proc.devRef .tc main_arg2)) := by
  rw [HostRead.binary_at outs V 31 main_v25 main_v24 main_v26 _ _ _ _ rfl (na 31 rfl) (nb 30 31 rfl (by decide)) (nb 28 31 rfl (by decide)), e_v25 V, e_v24 V] <;> rfl
theorem e_v27 : after (ops (F := Ideal)) V (Proc.devRef .tc main_v27) = Cert.ReferenceIdeal.ReadP.val_main_v27 (F := Ideal) (V (Proc.devRef .tc main_arg2)) := by
  rw [HostRead.binary_at outs V 32 main_v26 main_v26 main_v27 _ _ _ _ rfl (na 32 rfl) (nb 31 32 rfl (by decide)) (nb 31 32 rfl (by decide)), e_v26 V] <;> rfl
theorem e_cst_4 : after (ops (F := Ideal)) V (Proc.devRef .tc main_cst_4) = Cert.ReferenceIdeal.ReadP.val_main_cst_4 (F := Ideal) := by
  rw [HostRead.nullary_at outs V 33 main_cst_4 _ _ rfl (na 33 rfl)] <;> rfl
theorem e_v28 : after (ops (F := Ideal)) V (Proc.devRef .tc main_v28) = Cert.ReferenceIdeal.ReadP.val_main_v28 (F := Ideal) := by
  rw [HostRead.unary_at outs V 34 main_cst_4 main_v28 _ _ _ rfl (na 34 rfl) (nb 33 34 rfl (by decide)), e_cst_4 V] <;> rfl
theorem e_v29 : after (ops (F := Ideal)) V (Proc.devRef .tc main_v29) = Cert.ReferenceIdeal.ReadP.val_main_v29 (F := Ideal) (V (Proc.devRef .tc main_arg2)) := by
  rw [HostRead.binary_at outs V 35 main_v28 main_v27 main_v29 _ _ _ _ rfl (na 35 rfl) (nb 34 35 rfl (by decide)) (nb 32 35 rfl (by decide)), e_v28 V, e_v27 V] <;> rfl
theorem e_v30 : after (ops (F := Ideal)) V (Proc.devRef .tc main_v30) = Cert.ReferenceIdeal.ReadP.val_main_v30 (F := Ideal) (V (Proc.devRef .tc main_arg2)) := by
  rw [HostRead.unary_at outs V 36 main_v24 main_v30 _ _ _ rfl (na 36 rfl) (nb 28 36 rfl (by decide)), e_v24 V] <;> rfl
theorem e_v31 : after (ops (F := Ideal)) V (Proc.devRef .tc main_v31) = Cert.ReferenceIdeal.ReadP.val_main_v31 (F := Ideal) (V (Proc.devRef .tc main_arg2)) := by
  rw [HostRead.binary_at outs V 37 main_v30 main_v24 main_v31 _ _ _ _ rfl (na 37 rfl) (nb 36 37 rfl (by decide)) (nb 28 37 rfl (by decide)), e_v30 V, e_v24 V] <;> rfl
theorem e_v32 : after (ops (F := Ideal)) V (Proc.devRef .tc main_v32) = Cert.ReferenceIdeal.ReadP.val_main_v32 (F := Ideal) (V (Proc.devRef .tc main_arg2)) := by
  rw [HostRead.binary_at outs V 38 main_v31 main_v24 main_v32 _ _ _ _ rfl (na 38 rfl) (nb 37 38 rfl (by decide)) (nb 28 38 rfl (by decide)), e_v31 V, e_v24 V] <;> rfl
theorem e_cst_5 : after (ops (F := Ideal)) V (Proc.devRef .tc main_cst_5) = Cert.ReferenceIdeal.ReadP.val_main_cst_5 (F := Ideal) := by
  rw [HostRead.nullary_at outs V 39 main_cst_5 _ _ rfl (na 39 rfl)] <;> rfl
theorem e_v33 : after (ops (F := Ideal)) V (Proc.devRef .tc main_v33) = Cert.ReferenceIdeal.ReadP.val_main_v33 (F := Ideal) := by
  rw [HostRead.unary_at outs V 40 main_cst_5 main_v33 _ _ _ rfl (na 40 rfl) (nb 39 40 rfl (by decide)), e_cst_5 V] <;> rfl
theorem e_v34 : after (ops (F := Ideal)) V (Proc.devRef .tc main_v34) = Cert.ReferenceIdeal.ReadP.val_main_v34 (F := Ideal) (V (Proc.devRef .tc main_arg2)) := by
  rw [HostRead.binary_at outs V 41 main_v32 main_v33 main_v34 _ _ _ _ rfl (na 41 rfl) (nb 38 41 rfl (by decide)) (nb 40 41 rfl (by decide)), e_v32 V, e_v33 V] <;> rfl
theorem e_cst_6 : after (ops (F := Ideal)) V (Proc.devRef .tc main_cst_6) = Cert.ReferenceIdeal.ReadP.val_main_cst_6 (F := Ideal) := by
  rw [HostRead.nullary_at outs V 42 main_cst_6 _ _ rfl (na 42 rfl)] <;> rfl
theorem e_v35 : after (ops (F := Ideal)) V (Proc.devRef .tc main_v35) = Cert.ReferenceIdeal.ReadP.val_main_v35 (F := Ideal) := by
  rw [HostRead.unary_at outs V 43 main_cst_6 main_v35 _ _ _ rfl (na 43 rfl) (nb 42 43 rfl (by decide)), e_cst_6 V] <;> rfl
theorem e_v36 : after (ops (F := Ideal)) V (Proc.devRef .tc main_v36) = Cert.ReferenceIdeal.ReadP.val_main_v36 (F := Ideal) (V (Proc.devRef .tc main_arg2)) := by
  rw [HostRead.binary_at outs V 44 main_v35 main_v24 main_v36 _ _ _ _ rfl (na 44 rfl) (nb 43 44 rfl (by decide)) (nb 28 44 rfl (by decide)), e_v35 V, e_v24 V] <;> rfl
theorem e_v37 : after (ops (F := Ideal)) V (Proc.devRef .tc main_v37) = Cert.ReferenceIdeal.ReadP.val_main_v37 (F := Ideal) (V (Proc.devRef .tc main_arg2)) := by
  rw [HostRead.binary_at outs V 45 main_v36 main_v24 main_v37 _ _ _ _ rfl (na 45 rfl) (nb 44 45 rfl (by decide)) (nb 28 45 rfl (by decide)), e_v36 V, e_v24 V] <;> rfl
theorem e_v38 : after (ops (F := Ideal)) V (Proc.devRef .tc main_v38) = Cert.ReferenceIdeal.ReadP.val_main_v38 (F := Ideal) (V (Proc.devRef .tc main_arg2)) := by
  rw [HostRead.unary_at outs V 46 main_v29 main_v38 _ _ _ rfl (na 46 rfl) (nb 35 46 rfl (by decide)), e_v29 V] <;> rfl
theorem e_v39 : after (ops (F := Ideal)) V (Proc.devRef .tc main_v39) = Cert.ReferenceIdeal.ReadP.val_main_v39 (F := Ideal) (V (Proc.devRef .tc main_arg2)) := by
  rw [HostRead.unary_at outs V 47 main_v34 main_v39 _ _ _ rfl (na 47 rfl) (nb 41 47 rfl (by decide)), e_v34 V] <;> rfl
theorem e_v40 : after (ops (F := Ideal)) V (Proc.devRef .tc main_v40) = Cert.ReferenceIdeal.ReadP.val_main_v40 (F := Ideal) (V (Proc.devRef .tc main_arg2)) := by
  rw [HostRead.unary_at outs V 48 main_v37 main_v40 _ _ _ rfl (na 48 rfl) (nb 45 48 rfl (by decide)), e_v37 V] <;> rfl
theorem e_v41 : after (ops (F := Ideal)) V (Proc.devRef .tc main_v41) = Cert.ReferenceIdeal.ReadP.val_main_v41 (F := Ideal) (V (Proc.devRef .tc main_arg2)) := by
  rw [HostRead.nary_at outs V 49 ![main_v38, main_v39, main_v40] main_v41 _ _ _ rfl (na 49 rfl)
    (fun i => match i with | ⟨0, _⟩ => nb 46 49 rfl (by decide) | ⟨1, _⟩ => nb 47 49 rfl (by decide) | ⟨2, _⟩ => nb 48 49 rfl (by decide))]
  show concatenate S400000x3 1 [⟨S400000x1, (after (ops (F := Ideal)) V (Proc.devRef .tc main_v38))⟩, ⟨S400000x1, (after (ops (F := Ideal)) V (Proc.devRef .tc main_v39))⟩, ⟨S400000x1, (after (ops (F := Ideal)) V (Proc.devRef .tc main_v40))⟩] concatenates_S400000x1_S400000x1_S400000x1_S400000x3_d1 = _
  rw [e_v38 V, e_v39 V, e_v40 V] <;> rfl
theorem e_v42 : after (ops (F := Ideal)) V (Proc.devRef .tc main_v42) = Cert.ReferenceIdeal.ReadP.val_main_v42 (F := Ideal) (V (Proc.devRef .tc main_arg2)) := by
  rw [HostRead.unary_at outs V 50 main_v41 main_v42 _ _ _ rfl (na 50 rfl) (nb 49 50 rfl (by decide)), e_v41 V] <;> rfl
theorem e_v43 : after (ops (F := Ideal)) V (Proc.devRef .tc main_v43) = Cert.ReferenceIdeal.ReadP.val_main_v43 (F := Ideal) (V (Proc.devRef .tc main_arg2)) := by
  rw [HostRead.unary_at outs V 51 main_v22 main_v43 _ _ _ rfl (na 51 rfl) (nb 26 51 rfl (by decide)), e_v22 V] <;> rfl
theorem e_v44 : after (ops (F := Ideal)) V (Proc.devRef .tc main_v44) = Cert.ReferenceIdeal.ReadP.val_main_v44 (F := Ideal) (V (Proc.devRef .tc main_arg2)) := by
  rw [HostRead.unary_at outs V 52 main_v42 main_v44 _ _ _ rfl (na 52 rfl) (nb 50 52 rfl (by decide)), e_v42 V] <;> rfl
theorem e_v45 : after (ops (F := Ideal)) V (Proc.devRef .tc main_v45) = Cert.ReferenceIdeal.ReadP.val_main_v45 (F := Ideal) (V (Proc.devRef .tc main_arg2)) := by
  rw [HostRead.unary_at outs V 53 main_v43 main_v45 _ _ _ rfl (na 53 rfl) (nb 51 53 rfl (by decide)), e_v43 V] <;> rfl
theorem e_v46 : after (ops (F := Ideal)) V (Proc.devRef .tc main_v46) = Cert.ReferenceIdeal.ReadP.val_main_v46 (F := Ideal) (V (Proc.devRef .tc main_arg2)) := by
  rw [HostRead.binary_at outs V 54 main_v44 main_v45 main_v46 _ _ _ _ rfl (na 54 rfl) (nb 52 54 rfl (by decide)) (nb 53 54 rfl (by decide)), e_v44 V, e_v45 V] <;> rfl
theorem e_v47 : after (ops (F := Ideal)) V (Proc.devRef .tc main_v47) = Cert.ReferenceIdeal.ReadP.val_main_v47 (F := Ideal) (V (Proc.devRef .tc main_arg2)) := by
  rw [HostRead.reshape_at outs V 55 main_v46 main_v47 _ _ _ _ rfl (na 55 rfl) (nb 54 55 rfl (by decide)), e_v46 V] <;> rfl
theorem e_c : after (ops (F := Ideal)) V (Proc.devRef .tc main_c) = Cert.ReferenceIdeal.ReadP.val_main_c (F := Ideal) := by
  rw [HostRead.nullary_at outs V 56 main_c _ _ rfl (na 56 rfl)] <;> rfl
theorem e_v48 : after (ops (F := Ideal)) V (Proc.devRef .tc main_v48) = Cert.ReferenceIdeal.ReadP.val_main_v48 (F := Ideal) := by
  rw [HostRead.unary_at outs V 57 main_c main_v48 _ _ _ rfl (na 57 rfl) (nb 56 57 rfl (by decide)), e_c V] <;> rfl
theorem e_v49 : after (ops (F := Ideal)) V (Proc.devRef .tc main_v49) = Cert.ReferenceIdeal.ReadP.val_main_v49 (F := Ideal) (V (Proc.devRef .tc main_arg1)) := by
  rw [HostRead.binary_at outs V 58 main_v1 main_v48 main_v49 _ _ _ _ rfl (na 58 rfl) (nb 1 58 rfl (by decide)) (nb 57 58 rfl (by decide)), e_v1 V, e_v48 V] <;> rfl
theorem e_c_7 : after (ops (F := Ideal)) V (Proc.devRef .tc main_c_7) = Cert.ReferenceIdeal.ReadP.val_main_c_7 (F := Ideal) := by
  rw [HostRead.nullary_at outs V 59 main_c_7 _ _ rfl (na 59 rfl)] <;> rfl
theorem e_v50 : after (ops (F := Ideal)) V (Proc.devRef .tc main_v50) = Cert.ReferenceIdeal.ReadP.val_main_v50 (F := Ideal) := by
  rw [HostRead.unary_at outs V 60 main_c_7 main_v50 _ _ _ rfl (na 60 rfl) (nb 59 60 rfl (by decide)), e_c_7 V] <;> rfl
theorem e_v51 : after (ops (F := Ideal)) V (Proc.devRef .tc main_v51) = Cert.ReferenceIdeal.ReadP.val_main_v51 (F := Ideal) (V (Proc.devRef .tc main_arg1)) := by
  rw [HostRead.binary_at outs V 61 main_v1 main_v50 main_v51 _ _ _ _ rfl (na 61 rfl) (nb 1 61 rfl (by decide)) (nb 60 61 rfl (by decide)), e_v1 V, e_v50 V] <;> rfl
theorem e_v52 : after (ops (F := Ideal)) V (Proc.devRef .tc main_v52) = Cert.ReferenceIdeal.ReadP.val_main_v52 (F := Ideal) (V (Proc.devRef .tc main_arg1)) := by
  rw [HostRead.ternary_at outs V 62 main_v49 main_v51 main_v1 main_v52 _ _ _ _ _ rfl (na 62 rfl) (nb 58 62 rfl (by decide)) (nb 61 62 rfl (by decide)) (nb 1 62 rfl (by decide)), e_v49 V, e_v51 V, e_v1 V] <;> rfl
theorem e_v53 : after (ops (F := Ideal)) V (Proc.devRef .tc main_v53) = Cert.ReferenceIdeal.ReadP.val_main_v53 (F := Ideal) (V (Proc.devRef .tc main_arg1)) := by
  rw [HostRead.unary_at outs V 63 main_v52 main_v53 _ _ _ rfl (na 63 rfl) (nb 62 63 rfl (by decide)), e_v52 V] <;> rfl
theorem e_v54 : after (ops (F := Ideal)) V (Proc.devRef .tc main_v54) = Cert.ReferenceIdeal.ReadP.val_main_v54 (F := Ideal) (V (Proc.devRef .tc main_arg0)) (V (Proc.devRef .tc main_arg1)) := by
  rw [HostRead.binary_at outs V 64 main_arg0 main_v53 main_v54 _ _ _ _ rfl (na 64 rfl) (narg n_arg0 64) (nb 63 64 rfl (by decide)), e_arg0 V, e_v53 V] <;> rfl
theorem e_cst_8 : after (ops (F := Ideal)) V (Proc.devRef .tc main_cst_8) = Cert.ReferenceIdeal.ReadP.val_main_cst_8 (F := Ideal) := by
  rw [HostRead.nullary_at outs V 65 main_cst_8 _ _ rfl (na 65 rfl)] <;> rfl
theorem e_v55 : after (ops (F := Ideal)) V (Proc.devRef .tc main_v55) = Cert.ReferenceIdeal.ReadP.val_main_v55 (F := Ideal) := by
  rw [HostRead.unary_at outs V 66 main_cst_8 main_v55 _ _ _ rfl (na 66 rfl) (nb 65 66 rfl (by decide)), e_cst_8 V] <;> rfl
theorem e_v56 : after (ops (F := Ideal)) V (Proc.devRef .tc main_v56) = Cert.ReferenceIdeal.ReadP.val_main_v56 (F := Ideal) (V (Proc.devRef .tc main_arg2)) := by
  rw [HostRead.unary_at outs V 67 main_v47 main_v56 _ _ _ rfl (na 67 rfl) (nb 55 67 rfl (by decide)), e_v47 V] <;> rfl
theorem e_v57 : after (ops (F := Ideal)) V (Proc.devRef .tc main_v57) = Cert.ReferenceIdeal.ReadP.val_main_v57 (F := Ideal) (V (Proc.devRef .tc main_arg2)) := by
  rw [HostRead.reshape_at outs V 68 main_v56 main_v57 _ _ _ _ rfl (na 68 rfl) (nb 67 68 rfl (by decide)), e_v56 V] <;> rfl
theorem e_v58 : after (ops (F := Ideal)) V (Proc.devRef .tc main_v58) = Cert.ReferenceIdeal.ReadP.val_main_v58 (F := Ideal) (V (Proc.devRef .tc main_arg2)) := by
  rw [HostRead.unary_at outs V 69 main_v57 main_v58 _ _ _ rfl (na 69 rfl) (nb 68 69 rfl (by decide)), e_v57 V] <;> rfl
theorem e_v59 : after (ops (F := Ideal)) V (Proc.devRef .tc main_v59) = Cert.ReferenceIdeal.ReadP.val_main_v59 (F := Ideal) (V (Proc.devRef .tc main_arg2)) := by
  rw [HostRead.unary_at outs V 70 main_v58 main_v59 _ _ _ rfl (na 70 rfl) (nb 69 70 rfl (by decide)), e_v58 V] <;> rfl
theorem e_v60 : after (ops (F := Ideal)) V (Proc.devRef .tc main_v60) = Cert.ReferenceIdeal.ReadP.val_main_v60 (F := Ideal) (V (Proc.devRef .tc main_arg0)) (V (Proc.devRef .tc main_arg1)) (V (Proc.devRef .tc main_arg2)) := by
  rw [HostRead.binary_at outs V 71 main_v54 main_v59 main_v60 _ _ _ _ rfl (na 71 rfl) (nb 64 71 rfl (by decide)) (nb 70 71 rfl (by decide)), e_v54 V, e_v59 V] <;> rfl
theorem e_v61 : after (ops (F := Ideal)) V (Proc.devRef .tc main_v61) = Cert.ReferenceIdeal.ReadP.val_main_v61 (F := Ideal) (V (Proc.devRef .tc main_arg4)) := by
  rw [HostRead.unary_at outs V 72 main_arg4 main_v61 _ _ _ rfl (na 72 rfl) (narg n_arg4 72), e_arg4 V] <;> rfl
theorem e_v62 : after (ops (F := Ideal)) V (Proc.devRef .tc main_v62) = Cert.ReferenceIdeal.ReadP.val_main_v62 (F := Ideal) (V (Proc.devRef .tc main_arg4)) := by
  rw [HostRead.reshape_at outs V 73 main_v61 main_v62 _ _ _ _ rfl (na 73 rfl) (nb 72 73 rfl (by decide)), e_v61 V] <;> rfl
theorem e_v63 : after (ops (F := Ideal)) V (Proc.devRef .tc main_v63) = Cert.ReferenceIdeal.ReadP.val_main_v63 (F := Ideal) (V (Proc.devRef .tc main_arg0)) (V (Proc.devRef .tc main_arg1)) (V (Proc.devRef .tc main_arg2)) (V (Proc.devRef .tc main_arg4)) := by
  rw [HostRead.binary_at outs V 74 main_v60 main_v62 main_v63 _ _ _ _ rfl (na 74 rfl) (nb 71 74 rfl (by decide)) (nb 73 74 rfl (by decide)), e_v60 V, e_v62 V] <;> rfl
theorem e_v64 : after (ops (F := Ideal)) V (Proc.devRef .tc main_v64) = Cert.ReferenceIdeal.ReadP.val_main_v64 (F := Ideal) (V (Proc.devRef .tc main_arg0)) (V (Proc.devRef .tc main_arg1)) (V (Proc.devRef .tc main_arg2)) (V (Proc.devRef .tc main_arg4)) := by
  rw [HostRead.binary_at outs V 75 main_v55 main_v63 main_v64 _ _ _ _ rfl (na 75 rfl) (nb 66 75 rfl (by decide)) (nb 74 75 rfl (by decide)), e_v55 V, e_v63 V] <;> rfl
theorem e_v65 : after (ops (F := Ideal)) V (Proc.devRef .tc main_v65) = Cert.ReferenceIdeal.ReadP.val_main_v65 (F := Ideal) (V (Proc.devRef .tc main_arg2)) := by
  rw [HostRead.unary_at outs V 76 main_v47 main_v65 _ _ _ rfl (na 76 rfl) (nb 55 76 rfl (by decide)), e_v47 V] <;> rfl
theorem e_v66 : after (ops (F := Ideal)) V (Proc.devRef .tc main_v66) = Cert.ReferenceIdeal.ReadP.val_main_v66 (F := Ideal) (V (Proc.devRef .tc main_arg2)) := by
  rw [HostRead.reshape_at outs V 77 main_v65 main_v66 _ _ _ _ rfl (na 77 rfl) (nb 76 77 rfl (by decide)), e_v65 V] <;> rfl
theorem e_v67 : after (ops (F := Ideal)) V (Proc.devRef .tc main_v67) = Cert.ReferenceIdeal.ReadP.val_main_v67 (F := Ideal) (V (Proc.devRef .tc main_arg2)) := by
  rw [HostRead.unary_at outs V 78 main_v66 main_v67 _ _ _ rfl (na 78 rfl) (nb 77 78 rfl (by decide)), e_v66 V] <;> rfl
theorem e_v68 : after (ops (F := Ideal)) V (Proc.devRef .tc main_v68) = Cert.ReferenceIdeal.ReadP.val_main_v68 (F := Ideal) (V (Proc.devRef .tc main_arg2)) := by
  rw [HostRead.unary_at outs V 79 main_v67 main_v68 _ _ _ rfl (na 79 rfl) (nb 78 79 rfl (by decide)), e_v67 V] <;> rfl
theorem e_v69 : after (ops (F := Ideal)) V (Proc.devRef .tc main_v69) = Cert.ReferenceIdeal.ReadP.val_main_v69 (F := Ideal) (V (Proc.devRef .tc main_arg0)) (V (Proc.devRef .tc main_arg1)) (V (Proc.devRef .tc main_arg2)) := by
  rw [HostRead.binary_at outs V 80 main_v54 main_v68 main_v69 _ _ _ _ rfl (na 80 rfl) (nb 64 80 rfl (by decide)) (nb 79 80 rfl (by decide)), e_v54 V, e_v68 V] <;> rfl
theorem e_v70 : after (ops (F := Ideal)) V (Proc.devRef .tc main_v70) = Cert.ReferenceIdeal.ReadP.val_main_v70 (F := Ideal) (V (Proc.devRef .tc main_arg4)) := by
  rw [HostRead.unary_at outs V 81 main_arg4 main_v70 _ _ _ rfl (na 81 rfl) (narg n_arg4 81), e_arg4 V] <;> rfl
theorem e_v71 : after (ops (F := Ideal)) V (Proc.devRef .tc main_v71) = Cert.ReferenceIdeal.ReadP.val_main_v71 (F := Ideal) (V (Proc.devRef .tc main_arg4)) := by
  rw [HostRead.reshape_at outs V 82 main_v70 main_v71 _ _ _ _ rfl (na 82 rfl) (nb 81 82 rfl (by decide)), e_v70 V] <;> rfl
theorem e_v72 : after (ops (F := Ideal)) V (Proc.devRef .tc main_v72) = Cert.ReferenceIdeal.ReadP.val_main_v72 (F := Ideal) (V (Proc.devRef .tc main_arg0)) (V (Proc.devRef .tc main_arg1)) (V (Proc.devRef .tc main_arg2)) (V (Proc.devRef .tc main_arg4)) := by
  rw [HostRead.binary_at outs V 83 main_v69 main_v71 main_v72 _ _ _ _ rfl (na 83 rfl) (nb 80 83 rfl (by decide)) (nb 82 83 rfl (by decide)), e_v69 V, e_v71 V] <;> rfl
theorem e_v73 : after (ops (F := Ideal)) V (Proc.devRef .tc main_v73) = Cert.ReferenceIdeal.ReadP.val_main_v73 (F := Ideal) (V (Proc.devRef .tc main_arg0)) (V (Proc.devRef .tc main_arg1)) (V (Proc.devRef .tc main_arg2)) (V (Proc.devRef .tc main_arg4)) := by
  rw [HostRead.binary_at outs V 84 main_v64 main_v72 main_v73 _ _ _ _ rfl (na 84 rfl) (nb 75 84 rfl (by decide)) (nb 83 84 rfl (by decide)), e_v64 V, e_v72 V] <;> rfl
theorem e_v74 : after (ops (F := Ideal)) V (Proc.devRef .tc main_v74) = Cert.ReferenceIdeal.ReadP.val_main_v74 (F := Ideal) (V (Proc.devRef .tc main_arg2)) := by
  rw [HostRead.unary_at outs V 85 main_v47 main_v74 _ _ _ rfl (na 85 rfl) (nb 55 85 rfl (by decide)), e_v47 V] <;> rfl
theorem e_v75 : after (ops (F := Ideal)) V (Proc.devRef .tc main_v75) = Cert.ReferenceIdeal.ReadP.val_main_v75 (F := Ideal) (V (Proc.devRef .tc main_arg2)) := by
  rw [HostRead.reshape_at outs V 86 main_v74 main_v75 _ _ _ _ rfl (na 86 rfl) (nb 85 86 rfl (by decide)), e_v74 V] <;> rfl
theorem e_v76 : after (ops (F := Ideal)) V (Proc.devRef .tc main_v76) = Cert.ReferenceIdeal.ReadP.val_main_v76 (F := Ideal) (V (Proc.devRef .tc main_arg2)) := by
  rw [HostRead.unary_at outs V 87 main_v75 main_v76 _ _ _ rfl (na 87 rfl) (nb 86 87 rfl (by decide)), e_v75 V] <;> rfl
theorem e_v77 : after (ops (F := Ideal)) V (Proc.devRef .tc main_v77) = Cert.ReferenceIdeal.ReadP.val_main_v77 (F := Ideal) (V (Proc.devRef .tc main_arg2)) := by
  rw [HostRead.unary_at outs V 88 main_v76 main_v77 _ _ _ rfl (na 88 rfl) (nb 87 88 rfl (by decide)), e_v76 V] <;> rfl
theorem e_v78 : after (ops (F := Ideal)) V (Proc.devRef .tc main_v78) = Cert.ReferenceIdeal.ReadP.val_main_v78 (F := Ideal) (V (Proc.devRef .tc main_arg0)) (V (Proc.devRef .tc main_arg1)) (V (Proc.devRef .tc main_arg2)) := by
  rw [HostRead.binary_at outs V 89 main_v54 main_v77 main_v78 _ _ _ _ rfl (na 89 rfl) (nb 64 89 rfl (by decide)) (nb 88 89 rfl (by decide)), e_v54 V, e_v77 V] <;> rfl
theorem e_v79 : after (ops (F := Ideal)) V (Proc.devRef .tc main_v79) = Cert.ReferenceIdeal.ReadP.val_main_v79 (F := Ideal) (V (Proc.devRef .tc main_arg4)) := by
  rw [HostRead.unary_at outs V 90 main_arg4 main_v79 _ _ _ rfl (na 90 rfl) (narg n_arg4 90), e_arg4 V] <;> rfl
theorem e_v80 : after (ops (F := Ideal)) V (Proc.devRef .tc main_v80) = Cert.ReferenceIdeal.ReadP.val_main_v80 (F := Ideal) (V (Proc.devRef .tc main_arg4)) := by
  rw [HostRead.reshape_at outs V 91 main_v79 main_v80 _ _ _ _ rfl (na 91 rfl) (nb 90 91 rfl (by decide)), e_v79 V] <;> rfl
theorem e_v81 : after (ops (F := Ideal)) V (Proc.devRef .tc main_v81) = Cert.ReferenceIdeal.ReadP.val_main_v81 (F := Ideal) (V (Proc.devRef .tc main_arg0)) (V (Proc.devRef .tc main_arg1)) (V (Proc.devRef .tc main_arg2)) (V (Proc.devRef .tc main_arg4)) := by
  rw [HostRead.binary_at outs V 92 main_v78 main_v80 main_v81 _ _ _ _ rfl (na 92 rfl) (nb 89 92 rfl (by decide)) (nb 91 92 rfl (by decide)), e_v78 V, e_v80 V] <;> rfl
theorem e_v82 : after (ops (F := Ideal)) V (Proc.devRef .tc main_v82) = Cert.ReferenceIdeal.ReadP.val_main_v82 (F := Ideal) (V (Proc.devRef .tc main_arg0)) (V (Proc.devRef .tc main_arg1)) (V (Proc.devRef .tc main_arg2)) (V (Proc.devRef .tc main_arg4)) := by
  rw [HostRead.binary_at outs V 93 main_v73 main_v81 main_v82 _ _ _ _ rfl (na 93 rfl) (nb 84 93 rfl (by decide)) (nb 92 93 rfl (by decide)), e_v73 V, e_v81 V] <;> rfl
theorem e_v83 : after (ops (F := Ideal)) V (Proc.devRef .tc main_v83) = Cert.ReferenceIdeal.ReadP.val_main_v83 (F := Ideal) (V (Proc.devRef .tc main_arg2)) := by
  rw [HostRead.unary_at outs V 94 main_v47 main_v83 _ _ _ rfl (na 94 rfl) (nb 55 94 rfl (by decide)), e_v47 V] <;> rfl
theorem e_v84 : after (ops (F := Ideal)) V (Proc.devRef .tc main_v84) = Cert.ReferenceIdeal.ReadP.val_main_v84 (F := Ideal) (V (Proc.devRef .tc main_arg2)) := by
  rw [HostRead.reshape_at outs V 95 main_v83 main_v84 _ _ _ _ rfl (na 95 rfl) (nb 94 95 rfl (by decide)), e_v83 V] <;> rfl
theorem e_v85 : after (ops (F := Ideal)) V (Proc.devRef .tc main_v85) = Cert.ReferenceIdeal.ReadP.val_main_v85 (F := Ideal) (V (Proc.devRef .tc main_arg2)) := by
  rw [HostRead.unary_at outs V 96 main_v84 main_v85 _ _ _ rfl (na 96 rfl) (nb 95 96 rfl (by decide)), e_v84 V] <;> rfl
theorem e_v86 : after (ops (F := Ideal)) V (Proc.devRef .tc main_v86) = Cert.ReferenceIdeal.ReadP.val_main_v86 (F := Ideal) (V (Proc.devRef .tc main_arg2)) := by
  rw [HostRead.unary_at outs V 97 main_v85 main_v86 _ _ _ rfl (na 97 rfl) (nb 96 97 rfl (by decide)), e_v85 V] <;> rfl
theorem e_v87 : after (ops (F := Ideal)) V (Proc.devRef .tc main_v87) = Cert.ReferenceIdeal.ReadP.val_main_v87 (F := Ideal) (V (Proc.devRef .tc main_arg0)) (V (Proc.devRef .tc main_arg1)) (V (Proc.devRef .tc main_arg2)) := by
  rw [HostRead.binary_at outs V 98 main_v54 main_v86 main_v87 _ _ _ _ rfl (na 98 rfl) (nb 64 98 rfl (by decide)) (nb 97 98 rfl (by decide)), e_v54 V, e_v86 V] <;> rfl
theorem e_v88 : after (ops (F := Ideal)) V (Proc.devRef .tc main_v88) = Cert.ReferenceIdeal.ReadP.val_main_v88 (F := Ideal) (V (Proc.devRef .tc main_arg4)) := by
  rw [HostRead.unary_at outs V 99 main_arg4 main_v88 _ _ _ rfl (na 99 rfl) (narg n_arg4 99), e_arg4 V] <;> rfl
theorem e_v89 : after (ops (F := Ideal)) V (Proc.devRef .tc main_v89) = Cert.ReferenceIdeal.ReadP.val_main_v89 (F := Ideal) (V (Proc.devRef .tc main_arg4)) := by
  rw [HostRead.reshape_at outs V 100 main_v88 main_v89 _ _ _ _ rfl (na 100 rfl) (nb 99 100 rfl (by decide)), e_v88 V] <;> rfl
theorem e_v90 : after (ops (F := Ideal)) V (Proc.devRef .tc main_v90) = Cert.ReferenceIdeal.ReadP.val_main_v90 (F := Ideal) (V (Proc.devRef .tc main_arg0)) (V (Proc.devRef .tc main_arg1)) (V (Proc.devRef .tc main_arg2)) (V (Proc.devRef .tc main_arg4)) := by
  rw [HostRead.binary_at outs V 101 main_v87 main_v89 main_v90 _ _ _ _ rfl (na 101 rfl) (nb 98 101 rfl (by decide)) (nb 100 101 rfl (by decide)), e_v87 V, e_v89 V] <;> rfl
theorem e_v91 : after (ops (F := Ideal)) V (Proc.devRef .tc main_v91) = Cert.ReferenceIdeal.ReadP.val_main_v91 (F := Ideal) (V (Proc.devRef .tc main_arg0)) (V (Proc.devRef .tc main_arg1)) (V (Proc.devRef .tc main_arg2)) (V (Proc.devRef .tc main_arg4)) := by
  rw [HostRead.binary_at outs V 102 main_v82 main_v90 main_v91 _ _ _ _ rfl (na 102 rfl) (nb 93 102 rfl (by decide)) (nb 101 102 rfl (by decide)), e_v82 V, e_v90 V] <;> rfl
theorem e_v92 : after (ops (F := Ideal)) V (Proc.devRef .tc main_v92) = Cert.ReferenceIdeal.ReadP.val_main_v92 (F := Ideal) (V (Proc.devRef .tc main_arg2)) := by
  rw [HostRead.unary_at outs V 103 main_v47 main_v92 _ _ _ rfl (na 103 rfl) (nb 55 103 rfl (by decide)), e_v47 V] <;> rfl
theorem e_v93 : after (ops (F := Ideal)) V (Proc.devRef .tc main_v93) = Cert.ReferenceIdeal.ReadP.val_main_v93 (F := Ideal) (V (Proc.devRef .tc main_arg2)) := by
  rw [HostRead.reshape_at outs V 104 main_v92 main_v93 _ _ _ _ rfl (na 104 rfl) (nb 103 104 rfl (by decide)), e_v92 V] <;> rfl
theorem e_v94 : after (ops (F := Ideal)) V (Proc.devRef .tc main_v94) = Cert.ReferenceIdeal.ReadP.val_main_v94 (F := Ideal) (V (Proc.devRef .tc main_arg2)) := by
  rw [HostRead.unary_at outs V 105 main_v93 main_v94 _ _ _ rfl (na 105 rfl) (nb 104 105 rfl (by decide)), e_v93 V] <;> rfl
theorem e_v95 : after (ops (F := Ideal)) V (Proc.devRef .tc main_v95) = Cert.ReferenceIdeal.ReadP.val_main_v95 (F := Ideal) (V (Proc.devRef .tc main_arg2)) := by
  rw [HostRead.unary_at outs V 106 main_v94 main_v95 _ _ _ rfl (na 106 rfl) (nb 105 106 rfl (by decide)), e_v94 V] <;> rfl
theorem e_v96 : after (ops (F := Ideal)) V (Proc.devRef .tc main_v96) = Cert.ReferenceIdeal.ReadP.val_main_v96 (F := Ideal) (V (Proc.devRef .tc main_arg0)) (V (Proc.devRef .tc main_arg1)) (V (Proc.devRef .tc main_arg2)) := by
  rw [HostRead.binary_at outs V 107 main_v54 main_v95 main_v96 _ _ _ _ rfl (na 107 rfl) (nb 64 107 rfl (by decide)) (nb 106 107 rfl (by decide)), e_v54 V, e_v95 V] <;> rfl
theorem e_v97 : after (ops (F := Ideal)) V (Proc.devRef .tc main_v97) = Cert.ReferenceIdeal.ReadP.val_main_v97 (F := Ideal) (V (Proc.devRef .tc main_arg4)) := by
  rw [HostRead.unary_at outs V 108 main_arg4 main_v97 _ _ _ rfl (na 108 rfl) (narg n_arg4 108), e_arg4 V] <;> rfl
theorem e_v98 : after (ops (F := Ideal)) V (Proc.devRef .tc main_v98) = Cert.ReferenceIdeal.ReadP.val_main_v98 (F := Ideal) (V (Proc.devRef .tc main_arg4)) := by
  rw [HostRead.reshape_at outs V 109 main_v97 main_v98 _ _ _ _ rfl (na 109 rfl) (nb 108 109 rfl (by decide)), e_v97 V] <;> rfl
theorem e_v99 : after (ops (F := Ideal)) V (Proc.devRef .tc main_v99) = Cert.ReferenceIdeal.ReadP.val_main_v99 (F := Ideal) (V (Proc.devRef .tc main_arg0)) (V (Proc.devRef .tc main_arg1)) (V (Proc.devRef .tc main_arg2)) (V (Proc.devRef .tc main_arg4)) := by
  rw [HostRead.binary_at outs V 110 main_v96 main_v98 main_v99 _ _ _ _ rfl (na 110 rfl) (nb 107 110 rfl (by decide)) (nb 109 110 rfl (by decide)), e_v96 V, e_v98 V] <;> rfl
theorem e_v100 : after (ops (F := Ideal)) V (Proc.devRef .tc main_v100) = Cert.ReferenceIdeal.ReadP.val_main_v100 (F := Ideal) (V (Proc.devRef .tc main_arg0)) (V (Proc.devRef .tc main_arg1)) (V (Proc.devRef .tc main_arg2)) (V (Proc.devRef .tc main_arg4)) := by
  rw [HostRead.binary_at outs V 111 main_v91 main_v99 main_v100 _ _ _ _ rfl (na 111 rfl) (nb 102 111 rfl (by decide)) (nb 110 111 rfl (by decide)), e_v91 V, e_v99 V] <;> rfl
theorem e_v101 : after (ops (F := Ideal)) V (Proc.devRef .tc main_v101) = Cert.ReferenceIdeal.ReadP.val_main_v101 (F := Ideal) (V (Proc.devRef .tc main_arg2)) := by
  rw [HostRead.unary_at outs V 112 main_v47 main_v101 _ _ _ rfl (na 112 rfl) (nb 55 112 rfl (by decide)), e_v47 V] <;> rfl
theorem e_v102 : after (ops (F := Ideal)) V (Proc.devRef .tc main_v102) = Cert.ReferenceIdeal.ReadP.val_main_v102 (F := Ideal) (V (Proc.devRef .tc main_arg2)) := by
  rw [HostRead.reshape_at outs V 113 main_v101 main_v102 _ _ _ _ rfl (na 113 rfl) (nb 112 113 rfl (by decide)), e_v101 V] <;> rfl
theorem e_v103 : after (ops (F := Ideal)) V (Proc.devRef .tc main_v103) = Cert.ReferenceIdeal.ReadP.val_main_v103 (F := Ideal) (V (Proc.devRef .tc main_arg2)) := by
  rw [HostRead.unary_at outs V 114 main_v102 main_v103 _ _ _ rfl (na 114 rfl) (nb 113 114 rfl (by decide)), e_v102 V] <;> rfl
theorem e_v104 : after (ops (F := Ideal)) V (Proc.devRef .tc main_v104) = Cert.ReferenceIdeal.ReadP.val_main_v104 (F := Ideal) (V (Proc.devRef .tc main_arg2)) := by
  rw [HostRead.unary_at outs V 115 main_v103 main_v104 _ _ _ rfl (na 115 rfl) (nb 114 115 rfl (by decide)), e_v103 V] <;> rfl
theorem e_v105 : after (ops (F := Ideal)) V (Proc.devRef .tc main_v105) = Cert.ReferenceIdeal.ReadP.val_main_v105 (F := Ideal) (V (Proc.devRef .tc main_arg0)) (V (Proc.devRef .tc main_arg1)) (V (Proc.devRef .tc main_arg2)) := by
  rw [HostRead.binary_at outs V 116 main_v54 main_v104 main_v105 _ _ _ _ rfl (na 116 rfl) (nb 64 116 rfl (by decide)) (nb 115 116 rfl (by decide)), e_v54 V, e_v104 V] <;> rfl
theorem e_v106 : after (ops (F := Ideal)) V (Proc.devRef .tc main_v106) = Cert.ReferenceIdeal.ReadP.val_main_v106 (F := Ideal) (V (Proc.devRef .tc main_arg4)) := by
  rw [HostRead.unary_at outs V 117 main_arg4 main_v106 _ _ _ rfl (na 117 rfl) (narg n_arg4 117), e_arg4 V] <;> rfl
theorem e_v107 : after (ops (F := Ideal)) V (Proc.devRef .tc main_v107) = Cert.ReferenceIdeal.ReadP.val_main_v107 (F := Ideal) (V (Proc.devRef .tc main_arg4)) := by
  rw [HostRead.reshape_at outs V 118 main_v106 main_v107 _ _ _ _ rfl (na 118 rfl) (nb 117 118 rfl (by decide)), e_v106 V] <;> rfl
theorem e_v108 : after (ops (F := Ideal)) V (Proc.devRef .tc main_v108) = Cert.ReferenceIdeal.ReadP.val_main_v108 (F := Ideal) (V (Proc.devRef .tc main_arg0)) (V (Proc.devRef .tc main_arg1)) (V (Proc.devRef .tc main_arg2)) (V (Proc.devRef .tc main_arg4)) := by
  rw [HostRead.binary_at outs V 119 main_v105 main_v107 main_v108 _ _ _ _ rfl (na 119 rfl) (nb 116 119 rfl (by decide)) (nb 118 119 rfl (by decide)), e_v105 V, e_v107 V] <;> rfl

end Cert.ReferenceIdeal.RefRun

end
-- ==== Proof.RefSsa2.lean ====
/- A table of cases.
  The reference program's line of host operations, one equation per operation, continued (part 2 of 3).
-/
import proofs.«124089_j37623913513299_2_alg».proof.Proof.RefSsa

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable (V : Valuation τ sig (Elt Ideal))

theorem e_v109 : after (ops (F := Ideal)) V (Proc.devRef .tc main_v109) = Cert.ReferenceIdeal.ReadP.val_main_v109 (F := Ideal) (V (Proc.devRef .tc main_arg0)) (V (Proc.devRef .tc main_arg1)) (V (Proc.devRef .tc main_arg2)) (V (Proc.devRef .tc main_arg4)) := by
  rw [HostRead.binary_at outs V 120 main_v100 main_v108 main_v109 _ _ _ _ rfl (na 120 rfl) (nb 111 120 rfl (by decide)) (nb 119 120 rfl (by decide)), e_v100 V, e_v108 V] <;> rfl
theorem e_v110 : after (ops (F := Ideal)) V (Proc.devRef .tc main_v110) = Cert.ReferenceIdeal.ReadP.val_main_v110 (F := Ideal) (V (Proc.devRef .tc main_arg2)) := by
  rw [HostRead.unary_at outs V 121 main_v47 main_v110 _ _ _ rfl (na 121 rfl) (nb 55 121 rfl (by decide)), e_v47 V] <;> rfl
theorem e_v111 : after (ops (F := Ideal)) V (Proc.devRef .tc main_v111) = Cert.ReferenceIdeal.ReadP.val_main_v111 (F := Ideal) (V (Proc.devRef .tc main_arg2)) := by
  rw [HostRead.reshape_at outs V 122 main_v110 main_v111 _ _ _ _ rfl (na 122 rfl) (nb 121 122 rfl (by decide)), e_v110 V] <;> rfl
theorem e_v112 : after (ops (F := Ideal)) V (Proc.devRef .tc main_v112) = Cert.ReferenceIdeal.ReadP.val_main_v112 (F := Ideal) (V (Proc.devRef .tc main_arg2)) := by
  rw [HostRead.unary_at outs V 123 main_v111 main_v112 _ _ _ rfl (na 123 rfl) (nb 122 123 rfl (by decide)), e_v111 V] <;> rfl
theorem e_v113 : after (ops (F := Ideal)) V (Proc.devRef .tc main_v113) = Cert.ReferenceIdeal.ReadP.val_main_v113 (F := Ideal) (V (Proc.devRef .tc main_arg2)) := by
  rw [HostRead.unary_at outs V 124 main_v112 main_v113 _ _ _ rfl (na 124 rfl) (nb 123 124 rfl (by decide)), e_v112 V] <;> rfl
theorem e_v114 : after (ops (F := Ideal)) V (Proc.devRef .tc main_v114) = Cert.ReferenceIdeal.ReadP.val_main_v114 (F := Ideal) (V (Proc.devRef .tc main_arg0)) (V (Proc.devRef .tc main_arg1)) (V (Proc.devRef .tc main_arg2)) := by
  rw [HostRead.binary_at outs V 125 main_v54 main_v113 main_v114 _ _ _ _ rfl (na 125 rfl) (nb 64 125 rfl (by decide)) (nb 124 125 rfl (by decide)), e_v54 V, e_v113 V] <;> rfl
theorem e_v115 : after (ops (F := Ideal)) V (Proc.devRef .tc main_v115) = Cert.ReferenceIdeal.ReadP.val_main_v115 (F := Ideal) (V (Proc.devRef .tc main_arg4)) := by
  rw [HostRead.unary_at outs V 126 main_arg4 main_v115 _ _ _ rfl (na 126 rfl) (narg n_arg4 126), e_arg4 V] <;> rfl
theorem e_v116 : after (ops (F := Ideal)) V (Proc.devRef .tc main_v116) = Cert.ReferenceIdeal.ReadP.val_main_v116 (F := Ideal) (V (Proc.devRef .tc main_arg4)) := by
  rw [HostRead.reshape_at outs V 127 main_v115 main_v116 _ _ _ _ rfl (na 127 rfl) (nb 126 127 rfl (by decide)), e_v115 V] <;> rfl
theorem e_v117 : after (ops (F := Ideal)) V (Proc.devRef .tc main_v117) = Cert.ReferenceIdeal.ReadP.val_main_v117 (F := Ideal) (V (Proc.devRef .tc main_arg0)) (V (Proc.devRef .tc main_arg1)) (V (Proc.devRef .tc main_arg2)) (V (Proc.devRef .tc main_arg4)) := by
  rw [HostRead.binary_at outs V 128 main_v114 main_v116 main_v117 _ _ _ _ rfl (na 128 rfl) (nb 125 128 rfl (by decide)) (nb 127 128 rfl (by decide)), e_v114 V, e_v116 V] <;> rfl
theorem e_v118 : after (ops (F := Ideal)) V (Proc.devRef .tc main_v118) = Cert.ReferenceIdeal.ReadP.val_main_v118 (F := Ideal) (V (Proc.devRef .tc main_arg0)) (V (Proc.devRef .tc main_arg1)) (V (Proc.devRef .tc main_arg2)) (V (Proc.devRef .tc main_arg4)) := by
  rw [HostRead.binary_at outs V 129 main_v109 main_v117 main_v118 _ _ _ _ rfl (na 129 rfl) (nb 120 129 rfl (by decide)) (nb 128 129 rfl (by decide)), e_v109 V, e_v117 V] <;> rfl
theorem e_v119 : after (ops (F := Ideal)) V (Proc.devRef .tc main_v119) = Cert.ReferenceIdeal.ReadP.val_main_v119 (F := Ideal) (V (Proc.devRef .tc main_arg2)) := by
  rw [HostRead.unary_at outs V 130 main_v47 main_v119 _ _ _ rfl (na 130 rfl) (nb 55 130 rfl (by decide)), e_v47 V] <;> rfl
theorem e_v120 : after (ops (F := Ideal)) V (Proc.devRef .tc main_v120) = Cert.ReferenceIdeal.ReadP.val_main_v120 (F := Ideal) (V (Proc.devRef .tc main_arg2)) := by
  rw [HostRead.reshape_at outs V 131 main_v119 main_v120 _ _ _ _ rfl (na 131 rfl) (nb 130 131 rfl (by decide)), e_v119 V] <;> rfl
theorem e_v121 : after (ops (F := Ideal)) V (Proc.devRef .tc main_v121) = Cert.ReferenceIdeal.ReadP.val_main_v121 (F := Ideal) (V (Proc.devRef .tc main_arg2)) := by
  rw [HostRead.unary_at outs V 132 main_v120 main_v121 _ _ _ rfl (na 132 rfl) (nb 131 132 rfl (by decide)), e_v120 V] <;> rfl
theorem e_v122 : after (ops (F := Ideal)) V (Proc.devRef .tc main_v122) = Cert.ReferenceIdeal.ReadP.val_main_v122 (F := Ideal) (V (Proc.devRef .tc main_arg2)) := by
  rw [HostRead.unary_at outs V 133 main_v121 main_v122 _ _ _ rfl (na 133 rfl) (nb 132 133 rfl (by decide)), e_v121 V] <;> rfl
theorem e_v123 : after (ops (F := Ideal)) V (Proc.devRef .tc main_v123) = Cert.ReferenceIdeal.ReadP.val_main_v123 (F := Ideal) (V (Proc.devRef .tc main_arg0)) (V (Proc.devRef .tc main_arg1)) (V (Proc.devRef .tc main_arg2)) := by
  rw [HostRead.binary_at outs V 134 main_v54 main_v122 main_v123 _ _ _ _ rfl (na 134 rfl) (nb 64 134 rfl (by decide)) (nb 133 134 rfl (by decide)), e_v54 V, e_v122 V] <;> rfl
theorem e_v124 : after (ops (F := Ideal)) V (Proc.devRef .tc main_v124) = Cert.ReferenceIdeal.ReadP.val_main_v124 (F := Ideal) (V (Proc.devRef .tc main_arg4)) := by
  rw [HostRead.unary_at outs V 135 main_arg4 main_v124 _ _ _ rfl (na 135 rfl) (narg n_arg4 135), e_arg4 V] <;> rfl
theorem e_v125 : after (ops (F := Ideal)) V (Proc.devRef .tc main_v125) = Cert.ReferenceIdeal.ReadP.val_main_v125 (F := Ideal) (V (Proc.devRef .tc main_arg4)) := by
  rw [HostRead.reshape_at outs V 136 main_v124 main_v125 _ _ _ _ rfl (na 136 rfl) (nb 135 136 rfl (by decide)), e_v124 V] <;> rfl
theorem e_v126 : after (ops (F := Ideal)) V (Proc.devRef .tc main_v126) = Cert.ReferenceIdeal.ReadP.val_main_v126 (F := Ideal) (V (Proc.devRef .tc main_arg0)) (V (Proc.devRef .tc main_arg1)) (V (Proc.devRef .tc main_arg2)) (V (Proc.devRef .tc main_arg4)) := by
  rw [HostRead.binary_at outs V 137 main_v123 main_v125 main_v126 _ _ _ _ rfl (na 137 rfl) (nb 134 137 rfl (by decide)) (nb 136 137 rfl (by decide)), e_v123 V, e_v125 V] <;> rfl
theorem e_v127 : after (ops (F := Ideal)) V (Proc.devRef .tc main_v127) = Cert.ReferenceIdeal.ReadP.val_main_v127 (F := Ideal) (V (Proc.devRef .tc main_arg0)) (V (Proc.devRef .tc main_arg1)) (V (Proc.devRef .tc main_arg2)) (V (Proc.devRef .tc main_arg4)) := by
  rw [HostRead.binary_at outs V 138 main_v118 main_v126 main_v127 _ _ _ _ rfl (na 138 rfl) (nb 129 138 rfl (by decide)) (nb 137 138 rfl (by decide)), e_v118 V, e_v126 V] <;> rfl
theorem e_v128 : after (ops (F := Ideal)) V (Proc.devRef .tc main_v128) = Cert.ReferenceIdeal.ReadP.val_main_v128 (F := Ideal) (V (Proc.devRef .tc main_arg2)) := by
  rw [HostRead.unary_at outs V 139 main_v47 main_v128 _ _ _ rfl (na 139 rfl) (nb 55 139 rfl (by decide)), e_v47 V] <;> rfl
theorem e_v129 : after (ops (F := Ideal)) V (Proc.devRef .tc main_v129) = Cert.ReferenceIdeal.ReadP.val_main_v129 (F := Ideal) (V (Proc.devRef .tc main_arg2)) := by
  rw [HostRead.reshape_at outs V 140 main_v128 main_v129 _ _ _ _ rfl (na 140 rfl) (nb 139 140 rfl (by decide)), e_v128 V] <;> rfl
theorem e_v130 : after (ops (F := Ideal)) V (Proc.devRef .tc main_v130) = Cert.ReferenceIdeal.ReadP.val_main_v130 (F := Ideal) (V (Proc.devRef .tc main_arg2)) := by
  rw [HostRead.unary_at outs V 141 main_v129 main_v130 _ _ _ rfl (na 141 rfl) (nb 140 141 rfl (by decide)), e_v129 V] <;> rfl
theorem e_v131 : after (ops (F := Ideal)) V (Proc.devRef .tc main_v131) = Cert.ReferenceIdeal.ReadP.val_main_v131 (F := Ideal) (V (Proc.devRef .tc main_arg2)) := by
  rw [HostRead.unary_at outs V 142 main_v130 main_v131 _ _ _ rfl (na 142 rfl) (nb 141 142 rfl (by decide)), e_v130 V] <;> rfl
theorem e_v132 : after (ops (F := Ideal)) V (Proc.devRef .tc main_v132) = Cert.ReferenceIdeal.ReadP.val_main_v132 (F := Ideal) (V (Proc.devRef .tc main_arg0)) (V (Proc.devRef .tc main_arg1)) (V (Proc.devRef .tc main_arg2)) := by
  rw [HostRead.binary_at outs V 143 main_v54 main_v131 main_v132 _ _ _ _ rfl (na 143 rfl) (nb 64 143 rfl (by decide)) (nb 142 143 rfl (by decide)), e_v54 V, e_v131 V] <;> rfl
theorem e_v133 : after (ops (F := Ideal)) V (Proc.devRef .tc main_v133) = Cert.ReferenceIdeal.ReadP.val_main_v133 (F := Ideal) (V (Proc.devRef .tc main_arg4)) := by
  rw [HostRead.unary_at outs V 144 main_arg4 main_v133 _ _ _ rfl (na 144 rfl) (narg n_arg4 144), e_arg4 V] <;> rfl
theorem e_v134 : after (ops (F := Ideal)) V (Proc.devRef .tc main_v134) = Cert.ReferenceIdeal.ReadP.val_main_v134 (F := Ideal) (V (Proc.devRef .tc main_arg4)) := by
  rw [HostRead.reshape_at outs V 145 main_v133 main_v134 _ _ _ _ rfl (na 145 rfl) (nb 144 145 rfl (by decide)), e_v133 V] <;> rfl
theorem e_v135 : after (ops (F := Ideal)) V (Proc.devRef .tc main_v135) = Cert.ReferenceIdeal.ReadP.val_main_v135 (F := Ideal) (V (Proc.devRef .tc main_arg0)) (V (Proc.devRef .tc main_arg1)) (V (Proc.devRef .tc main_arg2)) (V (Proc.devRef .tc main_arg4)) := by
  rw [HostRead.binary_at outs V 146 main_v132 main_v134 main_v135 _ _ _ _ rfl (na 146 rfl) (nb 143 146 rfl (by decide)) (nb 145 146 rfl (by decide)), e_v132 V, e_v134 V] <;> rfl
theorem e_v136 : after (ops (F := Ideal)) V (Proc.devRef .tc main_v136) = Cert.ReferenceIdeal.ReadP.val_main_v136 (F := Ideal) (V (Proc.devRef .tc main_arg0)) (V (Proc.devRef .tc main_arg1)) (V (Proc.devRef .tc main_arg2)) (V (Proc.devRef .tc main_arg4)) := by
  rw [HostRead.binary_at outs V 147 main_v127 main_v135 main_v136 _ _ _ _ rfl (na 147 rfl) (nb 138 147 rfl (by decide)) (nb 146 147 rfl (by decide)), e_v127 V, e_v135 V] <;> rfl
theorem e_cst_9 : after (ops (F := Ideal)) V (Proc.devRef .tc main_cst_9) = Cert.ReferenceIdeal.ReadP.val_main_cst_9 (F := Ideal) := by
  rw [HostRead.nullary_at outs V 148 main_cst_9 _ _ rfl (na 148 rfl)] <;> rfl
theorem e_v137 : after (ops (F := Ideal)) V (Proc.devRef .tc main_v137) = Cert.ReferenceIdeal.ReadP.val_main_v137 (F := Ideal) := by
  rw [HostRead.unary_at outs V 149 main_cst_9 main_v137 _ _ _ rfl (na 149 rfl) (nb 148 149 rfl (by decide)), e_cst_9 V] <;> rfl
theorem e_v138 : after (ops (F := Ideal)) V (Proc.devRef .tc main_v138) = Cert.ReferenceIdeal.ReadP.val_main_v138 (F := Ideal) (V (Proc.devRef .tc main_arg1)) := by
  rw [HostRead.unary_at outs V 150 main_v3 main_v138 _ _ _ rfl (na 150 rfl) (nb 3 150 rfl (by decide)), e_v3 V] <;> rfl
theorem e_v139 : after (ops (F := Ideal)) V (Proc.devRef .tc main_v139) = Cert.ReferenceIdeal.ReadP.val_main_v139 (F := Ideal) (V (Proc.devRef .tc main_arg0)) (V (Proc.devRef .tc main_arg1)) (V (Proc.devRef .tc main_arg2)) (V (Proc.devRef .tc main_arg4)) := by
  rw [HostRead.ternary_at outs V 151 main_v137 main_v138 main_v136 main_v139 _ _ _ _ _ rfl (na 151 rfl) (nb 149 151 rfl (by decide)) (nb 150 151 rfl (by decide)) (nb 147 151 rfl (by decide)), e_v137 V, e_v138 V, e_v136 V] <;> rfl
theorem e_v140 : after (ops (F := Ideal)) V (Proc.devRef .tc main_v140) = Cert.ReferenceIdeal.ReadP.val_main_v140 (F := Ideal) (V (Proc.devRef .tc main_arg0)) (V (Proc.devRef .tc main_arg5)) := by
  rw [HostRead.binary_at outs V 152 main_arg0 main_arg5 main_v140 _ _ _ _ rfl (na 152 rfl) (narg n_arg0 152) (narg n_arg5 152), e_arg0 V, e_arg5 V] <;> rfl
theorem e_v141 : after (ops (F := Ideal)) V (Proc.devRef .tc main_v141) = Cert.ReferenceIdeal.ReadP.val_main_v141 (F := Ideal) (V (Proc.devRef .tc main_arg0)) (V (Proc.devRef .tc main_arg1)) (V (Proc.devRef .tc main_arg2)) (V (Proc.devRef .tc main_arg4)) (V (Proc.devRef .tc main_arg5)) := by
  rw [HostRead.binary_at outs V 153 main_v139 main_v140 main_v141 _ _ _ _ rfl (na 153 rfl) (nb 151 153 rfl (by decide)) (nb 152 153 rfl (by decide)), e_v139 V, e_v140 V] <;> rfl
theorem e_v142 : after (ops (F := Ideal)) V (Proc.devRef .tc main_v142) = Cert.ReferenceIdeal.ReadP.val_main_v142 (F := Ideal) (V (Proc.devRef .tc main_arg6)) := by
  rw [HostRead.unary_at outs V 154 main_arg6 main_v142 _ _ _ rfl (na 154 rfl) (narg n_arg6 154), e_arg6 V] <;> rfl
theorem e_v143 : after (ops (F := Ideal)) V (Proc.devRef .tc main_v143) = Cert.ReferenceIdeal.ReadP.val_main_v143 (F := Ideal) (V (Proc.devRef .tc main_arg6)) := by
  rw [HostRead.unary_at outs V 155 main_v142 main_v143 _ _ _ rfl (na 155 rfl) (nb 154 155 rfl (by decide)), e_v142 V] <;> rfl
theorem e_v144 : after (ops (F := Ideal)) V (Proc.devRef .tc main_v144) = Cert.ReferenceIdeal.ReadP.val_main_v144 (F := Ideal) (V (Proc.devRef .tc main_arg0)) (V (Proc.devRef .tc main_arg1)) (V (Proc.devRef .tc main_arg2)) (V (Proc.devRef .tc main_arg4)) (V (Proc.devRef .tc main_arg5)) (V (Proc.devRef .tc main_arg6)) := by
  rw [HostRead.binary_at outs V 156 main_v141 main_v143 main_v144 _ _ _ _ rfl (na 156 rfl) (nb 153 156 rfl (by decide)) (nb 155 156 rfl (by decide)), e_v141 V, e_v143 V] <;> rfl
theorem e_call0_cst : after (ops (F := Ideal)) V (Proc.devRef .tc main_call0_cst) = Cert.ReferenceIdeal.ReadP.val_main_call0_cst (F := Ideal) := by
  rw [HostRead.nullary_at outs V 157 main_call0_cst _ _ rfl (na 157 rfl)] <;> rfl
theorem e_call0_v0 : after (ops (F := Ideal)) V (Proc.devRef .tc main_call0_v0) = Cert.ReferenceIdeal.ReadP.val_main_call0_v0 (F := Ideal) := by
  rw [HostRead.unary_at outs V 158 main_call0_cst main_call0_v0 _ _ _ rfl (na 158 rfl) (nb 157 158 rfl (by decide)), e_call0_cst V] <;> rfl
theorem e_v145 : after (ops (F := Ideal)) V (Proc.devRef .tc main_v145) = Cert.ReferenceIdeal.ReadP.val_main_v145 (F := Ideal) (V (Proc.devRef .tc main_arg0)) (V (Proc.devRef .tc main_arg1)) (V (Proc.devRef .tc main_arg2)) (V (Proc.devRef .tc main_arg4)) (V (Proc.devRef .tc main_arg5)) (V (Proc.devRef .tc main_arg6)) := by
  rw [HostRead.binary_at outs V 159 main_v144 main_call0_v0 main_v145 _ _ _ _ rfl (na 159 rfl) (nb 156 159 rfl (by decide)) (nb 158 159 rfl (by decide)), e_v144 V, e_call0_v0 V] <;> rfl
theorem e_v146 : after (ops (F := Ideal)) V (Proc.devRef .tc main_v146) = Cert.ReferenceIdeal.ReadP.val_main_v146 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 160 main_v145 main_arg3 main_v146 _ _ _ _ rfl (na 160 rfl) (nb 159 160 rfl (by decide)) (narg n_arg3 160), e_v145 V, e_arg3 V] <;> rfl
theorem e_c_10 : after (ops (F := Ideal)) V (Proc.devRef .tc main_c_10) = Cert.ReferenceIdeal.ReadP.val_main_c_10 (F := Ideal) := by
  rw [HostRead.nullary_at outs V 161 main_c_10 _ _ rfl (na 161 rfl)] <;> rfl
theorem e_v147 : after (ops (F := Ideal)) V (Proc.devRef .tc main_v147) = Cert.ReferenceIdeal.ReadP.val_main_v147 (F := Ideal) := by
  rw [HostRead.unary_at outs V 162 main_c_10 main_v147 _ _ _ rfl (na 162 rfl) (nb 161 162 rfl (by decide)), e_c_10 V] <;> rfl
theorem e_v148 : after (ops (F := Ideal)) V (Proc.devRef .tc main_v148) = Cert.ReferenceIdeal.ReadP.val_main_v148 (F := Ideal) (V (Proc.devRef .tc main_arg1)) := by
  rw [HostRead.binary_at outs V 163 main_v1 main_v147 main_v148 _ _ _ _ rfl (na 163 rfl) (nb 1 163 rfl (by decide)) (nb 162 163 rfl (by decide)), e_v1 V, e_v147 V] <;> rfl
theorem e_c_11 : after (ops (F := Ideal)) V (Proc.devRef .tc main_c_11) = Cert.ReferenceIdeal.ReadP.val_main_c_11 (F := Ideal) := by
  rw [HostRead.nullary_at outs V 164 main_c_11 _ _ rfl (na 164 rfl)] <;> rfl
theorem e_v149 : after (ops (F := Ideal)) V (Proc.devRef .tc main_v149) = Cert.ReferenceIdeal.ReadP.val_main_v149 (F := Ideal) := by
  rw [HostRead.unary_at outs V 165 main_c_11 main_v149 _ _ _ rfl (na 165 rfl) (nb 164 165 rfl (by decide)), e_c_11 V] <;> rfl
theorem e_v150 : after (ops (F := Ideal)) V (Proc.devRef .tc main_v150) = Cert.ReferenceIdeal.ReadP.val_main_v150 (F := Ideal) (V (Proc.devRef .tc main_arg1)) := by
  rw [HostRead.binary_at outs V 166 main_v1 main_v149 main_v150 _ _ _ _ rfl (na 166 rfl) (nb 1 166 rfl (by decide)) (nb 165 166 rfl (by decide)), e_v1 V, e_v149 V] <;> rfl
theorem e_v151 : after (ops (F := Ideal)) V (Proc.devRef .tc main_v151) = Cert.ReferenceIdeal.ReadP.val_main_v151 (F := Ideal) (V (Proc.devRef .tc main_arg1)) := by
  rw [HostRead.ternary_at outs V 167 main_v148 main_v150 main_v1 main_v151 _ _ _ _ _ rfl (na 167 rfl) (nb 163 167 rfl (by decide)) (nb 166 167 rfl (by decide)) (nb 1 167 rfl (by decide)), e_v148 V, e_v150 V, e_v1 V] <;> rfl
theorem e_v152 : after (ops (F := Ideal)) V (Proc.devRef .tc main_v152) = Cert.ReferenceIdeal.ReadP.val_main_v152 (F := Ideal) (V (Proc.devRef .tc main_arg1)) := by
  rw [HostRead.unary_at outs V 168 main_v151 main_v152 _ _ _ rfl (na 168 rfl) (nb 167 168 rfl (by decide)), e_v151 V] <;> rfl
theorem e_v153 : after (ops (F := Ideal)) V (Proc.devRef .tc main_v153) = Cert.ReferenceIdeal.ReadP.val_main_v153 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 169 main_v146 main_v152 main_v153 _ _ _ _ rfl (na 169 rfl) (nb 160 169 rfl (by decide)) (nb 168 169 rfl (by decide)), e_v146 V, e_v152 V] <;> rfl
theorem e_cst_12 : after (ops (F := Ideal)) V (Proc.devRef .tc main_cst_12) = Cert.ReferenceIdeal.ReadP.val_main_cst_12 (F := Ideal) := by
  rw [HostRead.nullary_at outs V 170 main_cst_12 _ _ rfl (na 170 rfl)] <;> rfl
theorem e_v154 : after (ops (F := Ideal)) V (Proc.devRef .tc main_v154) = Cert.ReferenceIdeal.ReadP.val_main_v154 (F := Ideal) := by
  rw [HostRead.unary_at outs V 171 main_cst_12 main_v154 _ _ _ rfl (na 171 rfl) (nb 170 171 rfl (by decide)), e_cst_12 V] <;> rfl
theorem e_v155 : after (ops (F := Ideal)) V (Proc.devRef .tc main_v155) = Cert.ReferenceIdeal.ReadP.val_main_v155 (F := Ideal) (V (Proc.devRef .tc main_arg2)) := by
  rw [HostRead.unary_at outs V 172 main_v47 main_v155 _ _ _ rfl (na 172 rfl) (nb 55 172 rfl (by decide)), e_v47 V] <;> rfl
theorem e_v156 : after (ops (F := Ideal)) V (Proc.devRef .tc main_v156) = Cert.ReferenceIdeal.ReadP.val_main_v156 (F := Ideal) (V (Proc.devRef .tc main_arg2)) := by
  rw [HostRead.reshape_at outs V 173 main_v155 main_v156 _ _ _ _ rfl (na 173 rfl) (nb 172 173 rfl (by decide)), e_v155 V] <;> rfl
theorem e_v157 : after (ops (F := Ideal)) V (Proc.devRef .tc main_v157) = Cert.ReferenceIdeal.ReadP.val_main_v157 (F := Ideal) (V (Proc.devRef .tc main_arg2)) := by
  rw [HostRead.unary_at outs V 174 main_v156 main_v157 _ _ _ rfl (na 174 rfl) (nb 173 174 rfl (by decide)), e_v156 V] <;> rfl
theorem e_v158 : after (ops (F := Ideal)) V (Proc.devRef .tc main_v158) = Cert.ReferenceIdeal.ReadP.val_main_v158 (F := Ideal) (V (Proc.devRef .tc main_arg2)) := by
  rw [HostRead.unary_at outs V 175 main_v157 main_v158 _ _ _ rfl (na 175 rfl) (nb 174 175 rfl (by decide)), e_v157 V] <;> rfl
theorem e_v159 : after (ops (F := Ideal)) V (Proc.devRef .tc main_v159) = Cert.ReferenceIdeal.ReadP.val_main_v159 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 176 main_v153 main_v158 main_v159 _ _ _ _ rfl (na 176 rfl) (nb 169 176 rfl (by decide)) (nb 175 176 rfl (by decide)), e_v153 V, e_v158 V] <;> rfl
theorem e_v160 : after (ops (F := Ideal)) V (Proc.devRef .tc main_v160) = Cert.ReferenceIdeal.ReadP.val_main_v160 (F := Ideal) (V (Proc.devRef .tc main_arg4)) := by
  rw [HostRead.unary_at outs V 177 main_arg4 main_v160 _ _ _ rfl (na 177 rfl) (narg n_arg4 177), e_arg4 V] <;> rfl
theorem e_v161 : after (ops (F := Ideal)) V (Proc.devRef .tc main_v161) = Cert.ReferenceIdeal.ReadP.val_main_v161 (F := Ideal) (V (Proc.devRef .tc main_arg4)) := by
  rw [HostRead.reshape_at outs V 178 main_v160 main_v161 _ _ _ _ rfl (na 178 rfl) (nb 177 178 rfl (by decide)), e_v160 V] <;> rfl
theorem e_v162 : after (ops (F := Ideal)) V (Proc.devRef .tc main_v162) = Cert.ReferenceIdeal.ReadP.val_main_v162 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 179 main_v159 main_v161 main_v162 _ _ _ _ rfl (na 179 rfl) (nb 176 179 rfl (by decide)) (nb 178 179 rfl (by decide)), e_v159 V, e_v161 V] <;> rfl
theorem e_v163 : after (ops (F := Ideal)) V (Proc.devRef .tc main_v163) = Cert.ReferenceIdeal.ReadP.val_main_v163 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 180 main_v154 main_v162 main_v163 _ _ _ _ rfl (na 180 rfl) (nb 171 180 rfl (by decide)) (nb 179 180 rfl (by decide)), e_v154 V, e_v162 V] <;> rfl
theorem e_v164 : after (ops (F := Ideal)) V (Proc.devRef .tc main_v164) = Cert.ReferenceIdeal.ReadP.val_main_v164 (F := Ideal) (V (Proc.devRef .tc main_arg2)) := by
  rw [HostRead.unary_at outs V 181 main_v47 main_v164 _ _ _ rfl (na 181 rfl) (nb 55 181 rfl (by decide)), e_v47 V] <;> rfl
theorem e_v165 : after (ops (F := Ideal)) V (Proc.devRef .tc main_v165) = Cert.ReferenceIdeal.ReadP.val_main_v165 (F := Ideal) (V (Proc.devRef .tc main_arg2)) := by
  rw [HostRead.reshape_at outs V 182 main_v164 main_v165 _ _ _ _ rfl (na 182 rfl) (nb 181 182 rfl (by decide)), e_v164 V] <;> rfl
theorem e_v166 : after (ops (F := Ideal)) V (Proc.devRef .tc main_v166) = Cert.ReferenceIdeal.ReadP.val_main_v166 (F := Ideal) (V (Proc.devRef .tc main_arg2)) := by
  rw [HostRead.unary_at outs V 183 main_v165 main_v166 _ _ _ rfl (na 183 rfl) (nb 182 183 rfl (by decide)), e_v165 V] <;> rfl
theorem e_v167 : after (ops (F := Ideal)) V (Proc.devRef .tc main_v167) = Cert.ReferenceIdeal.ReadP.val_main_v167 (F := Ideal) (V (Proc.devRef .tc main_arg2)) := by
  rw [HostRead.unary_at outs V 184 main_v166 main_v167 _ _ _ rfl (na 184 rfl) (nb 183 184 rfl (by decide)), e_v166 V] <;> rfl
theorem e_v168 : after (ops (F := Ideal)) V (Proc.devRef .tc main_v168) = Cert.ReferenceIdeal.ReadP.val_main_v168 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 185 main_v153 main_v167 main_v168 _ _ _ _ rfl (na 185 rfl) (nb 169 185 rfl (by decide)) (nb 184 185 rfl (by decide)), e_v153 V, e_v167 V] <;> rfl
theorem e_v169 : after (ops (F := Ideal)) V (Proc.devRef .tc main_v169) = Cert.ReferenceIdeal.ReadP.val_main_v169 (F := Ideal) (V (Proc.devRef .tc main_arg4)) := by
  rw [HostRead.unary_at outs V 186 main_arg4 main_v169 _ _ _ rfl (na 186 rfl) (narg n_arg4 186), e_arg4 V] <;> rfl
theorem e_v170 : after (ops (F := Ideal)) V (Proc.devRef .tc main_v170) = Cert.ReferenceIdeal.ReadP.val_main_v170 (F := Ideal) (V (Proc.devRef .tc main_arg4)) := by
  rw [HostRead.reshape_at outs V 187 main_v169 main_v170 _ _ _ _ rfl (na 187 rfl) (nb 186 187 rfl (by decide)), e_v169 V] <;> rfl
theorem e_v171 : after (ops (F := Ideal)) V (Proc.devRef .tc main_v171) = Cert.ReferenceIdeal.ReadP.val_main_v171 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 188 main_v168 main_v170 main_v171 _ _ _ _ rfl (na 188 rfl) (nb 185 188 rfl (by decide)) (nb 187 188 rfl (by decide)), e_v168 V, e_v170 V] <;> rfl
theorem e_v172 : after (ops (F := Ideal)) V (Proc.devRef .tc main_v172) = Cert.ReferenceIdeal.ReadP.val_main_v172 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 189 main_v163 main_v171 main_v172 _ _ _ _ rfl (na 189 rfl) (nb 180 189 rfl (by decide)) (nb 188 189 rfl (by decide)), e_v163 V, e_v171 V] <;> rfl
theorem e_v173 : after (ops (F := Ideal)) V (Proc.devRef .tc main_v173) = Cert.ReferenceIdeal.ReadP.val_main_v173 (F := Ideal) (V (Proc.devRef .tc main_arg2)) := by
  rw [HostRead.unary_at outs V 190 main_v47 main_v173 _ _ _ rfl (na 190 rfl) (nb 55 190 rfl (by decide)), e_v47 V] <;> rfl
theorem e_v174 : after (ops (F := Ideal)) V (Proc.devRef .tc main_v174) = Cert.ReferenceIdeal.ReadP.val_main_v174 (F := Ideal) (V (Proc.devRef .tc main_arg2)) := by
  rw [HostRead.reshape_at outs V 191 main_v173 main_v174 _ _ _ _ rfl (na 191 rfl) (nb 190 191 rfl (by decide)), e_v173 V] <;> rfl
theorem e_v175 : after (ops (F := Ideal)) V (Proc.devRef .tc main_v175) = Cert.ReferenceIdeal.ReadP.val_main_v175 (F := Ideal) (V (Proc.devRef .tc main_arg2)) := by
  rw [HostRead.unary_at outs V 192 main_v174 main_v175 _ _ _ rfl (na 192 rfl) (nb 191 192 rfl (by decide)), e_v174 V] <;> rfl
theorem e_v176 : after (ops (F := Ideal)) V (Proc.devRef .tc main_v176) = Cert.ReferenceIdeal.ReadP.val_main_v176 (F := Ideal) (V (Proc.devRef .tc main_arg2)) := by
  rw [HostRead.unary_at outs V 193 main_v175 main_v176 _ _ _ rfl (na 193 rfl) (nb 192 193 rfl (by decide)), e_v175 V] <;> rfl
theorem e_v177 : after (ops (F := Ideal)) V (Proc.devRef .tc main_v177) = Cert.ReferenceIdeal.ReadP.val_main_v177 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 194 main_v153 main_v176 main_v177 _ _ _ _ rfl (na 194 rfl) (nb 169 194 rfl (by decide)) (nb 193 194 rfl (by decide)), e_v153 V, e_v176 V] <;> rfl
theorem e_v178 : after (ops (F := Ideal)) V (Proc.devRef .tc main_v178) = Cert.ReferenceIdeal.ReadP.val_main_v178 (F := Ideal) (V (Proc.devRef .tc main_arg4)) := by
  rw [HostRead.unary_at outs V 195 main_arg4 main_v178 _ _ _ rfl (na 195 rfl) (narg n_arg4 195), e_arg4 V] <;> rfl
theorem e_v179 : after (ops (F := Ideal)) V (Proc.devRef .tc main_v179) = Cert.ReferenceIdeal.ReadP.val_main_v179 (F := Ideal) (V (Proc.devRef .tc main_arg4)) := by
  rw [HostRead.reshape_at outs V 196 main_v178 main_v179 _ _ _ _ rfl (na 196 rfl) (nb 195 196 rfl (by decide)), e_v178 V] <;> rfl
theorem e_v180 : after (ops (F := Ideal)) V (Proc.devRef .tc main_v180) = Cert.ReferenceIdeal.ReadP.val_main_v180 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 197 main_v177 main_v179 main_v180 _ _ _ _ rfl (na 197 rfl) (nb 194 197 rfl (by decide)) (nb 196 197 rfl (by decide)), e_v177 V, e_v179 V] <;> rfl
theorem e_v181 : after (ops (F := Ideal)) V (Proc.devRef .tc main_v181) = Cert.ReferenceIdeal.ReadP.val_main_v181 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 198 main_v172 main_v180 main_v181 _ _ _ _ rfl (na 198 rfl) (nb 189 198 rfl (by decide)) (nb 197 198 rfl (by decide)), e_v172 V, e_v180 V] <;> rfl
theorem e_v182 : after (ops (F := Ideal)) V (Proc.devRef .tc main_v182) = Cert.ReferenceIdeal.ReadP.val_main_v182 (F := Ideal) (V (Proc.devRef .tc main_arg2)) := by
  rw [HostRead.unary_at outs V 199 main_v47 main_v182 _ _ _ rfl (na 199 rfl) (nb 55 199 rfl (by decide)), e_v47 V] <;> rfl
theorem e_v183 : after (ops (F := Ideal)) V (Proc.devRef .tc main_v183) = Cert.ReferenceIdeal.ReadP.val_main_v183 (F := Ideal) (V (Proc.devRef .tc main_arg2)) := by
  rw [HostRead.reshape_at outs V 200 main_v182 main_v183 _ _ _ _ rfl (na 200 rfl) (nb 199 200 rfl (by decide)), e_v182 V] <;> rfl
theorem e_v184 : after (ops (F := Ideal)) V (Proc.devRef .tc main_v184) = Cert.ReferenceIdeal.ReadP.val_main_v184 (F := Ideal) (V (Proc.devRef .tc main_arg2)) := by
  rw [HostRead.unary_at outs V 201 main_v183 main_v184 _ _ _ rfl (na 201 rfl) (nb 200 201 rfl (by decide)), e_v183 V] <;> rfl
theorem e_v185 : after (ops (F := Ideal)) V (Proc.devRef .tc main_v185) = Cert.ReferenceIdeal.ReadP.val_main_v185 (F := Ideal) (V (Proc.devRef .tc main_arg2)) := by
  rw [HostRead.unary_at outs V 202 main_v184 main_v185 _ _ _ rfl (na 202 rfl) (nb 201 202 rfl (by decide)), e_v184 V] <;> rfl
theorem e_v186 : after (ops (F := Ideal)) V (Proc.devRef .tc main_v186) = Cert.ReferenceIdeal.ReadP.val_main_v186 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 203 main_v153 main_v185 main_v186 _ _ _ _ rfl (na 203 rfl) (nb 169 203 rfl (by decide)) (nb 202 203 rfl (by decide)), e_v153 V, e_v185 V] <;> rfl
theorem e_v187 : after (ops (F := Ideal)) V (Proc.devRef .tc main_v187) = Cert.ReferenceIdeal.ReadP.val_main_v187 (F := Ideal) (V (Proc.devRef .tc main_arg4)) := by
  rw [HostRead.unary_at outs V 204 main_arg4 main_v187 _ _ _ rfl (na 204 rfl) (narg n_arg4 204), e_arg4 V] <;> rfl
theorem e_v188 : after (ops (F := Ideal)) V (Proc.devRef .tc main_v188) = Cert.ReferenceIdeal.ReadP.val_main_v188 (F := Ideal) (V (Proc.devRef .tc main_arg4)) := by
  rw [HostRead.reshape_at outs V 205 main_v187 main_v188 _ _ _ _ rfl (na 205 rfl) (nb 204 205 rfl (by decide)), e_v187 V] <;> rfl
theorem e_v189 : after (ops (F := Ideal)) V (Proc.devRef .tc main_v189) = Cert.ReferenceIdeal.ReadP.val_main_v189 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 206 main_v186 main_v188 main_v189 _ _ _ _ rfl (na 206 rfl) (nb 203 206 rfl (by decide)) (nb 205 206 rfl (by decide)), e_v186 V, e_v188 V] <;> rfl
theorem e_v190 : after (ops (F := Ideal)) V (Proc.devRef .tc main_v190) = Cert.ReferenceIdeal.ReadP.val_main_v190 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 207 main_v181 main_v189 main_v190 _ _ _ _ rfl (na 207 rfl) (nb 198 207 rfl (by decide)) (nb 206 207 rfl (by decide)), e_v181 V, e_v189 V] <;> rfl
theorem e_v191 : after (ops (F := Ideal)) V (Proc.devRef .tc main_v191) = Cert.ReferenceIdeal.ReadP.val_main_v191 (F := Ideal) (V (Proc.devRef .tc main_arg2)) := by
  rw [HostRead.unary_at outs V 208 main_v47 main_v191 _ _ _ rfl (na 208 rfl) (nb 55 208 rfl (by decide)), e_v47 V] <;> rfl
theorem e_v192 : after (ops (F := Ideal)) V (Proc.devRef .tc main_v192) = Cert.ReferenceIdeal.ReadP.val_main_v192 (F := Ideal) (V (Proc.devRef .tc main_arg2)) := by
  rw [HostRead.reshape_at outs V 209 main_v191 main_v192 _ _ _ _ rfl (na 209 rfl) (nb 208 209 rfl (by decide)), e_v191 V] <;> rfl
theorem e_v193 : after (ops (F := Ideal)) V (Proc.devRef .tc main_v193) = Cert.ReferenceIdeal.ReadP.val_main_v193 (F := Ideal) (V (Proc.devRef .tc main_arg2)) := by
  rw [HostRead.unary_at outs V 210 main_v192 main_v193 _ _ _ rfl (na 210 rfl) (nb 209 210 rfl (by decide)), e_v192 V] <;> rfl
theorem e_v194 : after (ops (F := Ideal)) V (Proc.devRef .tc main_v194) = Cert.ReferenceIdeal.ReadP.val_main_v194 (F := Ideal) (V (Proc.devRef .tc main_arg2)) := by
  rw [HostRead.unary_at outs V 211 main_v193 main_v194 _ _ _ rfl (na 211 rfl) (nb 210 211 rfl (by decide)), e_v193 V] <;> rfl
theorem e_v195 : after (ops (F := Ideal)) V (Proc.devRef .tc main_v195) = Cert.ReferenceIdeal.ReadP.val_main_v195 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 212 main_v153 main_v194 main_v195 _ _ _ _ rfl (na 212 rfl) (nb 169 212 rfl (by decide)) (nb 211 212 rfl (by decide)), e_v153 V, e_v194 V] <;> rfl
theorem e_v196 : after (ops (F := Ideal)) V (Proc.devRef .tc main_v196) = Cert.ReferenceIdeal.ReadP.val_main_v196 (F := Ideal) (V (Proc.devRef .tc main_arg4)) := by
  rw [HostRead.unary_at outs V 213 main_arg4 main_v196 _ _ _ rfl (na 213 rfl) (narg n_arg4 213), e_arg4 V] <;> rfl
theorem e_v197 : after (ops (F := Ideal)) V (Proc.devRef .tc main_v197) = Cert.ReferenceIdeal.ReadP.val_main_v197 (F := Ideal) (V (Proc.devRef .tc main_arg4)) := by
  rw [HostRead.reshape_at outs V 214 main_v196 main_v197 _ _ _ _ rfl (na 214 rfl) (nb 213 214 rfl (by decide)), e_v196 V] <;> rfl
theorem e_v198 : after (ops (F := Ideal)) V (Proc.devRef .tc main_v198) = Cert.ReferenceIdeal.ReadP.val_main_v198 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 215 main_v195 main_v197 main_v198 _ _ _ _ rfl (na 215 rfl) (nb 212 215 rfl (by decide)) (nb 214 215 rfl (by decide)), e_v195 V, e_v197 V] <;> rfl
theorem e_v199 : after (ops (F := Ideal)) V (Proc.devRef .tc main_v199) = Cert.ReferenceIdeal.ReadP.val_main_v199 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 216 main_v190 main_v198 main_v199 _ _ _ _ rfl (na 216 rfl) (nb 207 216 rfl (by decide)) (nb 215 216 rfl (by decide)), e_v190 V, e_v198 V] <;> rfl
theorem e_v200 : after (ops (F := Ideal)) V (Proc.devRef .tc main_v200) = Cert.ReferenceIdeal.ReadP.val_main_v200 (F := Ideal) (V (Proc.devRef .tc main_arg2)) := by
  rw [HostRead.unary_at outs V 217 main_v47 main_v200 _ _ _ rfl (na 217 rfl) (nb 55 217 rfl (by decide)), e_v47 V] <;> rfl
theorem e_v201 : after (ops (F := Ideal)) V (Proc.devRef .tc main_v201) = Cert.ReferenceIdeal.ReadP.val_main_v201 (F := Ideal) (V (Proc.devRef .tc main_arg2)) := by
  rw [HostRead.reshape_at outs V 218 main_v200 main_v201 _ _ _ _ rfl (na 218 rfl) (nb 217 218 rfl (by decide)), e_v200 V] <;> rfl
theorem e_v202 : after (ops (F := Ideal)) V (Proc.devRef .tc main_v202) = Cert.ReferenceIdeal.ReadP.val_main_v202 (F := Ideal) (V (Proc.devRef .tc main_arg2)) := by
  rw [HostRead.unary_at outs V 219 main_v201 main_v202 _ _ _ rfl (na 219 rfl) (nb 218 219 rfl (by decide)), e_v201 V] <;> rfl
theorem e_v203 : after (ops (F := Ideal)) V (Proc.devRef .tc main_v203) = Cert.ReferenceIdeal.ReadP.val_main_v203 (F := Ideal) (V (Proc.devRef .tc main_arg2)) := by
  rw [HostRead.unary_at outs V 220 main_v202 main_v203 _ _ _ rfl (na 220 rfl) (nb 219 220 rfl (by decide)), e_v202 V] <;> rfl
theorem e_v204 : after (ops (F := Ideal)) V (Proc.devRef .tc main_v204) = Cert.ReferenceIdeal.ReadP.val_main_v204 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 221 main_v153 main_v203 main_v204 _ _ _ _ rfl (na 221 rfl) (nb 169 221 rfl (by decide)) (nb 220 221 rfl (by decide)), e_v153 V, e_v203 V] <;> rfl
theorem e_v205 : after (ops (F := Ideal)) V (Proc.devRef .tc main_v205) = Cert.ReferenceIdeal.ReadP.val_main_v205 (F := Ideal) (V (Proc.devRef .tc main_arg4)) := by
  rw [HostRead.unary_at outs V 222 main_arg4 main_v205 _ _ _ rfl (na 222 rfl) (narg n_arg4 222), e_arg4 V] <;> rfl
theorem e_v206 : after (ops (F := Ideal)) V (Proc.devRef .tc main_v206) = Cert.ReferenceIdeal.ReadP.val_main_v206 (F := Ideal) (V (Proc.devRef .tc main_arg4)) := by
  rw [HostRead.reshape_at outs V 223 main_v205 main_v206 _ _ _ _ rfl (na 223 rfl) (nb 222 223 rfl (by decide)), e_v205 V] <;> rfl
theorem e_v207 : after (ops (F := Ideal)) V (Proc.devRef .tc main_v207) = Cert.ReferenceIdeal.ReadP.val_main_v207 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 224 main_v204 main_v206 main_v207 _ _ _ _ rfl (na 224 rfl) (nb 221 224 rfl (by decide)) (nb 223 224 rfl (by decide)), e_v204 V, e_v206 V] <;> rfl
theorem e_v208 : after (ops (F := Ideal)) V (Proc.devRef .tc main_v208) = Cert.ReferenceIdeal.ReadP.val_main_v208 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 225 main_v199 main_v207 main_v208 _ _ _ _ rfl (na 225 rfl) (nb 216 225 rfl (by decide)) (nb 224 225 rfl (by decide)), e_v199 V, e_v207 V] <;> rfl
theorem e_v209 : after (ops (F := Ideal)) V (Proc.devRef .tc main_v209) = Cert.ReferenceIdeal.ReadP.val_main_v209 (F := Ideal) (V (Proc.devRef .tc main_arg2)) := by
  rw [HostRead.unary_at outs V 226 main_v47 main_v209 _ _ _ rfl (na 226 rfl) (nb 55 226 rfl (by decide)), e_v47 V] <;> rfl
theorem e_v210 : after (ops (F := Ideal)) V (Proc.devRef .tc main_v210) = Cert.ReferenceIdeal.ReadP.val_main_v210 (F := Ideal) (V (Proc.devRef .tc main_arg2)) := by
  rw [HostRead.reshape_at outs V 227 main_v209 main_v210 _ _ _ _ rfl (na 227 rfl) (nb 226 227 rfl (by decide)), e_v209 V] <;> rfl
theorem e_v211 : after (ops (F := Ideal)) V (Proc.devRef .tc main_v211) = Cert.ReferenceIdeal.ReadP.val_main_v211 (F := Ideal) (V (Proc.devRef .tc main_arg2)) := by
  rw [HostRead.unary_at outs V 228 main_v210 main_v211 _ _ _ rfl (na 228 rfl) (nb 227 228 rfl (by decide)), e_v210 V] <;> rfl
theorem e_v212 : after (ops (F := Ideal)) V (Proc.devRef .tc main_v212) = Cert.ReferenceIdeal.ReadP.val_main_v212 (F := Ideal) (V (Proc.devRef .tc main_arg2)) := by
  rw [HostRead.unary_at outs V 229 main_v211 main_v212 _ _ _ rfl (na 229 rfl) (nb 228 229 rfl (by decide)), e_v211 V] <;> rfl
theorem e_v213 : after (ops (F := Ideal)) V (Proc.devRef .tc main_v213) = Cert.ReferenceIdeal.ReadP.val_main_v213 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 230 main_v153 main_v212 main_v213 _ _ _ _ rfl (na 230 rfl) (nb 169 230 rfl (by decide)) (nb 229 230 rfl (by decide)), e_v153 V, e_v212 V] <;> rfl
theorem e_v214 : after (ops (F := Ideal)) V (Proc.devRef .tc main_v214) = Cert.ReferenceIdeal.ReadP.val_main_v214 (F := Ideal) (V (Proc.devRef .tc main_arg4)) := by
  rw [HostRead.unary_at outs V 231 main_arg4 main_v214 _ _ _ rfl (na 231 rfl) (narg n_arg4 231), e_arg4 V] <;> rfl
theorem e_v215 : after (ops (F := Ideal)) V (Proc.devRef .tc main_v215) = Cert.ReferenceIdeal.ReadP.val_main_v215 (F := Ideal) (V (Proc.devRef .tc main_arg4)) := by
  rw [HostRead.reshape_at outs V 232 main_v214 main_v215 _ _ _ _ rfl (na 232 rfl) (nb 231 232 rfl (by decide)), e_v214 V] <;> rfl
theorem e_v216 : after (ops (F := Ideal)) V (Proc.devRef .tc main_v216) = Cert.ReferenceIdeal.ReadP.val_main_v216 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 233 main_v213 main_v215 main_v216 _ _ _ _ rfl (na 233 rfl) (nb 230 233 rfl (by decide)) (nb 232 233 rfl (by decide)), e_v213 V, e_v215 V] <;> rfl
theorem e_v217 : after (ops (F := Ideal)) V (Proc.devRef .tc main_v217) = Cert.ReferenceIdeal.ReadP.val_main_v217 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 234 main_v208 main_v216 main_v217 _ _ _ _ rfl (na 234 rfl) (nb 225 234 rfl (by decide)) (nb 233 234 rfl (by decide)), e_v208 V, e_v216 V] <;> rfl
theorem e_v218 : after (ops (F := Ideal)) V (Proc.devRef .tc main_v218) = Cert.ReferenceIdeal.ReadP.val_main_v218 (F := Ideal) (V (Proc.devRef .tc main_arg2)) := by
  rw [HostRead.unary_at outs V 235 main_v47 main_v218 _ _ _ rfl (na 235 rfl) (nb 55 235 rfl (by decide)), e_v47 V] <;> rfl
theorem e_v219 : after (ops (F := Ideal)) V (Proc.devRef .tc main_v219) = Cert.ReferenceIdeal.ReadP.val_main_v219 (F := Ideal) (V (Proc.devRef .tc main_arg2)) := by
  rw [HostRead.reshape_at outs V 236 main_v218 main_v219 _ _ _ _ rfl (na 236 rfl) (nb 235 236 rfl (by decide)), e_v218 V] <;> rfl
theorem e_v220 : after (ops (F := Ideal)) V (Proc.devRef .tc main_v220) = Cert.ReferenceIdeal.ReadP.val_main_v220 (F := Ideal) (V (Proc.devRef .tc main_arg2)) := by
  rw [HostRead.unary_at outs V 237 main_v219 main_v220 _ _ _ rfl (na 237 rfl) (nb 236 237 rfl (by decide)), e_v219 V] <;> rfl
theorem e_v221 : after (ops (F := Ideal)) V (Proc.devRef .tc main_v221) = Cert.ReferenceIdeal.ReadP.val_main_v221 (F := Ideal) (V (Proc.devRef .tc main_arg2)) := by
  rw [HostRead.unary_at outs V 238 main_v220 main_v221 _ _ _ rfl (na 238 rfl) (nb 237 238 rfl (by decide)), e_v220 V] <;> rfl
theorem e_v222 : after (ops (F := Ideal)) V (Proc.devRef .tc main_v222) = Cert.ReferenceIdeal.ReadP.val_main_v222 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 239 main_v153 main_v221 main_v222 _ _ _ _ rfl (na 239 rfl) (nb 169 239 rfl (by decide)) (nb 238 239 rfl (by decide)), e_v153 V, e_v221 V] <;> rfl
theorem e_v223 : after (ops (F := Ideal)) V (Proc.devRef .tc main_v223) = Cert.ReferenceIdeal.ReadP.val_main_v223 (F := Ideal) (V (Proc.devRef .tc main_arg4)) := by
  rw [HostRead.unary_at outs V 240 main_arg4 main_v223 _ _ _ rfl (na 240 rfl) (narg n_arg4 240), e_arg4 V] <;> rfl
theorem e_v224 : after (ops (F := Ideal)) V (Proc.devRef .tc main_v224) = Cert.ReferenceIdeal.ReadP.val_main_v224 (F := Ideal) (V (Proc.devRef .tc main_arg4)) := by
  rw [HostRead.reshape_at outs V 241 main_v223 main_v224 _ _ _ _ rfl (na 241 rfl) (nb 240 241 rfl (by decide)), e_v223 V] <;> rfl

end Cert.ReferenceIdeal.RefRun

end
-- ==== Proof.RefSsa3.lean ====
/- A table of cases.
  The reference program's line of host operations, one equation per operation, continued (part 3 of 3).
-/
import proofs.«124089_j37623913513299_2_alg».proof.Proof.RefSsa2

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable (V : Valuation τ sig (Elt Ideal))

theorem e_v225 : after (ops (F := Ideal)) V (Proc.devRef .tc main_v225) = Cert.ReferenceIdeal.ReadP.val_main_v225 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 242 main_v222 main_v224 main_v225 _ _ _ _ rfl (na 242 rfl) (nb 239 242 rfl (by decide)) (nb 241 242 rfl (by decide)), e_v222 V, e_v224 V] <;> rfl
theorem e_v226 : after (ops (F := Ideal)) V (Proc.devRef .tc main_v226) = Cert.ReferenceIdeal.ReadP.val_main_v226 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 243 main_v217 main_v225 main_v226 _ _ _ _ rfl (na 243 rfl) (nb 234 243 rfl (by decide)) (nb 242 243 rfl (by decide)), e_v217 V, e_v225 V] <;> rfl
theorem e_v227 : after (ops (F := Ideal)) V (Proc.devRef .tc main_v227) = Cert.ReferenceIdeal.ReadP.val_main_v227 (F := Ideal) (V (Proc.devRef .tc main_arg2)) := by
  rw [HostRead.unary_at outs V 244 main_v47 main_v227 _ _ _ rfl (na 244 rfl) (nb 55 244 rfl (by decide)), e_v47 V] <;> rfl
theorem e_v228 : after (ops (F := Ideal)) V (Proc.devRef .tc main_v228) = Cert.ReferenceIdeal.ReadP.val_main_v228 (F := Ideal) (V (Proc.devRef .tc main_arg2)) := by
  rw [HostRead.reshape_at outs V 245 main_v227 main_v228 _ _ _ _ rfl (na 245 rfl) (nb 244 245 rfl (by decide)), e_v227 V] <;> rfl
theorem e_v229 : after (ops (F := Ideal)) V (Proc.devRef .tc main_v229) = Cert.ReferenceIdeal.ReadP.val_main_v229 (F := Ideal) (V (Proc.devRef .tc main_arg2)) := by
  rw [HostRead.unary_at outs V 246 main_v228 main_v229 _ _ _ rfl (na 246 rfl) (nb 245 246 rfl (by decide)), e_v228 V] <;> rfl
theorem e_v230 : after (ops (F := Ideal)) V (Proc.devRef .tc main_v230) = Cert.ReferenceIdeal.ReadP.val_main_v230 (F := Ideal) (V (Proc.devRef .tc main_arg2)) := by
  rw [HostRead.unary_at outs V 247 main_v229 main_v230 _ _ _ rfl (na 247 rfl) (nb 246 247 rfl (by decide)), e_v229 V] <;> rfl
theorem e_v231 : after (ops (F := Ideal)) V (Proc.devRef .tc main_v231) = Cert.ReferenceIdeal.ReadP.val_main_v231 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 248 main_v153 main_v230 main_v231 _ _ _ _ rfl (na 248 rfl) (nb 169 248 rfl (by decide)) (nb 247 248 rfl (by decide)), e_v153 V, e_v230 V] <;> rfl
theorem e_v232 : after (ops (F := Ideal)) V (Proc.devRef .tc main_v232) = Cert.ReferenceIdeal.ReadP.val_main_v232 (F := Ideal) (V (Proc.devRef .tc main_arg4)) := by
  rw [HostRead.unary_at outs V 249 main_arg4 main_v232 _ _ _ rfl (na 249 rfl) (narg n_arg4 249), e_arg4 V] <;> rfl
theorem e_v233 : after (ops (F := Ideal)) V (Proc.devRef .tc main_v233) = Cert.ReferenceIdeal.ReadP.val_main_v233 (F := Ideal) (V (Proc.devRef .tc main_arg4)) := by
  rw [HostRead.reshape_at outs V 250 main_v232 main_v233 _ _ _ _ rfl (na 250 rfl) (nb 249 250 rfl (by decide)), e_v232 V] <;> rfl
theorem e_v234 : after (ops (F := Ideal)) V (Proc.devRef .tc main_v234) = Cert.ReferenceIdeal.ReadP.val_main_v234 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 251 main_v231 main_v233 main_v234 _ _ _ _ rfl (na 251 rfl) (nb 248 251 rfl (by decide)) (nb 250 251 rfl (by decide)), e_v231 V, e_v233 V] <;> rfl
theorem e_v235 : after (ops (F := Ideal)) V (Proc.devRef .tc main_v235) = Cert.ReferenceIdeal.ReadP.val_main_v235 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 252 main_v226 main_v234 main_v235 _ _ _ _ rfl (na 252 rfl) (nb 243 252 rfl (by decide)) (nb 251 252 rfl (by decide)), e_v226 V, e_v234 V] <;> rfl
theorem e_cst_13 : after (ops (F := Ideal)) V (Proc.devRef .tc main_cst_13) = Cert.ReferenceIdeal.ReadP.val_main_cst_13 (F := Ideal) := by
  rw [HostRead.nullary_at outs V 253 main_cst_13 _ _ rfl (na 253 rfl)] <;> rfl
theorem e_v236 : after (ops (F := Ideal)) V (Proc.devRef .tc main_v236) = Cert.ReferenceIdeal.ReadP.val_main_v236 (F := Ideal) := by
  rw [HostRead.unary_at outs V 254 main_cst_13 main_v236 _ _ _ rfl (na 254 rfl) (nb 253 254 rfl (by decide)), e_cst_13 V] <;> rfl
theorem e_v237 : after (ops (F := Ideal)) V (Proc.devRef .tc main_v237) = Cert.ReferenceIdeal.ReadP.val_main_v237 (F := Ideal) (V (Proc.devRef .tc main_arg1)) := by
  rw [HostRead.unary_at outs V 255 main_v3 main_v237 _ _ _ rfl (na 255 rfl) (nb 3 255 rfl (by decide)), e_v3 V] <;> rfl
theorem e_v238 : after (ops (F := Ideal)) V (Proc.devRef .tc main_v238) = Cert.ReferenceIdeal.ReadP.val_main_v238 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.ternary_at outs V 256 main_v236 main_v237 main_v235 main_v238 _ _ _ _ _ rfl (na 256 rfl) (nb 254 256 rfl (by decide)) (nb 255 256 rfl (by decide)) (nb 252 256 rfl (by decide)), e_v236 V, e_v237 V, e_v235 V] <;> rfl
theorem e_v239 : after (ops (F := Ideal)) V (Proc.devRef .tc main_v239) = Cert.ReferenceIdeal.ReadP.val_main_v239 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 257 main_v146 main_arg5 main_v239 _ _ _ _ rfl (na 257 rfl) (nb 160 257 rfl (by decide)) (narg n_arg5 257), e_v146 V, e_arg5 V] <;> rfl
theorem e_v240 : after (ops (F := Ideal)) V (Proc.devRef .tc main_v240) = Cert.ReferenceIdeal.ReadP.val_main_v240 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 258 main_v238 main_v239 main_v240 _ _ _ _ rfl (na 258 rfl) (nb 256 258 rfl (by decide)) (nb 257 258 rfl (by decide)), e_v238 V, e_v239 V] <;> rfl
theorem e_v241 : after (ops (F := Ideal)) V (Proc.devRef .tc main_v241) = Cert.ReferenceIdeal.ReadP.val_main_v241 (F := Ideal) (V (Proc.devRef .tc main_arg6)) := by
  rw [HostRead.unary_at outs V 259 main_arg6 main_v241 _ _ _ rfl (na 259 rfl) (narg n_arg6 259), e_arg6 V] <;> rfl
theorem e_v242 : after (ops (F := Ideal)) V (Proc.devRef .tc main_v242) = Cert.ReferenceIdeal.ReadP.val_main_v242 (F := Ideal) (V (Proc.devRef .tc main_arg6)) := by
  rw [HostRead.unary_at outs V 260 main_v241 main_v242 _ _ _ rfl (na 260 rfl) (nb 259 260 rfl (by decide)), e_v241 V] <;> rfl
theorem e_v243 : after (ops (F := Ideal)) V (Proc.devRef .tc main_v243) = Cert.ReferenceIdeal.ReadP.val_main_v243 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 261 main_v240 main_v242 main_v243 _ _ _ _ rfl (na 261 rfl) (nb 258 261 rfl (by decide)) (nb 260 261 rfl (by decide)), e_v240 V, e_v242 V] <;> rfl
theorem e_call1_cst : after (ops (F := Ideal)) V (Proc.devRef .tc main_call1_cst) = Cert.ReferenceIdeal.ReadP.val_main_call1_cst (F := Ideal) := by
  rw [HostRead.nullary_at outs V 262 main_call1_cst _ _ rfl (na 262 rfl)] <;> rfl
theorem e_call1_v0 : after (ops (F := Ideal)) V (Proc.devRef .tc main_call1_v0) = Cert.ReferenceIdeal.ReadP.val_main_call1_v0 (F := Ideal) := by
  rw [HostRead.unary_at outs V 263 main_call1_cst main_call1_v0 _ _ _ rfl (na 263 rfl) (nb 262 263 rfl (by decide)), e_call1_cst V] <;> rfl
theorem e_v244 : after (ops (F := Ideal)) V (Proc.devRef .tc main_v244) = Cert.ReferenceIdeal.ReadP.val_main_v244 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 264 main_v243 main_call1_v0 main_v244 _ _ _ _ rfl (na 264 rfl) (nb 261 264 rfl (by decide)) (nb 263 264 rfl (by decide)), e_v243 V, e_call1_v0 V] <;> rfl
theorem e_c_14 : after (ops (F := Ideal)) V (Proc.devRef .tc main_c_14) = Cert.ReferenceIdeal.ReadP.val_main_c_14 (F := Ideal) := by
  rw [HostRead.nullary_at outs V 265 main_c_14 _ _ rfl (na 265 rfl)] <;> rfl
theorem e_v245 : after (ops (F := Ideal)) V (Proc.devRef .tc main_v245) = Cert.ReferenceIdeal.ReadP.val_main_v245 (F := Ideal) := by
  rw [HostRead.unary_at outs V 266 main_c_14 main_v245 _ _ _ rfl (na 266 rfl) (nb 265 266 rfl (by decide)), e_c_14 V] <;> rfl
theorem e_v246 : after (ops (F := Ideal)) V (Proc.devRef .tc main_v246) = Cert.ReferenceIdeal.ReadP.val_main_v246 (F := Ideal) (V (Proc.devRef .tc main_arg1)) := by
  rw [HostRead.binary_at outs V 267 main_v1 main_v245 main_v246 _ _ _ _ rfl (na 267 rfl) (nb 1 267 rfl (by decide)) (nb 266 267 rfl (by decide)), e_v1 V, e_v245 V] <;> rfl
theorem e_c_15 : after (ops (F := Ideal)) V (Proc.devRef .tc main_c_15) = Cert.ReferenceIdeal.ReadP.val_main_c_15 (F := Ideal) := by
  rw [HostRead.nullary_at outs V 268 main_c_15 _ _ rfl (na 268 rfl)] <;> rfl
theorem e_v247 : after (ops (F := Ideal)) V (Proc.devRef .tc main_v247) = Cert.ReferenceIdeal.ReadP.val_main_v247 (F := Ideal) := by
  rw [HostRead.unary_at outs V 269 main_c_15 main_v247 _ _ _ rfl (na 269 rfl) (nb 268 269 rfl (by decide)), e_c_15 V] <;> rfl
theorem e_v248 : after (ops (F := Ideal)) V (Proc.devRef .tc main_v248) = Cert.ReferenceIdeal.ReadP.val_main_v248 (F := Ideal) (V (Proc.devRef .tc main_arg1)) := by
  rw [HostRead.binary_at outs V 270 main_v1 main_v247 main_v248 _ _ _ _ rfl (na 270 rfl) (nb 1 270 rfl (by decide)) (nb 269 270 rfl (by decide)), e_v1 V, e_v247 V] <;> rfl
theorem e_v249 : after (ops (F := Ideal)) V (Proc.devRef .tc main_v249) = Cert.ReferenceIdeal.ReadP.val_main_v249 (F := Ideal) (V (Proc.devRef .tc main_arg1)) := by
  rw [HostRead.ternary_at outs V 271 main_v246 main_v248 main_v1 main_v249 _ _ _ _ _ rfl (na 271 rfl) (nb 267 271 rfl (by decide)) (nb 270 271 rfl (by decide)) (nb 1 271 rfl (by decide)), e_v246 V, e_v248 V, e_v1 V] <;> rfl
theorem e_v250 : after (ops (F := Ideal)) V (Proc.devRef .tc main_v250) = Cert.ReferenceIdeal.ReadP.val_main_v250 (F := Ideal) (V (Proc.devRef .tc main_arg1)) := by
  rw [HostRead.unary_at outs V 272 main_v249 main_v250 _ _ _ rfl (na 272 rfl) (nb 271 272 rfl (by decide)), e_v249 V] <;> rfl
theorem e_v251 : after (ops (F := Ideal)) V (Proc.devRef .tc main_v251) = Cert.ReferenceIdeal.ReadP.val_main_v251 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 273 main_v244 main_v250 main_v251 _ _ _ _ rfl (na 273 rfl) (nb 264 273 rfl (by decide)) (nb 272 273 rfl (by decide)), e_v244 V, e_v250 V] <;> rfl
theorem e_cst_16 : after (ops (F := Ideal)) V (Proc.devRef .tc main_cst_16) = Cert.ReferenceIdeal.ReadP.val_main_cst_16 (F := Ideal) := by
  rw [HostRead.nullary_at outs V 274 main_cst_16 _ _ rfl (na 274 rfl)] <;> rfl
theorem e_v252 : after (ops (F := Ideal)) V (Proc.devRef .tc main_v252) = Cert.ReferenceIdeal.ReadP.val_main_v252 (F := Ideal) := by
  rw [HostRead.unary_at outs V 275 main_cst_16 main_v252 _ _ _ rfl (na 275 rfl) (nb 274 275 rfl (by decide)), e_cst_16 V] <;> rfl
theorem e_v253 : after (ops (F := Ideal)) V (Proc.devRef .tc main_v253) = Cert.ReferenceIdeal.ReadP.val_main_v253 (F := Ideal) (V (Proc.devRef .tc main_arg2)) := by
  rw [HostRead.unary_at outs V 276 main_v47 main_v253 _ _ _ rfl (na 276 rfl) (nb 55 276 rfl (by decide)), e_v47 V] <;> rfl
theorem e_v254 : after (ops (F := Ideal)) V (Proc.devRef .tc main_v254) = Cert.ReferenceIdeal.ReadP.val_main_v254 (F := Ideal) (V (Proc.devRef .tc main_arg2)) := by
  rw [HostRead.reshape_at outs V 277 main_v253 main_v254 _ _ _ _ rfl (na 277 rfl) (nb 276 277 rfl (by decide)), e_v253 V] <;> rfl
theorem e_v255 : after (ops (F := Ideal)) V (Proc.devRef .tc main_v255) = Cert.ReferenceIdeal.ReadP.val_main_v255 (F := Ideal) (V (Proc.devRef .tc main_arg2)) := by
  rw [HostRead.unary_at outs V 278 main_v254 main_v255 _ _ _ rfl (na 278 rfl) (nb 277 278 rfl (by decide)), e_v254 V] <;> rfl
theorem e_v256 : after (ops (F := Ideal)) V (Proc.devRef .tc main_v256) = Cert.ReferenceIdeal.ReadP.val_main_v256 (F := Ideal) (V (Proc.devRef .tc main_arg2)) := by
  rw [HostRead.unary_at outs V 279 main_v255 main_v256 _ _ _ rfl (na 279 rfl) (nb 278 279 rfl (by decide)), e_v255 V] <;> rfl
theorem e_v257 : after (ops (F := Ideal)) V (Proc.devRef .tc main_v257) = Cert.ReferenceIdeal.ReadP.val_main_v257 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 280 main_v251 main_v256 main_v257 _ _ _ _ rfl (na 280 rfl) (nb 273 280 rfl (by decide)) (nb 279 280 rfl (by decide)), e_v251 V, e_v256 V] <;> rfl
theorem e_v258 : after (ops (F := Ideal)) V (Proc.devRef .tc main_v258) = Cert.ReferenceIdeal.ReadP.val_main_v258 (F := Ideal) (V (Proc.devRef .tc main_arg7)) := by
  rw [HostRead.unary_at outs V 281 main_arg7 main_v258 _ _ _ rfl (na 281 rfl) (narg n_arg7 281), e_arg7 V] <;> rfl
theorem e_v259 : after (ops (F := Ideal)) V (Proc.devRef .tc main_v259) = Cert.ReferenceIdeal.ReadP.val_main_v259 (F := Ideal) (V (Proc.devRef .tc main_arg7)) := by
  rw [HostRead.reshape_at outs V 282 main_v258 main_v259 _ _ _ _ rfl (na 282 rfl) (nb 281 282 rfl (by decide)), e_v258 V] <;> rfl
theorem e_v260 : after (ops (F := Ideal)) V (Proc.devRef .tc main_v260) = Cert.ReferenceIdeal.ReadP.val_main_v260 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 283 main_v257 main_v259 main_v260 _ _ _ _ rfl (na 283 rfl) (nb 280 283 rfl (by decide)) (nb 282 283 rfl (by decide)), e_v257 V, e_v259 V] <;> rfl
theorem e_v261 : after (ops (F := Ideal)) V (Proc.devRef .tc main_v261) = Cert.ReferenceIdeal.ReadP.val_main_v261 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 284 main_v252 main_v260 main_v261 _ _ _ _ rfl (na 284 rfl) (nb 275 284 rfl (by decide)) (nb 283 284 rfl (by decide)), e_v252 V, e_v260 V] <;> rfl
theorem e_v262 : after (ops (F := Ideal)) V (Proc.devRef .tc main_v262) = Cert.ReferenceIdeal.ReadP.val_main_v262 (F := Ideal) (V (Proc.devRef .tc main_arg2)) := by
  rw [HostRead.unary_at outs V 285 main_v47 main_v262 _ _ _ rfl (na 285 rfl) (nb 55 285 rfl (by decide)), e_v47 V] <;> rfl
theorem e_v263 : after (ops (F := Ideal)) V (Proc.devRef .tc main_v263) = Cert.ReferenceIdeal.ReadP.val_main_v263 (F := Ideal) (V (Proc.devRef .tc main_arg2)) := by
  rw [HostRead.reshape_at outs V 286 main_v262 main_v263 _ _ _ _ rfl (na 286 rfl) (nb 285 286 rfl (by decide)), e_v262 V] <;> rfl
theorem e_v264 : after (ops (F := Ideal)) V (Proc.devRef .tc main_v264) = Cert.ReferenceIdeal.ReadP.val_main_v264 (F := Ideal) (V (Proc.devRef .tc main_arg2)) := by
  rw [HostRead.unary_at outs V 287 main_v263 main_v264 _ _ _ rfl (na 287 rfl) (nb 286 287 rfl (by decide)), e_v263 V] <;> rfl
theorem e_v265 : after (ops (F := Ideal)) V (Proc.devRef .tc main_v265) = Cert.ReferenceIdeal.ReadP.val_main_v265 (F := Ideal) (V (Proc.devRef .tc main_arg2)) := by
  rw [HostRead.unary_at outs V 288 main_v264 main_v265 _ _ _ rfl (na 288 rfl) (nb 287 288 rfl (by decide)), e_v264 V] <;> rfl
theorem e_v266 : after (ops (F := Ideal)) V (Proc.devRef .tc main_v266) = Cert.ReferenceIdeal.ReadP.val_main_v266 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 289 main_v251 main_v265 main_v266 _ _ _ _ rfl (na 289 rfl) (nb 273 289 rfl (by decide)) (nb 288 289 rfl (by decide)), e_v251 V, e_v265 V] <;> rfl
theorem e_v267 : after (ops (F := Ideal)) V (Proc.devRef .tc main_v267) = Cert.ReferenceIdeal.ReadP.val_main_v267 (F := Ideal) (V (Proc.devRef .tc main_arg7)) := by
  rw [HostRead.unary_at outs V 290 main_arg7 main_v267 _ _ _ rfl (na 290 rfl) (narg n_arg7 290), e_arg7 V] <;> rfl
theorem e_v268 : after (ops (F := Ideal)) V (Proc.devRef .tc main_v268) = Cert.ReferenceIdeal.ReadP.val_main_v268 (F := Ideal) (V (Proc.devRef .tc main_arg7)) := by
  rw [HostRead.reshape_at outs V 291 main_v267 main_v268 _ _ _ _ rfl (na 291 rfl) (nb 290 291 rfl (by decide)), e_v267 V] <;> rfl
theorem e_v269 : after (ops (F := Ideal)) V (Proc.devRef .tc main_v269) = Cert.ReferenceIdeal.ReadP.val_main_v269 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 292 main_v266 main_v268 main_v269 _ _ _ _ rfl (na 292 rfl) (nb 289 292 rfl (by decide)) (nb 291 292 rfl (by decide)), e_v266 V, e_v268 V] <;> rfl
theorem e_v270 : after (ops (F := Ideal)) V (Proc.devRef .tc main_v270) = Cert.ReferenceIdeal.ReadP.val_main_v270 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 293 main_v261 main_v269 main_v270 _ _ _ _ rfl (na 293 rfl) (nb 284 293 rfl (by decide)) (nb 292 293 rfl (by decide)), e_v261 V, e_v269 V] <;> rfl
theorem e_v271 : after (ops (F := Ideal)) V (Proc.devRef .tc main_v271) = Cert.ReferenceIdeal.ReadP.val_main_v271 (F := Ideal) (V (Proc.devRef .tc main_arg2)) := by
  rw [HostRead.unary_at outs V 294 main_v47 main_v271 _ _ _ rfl (na 294 rfl) (nb 55 294 rfl (by decide)), e_v47 V] <;> rfl
theorem e_v272 : after (ops (F := Ideal)) V (Proc.devRef .tc main_v272) = Cert.ReferenceIdeal.ReadP.val_main_v272 (F := Ideal) (V (Proc.devRef .tc main_arg2)) := by
  rw [HostRead.reshape_at outs V 295 main_v271 main_v272 _ _ _ _ rfl (na 295 rfl) (nb 294 295 rfl (by decide)), e_v271 V] <;> rfl
theorem e_v273 : after (ops (F := Ideal)) V (Proc.devRef .tc main_v273) = Cert.ReferenceIdeal.ReadP.val_main_v273 (F := Ideal) (V (Proc.devRef .tc main_arg2)) := by
  rw [HostRead.unary_at outs V 296 main_v272 main_v273 _ _ _ rfl (na 296 rfl) (nb 295 296 rfl (by decide)), e_v272 V] <;> rfl
theorem e_v274 : after (ops (F := Ideal)) V (Proc.devRef .tc main_v274) = Cert.ReferenceIdeal.ReadP.val_main_v274 (F := Ideal) (V (Proc.devRef .tc main_arg2)) := by
  rw [HostRead.unary_at outs V 297 main_v273 main_v274 _ _ _ rfl (na 297 rfl) (nb 296 297 rfl (by decide)), e_v273 V] <;> rfl
theorem e_v275 : after (ops (F := Ideal)) V (Proc.devRef .tc main_v275) = Cert.ReferenceIdeal.ReadP.val_main_v275 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 298 main_v251 main_v274 main_v275 _ _ _ _ rfl (na 298 rfl) (nb 273 298 rfl (by decide)) (nb 297 298 rfl (by decide)), e_v251 V, e_v274 V] <;> rfl
theorem e_v276 : after (ops (F := Ideal)) V (Proc.devRef .tc main_v276) = Cert.ReferenceIdeal.ReadP.val_main_v276 (F := Ideal) (V (Proc.devRef .tc main_arg7)) := by
  rw [HostRead.unary_at outs V 299 main_arg7 main_v276 _ _ _ rfl (na 299 rfl) (narg n_arg7 299), e_arg7 V] <;> rfl
theorem e_v277 : after (ops (F := Ideal)) V (Proc.devRef .tc main_v277) = Cert.ReferenceIdeal.ReadP.val_main_v277 (F := Ideal) (V (Proc.devRef .tc main_arg7)) := by
  rw [HostRead.reshape_at outs V 300 main_v276 main_v277 _ _ _ _ rfl (na 300 rfl) (nb 299 300 rfl (by decide)), e_v276 V] <;> rfl
theorem e_v278 : after (ops (F := Ideal)) V (Proc.devRef .tc main_v278) = Cert.ReferenceIdeal.ReadP.val_main_v278 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 301 main_v275 main_v277 main_v278 _ _ _ _ rfl (na 301 rfl) (nb 298 301 rfl (by decide)) (nb 300 301 rfl (by decide)), e_v275 V, e_v277 V] <;> rfl
theorem e_v279 : after (ops (F := Ideal)) V (Proc.devRef .tc main_v279) = Cert.ReferenceIdeal.ReadP.val_main_v279 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 302 main_v270 main_v278 main_v279 _ _ _ _ rfl (na 302 rfl) (nb 293 302 rfl (by decide)) (nb 301 302 rfl (by decide)), e_v270 V, e_v278 V] <;> rfl
theorem e_v280 : after (ops (F := Ideal)) V (Proc.devRef .tc main_v280) = Cert.ReferenceIdeal.ReadP.val_main_v280 (F := Ideal) (V (Proc.devRef .tc main_arg2)) := by
  rw [HostRead.unary_at outs V 303 main_v47 main_v280 _ _ _ rfl (na 303 rfl) (nb 55 303 rfl (by decide)), e_v47 V] <;> rfl
theorem e_v281 : after (ops (F := Ideal)) V (Proc.devRef .tc main_v281) = Cert.ReferenceIdeal.ReadP.val_main_v281 (F := Ideal) (V (Proc.devRef .tc main_arg2)) := by
  rw [HostRead.reshape_at outs V 304 main_v280 main_v281 _ _ _ _ rfl (na 304 rfl) (nb 303 304 rfl (by decide)), e_v280 V] <;> rfl
theorem e_v282 : after (ops (F := Ideal)) V (Proc.devRef .tc main_v282) = Cert.ReferenceIdeal.ReadP.val_main_v282 (F := Ideal) (V (Proc.devRef .tc main_arg2)) := by
  rw [HostRead.unary_at outs V 305 main_v281 main_v282 _ _ _ rfl (na 305 rfl) (nb 304 305 rfl (by decide)), e_v281 V] <;> rfl
theorem e_v283 : after (ops (F := Ideal)) V (Proc.devRef .tc main_v283) = Cert.ReferenceIdeal.ReadP.val_main_v283 (F := Ideal) (V (Proc.devRef .tc main_arg2)) := by
  rw [HostRead.unary_at outs V 306 main_v282 main_v283 _ _ _ rfl (na 306 rfl) (nb 305 306 rfl (by decide)), e_v282 V] <;> rfl
theorem e_v284 : after (ops (F := Ideal)) V (Proc.devRef .tc main_v284) = Cert.ReferenceIdeal.ReadP.val_main_v284 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 307 main_v251 main_v283 main_v284 _ _ _ _ rfl (na 307 rfl) (nb 273 307 rfl (by decide)) (nb 306 307 rfl (by decide)), e_v251 V, e_v283 V] <;> rfl
theorem e_v285 : after (ops (F := Ideal)) V (Proc.devRef .tc main_v285) = Cert.ReferenceIdeal.ReadP.val_main_v285 (F := Ideal) (V (Proc.devRef .tc main_arg7)) := by
  rw [HostRead.unary_at outs V 308 main_arg7 main_v285 _ _ _ rfl (na 308 rfl) (narg n_arg7 308), e_arg7 V] <;> rfl
theorem e_v286 : after (ops (F := Ideal)) V (Proc.devRef .tc main_v286) = Cert.ReferenceIdeal.ReadP.val_main_v286 (F := Ideal) (V (Proc.devRef .tc main_arg7)) := by
  rw [HostRead.reshape_at outs V 309 main_v285 main_v286 _ _ _ _ rfl (na 309 rfl) (nb 308 309 rfl (by decide)), e_v285 V] <;> rfl
theorem e_v287 : after (ops (F := Ideal)) V (Proc.devRef .tc main_v287) = Cert.ReferenceIdeal.ReadP.val_main_v287 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 310 main_v284 main_v286 main_v287 _ _ _ _ rfl (na 310 rfl) (nb 307 310 rfl (by decide)) (nb 309 310 rfl (by decide)), e_v284 V, e_v286 V] <;> rfl
theorem e_v288 : after (ops (F := Ideal)) V (Proc.devRef .tc main_v288) = Cert.ReferenceIdeal.ReadP.val_main_v288 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 311 main_v279 main_v287 main_v288 _ _ _ _ rfl (na 311 rfl) (nb 302 311 rfl (by decide)) (nb 310 311 rfl (by decide)), e_v279 V, e_v287 V] <;> rfl
theorem e_v289 : after (ops (F := Ideal)) V (Proc.devRef .tc main_v289) = Cert.ReferenceIdeal.ReadP.val_main_v289 (F := Ideal) (V (Proc.devRef .tc main_arg2)) := by
  rw [HostRead.unary_at outs V 312 main_v47 main_v289 _ _ _ rfl (na 312 rfl) (nb 55 312 rfl (by decide)), e_v47 V] <;> rfl
theorem e_v290 : after (ops (F := Ideal)) V (Proc.devRef .tc main_v290) = Cert.ReferenceIdeal.ReadP.val_main_v290 (F := Ideal) (V (Proc.devRef .tc main_arg2)) := by
  rw [HostRead.reshape_at outs V 313 main_v289 main_v290 _ _ _ _ rfl (na 313 rfl) (nb 312 313 rfl (by decide)), e_v289 V] <;> rfl
theorem e_v291 : after (ops (F := Ideal)) V (Proc.devRef .tc main_v291) = Cert.ReferenceIdeal.ReadP.val_main_v291 (F := Ideal) (V (Proc.devRef .tc main_arg2)) := by
  rw [HostRead.unary_at outs V 314 main_v290 main_v291 _ _ _ rfl (na 314 rfl) (nb 313 314 rfl (by decide)), e_v290 V] <;> rfl
theorem e_v292 : after (ops (F := Ideal)) V (Proc.devRef .tc main_v292) = Cert.ReferenceIdeal.ReadP.val_main_v292 (F := Ideal) (V (Proc.devRef .tc main_arg2)) := by
  rw [HostRead.unary_at outs V 315 main_v291 main_v292 _ _ _ rfl (na 315 rfl) (nb 314 315 rfl (by decide)), e_v291 V] <;> rfl
theorem e_v293 : after (ops (F := Ideal)) V (Proc.devRef .tc main_v293) = Cert.ReferenceIdeal.ReadP.val_main_v293 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 316 main_v251 main_v292 main_v293 _ _ _ _ rfl (na 316 rfl) (nb 273 316 rfl (by decide)) (nb 315 316 rfl (by decide)), e_v251 V, e_v292 V] <;> rfl
theorem e_v294 : after (ops (F := Ideal)) V (Proc.devRef .tc main_v294) = Cert.ReferenceIdeal.ReadP.val_main_v294 (F := Ideal) (V (Proc.devRef .tc main_arg7)) := by
  rw [HostRead.unary_at outs V 317 main_arg7 main_v294 _ _ _ rfl (na 317 rfl) (narg n_arg7 317), e_arg7 V] <;> rfl
theorem e_v295 : after (ops (F := Ideal)) V (Proc.devRef .tc main_v295) = Cert.ReferenceIdeal.ReadP.val_main_v295 (F := Ideal) (V (Proc.devRef .tc main_arg7)) := by
  rw [HostRead.reshape_at outs V 318 main_v294 main_v295 _ _ _ _ rfl (na 318 rfl) (nb 317 318 rfl (by decide)), e_v294 V] <;> rfl
theorem e_v296 : after (ops (F := Ideal)) V (Proc.devRef .tc main_v296) = Cert.ReferenceIdeal.ReadP.val_main_v296 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 319 main_v293 main_v295 main_v296 _ _ _ _ rfl (na 319 rfl) (nb 316 319 rfl (by decide)) (nb 318 319 rfl (by decide)), e_v293 V, e_v295 V] <;> rfl
theorem e_v297 : after (ops (F := Ideal)) V (Proc.devRef .tc main_v297) = Cert.ReferenceIdeal.ReadP.val_main_v297 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 320 main_v288 main_v296 main_v297 _ _ _ _ rfl (na 320 rfl) (nb 311 320 rfl (by decide)) (nb 319 320 rfl (by decide)), e_v288 V, e_v296 V] <;> rfl
theorem e_v298 : after (ops (F := Ideal)) V (Proc.devRef .tc main_v298) = Cert.ReferenceIdeal.ReadP.val_main_v298 (F := Ideal) (V (Proc.devRef .tc main_arg2)) := by
  rw [HostRead.unary_at outs V 321 main_v47 main_v298 _ _ _ rfl (na 321 rfl) (nb 55 321 rfl (by decide)), e_v47 V] <;> rfl
theorem e_v299 : after (ops (F := Ideal)) V (Proc.devRef .tc main_v299) = Cert.ReferenceIdeal.ReadP.val_main_v299 (F := Ideal) (V (Proc.devRef .tc main_arg2)) := by
  rw [HostRead.reshape_at outs V 322 main_v298 main_v299 _ _ _ _ rfl (na 322 rfl) (nb 321 322 rfl (by decide)), e_v298 V] <;> rfl
theorem e_v300 : after (ops (F := Ideal)) V (Proc.devRef .tc main_v300) = Cert.ReferenceIdeal.ReadP.val_main_v300 (F := Ideal) (V (Proc.devRef .tc main_arg2)) := by
  rw [HostRead.unary_at outs V 323 main_v299 main_v300 _ _ _ rfl (na 323 rfl) (nb 322 323 rfl (by decide)), e_v299 V] <;> rfl
theorem e_v301 : after (ops (F := Ideal)) V (Proc.devRef .tc main_v301) = Cert.ReferenceIdeal.ReadP.val_main_v301 (F := Ideal) (V (Proc.devRef .tc main_arg2)) := by
  rw [HostRead.unary_at outs V 324 main_v300 main_v301 _ _ _ rfl (na 324 rfl) (nb 323 324 rfl (by decide)), e_v300 V] <;> rfl
theorem e_v302 : after (ops (F := Ideal)) V (Proc.devRef .tc main_v302) = Cert.ReferenceIdeal.ReadP.val_main_v302 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 325 main_v251 main_v301 main_v302 _ _ _ _ rfl (na 325 rfl) (nb 273 325 rfl (by decide)) (nb 324 325 rfl (by decide)), e_v251 V, e_v301 V] <;> rfl
theorem e_v303 : after (ops (F := Ideal)) V (Proc.devRef .tc main_v303) = Cert.ReferenceIdeal.ReadP.val_main_v303 (F := Ideal) (V (Proc.devRef .tc main_arg7)) := by
  rw [HostRead.unary_at outs V 326 main_arg7 main_v303 _ _ _ rfl (na 326 rfl) (narg n_arg7 326), e_arg7 V] <;> rfl
theorem e_v304 : after (ops (F := Ideal)) V (Proc.devRef .tc main_v304) = Cert.ReferenceIdeal.ReadP.val_main_v304 (F := Ideal) (V (Proc.devRef .tc main_arg7)) := by
  rw [HostRead.reshape_at outs V 327 main_v303 main_v304 _ _ _ _ rfl (na 327 rfl) (nb 326 327 rfl (by decide)), e_v303 V] <;> rfl
theorem e_v305 : after (ops (F := Ideal)) V (Proc.devRef .tc main_v305) = Cert.ReferenceIdeal.ReadP.val_main_v305 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 328 main_v302 main_v304 main_v305 _ _ _ _ rfl (na 328 rfl) (nb 325 328 rfl (by decide)) (nb 327 328 rfl (by decide)), e_v302 V, e_v304 V] <;> rfl
theorem e_v306 : after (ops (F := Ideal)) V (Proc.devRef .tc main_v306) = Cert.ReferenceIdeal.ReadP.val_main_v306 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 329 main_v297 main_v305 main_v306 _ _ _ _ rfl (na 329 rfl) (nb 320 329 rfl (by decide)) (nb 328 329 rfl (by decide)), e_v297 V, e_v305 V] <;> rfl
theorem e_v307 : after (ops (F := Ideal)) V (Proc.devRef .tc main_v307) = Cert.ReferenceIdeal.ReadP.val_main_v307 (F := Ideal) (V (Proc.devRef .tc main_arg2)) := by
  rw [HostRead.unary_at outs V 330 main_v47 main_v307 _ _ _ rfl (na 330 rfl) (nb 55 330 rfl (by decide)), e_v47 V] <;> rfl
theorem e_v308 : after (ops (F := Ideal)) V (Proc.devRef .tc main_v308) = Cert.ReferenceIdeal.ReadP.val_main_v308 (F := Ideal) (V (Proc.devRef .tc main_arg2)) := by
  rw [HostRead.reshape_at outs V 331 main_v307 main_v308 _ _ _ _ rfl (na 331 rfl) (nb 330 331 rfl (by decide)), e_v307 V] <;> rfl
theorem e_v309 : after (ops (F := Ideal)) V (Proc.devRef .tc main_v309) = Cert.ReferenceIdeal.ReadP.val_main_v309 (F := Ideal) (V (Proc.devRef .tc main_arg2)) := by
  rw [HostRead.unary_at outs V 332 main_v308 main_v309 _ _ _ rfl (na 332 rfl) (nb 331 332 rfl (by decide)), e_v308 V] <;> rfl
theorem e_v310 : after (ops (F := Ideal)) V (Proc.devRef .tc main_v310) = Cert.ReferenceIdeal.ReadP.val_main_v310 (F := Ideal) (V (Proc.devRef .tc main_arg2)) := by
  rw [HostRead.unary_at outs V 333 main_v309 main_v310 _ _ _ rfl (na 333 rfl) (nb 332 333 rfl (by decide)), e_v309 V] <;> rfl
theorem e_v311 : after (ops (F := Ideal)) V (Proc.devRef .tc main_v311) = Cert.ReferenceIdeal.ReadP.val_main_v311 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 334 main_v251 main_v310 main_v311 _ _ _ _ rfl (na 334 rfl) (nb 273 334 rfl (by decide)) (nb 333 334 rfl (by decide)), e_v251 V, e_v310 V] <;> rfl
theorem e_v312 : after (ops (F := Ideal)) V (Proc.devRef .tc main_v312) = Cert.ReferenceIdeal.ReadP.val_main_v312 (F := Ideal) (V (Proc.devRef .tc main_arg7)) := by
  rw [HostRead.unary_at outs V 335 main_arg7 main_v312 _ _ _ rfl (na 335 rfl) (narg n_arg7 335), e_arg7 V] <;> rfl
theorem e_v313 : after (ops (F := Ideal)) V (Proc.devRef .tc main_v313) = Cert.ReferenceIdeal.ReadP.val_main_v313 (F := Ideal) (V (Proc.devRef .tc main_arg7)) := by
  rw [HostRead.reshape_at outs V 336 main_v312 main_v313 _ _ _ _ rfl (na 336 rfl) (nb 335 336 rfl (by decide)), e_v312 V] <;> rfl
theorem e_v314 : after (ops (F := Ideal)) V (Proc.devRef .tc main_v314) = Cert.ReferenceIdeal.ReadP.val_main_v314 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 337 main_v311 main_v313 main_v314 _ _ _ _ rfl (na 337 rfl) (nb 334 337 rfl (by decide)) (nb 336 337 rfl (by decide)), e_v311 V, e_v313 V] <;> rfl
theorem e_v315 : after (ops (F := Ideal)) V (Proc.devRef .tc main_v315) = Cert.ReferenceIdeal.ReadP.val_main_v315 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 338 main_v306 main_v314 main_v315 _ _ _ _ rfl (na 338 rfl) (nb 329 338 rfl (by decide)) (nb 337 338 rfl (by decide)), e_v306 V, e_v314 V] <;> rfl
theorem e_v316 : after (ops (F := Ideal)) V (Proc.devRef .tc main_v316) = Cert.ReferenceIdeal.ReadP.val_main_v316 (F := Ideal) (V (Proc.devRef .tc main_arg2)) := by
  rw [HostRead.unary_at outs V 339 main_v47 main_v316 _ _ _ rfl (na 339 rfl) (nb 55 339 rfl (by decide)), e_v47 V] <;> rfl
theorem e_v317 : after (ops (F := Ideal)) V (Proc.devRef .tc main_v317) = Cert.ReferenceIdeal.ReadP.val_main_v317 (F := Ideal) (V (Proc.devRef .tc main_arg2)) := by
  rw [HostRead.reshape_at outs V 340 main_v316 main_v317 _ _ _ _ rfl (na 340 rfl) (nb 339 340 rfl (by decide)), e_v316 V] <;> rfl
theorem e_v318 : after (ops (F := Ideal)) V (Proc.devRef .tc main_v318) = Cert.ReferenceIdeal.ReadP.val_main_v318 (F := Ideal) (V (Proc.devRef .tc main_arg2)) := by
  rw [HostRead.unary_at outs V 341 main_v317 main_v318 _ _ _ rfl (na 341 rfl) (nb 340 341 rfl (by decide)), e_v317 V] <;> rfl
theorem e_v319 : after (ops (F := Ideal)) V (Proc.devRef .tc main_v319) = Cert.ReferenceIdeal.ReadP.val_main_v319 (F := Ideal) (V (Proc.devRef .tc main_arg2)) := by
  rw [HostRead.unary_at outs V 342 main_v318 main_v319 _ _ _ rfl (na 342 rfl) (nb 341 342 rfl (by decide)), e_v318 V] <;> rfl
theorem e_v320 : after (ops (F := Ideal)) V (Proc.devRef .tc main_v320) = Cert.ReferenceIdeal.ReadP.val_main_v320 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 343 main_v251 main_v319 main_v320 _ _ _ _ rfl (na 343 rfl) (nb 273 343 rfl (by decide)) (nb 342 343 rfl (by decide)), e_v251 V, e_v319 V] <;> rfl
theorem e_v321 : after (ops (F := Ideal)) V (Proc.devRef .tc main_v321) = Cert.ReferenceIdeal.ReadP.val_main_v321 (F := Ideal) (V (Proc.devRef .tc main_arg7)) := by
  rw [HostRead.unary_at outs V 344 main_arg7 main_v321 _ _ _ rfl (na 344 rfl) (narg n_arg7 344), e_arg7 V] <;> rfl
theorem e_v322 : after (ops (F := Ideal)) V (Proc.devRef .tc main_v322) = Cert.ReferenceIdeal.ReadP.val_main_v322 (F := Ideal) (V (Proc.devRef .tc main_arg7)) := by
  rw [HostRead.reshape_at outs V 345 main_v321 main_v322 _ _ _ _ rfl (na 345 rfl) (nb 344 345 rfl (by decide)), e_v321 V] <;> rfl
theorem e_v323 : after (ops (F := Ideal)) V (Proc.devRef .tc main_v323) = Cert.ReferenceIdeal.ReadP.val_main_v323 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 346 main_v320 main_v322 main_v323 _ _ _ _ rfl (na 346 rfl) (nb 343 346 rfl (by decide)) (nb 345 346 rfl (by decide)), e_v320 V, e_v322 V] <;> rfl
theorem e_v324 : after (ops (F := Ideal)) V (Proc.devRef .tc main_v324) = Cert.ReferenceIdeal.ReadP.val_main_v324 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 347 main_v315 main_v323 main_v324 _ _ _ _ rfl (na 347 rfl) (nb 338 347 rfl (by decide)) (nb 346 347 rfl (by decide)), e_v315 V, e_v323 V] <;> rfl
theorem e_v325 : after (ops (F := Ideal)) V (Proc.devRef .tc main_v325) = Cert.ReferenceIdeal.ReadP.val_main_v325 (F := Ideal) (V (Proc.devRef .tc main_arg2)) := by
  rw [HostRead.unary_at outs V 348 main_v47 main_v325 _ _ _ rfl (na 348 rfl) (nb 55 348 rfl (by decide)), e_v47 V] <;> rfl
theorem e_v326 : after (ops (F := Ideal)) V (Proc.devRef .tc main_v326) = Cert.ReferenceIdeal.ReadP.val_main_v326 (F := Ideal) (V (Proc.devRef .tc main_arg2)) := by
  rw [HostRead.reshape_at outs V 349 main_v325 main_v326 _ _ _ _ rfl (na 349 rfl) (nb 348 349 rfl (by decide)), e_v325 V] <;> rfl
theorem e_v327 : after (ops (F := Ideal)) V (Proc.devRef .tc main_v327) = Cert.ReferenceIdeal.ReadP.val_main_v327 (F := Ideal) (V (Proc.devRef .tc main_arg2)) := by
  rw [HostRead.unary_at outs V 350 main_v326 main_v327 _ _ _ rfl (na 350 rfl) (nb 349 350 rfl (by decide)), e_v326 V] <;> rfl
theorem e_v328 : after (ops (F := Ideal)) V (Proc.devRef .tc main_v328) = Cert.ReferenceIdeal.ReadP.val_main_v328 (F := Ideal) (V (Proc.devRef .tc main_arg2)) := by
  rw [HostRead.unary_at outs V 351 main_v327 main_v328 _ _ _ rfl (na 351 rfl) (nb 350 351 rfl (by decide)), e_v327 V] <;> rfl
theorem e_v329 : after (ops (F := Ideal)) V (Proc.devRef .tc main_v329) = Cert.ReferenceIdeal.ReadP.val_main_v329 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [HostRead.binary_at outs V 352 main_v251 main_v328 main_v329 _ _ _ _ rfl (na 352 rfl) (nb 273 352 rfl (by decide)) (nb 351 352 rfl (by decide)), e_v251 V, e_v328 V] <;> rfl
theorem e_v330 : after (ops (F := Ideal)) V (Proc.devRef .tc main_v330) = Cert.ReferenceIdeal.ReadP.val_main_v330 (F := Ideal) (V (Proc.devRef .tc main_arg7)) := by
  rw [HostRead.unary_at outs V 353 main_arg7 main_v330 _ _ _ rfl (na 353 rfl) (narg n_arg7 353), e_arg7 V] <;> rfl
theorem e_v331 : after (ops (F := Ideal)) V (Proc.devRef .tc main_v331) = Cert.ReferenceIdeal.ReadP.val_main_v331 (F := Ideal) (V (Proc.devRef .tc main_arg7)) := by
  rw [HostRead.reshape_at outs V 354 main_v330 main_v331 _ _ _ _ rfl (na 354 rfl) (nb 353 354 rfl (by decide)), e_v330 V] <;> rfl
theorem e_v332 : after (ops (F := Ideal)) V (Proc.devRef .tc main_v332) = Cert.ReferenceIdeal.ReadP.val_main_v332 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 355 main_v329 main_v331 main_v332 _ _ _ _ rfl (na 355 rfl) (nb 352 355 rfl (by decide)) (nb 354 355 rfl (by decide)), e_v329 V, e_v331 V] <;> rfl
theorem e_v333 : after (ops (F := Ideal)) V (Proc.devRef .tc main_v333) = Cert.ReferenceIdeal.ReadP.val_main_v333 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.binary_at outs V 356 main_v324 main_v332 main_v333 _ _ _ _ rfl (na 356 rfl) (nb 347 356 rfl (by decide)) (nb 355 356 rfl (by decide)), e_v324 V, e_v332 V] <;> rfl
theorem e_cst_17 : after (ops (F := Ideal)) V (Proc.devRef .tc main_cst_17) = Cert.ReferenceIdeal.ReadP.val_main_cst_17 (F := Ideal) := by
  rw [HostRead.nullary_at outs V 357 main_cst_17 _ _ rfl (na 357 rfl)] <;> rfl
theorem e_v334 : after (ops (F := Ideal)) V (Proc.devRef .tc main_v334) = Cert.ReferenceIdeal.ReadP.val_main_v334 (F := Ideal) := by
  rw [HostRead.unary_at outs V 358 main_cst_17 main_v334 _ _ _ rfl (na 358 rfl) (nb 357 358 rfl (by decide)), e_cst_17 V] <;> rfl
theorem e_v335 : after (ops (F := Ideal)) V (Proc.devRef .tc main_v335) = Cert.ReferenceIdeal.ReadP.val_main_v335 (F := Ideal) (V (Proc.devRef .tc main_arg1)) := by
  rw [HostRead.unary_at outs V 359 main_v3 main_v335 _ _ _ rfl (na 359 rfl) (nb 3 359 rfl (by decide)), e_v3 V] <;> rfl
theorem e_v336 : after (ops (F := Ideal)) V (Proc.devRef .tc main_v336) = Cert.ReferenceIdeal.ReadP.val_main_v336 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [HostRead.ternary_at outs V 360 main_v334 main_v335 main_v333 main_v336 _ _ _ _ _ rfl (na 360 rfl) (nb 358 360 rfl (by decide)) (nb 359 360 rfl (by decide)) (nb 356 360 rfl (by decide)), e_v334 V, e_v335 V, e_v333 V] <;> rfl
theorem e_v337 : after (ops (F := Ideal)) V (Proc.devRef .tc main_v337) = Cert.ReferenceIdeal.ReadP.val_main_v337 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg8)) := by
  rw [HostRead.binary_at outs V 361 main_v244 main_arg8 main_v337 _ _ _ _ rfl (na 361 rfl) (nb 264 361 rfl (by decide)) (narg n_arg8 361), e_v244 V, e_arg8 V] <;> rfl
theorem e_v338 : after (ops (F := Ideal)) V (Proc.devRef .tc main_v338) = Cert.ReferenceIdeal.ReadP.val_main_v338 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [HostRead.binary_at outs V 362 main_v336 main_v337 main_v338 _ _ _ _ rfl (na 362 rfl) (nb 360 362 rfl (by decide)) (nb 361 362 rfl (by decide)), e_v336 V, e_v337 V] <;> rfl
theorem e_v339 : after (ops (F := Ideal)) V (Proc.devRef .tc main_v339) = Cert.ReferenceIdeal.ReadP.val_main_v339 (F := Ideal) (V (Proc.devRef .tc main_arg9)) := by
  rw [HostRead.unary_at outs V 363 main_arg9 main_v339 _ _ _ rfl (na 363 rfl) (narg n_arg9 363), e_arg9 V] <;> rfl
theorem e_v340 : after (ops (F := Ideal)) V (Proc.devRef .tc main_v340) = Cert.ReferenceIdeal.ReadP.val_main_v340 (F := Ideal) (V (Proc.devRef .tc main_arg9)) := by
  rw [HostRead.unary_at outs V 364 main_v339 main_v340 _ _ _ rfl (na 364 rfl) (nb 363 364 rfl (by decide)), e_v339 V] <;> rfl
theorem e_v341 : after (ops (F := Ideal)) V (Proc.devRef .tc main_v341) = Cert.ReferenceIdeal.ReadP.val_main_v341 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [HostRead.binary_at outs V 365 main_v338 main_v340 main_v341 _ _ _ _ rfl (na 365 rfl) (nb 362 365 rfl (by decide)) (nb 364 365 rfl (by decide)), e_v338 V, e_v340 V] <;> rfl
theorem e_call2_cst : after (ops (F := Ideal)) V (Proc.devRef .tc main_call2_cst) = Cert.ReferenceIdeal.ReadP.val_main_call2_cst (F := Ideal) := by
  rw [HostRead.nullary_at outs V 366 main_call2_cst _ _ rfl (na 366 rfl)] <;> rfl
theorem e_call2_v0 : after (ops (F := Ideal)) V (Proc.devRef .tc main_call2_v0) = Cert.ReferenceIdeal.ReadP.val_main_call2_v0 (F := Ideal) := by
  rw [HostRead.unary_at outs V 367 main_call2_cst main_call2_v0 _ _ _ rfl (na 367 rfl) (nb 366 367 rfl (by decide)), e_call2_cst V] <;> rfl
theorem e_v342 : after (ops (F := Ideal)) V (Proc.devRef .tc main_v342) = Cert.ReferenceIdeal.ReadP.val_main_v342 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [HostRead.binary_at outs V 368 main_v341 main_call2_v0 main_v342 _ _ _ _ rfl (na 368 rfl) (nb 365 368 rfl (by decide)) (nb 367 368 rfl (by decide)), e_v341 V, e_call2_v0 V] <;> rfl

end Cert.ReferenceIdeal.RefRun

end
-- ==== Proof.RefRun.lean ====
/-
  The reference program's run, with its result named.

  The program's body is one line of host operations, so every weakly fair execution terminates with each buffer at the
  line's fold over the launch contents. The line writes every buffer once; read as a system of equations, one per
  operation, it puts the result stage of the argument arrays in the result buffer and leaves the argument arrays as
  they were launched.
-/
import proofs.«124089_j37623913513299_2_alg».proof.Proof.RefSsa3

noncomputable section

namespace Cert.ReferenceIdeal.RefRun

open Cert.ReferenceIdeal Cert.ReferenceIdeal.Gen Idealize.ShloMosaic Idealize.ShloMosaic.TcCoe Idealize.SL.Sem Idealize.ShloMosaic.StableHlo

/-- On every device, from any memory with zero counters: every weakly fair execution of the reference program terminates
    with the result buffer at the result stage of the launched argument arrays, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v342) = Cert.ReferenceIdeal.ReadP.val_main_v342 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v342).trans (e_v342 (launchContents m c)),
      (h c main_arg0).trans (e_arg0 (launchContents m c)),
      (h c main_arg1).trans (e_arg1 (launchContents m c)),
      (h c main_arg2).trans (e_arg2 (launchContents m c)),
      (h c main_arg3).trans (e_arg3 (launchContents m c)),
      (h c main_arg4).trans (e_arg4 (launchContents m c)),
      (h c main_arg5).trans (e_arg5 (launchContents m c)),
      (h c main_arg6).trans (e_arg6 (launchContents m c)),
      (h c main_arg7).trans (e_arg7 (launchContents m c)),
      (h c main_arg8).trans (e_arg8 (launchContents m c)),
      (h c main_arg9).trans (e_arg9 (launchContents m c))⟩)
    (run_seq scopedRefs_eq scopedSems_eq defs main (fun _ => ops) main_eq (fun _ => ops_sub) m ρ (fun _ => ops_fresh))

end Cert.ReferenceIdeal.RefRun

end
-- ==== Proof.lean ====
/-
  Three layers of spline convolution on a mesh graph: a tiled kernel program against its plain reference.

  Each layer gathers the source node's feature row along every edge, forms the edge's message
      msg e q = Σ_{k < 9} Σ_c (x c · B_k) · W k c q,   B_{3i+j} = b_i(t1) · b_j(t0)
  from the row, the edge's two pseudo-coordinates and nine weight matrices (`b_0, b_1, b_2` the quadratic B-spline basis
  functions), sums the messages into their target nodes, and updates every node by `max (agg + h·root + bias) 0`; between
  layers 1 and 2 the node features are joined with skip features. The kernel program computes the messages and the node
  updates in six pipelines over row blocks (8000 edges, 10000 nodes at a time) and recomputes the basis from the
  pseudo-coordinates inside the message pipeline; the reference computes a basis table once and everything on whole arrays.
  On the extended reals the two are the same function, sum by sum and product by product: the only difference of
  spelling is the kernel's `0 - t` for the reference's `-t`, and the only difference of arrangement is the tiling, whose
  blocks exactly tile the arrays (400000 = 50 · 8000, 50000 = 5 · 10000). No law that needs finiteness is used, so the
  precondition is never opened.
  * Spec.lean states the mathematics (`edgeMsg`, `nodeUpd`).
  * KEdgeBody*/KEdgeFinal*, KNodeBody/KNodeFinal*: what each pipeline leaves in its output array is `edgeMsg` / `nodeUpd` of
    the arrays it was entered with (the body's arithmetic at an index; then blocks to arrays).
  * RefBasis, RefTerm, RefLayer1–3: the reference's message and node stages are `edgeMsg` / `nodeUpd` of its earlier stages.
  * KHost, KWalks, KChain, KResult: the kernel program's host operations are the reference's, stage for stage, so its result
    buffer holds the reference's result stage; KRun: the kernel program's run with that buffer named.
  * RefOps, RefSsa, RefSsa2, RefSsa3, RefRun: the reference program's body is one line of host operations that writes every buffer
    once; read as one equation per operation it puts the result stage in the result buffer; RefRun is the program's run,
    its result at the result stage.
  The ideal pass rewrote nothing in the kernel, so the kernel's idealization claim is trivial.
-/
import proofs.«124089_j37623913513299_2_alg».proof.Defs
import proofs.«124089_j37623913513299_2_alg».proof.Proof.Gen.Kernel
import proofs.«124089_j37623913513299_2_alg».proof.Proof.Gen.Kernel.Frame
import proofs.«124089_j37623913513299_2_alg».proof.Proof.Gen.KernelIdeal
import proofs.«124089_j37623913513299_2_alg».proof.Proof.Gen.KernelIdeal.Frame
import proofs.«124089_j37623913513299_2_alg».proof.Proof.Gen.ReferenceIdeal
import proofs.«124089_j37623913513299_2_alg».proof.Proof.Gen.Pre_finite_inputs
import proofs.«124089_j37623913513299_2_alg».proof.Proof.KRun
import proofs.«124089_j37623913513299_2_alg».proof.Proof.KResult
import proofs.«124089_j37623913513299_2_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run, its result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- From memories agreeing on the arguments both programs run, and both results are the reference's result stage of the
    kernel side's arguments: the kernel's by the chain of segment boundaries, the reference's by its run, the arguments'
    agreement rewritten. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W12 m ρ c (Proc.devRef .tc Cert.KernelIdeal.main_v43), Cert.KernelIdeal.ValueRun.run m ρ, ?_⟩
  refine (θ_run Cert.ReferenceIdeal.defs _ _).mono (fun _ h c => ⟨(h c).1.trans ?_, (h c).2⟩) (Cert.ReferenceIdeal.RefRun.run m' ρ')
  obtain ⟨h0, h1, h2, h3, h4, h5, h6, h7, h8, h9⟩ := hagree c
  rw [h0, h1, h2, h3, h4, h5, h6, h7, h8, h9]
  exact (Cert.KernelIdeal.Val.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
